-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v100) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x300000 : Shape := ⟨2, ![2, 300000]⟩
abbrev S300000x64 : Shape := ⟨2, ![300000, 64]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg20 : FVec F S64 .f32) (main_arg21 : FVec F S64x64 .f32) (main_arg22 : FVec F S64 .f32) (main_v63 : IVec S_ 1) (main_v67 : IVec S_ 1) : IVec S_ 1 :=
  let main_v68 : IVec S_ 1 := andi main_v63 main_v67
  let main_v69 : FVec F S64 .f32 := Host.absf main_arg20
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg21
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg22
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg17 : FVec F S128x64 .f32) (main_arg18 : FVec F S64 .f32) (main_arg19 : FVec F S64x64 .f32) (main_arg20 : FVec F S64 .f32) (main_arg21 : FVec F S64x64 .f32) (main_arg22 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg17
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg18
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg19
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg20 main_arg21 main_arg22 main_v63 main_v67

def fn_part2 {F : FTy → Type} [FloatOps F] (main_arg13 : FVec F S300000x64 .f32) (main_arg14 : FVec F S300000x64 .f32) (main_arg15 : FVec F S128x64 .f32) (main_arg16 : FVec F S64 .f32) (main_arg17 : FVec F S128x64 .f32) (main_arg18 : FVec F S64 .f32) (main_arg19 : FVec F S64x64 .f32) (main_arg20 : FVec F S64 .f32) (main_arg21 : FVec F S64x64 .f32) (main_arg22 : FVec F S64 .f32) (main_v33 : IVec S_ 1) : IVec S_ 1 :=
  let main_v34 : FVec F S300000x64 .f32 := Host.absf main_arg13
  let main_cst_12 : FVec F S_ .f32 := constant S_ .f32 0x7F800000#32
  let main_v35 : FVec F S300000x64 .f32 := broadcastInDim S300000x64 ![] bcast_S_S300000x64 main_cst_12
  let main_v36 : IVec S300000x64 1 := cmpf .olt main_v34 main_v35
  let main_c_13 : IVec S_ 1 := constantI S_ 1 1#1
  let main_v37 : IVec S_ 1 := (fun x v => Host.reduce IntOp.andi x v reducesTo_S300000x64_S_d0_1 h_S_) main_v36 main_c_13
  let main_v38 : IVec S_ 1 := andi main_v33 main_v37
  let main_v39 : FVec F S300000x64 .f32 := Host.absf main_arg14
  let main_cst_14 : FVec F S_ .f32 := constant S_ .f32 0x7F800000#32
  let main_v40 : FVec F S300000x64 .f32 := broadcastInDim S300000x64 ![] bcast_S_S300000x64 main_cst_14
  let main_v41 : IVec S300000x64 1 := cmpf .olt main_v39 main_v40
  let main_c_15 : IVec S_ 1 := constantI S_ 1 1#1
  let main_v42 : IVec S_ 1 := (fun x v => Host.reduce IntOp.andi x v reducesTo_S300000x64_S_d0_1 h_S_) main_v41 main_c_15
  let main_v43 : IVec S_ 1 := andi main_v38 main_v42
  let main_v44 : FVec F S128x64 .f32 := Host.absf main_arg15
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg16
  let main_cst_18 : FVec F S_ .f32 := constant S_ .f32 0x7F800000#32
  let main_v50 : FVec F S64 .f32 := broadcastInDim S64 ![] bcast_S_S64 main_cst_18
  fn_part3 (F := F) main_arg17 main_arg18 main_arg19 main_arg20 main_arg21 main_arg22 main_v48 main_v49 main_v50

def fn_part1 {F : FTy → Type} [FloatOps F] (main_arg8 : FVec F S300000x64 .f32) (main_arg9 : FVec F S300000x64 .f32) (main_arg10 : FVec F S50000x64 .f32) (main_arg13 : FVec F S300000x64 .f32) (main_arg14 : FVec F S300000x64 .f32) (main_arg15 : FVec F S128x64 .f32) (main_arg16 : FVec F S64 .f32) (main_arg17 : FVec F S128x64 .f32) (main_arg18 : FVec F S64 .f32) (main_arg19 : FVec F S64x64 .f32) (main_arg20 : FVec F S64 .f32) (main_arg21 : FVec F S64x64 .f32) (main_arg22 : FVec F S64 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S300000x64 .f32 := Host.absf main_arg8
  let main_cst_6 : FVec F S_ .f32 := constant S_ .f32 0x7F800000#32
  let main_v20 : FVec F S300000x64 .f32 := broadcastInDim S300000x64 ![] bcast_S_S300000x64 main_cst_6
  let main_v21 : IVec S300000x64 1 := cmpf .olt main_v19 main_v20
  let main_c_7 : IVec S_ 1 := constantI S_ 1 1#1
  let main_v22 : IVec S_ 1 := (fun x v => Host.reduce IntOp.andi x v reducesTo_S300000x64_S_d0_1 h_S_) main_v21 main_c_7
  let main_v23 : IVec S_ 1 := andi main_v18 main_v22
  let main_v24 : FVec F S300000x64 .f32 := Host.absf main_arg9
  let main_cst_8 : FVec F S_ .f32 := constant S_ .f32 0x7F800000#32
  let main_v25 : FVec F S300000x64 .f32 := broadcastInDim S300000x64 ![] bcast_S_S300000x64 main_cst_8
  let main_v26 : IVec S300000x64 1 := cmpf .olt main_v24 main_v25
  let main_c_9 : IVec S_ 1 := constantI S_ 1 1#1
  let main_v27 : IVec S_ 1 := (fun x v => Host.reduce IntOp.andi x v reducesTo_S300000x64_S_d0_1 h_S_) main_v26 main_c_9
  let main_v28 : IVec S_ 1 := andi main_v23 main_v27
  let main_v29 : FVec F S50000x64 .f32 := Host.absf main_arg10
  let main_cst_10 : FVec F S_ .f32 := constant S_ .f32 0x7F800000#32
  let main_v30 : FVec F S50000x64 .f32 := broadcastInDim S50000x64 ![] bcast_S_S50000x64 main_cst_10
  let main_v31 : IVec S50000x64 1 := cmpf .olt main_v29 main_v30
  let main_c_11 : IVec S_ 1 := constantI S_ 1 1#1
  let main_v32 : IVec S_ 1 := (fun x v => Host.reduce IntOp.andi x v reducesTo_S50000x64_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_v33

def fn {F : FTy → Type} [FloatOps F] (main_arg0 : FVec F S50000x64 .f32) (main_arg1 : IVec S2x300000 32) (main_arg2 : IVec S2x300000 32) (main_arg3 : FVec F S300000x64 .f32) (main_arg4 : FVec F S300000x64 .f32) (main_arg5 : FVec F S50000x64 .f32) (main_arg6 : IVec S2x300000 32) (main_arg7 : IVec S2x300000 32) (main_arg8 : FVec F S300000x64 .f32) (main_arg9 : FVec F S300000x64 .f32) (main_arg10 : FVec F S50000x64 .f32) (main_arg11 : IVec S2x300000 32) (main_arg12 : IVec S2x300000 32) (main_arg13 : FVec F S300000x64 .f32) (main_arg14 : FVec F S300000x64 .f32) (main_arg15 : FVec F S128x64 .f32) (main_arg16 : FVec F S64 .f32) (main_arg17 : FVec F S128x64 .f32) (main_arg18 : FVec F S64 .f32) (main_arg19 : FVec F S64x64 .f32) (main_arg20 : FVec F S64 .f32) (main_arg21 : FVec F S64x64 .f32) (main_arg22 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S300000x64 .f32 := Host.absf main_arg3
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  let main_v9 : FVec F S300000x64 .f32 := Host.absf main_arg4
  let main_cst_2 : FVec F S_ .f32 := constant S_ .f32 0x7F800000#32
  let main_v10 : FVec F S300000x64 .f32 := broadcastInDim S300000x64 ![] bcast_S_S300000x64 main_cst_2
  let main_v11 : IVec S300000x64 1 := cmpf .olt main_v9 main_v10
  let main_c_3 : IVec S_ 1 := constantI S_ 1 1#1
  let main_v12 : IVec S_ 1 := (fun x v => Host.reduce IntOp.andi x v reducesTo_S300000x64_S_d0_1 h_S_) main_v11 main_c_3
  let main_v13 : IVec S_ 1 := andi main_v8 main_v12
  let main_v14 : FVec F S50000x64 .f32 := Host.absf main_arg5
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg8 main_arg9 main_arg10 main_arg13 main_arg14 main_arg15 main_arg16 main_arg17 main_arg18 main_arg19 main_arg20 main_arg21 main_arg22 main_v13 main_v16
-- ==== Kernel.lean ====
abbrev S50000x64 : Shape := ⟨2, ![50000, 64]⟩
abbrev S2x300000 : Shape := ⟨2, ![2, 300000]⟩
abbrev S300000x64 : Shape := ⟨2, ![300000, 64]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S10000x64 : Shape := ⟨2, ![10000, 64]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S6000x64 : Shape := ⟨2, ![6000, 64]⟩
abbrev S600000x64 : Shape := ⟨2, ![600000, 64]⟩
abbrev S600000 : Shape := ⟨1, ![600000]⟩
abbrev S600000x1 : Shape := ⟨2, ![600000, 1]⟩
abbrev S5000x64 : Shape := ⟨2, ![5000, 64]⟩

abbrev nBuf : Space → Nat
  | .hbm => 142
  | .vmem => 102
  | .smem => 0
  | _ => 0

abbrev hbmTy0_0 (i : Nat) : BufTy := match i % 128 with
  | 0 => ⟨S50000x64, .f32⟩
  | 1 => ⟨S2x300000, .i32⟩
  | 2 => ⟨S2x300000, .i32⟩
  | 3 => ⟨S300000x64, .f32⟩
  | 4 => ⟨S300000x64, .f32⟩
  | 5 => ⟨S50000x64, .f32⟩
  | 6 => ⟨S2x300000, .i32⟩
  | 7 => ⟨S2x300000, .i32⟩
  | 8 => ⟨S300000x64, .f32⟩
  | 9 => ⟨S300000x64, .f32⟩
  | 10 => ⟨S50000x64, .f32⟩
  | 11 => ⟨S2x300000, .i32⟩
  | 12 => ⟨S2x300000, .i32⟩
  | 13 => ⟨S300000x64, .f32⟩
  | 14 => ⟨S300000x64, .f32⟩
  | 15 => ⟨S128x64, .f32⟩
  | 16 => ⟨S64, .f32⟩
  | 17 => ⟨S128x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x64, .f32⟩
  | 24 => ⟨S64x64, .f32⟩
  | 25 => ⟨S64x64, .f32⟩
  | 26 => ⟨S64x64, .f32⟩
  | 27 => ⟨S1x64, .f32⟩
  | 28 => ⟨S1x64, .f32⟩
  | 29 => ⟨S1x64, .f32⟩
  | 30 => ⟨S1x64, .f32⟩
  | 31 => ⟨S50000x64, .bf16⟩
  | 32 => ⟨S50000x64, .bf16⟩
  | 33 => ⟨S1x300000, .i32⟩
  | 34 => ⟨S300000, .i32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S300000x64, .bf16⟩
  | 44 => ⟨S300000x64, .f32⟩
  | 45 => ⟨S1x300000, .i32⟩
  | 46 => ⟨S300000, .i32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x64, .bf16⟩
  | 56 => ⟨S300000x64, .f32⟩
  | 57 => ⟨S600000x64, .f32⟩
  | 58 => ⟨S1x300000, .i32⟩
  | 59 => ⟨S300000, .i32⟩
  | 60 => ⟨S1x300000, .i32⟩
  | 61 => ⟨S300000, .i32⟩
  | 62 => ⟨S600000, .i32⟩
  | 63 => ⟨S_, .f32⟩
  | 64 => ⟨S50000x64, .f32⟩
  | 65 => ⟨S600000x1, .i32⟩
  | 66 => ⟨S50000x64, .f32⟩
  | 67 => ⟨S50000x64, .f32⟩
  | 68 => ⟨S50000x64, .bf16⟩
  | 69 => ⟨S50000x64, .bf16⟩
  | 70 => ⟨S1x300000, .i32⟩
  | 71 => ⟨S300000, .i32⟩
  | 72 => ⟨S_, .i32⟩
  | 73 => ⟨S300000, .i32⟩
  | 74 => ⟨S300000, .i1⟩
  | 75 => ⟨S_, .i32⟩
  | 76 => ⟨S300000, .i32⟩
  | 77 => ⟨S300000, .i32⟩
  | 78 => ⟨S300000, .i32⟩
  | 79 => ⟨S300000x1, .i32⟩
  | 80 => ⟨S300000x64, .bf16⟩
  | 81 => ⟨S300000x64, .f32⟩
  | 82 => ⟨S1x300000, .i32⟩
  | 83 => ⟨S300000, .i32⟩
  | 84 => ⟨S_, .i32⟩
  | 85 => ⟨S300000, .i32⟩
  | 86 => ⟨S300000, .i1⟩
  | 87 => ⟨S_, .i32⟩
  | 88 => ⟨S300000, .i32⟩
  | 89 => ⟨S300000, .i32⟩
  | 90 => ⟨S300000, .i32⟩
  | 91 => ⟨S300000x1, .i32⟩
  | 92 => ⟨S300000x64, .bf16⟩
  | 93 => ⟨S300000x64, .f32⟩
  | 94 => ⟨S600000x64, .f32⟩
  | 95 => ⟨S1x300000, .i32⟩
  | 96 => ⟨S300000, .i32⟩
  | 97 => ⟨S1x300000, .i32⟩
  | 98 => ⟨S300000, .i32⟩
  | 99 => ⟨S600000, .i32⟩
  | 100 => ⟨S_, .f32⟩
  | 101 => ⟨S50000x64, .f32⟩
  | 102 => ⟨S600000x1, .i32⟩
  | 103 => ⟨S50000x64, .f32⟩
  | 104 => ⟨S50000x64, .f32⟩
  | 105 => ⟨S50000x64, .bf16⟩
  | 106 => ⟨S50000x64, .bf16⟩
  | 107 => ⟨S1x300000, .i32⟩
  | 108 => ⟨S300000, .i32⟩
  | 109 => ⟨S_, .i32⟩
  | 110 => ⟨S300000, .i32⟩
  | 111 => ⟨S300000, .i1⟩
  | 112 => ⟨S_, .i32⟩
  | 113 => ⟨S300000, .i32⟩
  | 114 => ⟨S300000, .i32⟩
  | 115 => ⟨S300000, .i32⟩
  | 116 => ⟨S300000x1, .i32⟩
  | 117 => ⟨S300000x64, .bf16⟩
  | 118 => ⟨S300000x64, .f32⟩
  | 119 => ⟨S1x300000, .i32⟩
  | 120 => ⟨S300000, .i32⟩
  | 121 => ⟨S_, .i32⟩
  | 122 => ⟨S300000, .i32⟩
  | 123 => ⟨S300000, .i1⟩
  | 124 => ⟨S_, .i32⟩
  | 125 => ⟨S300000, .i32⟩
  | 126 => ⟨S300000, .i32⟩
  | 127 => ⟨S300000, .i32⟩
  | _ => ⟨S50000x64, .f32⟩

abbrev hbmTy0_1 (i : Nat) : BufTy := match i % 128 with
  | 0 => ⟨S300000x1, .i32⟩
  | 1 => ⟨S300000x64, .bf16⟩
  | 2 => ⟨S300000x64, .f32⟩
  | 3 => ⟨S600000x64, .f32⟩
  | 4 => ⟨S1x300000, .i32⟩
  | 5 => ⟨S300000, .i32⟩
  | 6 => ⟨S1x300000, .i32⟩
  | 7 => ⟨S300000, .i32⟩
  | 8 => ⟨S600000, .i32⟩
  | 9 => ⟨S_, .f32⟩
  | 10 => ⟨S50000x64, .f32⟩
  | 11 => ⟨S600000x1, .i32⟩
  | 12 => ⟨S50000x64, .f32⟩
  | 13 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64x64, .f32⟩
  | .local _ .vmem, ⟨4, _⟩ => ⟨S10000x64, .bf16⟩
  | .local _ .vmem, ⟨5, _⟩ => ⟨S10000x64, .bf16⟩
  | .local _ .vmem, ⟨6, _⟩ => ⟨S10000x64, .bf16⟩
  | .local _ .vmem, ⟨7, _⟩ => ⟨S10000x64, .bf16⟩
  | .local _ .vmem, ⟨8, _⟩ => ⟨S6000x64, .bf16⟩
  | .local _ .vmem, ⟨9, _⟩ => ⟨S6000x64, .bf16⟩
  | .local _ .vmem, ⟨10, _⟩ => ⟨S6000x64, .f32⟩
  | .local _ .vmem, ⟨11, _⟩ => ⟨S6000x64, .f32⟩
  | .local _ .vmem, ⟨12, _⟩ => ⟨S64x64, .f32⟩
  | .local _ .vmem, ⟨13, _⟩ => ⟨S1x64, .f32⟩
  | .local _ .vmem, ⟨14, _⟩ => ⟨S6000x64, .f32⟩
  | .local _ .vmem, ⟨15, _⟩ => ⟨S6000x64, .f32⟩
  | .local _ .vmem, ⟨16, _⟩ => ⟨S6000x64, .bf16⟩
  | .local _ .vmem, ⟨17, _⟩ => ⟨S6000x64, .bf16⟩
  | .local _ .vmem, ⟨18, _⟩ => ⟨S6000x64, .f32⟩
  | .local _ .vmem, ⟨19, _⟩ => ⟨S6000x64, .f32⟩
  | .local _ .vmem, ⟨20, _⟩ => ⟨S64x64, .f32⟩
  | .local _ .vmem, ⟨21, _⟩ => ⟨S1x64, .f32⟩
  | .local _ .vmem, ⟨22, _⟩ => ⟨S6000x64, .f32⟩
  | .local _ .vmem, ⟨23, _⟩ => ⟨S6000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S64x64, .f32⟩
  | .local _ .vmem, ⟨38, _⟩ => ⟨S10000x64, .bf16⟩
  | .local _ .vmem, ⟨39, _⟩ => ⟨S10000x64, .bf16⟩
  | .local _ .vmem, ⟨40, _⟩ => ⟨S10000x64, .bf16⟩
  | .local _ .vmem, ⟨41, _⟩ => ⟨S10000x64, .bf16⟩
  | .local _ .vmem, ⟨42, _⟩ => ⟨S6000x64, .bf16⟩
  | .local _ .vmem, ⟨43, _⟩ => ⟨S6000x64, .bf16⟩
  | .local _ .vmem, ⟨44, _⟩ => ⟨S6000x64, .f32⟩
  | .local _ .vmem, ⟨45, _⟩ => ⟨S6000x64, .f32⟩
  | .local _ .vmem, ⟨46, _⟩ => ⟨S64x64, .f32⟩
  | .local _ .vmem, ⟨47, _⟩ => ⟨S1x64, .f32⟩
  | .local _ .vmem, ⟨48, _⟩ => ⟨S6000x64, .f32⟩
  | .local _ .vmem, ⟨49, _⟩ => ⟨S6000x64, .f32⟩
  | .local _ .vmem, ⟨50, _⟩ => ⟨S6000x64, .bf16⟩
  | .local _ .vmem, ⟨51, _⟩ => ⟨S6000x64, .bf16⟩
  | .local _ .vmem, ⟨52, _⟩ => ⟨S6000x64, .f32⟩
  | .local _ .vmem, ⟨53, _⟩ => ⟨S6000x64, .f32⟩
  | .local _ .vmem, ⟨54, _⟩ => ⟨S64x64, .f32⟩
  | .local _ .vmem, ⟨55, _⟩ => ⟨S1x64, .f32⟩
  | .local _ .vmem, ⟨56, _⟩ => ⟨S6000x64, .f32⟩
  | .local _ .vmem, ⟨57, _⟩ => ⟨S6000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S64x64, .f32⟩
  | .local _ .vmem, ⟨63, _⟩ => ⟨S1x64, .f32⟩
  | .local _ .vmem, ⟨64, _⟩ => ⟨S64x64, .f32⟩
  | .local _ .vmem, ⟨65, _⟩ => ⟨S1x64, .f32⟩
  | .local _ .vmem, ⟨66, _⟩ => ⟨S5000x64, .f32⟩
  | .local _ .vmem, ⟨67, _⟩ => ⟨S5000x64, .f32⟩
  | .local _ .vmem, ⟨68, _⟩ => ⟨S10000x64, .f32⟩
  | .local _ .vmem, ⟨69, _⟩ => ⟨S10000x64, .f32⟩
  | .local _ .vmem, ⟨70, _⟩ => ⟨S64x64, .f32⟩
  | .local _ .vmem, ⟨71, _⟩ => ⟨S64x64, .f32⟩
  | .local _ .vmem, ⟨72, _⟩ => ⟨S10000x64, .bf16⟩
  | .local _ .vmem, ⟨73, _⟩ => ⟨S10000x64, .bf16⟩
  | .local _ .vmem, ⟨74, _⟩ => ⟨S10000x64, .bf16⟩
  | .local _ .vmem, ⟨75, _⟩ => ⟨S10000x64, .bf16⟩
  | .local _ .vmem, ⟨76, _⟩ => ⟨S6000x64, .bf16⟩
  | .local _ .vmem, ⟨77, _⟩ => ⟨S6000x64, .bf16⟩
  | .local _ .vmem, ⟨78, _⟩ => ⟨S6000x64, .f32⟩
  | .local _ .vmem, ⟨79, _⟩ => ⟨S6000x64, .f32⟩
  | .local _ .vmem, ⟨80, _⟩ => ⟨S64x64, .f32⟩
  | .local _ .vmem, ⟨81, _⟩ => ⟨S1x64, .f32⟩
  | .local _ .vmem, ⟨82, _⟩ => ⟨S6000x64, .f32⟩
  | .local _ .vmem, ⟨83, _⟩ => ⟨S6000x64, .f32⟩
  | .local _ .vmem, ⟨84, _⟩ => ⟨S6000x64, .bf16⟩
  | .local _ .vmem, ⟨85, _⟩ => ⟨S6000x64, .bf16⟩
  | .local _ .vmem, ⟨86, _⟩ => ⟨S6000x64, .f32⟩
  | .local _ .vmem, ⟨87, _⟩ => ⟨S6000x64, .f32⟩
  | .local _ .vmem, ⟨88, _⟩ => ⟨S64x64, .f32⟩
  | .local _ .vmem, ⟨89, _⟩ => ⟨S1x64, .f32⟩
  | .local _ .vmem, ⟨90, _⟩ => ⟨S6000x64, .f32⟩
  | .local _ .vmem, ⟨91, _⟩ => ⟨S6000x64, .f32⟩
  | .local _ .vmem, ⟨92, _⟩ => ⟨S5000x64, .f32⟩
  | .local _ .vmem, ⟨93, _⟩ => ⟨S5000x64, .f32⟩
  | .local _ .vmem, ⟨94, _⟩ => ⟨S5000x64, .f32⟩
  | .local _ .vmem, ⟨95, _⟩ => ⟨S5000x64, .f32⟩
  | .local _ .vmem, ⟨96, _⟩ => ⟨S64x64, .f32⟩
  | .local _ .vmem, ⟨97, _⟩ => ⟨S1x64, .f32⟩
  | .local _ .vmem, ⟨98, _⟩ => ⟨S64x64, .f32⟩
  | .local _ .vmem, ⟨99, _⟩ => ⟨S1x64, .f32⟩
  | .local _ .vmem, ⟨100, _⟩ => ⟨S5000x64, .f32⟩
  | .local _ .vmem, ⟨101, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8_0 : Ref sig .tc := ⟨.hbm, 31, rfl⟩
abbrev main_v8_1 : Ref sig .tc := ⟨.hbm, 32, rfl⟩
abbrev main_v9 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_v12 : Ref sig .tc := ⟨.hbm, 37, rfl⟩
abbrev main_c_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_1 : Ref sig .tc := ⟨.hbm, 47, rfl⟩
abbrev main_v21 : Ref sig .tc := ⟨.hbm, 48, rfl⟩
abbrev main_v22 : Ref sig .tc := ⟨.hbm, 49, rfl⟩
abbrev main_c_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39_0 : Ref sig .tc := ⟨.hbm, 68, rfl⟩
abbrev main_v39_1 : Ref sig .tc := ⟨.hbm, 69, rfl⟩
abbrev main_v40 : Ref sig .tc := ⟨.hbm, 70, rfl⟩
abbrev main_v41 : Ref sig .tc := ⟨.hbm, 71, rfl⟩
abbrev main_c_3 : Ref sig .tc := ⟨.hbm, 72, rfl⟩
abbrev main_v42 : Ref sig .tc := ⟨.hbm, 73, rfl⟩
abbrev main_v43 : Ref sig .tc := ⟨.hbm, 74, rfl⟩
abbrev main_c_4 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_5 : Ref sig .tc := ⟨.hbm, 84, rfl⟩
abbrev main_v52 : Ref sig .tc := ⟨.hbm, 85, rfl⟩
abbrev main_v53 : Ref sig .tc := ⟨.hbm, 86, rfl⟩
abbrev main_c_6 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_7 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70_0 : Ref sig .tc := ⟨.hbm, 105, rfl⟩
abbrev main_v70_1 : Ref sig .tc := ⟨.hbm, 106, rfl⟩
abbrev main_v71 : Ref sig .tc := ⟨.hbm, 107, rfl⟩
abbrev main_v72 : Ref sig .tc := ⟨.hbm, 108, rfl⟩
abbrev main_c_8 : Ref sig .tc := ⟨.hbm, 109, rfl⟩
abbrev main_v73 : Ref sig .tc := ⟨.hbm, 110, rfl⟩
abbrev main_v74 : Ref sig .tc := ⟨.hbm, 111, rfl⟩
abbrev main_c_9 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_10 : Ref sig .tc := ⟨.hbm, 121, rfl⟩
abbrev main_v83 : Ref sig .tc := ⟨.hbm, 122, rfl⟩
abbrev main_v84 : Ref sig .tc := ⟨.hbm, 123, rfl⟩
abbrev main_c_11 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_12 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg4_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg6_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg3_0 : Ref sig .tc := ⟨.vmem, 72, rfl⟩
abbrev cc8_stg3_1 : Ref sig .tc := ⟨.vmem, 73, rfl⟩
abbrev cc8_stg4_0 : Ref sig .tc := ⟨.vmem, 74, rfl⟩
abbrev cc8_stg4_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg1_1 : Ref sig .tc := ⟨.vmem, 79, rfl⟩
abbrev cc9_stg2_0 : Ref sig .tc := ⟨.vmem, 80, rfl⟩
abbrev cc9_stg3_0 : Ref sig .tc := ⟨.vmem, 81, rfl⟩
abbrev cc9_stg4_0 : Ref sig .tc := ⟨.vmem, 82, rfl⟩
abbrev cc9_stg4_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg1_1 : Ref sig .tc := ⟨.vmem, 87, rfl⟩
abbrev cc10_stg2_0 : Ref sig .tc := ⟨.vmem, 88, rfl⟩
abbrev cc10_stg3_0 : Ref sig .tc := ⟨.vmem, 89, rfl⟩
abbrev cc10_stg4_0 : Ref sig .tc := ⟨.vmem, 90, rfl⟩
abbrev cc10_stg4_1 : Ref sig .tc := ⟨.vmem, 91, rfl⟩
abbrev cc11_stg0_0 : Ref sig .tc := ⟨.vmem, 92, rfl⟩
abbrev cc11_stg0_1 : Ref sig .tc := ⟨.vmem, 93, rfl⟩
abbrev cc11_stg1_0 : Ref sig .tc := ⟨.vmem, 94, rfl⟩
abbrev cc11_stg1_1 : Ref sig .tc := ⟨.vmem, 95, rfl⟩
abbrev cc11_stg2_0 : Ref sig .tc := ⟨.vmem, 96, rfl⟩
abbrev cc11_stg3_0 : Ref sig .tc := ⟨.vmem, 97, rfl⟩
abbrev cc11_stg4_0 : Ref sig .tc := ⟨.vmem, 98, rfl⟩
abbrev cc11_stg5_0 : Ref sig .tc := ⟨.vmem, 99, rfl⟩
abbrev cc11_stg6_0 : Ref sig .tc := ⟨.vmem, 100, rfl⟩
abbrev cc11_stg6_1 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem4_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55
abbrev cc6_sem4_0 : DmaSem sig := 56
abbrev cc6_sem4_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem3_0 : DmaSem sig := 63
abbrev cc7_sem4_0 : DmaSem sig := 64
abbrev cc7_sem5_0 : DmaSem sig := 65
abbrev cc7_sem6_0 : DmaSem sig := 66
abbrev cc7_sem6_1 : DmaSem sig := 67
abbrev cc8_sem0_0 : DmaSem sig := 68
abbrev cc8_sem0_1 : DmaSem sig := 69
abbrev cc8_sem1_0 : DmaSem sig := 70
abbrev cc8_sem2_0 : DmaSem sig := 71
abbrev cc8_sem3_0 : DmaSem sig := 72
abbrev cc8_sem3_1 : DmaSem sig := 73
abbrev cc8_sem4_0 : DmaSem sig := 74
abbrev cc8_sem4_1 : DmaSem sig := 75
abbrev cc9_sem0_0 : DmaSem sig := 76
abbrev cc9_sem0_1 : DmaSem sig := 77
abbrev cc9_sem1_0 : DmaSem sig := 78
abbrev cc9_sem1_1 : DmaSem sig := 79
abbrev cc9_sem2_0 : DmaSem sig := 80
abbrev cc9_sem3_0 : DmaSem sig := 81
abbrev cc9_sem4_0 : DmaSem sig := 82
abbrev cc9_sem4_1 : DmaSem sig := 83
abbrev cc10_sem0_0 : DmaSem sig := 84
abbrev cc10_sem0_1 : DmaSem sig := 85
abbrev cc10_sem1_0 : DmaSem sig := 86
abbrev cc10_sem1_1 : DmaSem sig := 87
abbrev cc10_sem2_0 : DmaSem sig := 88
abbrev cc10_sem3_0 : DmaSem sig := 89
abbrev cc10_sem4_0 : DmaSem sig := 90
abbrev cc10_sem4_1 : DmaSem sig := 91
abbrev cc11_sem0_0 : DmaSem sig := 92
abbrev cc11_sem0_1 : DmaSem sig := 93
abbrev cc11_sem1_0 : DmaSem sig := 94
abbrev cc11_sem1_1 : DmaSem sig := 95
abbrev cc11_sem2_0 : DmaSem sig := 96
abbrev cc11_sem3_0 : DmaSem sig := 97
abbrev cc11_sem4_0 : DmaSem sig := 98
abbrev cc11_sem5_0 : DmaSem sig := 99
abbrev cc11_sem6_0 : DmaSem sig := 100
abbrev cc11_sem6_1 : DmaSem sig := 101

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S6000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S6000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x64 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S10000x64 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S6000x64 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S6000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S6000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S6000x64 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S6000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S6000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S64x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S5000x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

class Facts₀ : Prop where
  slices_S128x64_S64x64_0_0 : S128x64.Slices ![0, 0] S64x64
  slices_S128x64_S64x64_64_0 : S128x64.Slices ![64, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S10000x64_S10000x64_0_0 : (Rect.unit (s := S10000x64) ![0, 0] S10000x64.size inb_S10000x64_S10000x64_0_0).PackedRows (EltTy.packing .bf16)
  slices_S2x300000_S1x300000_1_0 : S2x300000.Slices ![1, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6000x64 : S1x64.Broadcasts S6000x64
  concatenates_S300000x64_S300000x64_S600000x64_d0 : Shape.Concatenates [S300000x64, S300000x64] S600000x64 0
  slices_S2x300000_S1x300000_0_0 : S2x300000.Slices ![0, 0] S1x300000
  concatenates_S300000_S300000_S600000_d0 : Shape.Concatenates [S300000, S300000] S600000 0
  bcast_S_S50000x64 : S_.BroadcastsInDim S50000x64 (![] : Fin 0 → Fin S50000x64.rank)
  bcast_S600000_S600000x1_0 : S600000.BroadcastsInDim S600000x1 (![0] : Fin 1 → Fin S600000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  dot_S10000x64_S64x64_S10000x64_1_0_0_1_n_n_wf : DotDims.WF S10000x64 S64x64 S10000x64 [1] [0] [0] [1] [] []
  gather_S50000x64_S300000x1_S300000x64_1_0_n_n_0_1_164_wf : GatherDims.WF S50000x64 S300000x1 S300000x64 [1] [0] [] [0] [] 1 ![1, 64]
  dot_S6000x64_S64x64_S6000x64_1_0_0_1_n_n_wf : DotDims.WF S6000x64 S64x64 S6000x64 [1] [0] [0] [1] [] []
  scatter_S50000x64_S600000x1_S600000x64_1_0_0_1_wf : ScatterDims.WF S50000x64 S600000x1 S600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .bf16 = 32 ∨ (Rect.block (s := S50000x64) S10000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S50000x64.size a
  hwx0_4 : ∀ i : grid0.Coords, EltTy.bits .bf16 = 32 ∨ (Rect.block (s := S50000x64) S10000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S300000x64.size a
  hwx1_0 : ∀ i : grid1.Coords, EltTy.bits .bf16 = 32 ∨ (Rect.block (s := S300000x64) S6000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S300000x64.size a
  hwx1_1 : ∀ i : grid1.Coords, EltTy.bits .f32 = 32 ∨ (Rect.block (s := S300000x64) S6000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6000x64.size a ≤ S300000x64.size a
  hwx1_4 : ∀ i : grid1.Coords, EltTy.bits .f32 = 32 ∨ (Rect.block (s := S300000x64) S6000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S300000x64.size a
  hwx2_0 : ∀ i : grid2.Coords, EltTy.bits .bf16 = 32 ∨ (Rect.block (s := S300000x64) S6000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x64.size a ≤ S300000x64.size a
  hwx2_1 : ∀ i : grid2.Coords, EltTy.bits .f32 = 32 ∨ (Rect.block (s := S300000x64) S6000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x64.size a ≤ S300000x64.size a
  hwx2_4 : ∀ i : grid2.Coords, EltTy.bits .f32 = 32 ∨ (Rect.block (s := S300000x64) S6000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S50000x64.size a
  hwx4_3 : ∀ i : grid4.Coords, EltTy.bits .bf16 = 32 ∨ (Rect.block (s := S50000x64) S10000x64.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S50000x64.size a
  hwx4_4 : ∀ i : grid4.Coords, EltTy.bits .bf16 = 32 ∨ (Rect.block (s := S50000x64) S10000x64.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x64.size a ≤ S300000x64.size a
  hwx5_0 : ∀ i : grid5.Coords, EltTy.bits .bf16 = 32 ∨ (Rect.block (s := S300000x64) S6000x64.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x64.size a ≤ S300000x64.size a
  hwx5_1 : ∀ i : grid5.Coords, EltTy.bits .f32 = 32 ∨ (Rect.block (s := S300000x64) S6000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S6000x64.size a ≤ S300000x64.size a
  hwx5_4 : ∀ i : grid5.Coords, EltTy.bits .f32 = 32 ∨ (Rect.block (s := S300000x64) S6000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x64.size a ≤ S300000x64.size a
  hwx6_0 : ∀ i : grid6.Coords, EltTy.bits .bf16 = 32 ∨ (Rect.block (s := S300000x64) S6000x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x64.size a ≤ S300000x64.size a
  hwx6_1 : ∀ i : grid6.Coords, EltTy.bits .f32 = 32 ∨ (Rect.block (s := S300000x64) S6000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S6000x64.size a ≤ S300000x64.size a
  hwx6_4 : ∀ i : grid6.Coords, EltTy.bits .f32 = 32 ∨ (Rect.block (s := S300000x64) S6000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S50000x64.size a
  hwx7_6 : ∀ i : grid7.Coords, EltTy.bits .f32 = 32 ∨ (Rect.block (s := S50000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S50000x64.size a
  hwx8_3 : ∀ i : grid8.Coords, EltTy.bits .bf16 = 32 ∨ (Rect.block (s := S50000x64) S10000x64.size (cc8_transform_3 i) (hinb8_3 i)).WholeWords (EltTy.packing .bf16)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S10000x64.size a ≤ S50000x64.size a
  hwx8_4 : ∀ i : grid8.Coords, EltTy.bits .bf16 = 32 ∨ (Rect.block (s := S50000x64) S10000x64.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S6000x64.size a ≤ S300000x64.size a
  hwx9_0 : ∀ i : grid9.Coords, EltTy.bits .bf16 = 32 ∨ (Rect.block (s := S300000x64) S6000x64.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S6000x64.size a ≤ S300000x64.size a
  hwx9_1 : ∀ i : grid9.Coords, EltTy.bits .f32 = 32 ∨ (Rect.block (s := S300000x64) S6000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S6000x64.size a ≤ S300000x64.size a
  hwx9_4 : ∀ i : grid9.Coords, EltTy.bits .f32 = 32 ∨ (Rect.block (s := S300000x64) S6000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S6000x64.size a ≤ S300000x64.size a
  hwx10_0 : ∀ i : grid10.Coords, EltTy.bits .bf16 = 32 ∨ (Rect.block (s := S300000x64) S6000x64.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S6000x64.size a ≤ S300000x64.size a
  hwx10_1 : ∀ i : grid10.Coords, EltTy.bits .f32 = 32 ∨ (Rect.block (s := S300000x64) S6000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x64.size a ≤ S64x64.size a
  hwx10_2 : ∀ i : grid10.Coords, EltTy.bits .f32 = 32 ∨ (Rect.block (s := S64x64) S64x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S6000x64.size a ≤ S300000x64.size a
  hwx10_4 : ∀ i : grid10.Coords, EltTy.bits .f32 = 32 ∨ (Rect.block (s := S300000x64) S6000x64.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S50000x64.size a
  hwx11_1 : ∀ i : grid11.Coords, EltTy.bits .f32 = 32 ∨ (Rect.block (s := S50000x64) S5000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .f32 = 32 ∨ (Rect.block (s := S64x64) S64x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S64x64.size a ≤ S64x64.size a
  hwx11_4 : ∀ i : grid11.Coords, EltTy.bits .f32 = 32 ∨ (Rect.block (s := S64x64) S64x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x64.size a ≤ S1x64.size a
  hwx11_5 : ∀ i : grid11.Coords, EltTy.bits .f32 = 32 ∨ (Rect.block (s := S1x64) S1x64.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S5000x64.size a ≤ S50000x64.size a
  hwx11_6 : ∀ i : grid11.Coords, EltTy.bits .f32 = 32 ∨ (Rect.block (s := S50000x64) S5000x64.size (cc11_transform_6 i) (hinb11_6 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S300000x1_S300000x64_1_0_n_n_0_1_164 : GatherDims S50000x64 S300000x1 S300000x64 where
  offsetDims := [1]
  collapsedSliceDims := [0]
  operandBatchingDims := []
  startIndicesBatchingDims := []
  startIndexMap := [0]
  indexVectorDim := 1
  sliceSizes := ![1, 64]
  wf := gather_S50000x64_S300000x1_S300000x64_1_0_n_n_0_1_164_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S6000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S6000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S6000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg19) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg21) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg5) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v2) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39_0) S10000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v39_1) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v48) S6000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S6000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v1) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v4) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v49) S6000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v58) S6000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S6000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v3) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v5) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v59) S6000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v68) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg5) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg19) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v6) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg21) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v7) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v69) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_arg10) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v0) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v2) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v70_0) S10000x64.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v70_1) S10000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v79) S6000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg13) S6000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v1) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v4) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v80) S6000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v89) S6000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg14) S6000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v3) S64x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v5) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v90) S6000x64.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v99) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg10) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_arg19) S64x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v6) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg21) S64x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v7) S1x64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v100) S5000x64.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

class Facts : Prop extends Facts₀ where

variable [Facts]
-- ==== ReferenceIdeal.lean ====
abbrev S50000x64 : Shape := ⟨2, ![50000, 64]⟩
abbrev S2x300000 : Shape := ⟨2, ![2, 300000]⟩
abbrev S300000x64 : Shape := ⟨2, ![300000, 64]⟩
abbrev S128x64 : Shape := ⟨2, ![128, 64]⟩
abbrev S64 : Shape := ⟨1, ![64]⟩
abbrev S64x64 : Shape := ⟨2, ![64, 64]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x128 : Shape := ⟨2, ![300000, 128]⟩
abbrev S1x64 : Shape := ⟨2, ![1, 64]⟩

abbrev nBuf : Space → Nat
  | .hbm => 230
  | .vmem => 0
  | .smem => 0
  | _ => 0

abbrev hbmTy0_0 (i : Nat) : BufTy := match i % 128 with
  | 0 => ⟨S50000x64, .f32⟩
  | 1 => ⟨S2x300000, .i32⟩
  | 2 => ⟨S2x300000, .i32⟩
  | 3 => ⟨S300000x64, .f32⟩
  | 4 => ⟨S300000x64, .f32⟩
  | 5 => ⟨S50000x64, .f32⟩
  | 6 => ⟨S2x300000, .i32⟩
  | 7 => ⟨S2x300000, .i32⟩
  | 8 => ⟨S300000x64, .f32⟩
  | 9 => ⟨S300000x64, .f32⟩
  | 10 => ⟨S50000x64, .f32⟩
  | 11 => ⟨S2x300000, .i32⟩
  | 12 => ⟨S2x300000, .i32⟩
  | 13 => ⟨S300000x64, .f32⟩
  | 14 => ⟨S300000x64, .f32⟩
  | 15 => ⟨S128x64, .f32⟩
  | 16 => ⟨S64, .f32⟩
  | 17 => ⟨S128x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S1x300000, .i32⟩
  | 24 => ⟨S300000, .i32⟩
  | 25 => ⟨S_, .i32⟩
  | 26 => ⟨S300000, .i32⟩
  | 27 => ⟨S300000, .i1⟩
  | 28 => ⟨S_, .i32⟩
  | 29 => ⟨S300000, .i32⟩
  | 30 => ⟨S300000, .i32⟩
  | 31 => ⟨S300000, .i32⟩
  | 32 => ⟨S300000x1, .i32⟩
  | 33 => ⟨S300000x64, .f32⟩
  | 34 => ⟨S300000x128, .f32⟩
  | 35 => ⟨S300000x64, .f32⟩
  | 36 => ⟨S1x64, .f32⟩
  | 37 => ⟨S300000x64, .f32⟩
  | 38 => ⟨S300000x64, .f32⟩
  | 39 => ⟨S_, .f32⟩
  | 40 => ⟨S300000x64, .f32⟩
  | 41 => ⟨S300000x64, .f32⟩
  | 42 => ⟨S1x300000, .i32⟩
  | 43 => ⟨S300000, .i32⟩
  | 44 => ⟨S_, .f32⟩
  | 45 => ⟨S50000x64, .f32⟩
  | 46 => ⟨S300000x1, .i32⟩
  | 47 => ⟨S50000x64, .f32⟩
  | 48 => ⟨S1x300000, .i32⟩
  | 49 => ⟨S300000, .i32⟩
  | 50 => ⟨S_, .i32⟩
  | 51 => ⟨S300000, .i32⟩
  | 52 => ⟨S300000, .i1⟩
  | 53 => ⟨S_, .i32⟩
  | 54 => ⟨S300000, .i32⟩
  | 55 => ⟨S300000, .i32⟩
  | 56 => ⟨S300000, .i32⟩
  | 57 => ⟨S300000x1, .i32⟩
  | 58 => ⟨S300000x64, .f32⟩
  | 59 => ⟨S300000x128, .f32⟩
  | 60 => ⟨S300000x64, .f32⟩
  | 61 => ⟨S1x64, .f32⟩
  | 62 => ⟨S300000x64, .f32⟩
  | 63 => ⟨S300000x64, .f32⟩
  | 64 => ⟨S_, .f32⟩
  | 65 => ⟨S300000x64, .f32⟩
  | 66 => ⟨S300000x64, .f32⟩
  | 67 => ⟨S1x300000, .i32⟩
  | 68 => ⟨S300000, .i32⟩
  | 69 => ⟨S_, .f32⟩
  | 70 => ⟨S50000x64, .f32⟩
  | 71 => ⟨S300000x1, .i32⟩
  | 72 => ⟨S50000x64, .f32⟩
  | 73 => ⟨S50000x64, .f32⟩
  | 74 => ⟨S_, .f32⟩
  | 75 => ⟨S50000x64, .f32⟩
  | 76 => ⟨S50000x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S1x300000, .i32⟩
  | 93 => ⟨S300000, .i32⟩
  | 94 => ⟨S_, .i32⟩
  | 95 => ⟨S300000, .i32⟩
  | 96 => ⟨S300000, .i1⟩
  | 97 => ⟨S_, .i32⟩
  | 98 => ⟨S300000, .i32⟩
  | 99 => ⟨S300000, .i32⟩
  | 100 => ⟨S300000, .i32⟩
  | 101 => ⟨S300000x1, .i32⟩
  | 102 => ⟨S300000x64, .f32⟩
  | 103 => ⟨S300000x128, .f32⟩
  | 104 => ⟨S300000x64, .f32⟩
  | 105 => ⟨S1x64, .f32⟩
  | 106 => ⟨S300000x64, .f32⟩
  | 107 => ⟨S300000x64, .f32⟩
  | 108 => ⟨S_, .f32⟩
  | 109 => ⟨S300000x64, .f32⟩
  | 110 => ⟨S300000x64, .f32⟩
  | 111 => ⟨S1x300000, .i32⟩
  | 112 => ⟨S300000, .i32⟩
  | 113 => ⟨S_, .f32⟩
  | 114 => ⟨S50000x64, .f32⟩
  | 115 => ⟨S300000x1, .i32⟩
  | 116 => ⟨S50000x64, .f32⟩
  | 117 => ⟨S1x300000, .i32⟩
  | 118 => ⟨S300000, .i32⟩
  | 119 => ⟨S_, .i32⟩
  | 120 => ⟨S300000, .i32⟩
  | 121 => ⟨S300000, .i1⟩
  | 122 => ⟨S_, .i32⟩
  | 123 => ⟨S300000, .i32⟩
  | 124 => ⟨S300000, .i32⟩
  | 125 => ⟨S300000, .i32⟩
  | 126 => ⟨S300000x1, .i32⟩
  | 127 => ⟨S300000x64, .f32⟩
  | _ => ⟨S50000x64, .f32⟩

abbrev hbmTy0_1 (i : Nat) : BufTy := match i % 128 with
  | 0 => ⟨S300000x128, .f32⟩
  | 1 => ⟨S300000x64, .f32⟩
  | 2 => ⟨S1x64, .f32⟩
  | 3 => ⟨S300000x64, .f32⟩
  | 4 => ⟨S300000x64, .f32⟩
  | 5 => ⟨S_, .f32⟩
  | 6 => ⟨S300000x64, .f32⟩
  | 7 => ⟨S300000x64, .f32⟩
  | 8 => ⟨S1x300000, .i32⟩
  | 9 => ⟨S300000, .i32⟩
  | 10 => ⟨S_, .f32⟩
  | 11 => ⟨S50000x64, .f32⟩
  | 12 => ⟨S300000x1, .i32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S_, .f32⟩
  | 24 => ⟨S50000x64, .f32⟩
  | 25 => ⟨S50000x64, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S1x300000, .i32⟩
  | 34 => ⟨S300000, .i32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S300000x64, .f32⟩
  | 44 => ⟨S300000x128, .f32⟩
  | 45 => ⟨S300000x64, .f32⟩
  | 46 => ⟨S1x64, .f32⟩
  | 47 => ⟨S300000x64, .f32⟩
  | 48 => ⟨S300000x64, .f32⟩
  | 49 => ⟨S_, .f32⟩
  | 50 => ⟨S300000x64, .f32⟩
  | 51 => ⟨S300000x64, .f32⟩
  | 52 => ⟨S1x300000, .i32⟩
  | 53 => ⟨S300000, .i32⟩
  | 54 => ⟨S_, .f32⟩
  | 55 => ⟨S50000x64, .f32⟩
  | 56 => ⟨S300000x1, .i32⟩
  | 57 => ⟨S50000x64, .f32⟩
  | 58 => ⟨S1x300000, .i32⟩
  | 59 => ⟨S300000, .i32⟩
  | 60 => ⟨S_, .i32⟩
  | 61 => ⟨S300000, .i32⟩
  | 62 => ⟨S300000, .i1⟩
  | 63 => ⟨S_, .i32⟩
  | 64 => ⟨S300000, .i32⟩
  | 65 => ⟨S300000, .i32⟩
  | 66 => ⟨S300000, .i32⟩
  | 67 => ⟨S300000x1, .i32⟩
  | 68 => ⟨S300000x64, .f32⟩
  | 69 => ⟨S300000x128, .f32⟩
  | 70 => ⟨S300000x64, .f32⟩
  | 71 => ⟨S1x64, .f32⟩
  | 72 => ⟨S300000x64, .f32⟩
  | 73 => ⟨S300000x64, .f32⟩
  | 74 => ⟨S_, .f32⟩
  | 75 => ⟨S300000x64, .f32⟩
  | 76 => ⟨S300000x64, .f32⟩
  | 77 => ⟨S1x300000, .i32⟩
  | 78 => ⟨S300000, .i32⟩
  | 79 => ⟨S_, .f32⟩
  | 80 => ⟨S50000x64, .f32⟩
  | 81 => ⟨S300000x1, .i32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_call0_cst : Ref sig .tc := ⟨.hbm, 39, rfl⟩
abbrev main_call0_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_1 : Ref sig .tc := ⟨.hbm, 50, rfl⟩
abbrev main_v22 : Ref sig .tc := ⟨.hbm, 51, rfl⟩
abbrev main_v23 : Ref sig .tc := ⟨.hbm, 52, rfl⟩
abbrev main_c_2 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call1_cst : Ref sig .tc := ⟨.hbm, 64, rfl⟩
abbrev main_call1_v0 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_3 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_4 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call2_cst : Ref sig .tc := ⟨.hbm, 82, rfl⟩
abbrev main_call2_v0 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call3_cst : Ref sig .tc := ⟨.hbm, 89, rfl⟩
abbrev main_call3_v0 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_5 : Ref sig .tc := ⟨.hbm, 94, rfl⟩
abbrev main_v56 : Ref sig .tc := ⟨.hbm, 95, rfl⟩
abbrev main_v57 : Ref sig .tc := ⟨.hbm, 96, rfl⟩
abbrev main_c_6 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_call4_cst : Ref sig .tc := ⟨.hbm, 108, rfl⟩
abbrev main_call4_v0 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_7 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_8 : Ref sig .tc := ⟨.hbm, 119, rfl⟩
abbrev main_v76 : Ref sig .tc := ⟨.hbm, 120, rfl⟩
abbrev main_v77 : Ref sig .tc := ⟨.hbm, 121, rfl⟩
abbrev main_c_9 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_call5_cst : Ref sig .tc := ⟨.hbm, 133, rfl⟩
abbrev main_call5_v0 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_10 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_11 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_call6_cst : Ref sig .tc := ⟨.hbm, 151, rfl⟩
abbrev main_call6_v0 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_call7_cst : Ref sig .tc := ⟨.hbm, 158, rfl⟩
abbrev main_call7_v0 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_c_12 : Ref sig .tc := ⟨.hbm, 163, rfl⟩
abbrev main_v110 : Ref sig .tc := ⟨.hbm, 164, rfl⟩
abbrev main_v111 : Ref sig .tc := ⟨.hbm, 165, rfl⟩
abbrev main_c_13 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_call8_cst : Ref sig .tc := ⟨.hbm, 177, rfl⟩
abbrev main_call8_v0 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_14 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_c_15 : Ref sig .tc := ⟨.hbm, 188, rfl⟩
abbrev main_v130 : Ref sig .tc := ⟨.hbm, 189, rfl⟩
abbrev main_v131 : Ref sig .tc := ⟨.hbm, 190, rfl⟩
abbrev main_c_16 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_call9_cst : Ref sig .tc := ⟨.hbm, 202, rfl⟩
abbrev main_call9_v0 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_17 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_18 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_call10_cst : Ref sig .tc := ⟨.hbm, 220, rfl⟩
abbrev main_call10_v0 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_call11_cst : Ref sig .tc := ⟨.hbm, 227, rfl⟩
abbrev main_call11_v0 : Ref sig .tc := ⟨.hbm, 228, rfl⟩
abbrev main_v161 : Ref sig .tc := ⟨.hbm, 229, rfl⟩

abbrev nD : Nat := 1
abbrev τ : Topo := Topo.v7x

variable {F : FTy → Type} [FloatOps F]

class Facts₀ : Prop where
  slices_S2x300000_S1x300000_1_0 : S2x300000.Slices ![1, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  concatenates_S300000x64_S300000x64_S300000x128_d1 : Shape.Concatenates [S300000x64, S300000x64] S300000x128 1
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  slices_S2x300000_S1x300000_0_0 : S2x300000.Slices ![0, 0] S1x300000
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  gather_S50000x64_S300000x1_S300000x64_1_0_n_n_0_1_164_wf : GatherDims.WF S50000x64 S300000x1 S300000x64 [1] [0] [] [0] [] 1 ![1, 64]
  dot_S300000x128_S128x64_S300000x64_1_0_0_1_n_n_wf : DotDims.WF S300000x128 S128x64 S300000x64 [1] [0] [0] [1] [] []
  scatter_S50000x64_S300000x1_S300000x64_1_0_0_1_wf : ScatterDims.WF S50000x64 S300000x1 S300000x64 [1] [0] [0] 1
  dot_S50000x64_S64x64_S50000x64_1_0_0_1_n_n_wf : DotDims.WF S50000x64 S64x64 S50000x64 [1] [0] [0] [1] [] []

variable [Facts₀]

def gather_S50000x64_S300000x1_S300000x64_1_0_n_n_0_1_164 : GatherDims S50000x64 S300000x1 S300000x64 where
  offsetDims := [1]
  collapsedSliceDims := [0]
  operandBatchingDims := []
  startIndicesBatchingDims := []
  startIndexMap := [0]
  indexVectorDim := 1
  sliceSizes := ![1, 64]
  wf := gather_S50000x64_S300000x1_S300000x64_1_0_n_n_0_1_164_wf
def dot_S300000x128_S128x64_S300000x64_1_0_0_1_n_n : DotDims S300000x128 S128x64 S300000x64 where
  lhsContracting := [1]
  rhsContracting := [0]
  lhsNonContracting := [0]
  rhsNonContracting := [1]
  lhsBatch := []
  rhsBatch := []
  wf := dot_S300000x128_S128x64_S300000x64_1_0_0_1_n_n_wf
def scatter_S50000x64_S300000x1_S300000x64_1_0_0_1 : ScatterDims S50000x64 S300000x1 S300000x64 where
  updateWindowDims := [1]
  insertedWindowDims := [0]
  scatterDimsToOperandDims := [0]
  indexVectorDim := 1
  wf := scatter_S50000x64_S300000x1_S300000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel's run with its three results kept.

  @main is twelve kernel launches among stretches of host operations.  The run of those segments ends with every
  buffer of a core at the contents the fold through the segments leaves (`Gen.W22`): the last stretch's
  operations applied to what the launch before left, and so on back to the launch memory.  The frame only reads
  the argument buffers off that final state; here the three result buffers are read off it as well, so that the
  value of each result is the fold's value at that buffer.
-/
import proofs.«121345_j4372276707359_2_alg».proof.Proof.Gen.KernelIdeal.Frame

set_option maxRecDepth 16384

noncomputable section

namespace Cert.KernelIdeal.Results

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the three results at the fold's
    final contents and the arguments as launched. -/
theorem run_results : θ_run defs (onTc (τ := τ) (main (F := F))) ⟨m, fun _ => 0, ρ⟩ (fun r => ∀ c : Dev nD,
      r.2.mem ((c.tc : Thread nD τ).loc main_v38) = W22 m ρ c (Proc.devRef .tc main_v38)
      ∧ r.2.mem ((c.tc : Thread nD τ).loc main_v69) = W22 m ρ c (Proc.devRef .tc main_v69)
      ∧ r.2.mem ((c.tc : Thread nD τ).loc main_v100) = W22 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v38 (by decide)),
       h c _ (mem_uc main_v69 (by decide)),
       h c _ (mem_uc main_v100 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c),
       (h c _ (mem_uc main_arg18 (by decide))).trans (W22_main_arg18 m ρ c),
       (h c _ (mem_uc main_arg19 (by decide))).trans (W22_main_arg19 m ρ c),
       (h c _ (mem_uc main_arg20 (by decide))).trans (W22_main_arg20 m ρ c),
       (h c _ (mem_uc main_arg21 (by decide))).trans (W22_main_arg21 m ρ c),
       (h c _ (mem_uc main_arg22 (by decide))).trans (W22_main_arg22 m ρ c)⟩)

end Cert.KernelIdeal.Results

end
-- ==== Proof.FoldSteps0.lean ====
/-
  Buffers a segment leaves alone.

  The fold through @main's segments changes a buffer only at the host operation that defines it or at the kernel
  launch that has it as an output.  Each lemma here says that one segment leaves one buffer as it found it: a
  stretch of host operations none of which writes the buffer, a launch that does not have the buffer among its
  arrays, or a launch that only reads it through an input window.
-/
import proofs.«121345_j4372276707359_2_alg».proof.Proof.Gen.KernelIdeal.Frame

set_option maxRecDepth 16384

noncomputable section

namespace Cert.KernelIdeal.Fold

open Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem step_v0_2 (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))
theorem step_v0_3 (c : Dev nD) : W3 m ρ c (Proc.devRef .tc main_v0) = W2 m ρ c (Proc.devRef .tc main_v0) :=
  StableHlo.after_of_forall_not_mem (b := Proc.devRef .tc main_v0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v0_4 (c : Dev nD) : W4 m ρ c (Proc.devRef .tc main_v0) = W3 m ρ c (Proc.devRef .tc main_v0) :=
  W4_of_ne m ρ c main_v0 (by decide)
theorem step_v0_5 (c : Dev nD) : W5 m ρ c (Proc.devRef .tc main_v0) = W4 m ρ c (Proc.devRef .tc main_v0) :=
  StableHlo.after_of_forall_not_mem (b := Proc.devRef .tc main_v0) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v0_6 (c : Dev nD) : W6 m ρ c (Proc.devRef .tc main_v0) = W5 m ρ c (Proc.devRef .tc main_v0) :=
  W6_of_ne m ρ c main_v0 (by decide)
theorem step_v0_7 (c : Dev nD) : W7 m ρ c (Proc.devRef .tc main_v0) = W6 m ρ c (Proc.devRef .tc main_v0) :=
  StableHlo.after_of_forall_not_mem (b := Proc.devRef .tc main_v0) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v0_8 (c : Dev nD) : W8 m ρ c (Proc.devRef .tc main_v0) = W7 m ρ c (Proc.devRef .tc main_v0) :=
  W8_of_ne m ρ c main_v0 (by decide)
theorem step_v0_9 (c : Dev nD) : W9 m ρ c (Proc.devRef .tc main_v0) = W8 m ρ c (Proc.devRef .tc main_v0) :=
  (W9_arr m ρ c 1).trans (((dat4 (V8 m ρ) c).arrAt_in 1 rfl _).trans (A_eq4 (V8 m ρ) c 1))
theorem step_v0_10 (c : Dev nD) : W10 m ρ c (Proc.devRef .tc main_v0) = W9 m ρ c (Proc.devRef .tc main_v0) :=
  StableHlo.after_of_forall_not_mem (b := Proc.devRef .tc main_v0) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v0_11 (c : Dev nD) : W11 m ρ c (Proc.devRef .tc main_v0) = W10 m ρ c (Proc.devRef .tc main_v0) :=
  W11_of_ne m ρ c main_v0 (by decide)
theorem step_v0_12 (c : Dev nD) : W12 m ρ c (Proc.devRef .tc main_v0) = W11 m ρ c (Proc.devRef .tc main_v0) :=
  StableHlo.after_of_forall_not_mem (b := Proc.devRef .tc main_v0) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v0_13 (c : Dev nD) : W13 m ρ c (Proc.devRef .tc main_v0) = W12 m ρ c (Proc.devRef .tc main_v0) :=
  W13_of_ne m ρ c main_v0 (by decide)
theorem step_v0_14 (c : Dev nD) : W14 m ρ c (Proc.devRef .tc main_v0) = W13 m ρ c (Proc.devRef .tc main_v0) :=
  StableHlo.after_of_forall_not_mem (b := Proc.devRef .tc main_v0) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v0_15 (c : Dev nD) : W15 m ρ c (Proc.devRef .tc main_v0) = W14 m ρ c (Proc.devRef .tc main_v0) :=
  W15_of_ne m ρ c main_v0 (by decide)
theorem step_v4_2 (c : Dev nD) : W2 m ρ c (Proc.devRef .tc main_v4) = W1 m ρ c (Proc.devRef .tc main_v4) :=
  W2_of_ne m ρ c main_v4 (by decide)
theorem step_v4_3 (c : Dev nD) : W3 m ρ c (Proc.devRef .tc main_v4) = W2 m ρ c (Proc.devRef .tc main_v4) :=
  StableHlo.after_of_forall_not_mem (b := Proc.devRef .tc main_v4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v4_4 (c : Dev nD) : W4 m ρ c (Proc.devRef .tc main_v4) = W3 m ρ c (Proc.devRef .tc main_v4) :=
  (W4_arr m ρ c 3).trans (((dat1 (V3 m ρ) c).arrAt_in 3 rfl _).trans (A_eq1 (V3 m ρ) c 3))
theorem step_v4_5 (c : Dev nD) : W5 m ρ c (Proc.devRef .tc main_v4) = W4 m ρ c (Proc.devRef .tc main_v4) :=
  StableHlo.after_of_forall_not_mem (b := Proc.devRef .tc main_v4) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v4_6 (c : Dev nD) : W6 m ρ c (Proc.devRef .tc main_v4) = W5 m ρ c (Proc.devRef .tc main_v4) :=
  W6_of_ne m ρ c main_v4 (by decide)
theorem step_v4_7 (c : Dev nD) : W7 m ρ c (Proc.devRef .tc main_v4) = W6 m ρ c (Proc.devRef .tc main_v4) :=
  StableHlo.after_of_forall_not_mem (b := Proc.devRef .tc main_v4) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v4_8 (c : Dev nD) : W8 m ρ c (Proc.devRef .tc main_v4) = W7 m ρ c (Proc.devRef .tc main_v4) :=
  W8_of_ne m ρ c main_v4 (by decide)
theorem step_v4_9 (c : Dev nD) : W9 m ρ c (Proc.devRef .tc main_v4) = W8 m ρ c (Proc.devRef .tc main_v4) :=
  W9_of_ne m ρ c main_v4 (by decide)
theorem step_v4_10 (c : Dev nD) : W10 m ρ c (Proc.devRef .tc main_v4) = W9 m ρ c (Proc.devRef .tc main_v4) :=
  StableHlo.after_of_forall_not_mem (b := Proc.devRef .tc main_v4) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v4_11 (c : Dev nD) : W11 m ρ c (Proc.devRef .tc main_v4) = W10 m ρ c (Proc.devRef .tc main_v4) :=
  (W11_arr m ρ c 3).trans (((dat5 (V10 m ρ) c).arrAt_in 3 rfl _).trans (A_eq5 (V10 m ρ) c 3))
theorem step_v4_12 (c : Dev nD) : W12 m ρ c (Proc.devRef .tc main_v4) = W11 m ρ c (Proc.devRef .tc main_v4) :=
  StableHlo.after_of_forall_not_mem (b := Proc.devRef .tc main_v4) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v4_13 (c : Dev nD) : W13 m ρ c (Proc.devRef .tc main_v4) = W12 m ρ c (Proc.devRef .tc main_v4) :=
  W13_of_ne m ρ c main_v4 (by decide)
theorem step_v4_14 (c : Dev nD) : W14 m ρ c (Proc.devRef .tc main_v4) = W13 m ρ c (Proc.devRef .tc main_v4) :=
  StableHlo.after_of_forall_not_mem (b := Proc.devRef .tc main_v4) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v4_15 (c : Dev nD) : W15 m ρ c (Proc.devRef .tc main_v4) = W14 m ρ c (Proc.devRef .tc main_v4) :=
  W15_of_ne m ρ c main_v4 (by decide)
theorem step_v4_16 (c : Dev nD) : W16 m ρ c (Proc.devRef .tc main_v4) = W15 m ρ c (Proc.devRef .tc main_v4) :=
  W16_of_ne m ρ c main_v4 (by decide)
theorem step_v4_17 (c : Dev nD) : W17 m ρ c (Proc.devRef .tc main_v4) = W16 m ρ c (Proc.devRef .tc main_v4) :=
  StableHlo.after_of_forall_not_mem (b := Proc.devRef .tc main_v4) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v6_2 (c : Dev nD) : W2 m ρ c (Proc.devRef .tc main_v6) = W1 m ρ c (Proc.devRef .tc main_v6) :=
  W2_of_ne m ρ c main_v6 (by decide)
theorem step_v6_3 (c : Dev nD) : W3 m ρ c (Proc.devRef .tc main_v6) = W2 m ρ c (Proc.devRef .tc main_v6) :=
  StableHlo.after_of_forall_not_mem (b := Proc.devRef .tc main_v6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v6_4 (c : Dev nD) : W4 m ρ c (Proc.devRef .tc main_v6) = W3 m ρ c (Proc.devRef .tc main_v6) :=
  W4_of_ne m ρ c main_v6 (by decide)
theorem step_v6_5 (c : Dev nD) : W5 m ρ c (Proc.devRef .tc main_v6) = W4 m ρ c (Proc.devRef .tc main_v6) :=
  StableHlo.after_of_forall_not_mem (b := Proc.devRef .tc main_v6) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v6_6 (c : Dev nD) : W6 m ρ c (Proc.devRef .tc main_v6) = W5 m ρ c (Proc.devRef .tc main_v6) :=
  W6_of_ne m ρ c main_v6 (by decide)
theorem step_v6_7 (c : Dev nD) : W7 m ρ c (Proc.devRef .tc main_v6) = W6 m ρ c (Proc.devRef .tc main_v6) :=
  StableHlo.after_of_forall_not_mem (b := Proc.devRef .tc main_v6) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v6_8 (c : Dev nD) : W8 m ρ c (Proc.devRef .tc main_v6) = W7 m ρ c (Proc.devRef .tc main_v6) :=
  (W8_arr m ρ c 3).trans (((dat3 (V7 m ρ) c).arrAt_in 3 rfl _).trans (A_eq3 (V7 m ρ) c 3))
theorem step_v6_9 (c : Dev nD) : W9 m ρ c (Proc.devRef .tc main_v6) = W8 m ρ c (Proc.devRef .tc main_v6) :=
  W9_of_ne m ρ c main_v6 (by decide)
theorem step_v6_10 (c : Dev nD) : W10 m ρ c (Proc.devRef .tc main_v6) = W9 m ρ c (Proc.devRef .tc main_v6) :=
  StableHlo.after_of_forall_not_mem (b := Proc.devRef .tc main_v6) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v6_11 (c : Dev nD) : W11 m ρ c (Proc.devRef .tc main_v6) = W10 m ρ c (Proc.devRef .tc main_v6) :=
  W11_of_ne m ρ c main_v6 (by decide)
theorem step_v6_12 (c : Dev nD) : W12 m ρ c (Proc.devRef .tc main_v6) = W11 m ρ c (Proc.devRef .tc main_v6) :=
  StableHlo.after_of_forall_not_mem (b := Proc.devRef .tc main_v6) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v6_13 (c : Dev nD) : W13 m ρ c (Proc.devRef .tc main_v6) = W12 m ρ c (Proc.devRef .tc main_v6) :=
  W13_of_ne m ρ c main_v6 (by decide)
theorem step_v6_14 (c : Dev nD) : W14 m ρ c (Proc.devRef .tc main_v6) = W13 m ρ c (Proc.devRef .tc main_v6) :=
  StableHlo.after_of_forall_not_mem (b := Proc.devRef .tc main_v6) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v6_15 (c : Dev nD) : W15 m ρ c (Proc.devRef .tc main_v6) = W14 m ρ c (Proc.devRef .tc main_v6) :=
  (W15_arr m ρ c 3).trans (((dat7 (V14 m ρ) c).arrAt_in 3 rfl _).trans (A_eq7 (V14 m ρ) c 3))
theorem step_v6_16 (c : Dev nD) : W16 m ρ c (Proc.devRef .tc main_v6) = W15 m ρ c (Proc.devRef .tc main_v6) :=
  W16_of_ne m ρ c main_v6 (by decide)
theorem step_v6_17 (c : Dev nD) : W17 m ρ c (Proc.devRef .tc main_v6) = W16 m ρ c (Proc.devRef .tc main_v6) :=
  StableHlo.after_of_forall_not_mem (b := Proc.devRef .tc main_v6) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v6_18 (c : Dev nD) : W18 m ρ c (Proc.devRef .tc main_v6) = W17 m ρ c (Proc.devRef .tc main_v6) :=
  W18_of_ne m ρ c main_v6 (by decide)
theorem step_v6_19 (c : Dev nD) : W19 m ρ c (Proc.devRef .tc main_v6) = W18 m ρ c (Proc.devRef .tc main_v6) :=
  StableHlo.after_of_forall_not_mem (b := Proc.devRef .tc main_v6) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v6_20 (c : Dev nD) : W20 m ρ c (Proc.devRef .tc main_v6) = W19 m ρ c (Proc.devRef .tc main_v6) :=
  W20_of_ne m ρ c main_v6 (by decide)
theorem step_v6_21 (c : Dev nD) : W21 m ρ c (Proc.devRef .tc main_v6) = W20 m ρ c (Proc.devRef .tc main_v6) :=
  StableHlo.after_of_forall_not_mem (b := Proc.devRef .tc main_v6) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg21_1 (c : Dev nD) : W1 m ρ c (Proc.devRef .tc main_arg21) = W0 m ρ c (Proc.devRef .tc main_arg21) :=
  StableHlo.after_of_forall_not_mem (b := Proc.devRef .tc main_arg21) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg21_2 (c : Dev nD) : W2 m ρ c (Proc.devRef .tc main_arg21) = W1 m ρ c (Proc.devRef .tc main_arg21) :=
  W2_of_ne m ρ c main_arg21 (by decide)
theorem step_arg21_3 (c : Dev nD) : W3 m ρ c (Proc.devRef .tc main_arg21) = W2 m ρ c (Proc.devRef .tc main_arg21) :=
  StableHlo.after_of_forall_not_mem (b := Proc.devRef .tc main_arg21) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg21_4 (c : Dev nD) : W4 m ρ c (Proc.devRef .tc main_arg21) = W3 m ρ c (Proc.devRef .tc main_arg21) :=
  W4_of_ne m ρ c main_arg21 (by decide)
theorem step_arg21_5 (c : Dev nD) : W5 m ρ c (Proc.devRef .tc main_arg21) = W4 m ρ c (Proc.devRef .tc main_arg21) :=
  StableHlo.after_of_forall_not_mem (b := Proc.devRef .tc main_arg21) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg21_6 (c : Dev nD) : W6 m ρ c (Proc.devRef .tc main_arg21) = W5 m ρ c (Proc.devRef .tc main_arg21) :=
  W6_of_ne m ρ c main_arg21 (by decide)
theorem step_arg21_7 (c : Dev nD) : W7 m ρ c (Proc.devRef .tc main_arg21) = W6 m ρ c (Proc.devRef .tc main_arg21) :=
  StableHlo.after_of_forall_not_mem (b := Proc.devRef .tc main_arg21) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg21_8 (c : Dev nD) : W8 m ρ c (Proc.devRef .tc main_arg21) = W7 m ρ c (Proc.devRef .tc main_arg21) :=
  (W8_arr m ρ c 4).trans (((dat3 (V7 m ρ) c).arrAt_in 4 rfl _).trans (A_eq3 (V7 m ρ) c 4))
theorem step_arg21_9 (c : Dev nD) : W9 m ρ c (Proc.devRef .tc main_arg21) = W8 m ρ c (Proc.devRef .tc main_arg21) :=
  W9_of_ne m ρ c main_arg21 (by decide)
theorem step_arg21_10 (c : Dev nD) : W10 m ρ c (Proc.devRef .tc main_arg21) = W9 m ρ c (Proc.devRef .tc main_arg21) :=
  StableHlo.after_of_forall_not_mem (b := Proc.devRef .tc main_arg21) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg21_11 (c : Dev nD) : W11 m ρ c (Proc.devRef .tc main_arg21) = W10 m ρ c (Proc.devRef .tc main_arg21) :=
  W11_of_ne m ρ c main_arg21 (by decide)
theorem step_arg21_12 (c : Dev nD) : W12 m ρ c (Proc.devRef .tc main_arg21) = W11 m ρ c (Proc.devRef .tc main_arg21) :=
  StableHlo.after_of_forall_not_mem (b := Proc.devRef .tc main_arg21) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg21_13 (c : Dev nD) : W13 m ρ c (Proc.devRef .tc main_arg21) = W12 m ρ c (Proc.devRef .tc main_arg21) :=
  W13_of_ne m ρ c main_arg21 (by decide)
theorem step_arg21_14 (c : Dev nD) : W14 m ρ c (Proc.devRef .tc main_arg21) = W13 m ρ c (Proc.devRef .tc main_arg21) :=
  StableHlo.after_of_forall_not_mem (b := Proc.devRef .tc main_arg21) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg21_15 (c : Dev nD) : W15 m ρ c (Proc.devRef .tc main_arg21) = W14 m ρ c (Proc.devRef .tc main_arg21) :=
  (W15_arr m ρ c 4).trans (((dat7 (V14 m ρ) c).arrAt_in 4 rfl _).trans (A_eq7 (V14 m ρ) c 4))
theorem step_arg21_16 (c : Dev nD) : W16 m ρ c (Proc.devRef .tc main_arg21) = W15 m ρ c (Proc.devRef .tc main_arg21) :=
  W16_of_ne m ρ c main_arg21 (by decide)
theorem step_arg21_17 (c : Dev nD) : W17 m ρ c (Proc.devRef .tc main_arg21) = W16 m ρ c (Proc.devRef .tc main_arg21) :=
  StableHlo.after_of_forall_not_mem (b := Proc.devRef .tc main_arg21) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg21_18 (c : Dev nD) : W18 m ρ c (Proc.devRef .tc main_arg21) = W17 m ρ c (Proc.devRef .tc main_arg21) :=
  W18_of_ne m ρ c main_arg21 (by decide)
theorem step_arg21_19 (c : Dev nD) : W19 m ρ c (Proc.devRef .tc main_arg21) = W18 m ρ c (Proc.devRef .tc main_arg21) :=
  StableHlo.after_of_forall_not_mem (b := Proc.devRef .tc main_arg21) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg21_20 (c : Dev nD) : W20 m ρ c (Proc.devRef .tc main_arg21) = W19 m ρ c (Proc.devRef .tc main_arg21) :=
  W20_of_ne m ρ c main_arg21 (by decide)
theorem step_arg21_21 (c : Dev nD) : W21 m ρ c (Proc.devRef .tc main_arg21) = W20 m ρ c (Proc.devRef .tc main_arg21) :=
  StableHlo.after_of_forall_not_mem (b := Proc.devRef .tc main_arg21) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg2_1 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg2_2 (c : Dev nD) : W2 m ρ c (Proc.devRef .tc main_arg2) = W1 m ρ c (Proc.devRef .tc main_arg2) :=
  W2_of_ne m ρ c main_arg2 (by decide)
theorem step_arg2_3 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg2_4 (c : Dev nD) : W4 m ρ c (Proc.devRef .tc main_arg2) = W3 m ρ c (Proc.devRef .tc main_arg2) :=
  W4_of_ne m ρ c main_arg2 (by decide)
theorem step_arg2_5 (c : Dev nD) : W5 m ρ c (Proc.devRef .tc main_arg2) = W4 m ρ c (Proc.devRef .tc main_arg2) :=
  StableHlo.after_of_forall_not_mem (b := Proc.devRef .tc main_arg2) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg2_6 (c : Dev nD) : W6 m ρ c (Proc.devRef .tc main_arg2) = W5 m ρ c (Proc.devRef .tc main_arg2) :=
  W6_of_ne m ρ c main_arg2 (by decide)
theorem step_arg5_1 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg5_2 (c : Dev nD) : W2 m ρ c (Proc.devRef .tc main_arg5) = W1 m ρ c (Proc.devRef .tc main_arg5) :=
  W2_of_ne m ρ c main_arg5 (by decide)
theorem step_arg5_3 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg5_4 (c : Dev nD) : W4 m ρ c (Proc.devRef .tc main_arg5) = W3 m ρ c (Proc.devRef .tc main_arg5) :=
  W4_of_ne m ρ c main_arg5 (by decide)
theorem step_arg5_5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg5_6 (c : Dev nD) : W6 m ρ c (Proc.devRef .tc main_arg5) = W5 m ρ c (Proc.devRef .tc main_arg5) :=
  W6_of_ne m ρ c main_arg5 (by decide)
theorem step_arg5_7 (c : Dev nD) : W7 m ρ c (Proc.devRef .tc main_arg5) = W6 m ρ c (Proc.devRef .tc main_arg5) :=
  StableHlo.after_of_forall_not_mem (b := Proc.devRef .tc main_arg5) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg5_8 (c : Dev nD) : W8 m ρ c (Proc.devRef .tc main_arg5) = W7 m ρ c (Proc.devRef .tc main_arg5) :=
  W8_of_ne m ρ c main_arg5 (by decide)
theorem step_arg5_9 (c : Dev nD) : W9 m ρ c (Proc.devRef .tc main_arg5) = W8 m ρ c (Proc.devRef .tc main_arg5) :=
  (W9_arr m ρ c 0).trans (((dat4 (V8 m ρ) c).arrAt_in 0 rfl _).trans (A_eq4 (V8 m ρ) c 0))
theorem step_arg5_10 (c : Dev nD) : W10 m ρ c (Proc.devRef .tc main_arg5) = W9 m ρ c (Proc.devRef .tc main_arg5) :=
  StableHlo.after_of_forall_not_mem (b := Proc.devRef .tc main_arg5) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg5_11 (c : Dev nD) : W11 m ρ c (Proc.devRef .tc main_arg5) = W10 m ρ c (Proc.devRef .tc main_arg5) :=
  W11_of_ne m ρ c main_arg5 (by decide)
theorem step_arg5_12 (c : Dev nD) : W12 m ρ c (Proc.devRef .tc main_arg5) = W11 m ρ c (Proc.devRef .tc main_arg5) :=
  StableHlo.after_of_forall_not_mem (b := Proc.devRef .tc main_arg5) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg5_13 (c : Dev nD) : W13 m ρ c (Proc.devRef .tc main_arg5) = W12 m ρ c (Proc.devRef .tc main_arg5) :=
  W13_of_ne m ρ c main_arg5 (by decide)
theorem step_arg5_14 (c : Dev nD) : W14 m ρ c (Proc.devRef .tc main_arg5) = W13 m ρ c (Proc.devRef .tc main_arg5) :=
  StableHlo.after_of_forall_not_mem (b := Proc.devRef .tc main_arg5) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg8_1 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg8_2 (c : Dev nD) : W2 m ρ c (Proc.devRef .tc main_arg8) = W1 m ρ c (Proc.devRef .tc main_arg8) :=
  W2_of_ne m ρ c main_arg8 (by decide)
theorem step_arg8_3 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg8_4 (c : Dev nD) : W4 m ρ c (Proc.devRef .tc main_arg8) = W3 m ρ c (Proc.devRef .tc main_arg8) :=
  W4_of_ne m ρ c main_arg8 (by decide)
theorem step_arg8_5 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg8_6 (c : Dev nD) : W6 m ρ c (Proc.devRef .tc main_arg8) = W5 m ρ c (Proc.devRef .tc main_arg8) :=
  W6_of_ne m ρ c main_arg8 (by decide)
theorem step_arg8_7 (c : Dev nD) : W7 m ρ c (Proc.devRef .tc main_arg8) = W6 m ρ c (Proc.devRef .tc main_arg8) :=
  StableHlo.after_of_forall_not_mem (b := Proc.devRef .tc main_arg8) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg8_8 (c : Dev nD) : W8 m ρ c (Proc.devRef .tc main_arg8) = W7 m ρ c (Proc.devRef .tc main_arg8) :=
  W8_of_ne m ρ c main_arg8 (by decide)
theorem step_arg8_9 (c : Dev nD) : W9 m ρ c (Proc.devRef .tc main_arg8) = W8 m ρ c (Proc.devRef .tc main_arg8) :=
  W9_of_ne m ρ c main_arg8 (by decide)
theorem step_arg8_10 (c : Dev nD) : W10 m ρ c (Proc.devRef .tc main_arg8) = W9 m ρ c (Proc.devRef .tc main_arg8) :=
  StableHlo.after_of_forall_not_mem (b := Proc.devRef .tc main_arg8) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg11_1 (c : Dev nD) : W1 m ρ c (Proc.devRef .tc main_arg11) = W0 m ρ c (Proc.devRef .tc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg11_2 (c : Dev nD) : W2 m ρ c (Proc.devRef .tc main_arg11) = W1 m ρ c (Proc.devRef .tc main_arg11) :=
  W2_of_ne m ρ c main_arg11 (by decide)
theorem step_arg11_3 (c : Dev nD) : W3 m ρ c (Proc.devRef .tc main_arg11) = W2 m ρ c (Proc.devRef .tc main_arg11) :=
  StableHlo.after_of_forall_not_mem (b := Proc.devRef .tc main_arg11) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg11_4 (c : Dev nD) : W4 m ρ c (Proc.devRef .tc main_arg11) = W3 m ρ c (Proc.devRef .tc main_arg11) :=
  W4_of_ne m ρ c main_arg11 (by decide)
theorem step_arg11_5 (c : Dev nD) : W5 m ρ c (Proc.devRef .tc main_arg11) = W4 m ρ c (Proc.devRef .tc main_arg11) :=
  StableHlo.after_of_forall_not_mem (b := Proc.devRef .tc main_arg11) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg11_6 (c : Dev nD) : W6 m ρ c (Proc.devRef .tc main_arg11) = W5 m ρ c (Proc.devRef .tc main_arg11) :=
  W6_of_ne m ρ c main_arg11 (by decide)
theorem step_arg11_7 (c : Dev nD) : W7 m ρ c (Proc.devRef .tc main_arg11) = W6 m ρ c (Proc.devRef .tc main_arg11) :=
  StableHlo.after_of_forall_not_mem (b := Proc.devRef .tc main_arg11) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg11_8 (c : Dev nD) : W8 m ρ c (Proc.devRef .tc main_arg11) = W7 m ρ c (Proc.devRef .tc main_arg11) :=
  W8_of_ne m ρ c main_arg11 (by decide)
theorem step_arg11_9 (c : Dev nD) : W9 m ρ c (Proc.devRef .tc main_arg11) = W8 m ρ c (Proc.devRef .tc main_arg11) :=
  W9_of_ne m ρ c main_arg11 (by decide)
theorem step_arg11_10 (c : Dev nD) : W10 m ρ c (Proc.devRef .tc main_arg11) = W9 m ρ c (Proc.devRef .tc main_arg11) :=
  StableHlo.after_of_forall_not_mem (b := Proc.devRef .tc main_arg11) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg11_11 (c : Dev nD) : W11 m ρ c (Proc.devRef .tc main_arg11) = W10 m ρ c (Proc.devRef .tc main_arg11) :=
  W11_of_ne m ρ c main_arg11 (by decide)
theorem step_arg11_12 (c : Dev nD) : W12 m ρ c (Proc.devRef .tc main_arg11) = W11 m ρ c (Proc.devRef .tc main_arg11) :=
  StableHlo.after_of_forall_not_mem (b := Proc.devRef .tc main_arg11) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg11_13 (c : Dev nD) : W13 m ρ c (Proc.devRef .tc main_arg11) = W12 m ρ c (Proc.devRef .tc main_arg11) :=
  W13_of_ne m ρ c main_arg11 (by decide)
theorem step_arg11_14 (c : Dev nD) : W14 m ρ c (Proc.devRef .tc main_arg11) = W13 m ρ c (Proc.devRef .tc main_arg11) :=
  StableHlo.after_of_forall_not_mem (b := Proc.devRef .tc main_arg11) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg11_15 (c : Dev nD) : W15 m ρ c (Proc.devRef .tc main_arg11) = W14 m ρ c (Proc.devRef .tc main_arg11) :=
  W15_of_ne m ρ c main_arg11 (by decide)
theorem step_arg11_16 (c : Dev nD) : W16 m ρ c (Proc.devRef .tc main_arg11) = W15 m ρ c (Proc.devRef .tc main_arg11) :=
  W16_of_ne m ρ c main_arg11 (by decide)
theorem step_arg11_17 (c : Dev nD) : W17 m ρ c (Proc.devRef .tc main_arg11) = W16 m ρ c (Proc.devRef .tc main_arg11) :=
  StableHlo.after_of_forall_not_mem (b := Proc.devRef .tc main_arg11) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg11_18 (c : Dev nD) : W18 m ρ c (Proc.devRef .tc main_arg11) = W17 m ρ c (Proc.devRef .tc main_arg11) :=
  W18_of_ne m ρ c main_arg11 (by decide)
theorem step_arg11_19 (c : Dev nD) : W19 m ρ c (Proc.devRef .tc main_arg11) = W18 m ρ c (Proc.devRef .tc main_arg11) :=
  StableHlo.after_of_forall_not_mem (b := Proc.devRef .tc main_arg11) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg11_20 (c : Dev nD) : W20 m ρ c (Proc.devRef .tc main_arg11) = W19 m ρ c (Proc.devRef .tc main_arg11) :=
  W20_of_ne m ρ c main_arg11 (by decide)
theorem step_arg14_1 (c : Dev nD) : W1 m ρ c (Proc.devRef .tc main_arg14) = W0 m ρ c (Proc.devRef .tc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg14_2 (c : Dev nD) : W2 m ρ c (Proc.devRef .tc main_arg14) = W1 m ρ c (Proc.devRef .tc main_arg14) :=
  W2_of_ne m ρ c main_arg14 (by decide)
theorem step_arg14_3 (c : Dev nD) : W3 m ρ c (Proc.devRef .tc main_arg14) = W2 m ρ c (Proc.devRef .tc main_arg14) :=
  StableHlo.after_of_forall_not_mem (b := Proc.devRef .tc main_arg14) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg14_4 (c : Dev nD) : W4 m ρ c (Proc.devRef .tc main_arg14) = W3 m ρ c (Proc.devRef .tc main_arg14) :=
  W4_of_ne m ρ c main_arg14 (by decide)
theorem step_arg14_5 (c : Dev nD) : W5 m ρ c (Proc.devRef .tc main_arg14) = W4 m ρ c (Proc.devRef .tc main_arg14) :=
  StableHlo.after_of_forall_not_mem (b := Proc.devRef .tc main_arg14) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg14_6 (c : Dev nD) : W6 m ρ c (Proc.devRef .tc main_arg14) = W5 m ρ c (Proc.devRef .tc main_arg14) :=
  W6_of_ne m ρ c main_arg14 (by decide)
theorem step_arg14_7 (c : Dev nD) : W7 m ρ c (Proc.devRef .tc main_arg14) = W6 m ρ c (Proc.devRef .tc main_arg14) :=
  StableHlo.after_of_forall_not_mem (b := Proc.devRef .tc main_arg14) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg14_8 (c : Dev nD) : W8 m ρ c (Proc.devRef .tc main_arg14) = W7 m ρ c (Proc.devRef .tc main_arg14) :=
  W8_of_ne m ρ c main_arg14 (by decide)
theorem step_arg14_9 (c : Dev nD) : W9 m ρ c (Proc.devRef .tc main_arg14) = W8 m ρ c (Proc.devRef .tc main_arg14) :=
  W9_of_ne m ρ c main_arg14 (by decide)
theorem step_arg14_10 (c : Dev nD) : W10 m ρ c (Proc.devRef .tc main_arg14) = W9 m ρ c (Proc.devRef .tc main_arg14) :=
  StableHlo.after_of_forall_not_mem (b := Proc.devRef .tc main_arg14) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg14_11 (c : Dev nD) : W11 m ρ c (Proc.devRef .tc main_arg14) = W10 m ρ c (Proc.devRef .tc main_arg14) :=
  W11_of_ne m ρ c main_arg14 (by decide)
theorem step_arg14_12 (c : Dev nD) : W12 m ρ c (Proc.devRef .tc main_arg14) = W11 m ρ c (Proc.devRef .tc main_arg14) :=
  StableHlo.after_of_forall_not_mem (b := Proc.devRef .tc main_arg14) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg14_13 (c : Dev nD) : W13 m ρ c (Proc.devRef .tc main_arg14) = W12 m ρ c (Proc.devRef .tc main_arg14) :=
  W13_of_ne m ρ c main_arg14 (by decide)
theorem step_arg14_14 (c : Dev nD) : W14 m ρ c (Proc.devRef .tc main_arg14) = W13 m ρ c (Proc.devRef .tc main_arg14) :=
  StableHlo.after_of_forall_not_mem (b := Proc.devRef .tc main_arg14) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg14_15 (c : Dev nD) : W15 m ρ c (Proc.devRef .tc main_arg14) = W14 m ρ c (Proc.devRef .tc main_arg14) :=
  W15_of_ne m ρ c main_arg14 (by decide)
theorem step_arg14_16 (c : Dev nD) : W16 m ρ c (Proc.devRef .tc main_arg14) = W15 m ρ c (Proc.devRef .tc main_arg14) :=
  W16_of_ne m ρ c main_arg14 (by decide)
theorem step_arg14_17 (c : Dev nD) : W17 m ρ c (Proc.devRef .tc main_arg14) = W16 m ρ c (Proc.devRef .tc main_arg14) :=
  StableHlo.after_of_forall_not_mem (b := Proc.devRef .tc main_arg14) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg14_18 (c : Dev nD) : W18 m ρ c (Proc.devRef .tc main_arg14) = W17 m ρ c (Proc.devRef .tc main_arg14) :=
  W18_of_ne m ρ c main_arg14 (by decide)
theorem step_arg14_19 (c : Dev nD) : W19 m ρ c (Proc.devRef .tc main_arg14) = W18 m ρ c (Proc.devRef .tc main_arg14) :=
  StableHlo.after_of_forall_not_mem (b := Proc.devRef .tc main_arg14) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v39_1_10 (c : Dev nD) : W10 m ρ c (Proc.devRef .tc main_v39_1) = W9 m ρ c (Proc.devRef .tc main_v39_1) :=
  StableHlo.after_of_forall_not_mem (b := Proc.devRef .tc main_v39_1) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v39_1_11 (c : Dev nD) : W11 m ρ c (Proc.devRef .tc main_v39_1) = W10 m ρ c (Proc.devRef .tc main_v39_1) :=
  W11_of_ne m ρ c main_v39_1 (by decide)
theorem step_v80_19 (c : Dev nD) : W19 m ρ c (Proc.devRef .tc main_v80) = W18 m ρ c (Proc.devRef .tc main_v80) :=
  StableHlo.after_of_forall_not_mem (b := Proc.devRef .tc main_v80) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v80_20 (c : Dev nD) : W20 m ρ c (Proc.devRef .tc main_v80) = W19 m ρ c (Proc.devRef .tc main_v80) :=
  W20_of_ne m ρ c main_v80 (by decide)

end Cert.KernelIdeal.Fold

end
-- ==== Proof.FoldSteps1.lean ====
/-
  Buffers a segment leaves alone.

  The fold through @main's segments changes a buffer only at the host operation that defines it or at the kernel
  launch that has it as an output.  Each lemma here says that one segment leaves one buffer as it found it: a
  stretch of host operations none of which writes the buffer, a launch that does not have the buffer among its
  arrays, or a launch that only reads it through an input window.
-/
import proofs.«121345_j4372276707359_2_alg».proof.Proof.Gen.KernelIdeal.Frame

set_option maxRecDepth 16384

noncomputable section

namespace Cert.KernelIdeal.Fold

open Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem step_v2_2 (c : Dev nD) : W2 m ρ c (Proc.devRef .tc main_v2) = W1 m ρ c (Proc.devRef .tc main_v2) :=
  (W2_arr m ρ c 2).trans (((dat0 (V1 m ρ) c).arrAt_in 2 rfl _).trans (A_eq0 (V1 m ρ) c 2))
theorem step_v2_3 (c : Dev nD) : W3 m ρ c (Proc.devRef .tc main_v2) = W2 m ρ c (Proc.devRef .tc main_v2) :=
  StableHlo.after_of_forall_not_mem (b := Proc.devRef .tc main_v2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v2_4 (c : Dev nD) : W4 m ρ c (Proc.devRef .tc main_v2) = W3 m ρ c (Proc.devRef .tc main_v2) :=
  W4_of_ne m ρ c main_v2 (by decide)
theorem step_v2_5 (c : Dev nD) : W5 m ρ c (Proc.devRef .tc main_v2) = W4 m ρ c (Proc.devRef .tc main_v2) :=
  StableHlo.after_of_forall_not_mem (b := Proc.devRef .tc main_v2) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v2_6 (c : Dev nD) : W6 m ρ c (Proc.devRef .tc main_v2) = W5 m ρ c (Proc.devRef .tc main_v2) :=
  W6_of_ne m ρ c main_v2 (by decide)
theorem step_v2_7 (c : Dev nD) : W7 m ρ c (Proc.devRef .tc main_v2) = W6 m ρ c (Proc.devRef .tc main_v2) :=
  StableHlo.after_of_forall_not_mem (b := Proc.devRef .tc main_v2) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v2_8 (c : Dev nD) : W8 m ρ c (Proc.devRef .tc main_v2) = W7 m ρ c (Proc.devRef .tc main_v2) :=
  W8_of_ne m ρ c main_v2 (by decide)
theorem step_v2_9 (c : Dev nD) : W9 m ρ c (Proc.devRef .tc main_v2) = W8 m ρ c (Proc.devRef .tc main_v2) :=
  (W9_arr m ρ c 2).trans (((dat4 (V8 m ρ) c).arrAt_in 2 rfl _).trans (A_eq4 (V8 m ρ) c 2))
theorem step_v2_10 (c : Dev nD) : W10 m ρ c (Proc.devRef .tc main_v2) = W9 m ρ c (Proc.devRef .tc main_v2) :=
  StableHlo.after_of_forall_not_mem (b := Proc.devRef .tc main_v2) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v2_11 (c : Dev nD) : W11 m ρ c (Proc.devRef .tc main_v2) = W10 m ρ c (Proc.devRef .tc main_v2) :=
  W11_of_ne m ρ c main_v2 (by decide)
theorem step_v2_12 (c : Dev nD) : W12 m ρ c (Proc.devRef .tc main_v2) = W11 m ρ c (Proc.devRef .tc main_v2) :=
  StableHlo.after_of_forall_not_mem (b := Proc.devRef .tc main_v2) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v2_13 (c : Dev nD) : W13 m ρ c (Proc.devRef .tc main_v2) = W12 m ρ c (Proc.devRef .tc main_v2) :=
  W13_of_ne m ρ c main_v2 (by decide)
theorem step_v2_14 (c : Dev nD) : W14 m ρ c (Proc.devRef .tc main_v2) = W13 m ρ c (Proc.devRef .tc main_v2) :=
  StableHlo.after_of_forall_not_mem (b := Proc.devRef .tc main_v2) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v2_15 (c : Dev nD) : W15 m ρ c (Proc.devRef .tc main_v2) = W14 m ρ c (Proc.devRef .tc main_v2) :=
  W15_of_ne m ρ c main_v2 (by decide)
theorem step_v3_2 (c : Dev nD) : W2 m ρ c (Proc.devRef .tc main_v3) = W1 m ρ c (Proc.devRef .tc main_v3) :=
  W2_of_ne m ρ c main_v3 (by decide)
theorem step_v3_3 (c : Dev nD) : W3 m ρ c (Proc.devRef .tc main_v3) = W2 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v3_4 (c : Dev nD) : W4 m ρ c (Proc.devRef .tc main_v3) = W3 m ρ c (Proc.devRef .tc main_v3) :=
  W4_of_ne m ρ c main_v3 (by decide)
theorem step_v3_5 (c : Dev nD) : W5 m ρ c (Proc.devRef .tc main_v3) = W4 m ρ c (Proc.devRef .tc main_v3) :=
  StableHlo.after_of_forall_not_mem (b := Proc.devRef .tc main_v3) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v3_6 (c : Dev nD) : W6 m ρ c (Proc.devRef .tc main_v3) = W5 m ρ c (Proc.devRef .tc main_v3) :=
  (W6_arr m ρ c 2).trans (((dat2 (V5 m ρ) c).arrAt_in 2 rfl _).trans (A_eq2 (V5 m ρ) c 2))
theorem step_v3_7 (c : Dev nD) : W7 m ρ c (Proc.devRef .tc main_v3) = W6 m ρ c (Proc.devRef .tc main_v3) :=
  StableHlo.after_of_forall_not_mem (b := Proc.devRef .tc main_v3) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v3_8 (c : Dev nD) : W8 m ρ c (Proc.devRef .tc main_v3) = W7 m ρ c (Proc.devRef .tc main_v3) :=
  W8_of_ne m ρ c main_v3 (by decide)
theorem step_v3_9 (c : Dev nD) : W9 m ρ c (Proc.devRef .tc main_v3) = W8 m ρ c (Proc.devRef .tc main_v3) :=
  W9_of_ne m ρ c main_v3 (by decide)
theorem step_v3_10 (c : Dev nD) : W10 m ρ c (Proc.devRef .tc main_v3) = W9 m ρ c (Proc.devRef .tc main_v3) :=
  StableHlo.after_of_forall_not_mem (b := Proc.devRef .tc main_v3) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v3_11 (c : Dev nD) : W11 m ρ c (Proc.devRef .tc main_v3) = W10 m ρ c (Proc.devRef .tc main_v3) :=
  W11_of_ne m ρ c main_v3 (by decide)
theorem step_v3_12 (c : Dev nD) : W12 m ρ c (Proc.devRef .tc main_v3) = W11 m ρ c (Proc.devRef .tc main_v3) :=
  StableHlo.after_of_forall_not_mem (b := Proc.devRef .tc main_v3) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v3_13 (c : Dev nD) : W13 m ρ c (Proc.devRef .tc main_v3) = W12 m ρ c (Proc.devRef .tc main_v3) :=
  (W13_arr m ρ c 2).trans (((dat6 (V12 m ρ) c).arrAt_in 2 rfl _).trans (A_eq6 (V12 m ρ) c 2))
theorem step_v3_14 (c : Dev nD) : W14 m ρ c (Proc.devRef .tc main_v3) = W13 m ρ c (Proc.devRef .tc main_v3) :=
  StableHlo.after_of_forall_not_mem (b := Proc.devRef .tc main_v3) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v3_15 (c : Dev nD) : W15 m ρ c (Proc.devRef .tc main_v3) = W14 m ρ c (Proc.devRef .tc main_v3) :=
  W15_of_ne m ρ c main_v3 (by decide)
theorem step_v3_16 (c : Dev nD) : W16 m ρ c (Proc.devRef .tc main_v3) = W15 m ρ c (Proc.devRef .tc main_v3) :=
  W16_of_ne m ρ c main_v3 (by decide)
theorem step_v3_17 (c : Dev nD) : W17 m ρ c (Proc.devRef .tc main_v3) = W16 m ρ c (Proc.devRef .tc main_v3) :=
  StableHlo.after_of_forall_not_mem (b := Proc.devRef .tc main_v3) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v3_18 (c : Dev nD) : W18 m ρ c (Proc.devRef .tc main_v3) = W17 m ρ c (Proc.devRef .tc main_v3) :=
  W18_of_ne m ρ c main_v3 (by decide)
theorem step_v3_19 (c : Dev nD) : W19 m ρ c (Proc.devRef .tc main_v3) = W18 m ρ c (Proc.devRef .tc main_v3) :=
  StableHlo.after_of_forall_not_mem (b := Proc.devRef .tc main_v3) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v7_2 (c : Dev nD) : W2 m ρ c (Proc.devRef .tc main_v7) = W1 m ρ c (Proc.devRef .tc main_v7) :=
  W2_of_ne m ρ c main_v7 (by decide)
theorem step_v7_3 (c : Dev nD) : W3 m ρ c (Proc.devRef .tc main_v7) = W2 m ρ c (Proc.devRef .tc main_v7) :=
  StableHlo.after_of_forall_not_mem (b := Proc.devRef .tc main_v7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v7_4 (c : Dev nD) : W4 m ρ c (Proc.devRef .tc main_v7) = W3 m ρ c (Proc.devRef .tc main_v7) :=
  W4_of_ne m ρ c main_v7 (by decide)
theorem step_v7_5 (c : Dev nD) : W5 m ρ c (Proc.devRef .tc main_v7) = W4 m ρ c (Proc.devRef .tc main_v7) :=
  StableHlo.after_of_forall_not_mem (b := Proc.devRef .tc main_v7) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v7_6 (c : Dev nD) : W6 m ρ c (Proc.devRef .tc main_v7) = W5 m ρ c (Proc.devRef .tc main_v7) :=
  W6_of_ne m ρ c main_v7 (by decide)
theorem step_v7_7 (c : Dev nD) : W7 m ρ c (Proc.devRef .tc main_v7) = W6 m ρ c (Proc.devRef .tc main_v7) :=
  StableHlo.after_of_forall_not_mem (b := Proc.devRef .tc main_v7) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v7_8 (c : Dev nD) : W8 m ρ c (Proc.devRef .tc main_v7) = W7 m ρ c (Proc.devRef .tc main_v7) :=
  (W8_arr m ρ c 5).trans (((dat3 (V7 m ρ) c).arrAt_in 5 rfl _).trans (A_eq3 (V7 m ρ) c 5))
theorem step_v7_9 (c : Dev nD) : W9 m ρ c (Proc.devRef .tc main_v7) = W8 m ρ c (Proc.devRef .tc main_v7) :=
  W9_of_ne m ρ c main_v7 (by decide)
theorem step_v7_10 (c : Dev nD) : W10 m ρ c (Proc.devRef .tc main_v7) = W9 m ρ c (Proc.devRef .tc main_v7) :=
  StableHlo.after_of_forall_not_mem (b := Proc.devRef .tc main_v7) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v7_11 (c : Dev nD) : W11 m ρ c (Proc.devRef .tc main_v7) = W10 m ρ c (Proc.devRef .tc main_v7) :=
  W11_of_ne m ρ c main_v7 (by decide)
theorem step_v7_12 (c : Dev nD) : W12 m ρ c (Proc.devRef .tc main_v7) = W11 m ρ c (Proc.devRef .tc main_v7) :=
  StableHlo.after_of_forall_not_mem (b := Proc.devRef .tc main_v7) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v7_13 (c : Dev nD) : W13 m ρ c (Proc.devRef .tc main_v7) = W12 m ρ c (Proc.devRef .tc main_v7) :=
  W13_of_ne m ρ c main_v7 (by decide)
theorem step_v7_14 (c : Dev nD) : W14 m ρ c (Proc.devRef .tc main_v7) = W13 m ρ c (Proc.devRef .tc main_v7) :=
  StableHlo.after_of_forall_not_mem (b := Proc.devRef .tc main_v7) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v7_15 (c : Dev nD) : W15 m ρ c (Proc.devRef .tc main_v7) = W14 m ρ c (Proc.devRef .tc main_v7) :=
  (W15_arr m ρ c 5).trans (((dat7 (V14 m ρ) c).arrAt_in 5 rfl _).trans (A_eq7 (V14 m ρ) c 5))
theorem step_v7_16 (c : Dev nD) : W16 m ρ c (Proc.devRef .tc main_v7) = W15 m ρ c (Proc.devRef .tc main_v7) :=
  W16_of_ne m ρ c main_v7 (by decide)
theorem step_v7_17 (c : Dev nD) : W17 m ρ c (Proc.devRef .tc main_v7) = W16 m ρ c (Proc.devRef .tc main_v7) :=
  StableHlo.after_of_forall_not_mem (b := Proc.devRef .tc main_v7) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v7_18 (c : Dev nD) : W18 m ρ c (Proc.devRef .tc main_v7) = W17 m ρ c (Proc.devRef .tc main_v7) :=
  W18_of_ne m ρ c main_v7 (by decide)
theorem step_v7_19 (c : Dev nD) : W19 m ρ c (Proc.devRef .tc main_v7) = W18 m ρ c (Proc.devRef .tc main_v7) :=
  StableHlo.after_of_forall_not_mem (b := Proc.devRef .tc main_v7) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v7_20 (c : Dev nD) : W20 m ρ c (Proc.devRef .tc main_v7) = W19 m ρ c (Proc.devRef .tc main_v7) :=
  W20_of_ne m ρ c main_v7 (by decide)
theorem step_v7_21 (c : Dev nD) : W21 m ρ c (Proc.devRef .tc main_v7) = W20 m ρ c (Proc.devRef .tc main_v7) :=
  StableHlo.after_of_forall_not_mem (b := Proc.devRef .tc main_v7) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg0_1 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg0_2 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem step_arg0_3 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg0_4 (c : Dev nD) : W4 m ρ c (Proc.devRef .tc main_arg0) = W3 m ρ c (Proc.devRef .tc main_arg0) :=
  W4_of_ne m ρ c main_arg0 (by decide)
theorem step_arg0_5 (c : Dev nD) : W5 m ρ c (Proc.devRef .tc main_arg0) = W4 m ρ c (Proc.devRef .tc main_arg0) :=
  StableHlo.after_of_forall_not_mem (b := Proc.devRef .tc main_arg0) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg0_6 (c : Dev nD) : W6 m ρ c (Proc.devRef .tc main_arg0) = W5 m ρ c (Proc.devRef .tc main_arg0) :=
  W6_of_ne m ρ c main_arg0 (by decide)
theorem step_arg0_7 (c : Dev nD) : W7 m ρ c (Proc.devRef .tc main_arg0) = W6 m ρ c (Proc.devRef .tc main_arg0) :=
  StableHlo.after_of_forall_not_mem (b := Proc.devRef .tc main_arg0) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg3_1 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg3_2 (c : Dev nD) : W2 m ρ c (Proc.devRef .tc main_arg3) = W1 m ρ c (Proc.devRef .tc main_arg3) :=
  W2_of_ne m ρ c main_arg3 (by decide)
theorem step_arg3_3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg6_1 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg6_2 (c : Dev nD) : W2 m ρ c (Proc.devRef .tc main_arg6) = W1 m ρ c (Proc.devRef .tc main_arg6) :=
  W2_of_ne m ρ c main_arg6 (by decide)
theorem step_arg6_3 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg6_4 (c : Dev nD) : W4 m ρ c (Proc.devRef .tc main_arg6) = W3 m ρ c (Proc.devRef .tc main_arg6) :=
  W4_of_ne m ρ c main_arg6 (by decide)
theorem step_arg6_5 (c : Dev nD) : W5 m ρ c (Proc.devRef .tc main_arg6) = W4 m ρ c (Proc.devRef .tc main_arg6) :=
  StableHlo.after_of_forall_not_mem (b := Proc.devRef .tc main_arg6) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg6_6 (c : Dev nD) : W6 m ρ c (Proc.devRef .tc main_arg6) = W5 m ρ c (Proc.devRef .tc main_arg6) :=
  W6_of_ne m ρ c main_arg6 (by decide)
theorem step_arg6_7 (c : Dev nD) : W7 m ρ c (Proc.devRef .tc main_arg6) = W6 m ρ c (Proc.devRef .tc main_arg6) :=
  StableHlo.after_of_forall_not_mem (b := Proc.devRef .tc main_arg6) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg6_8 (c : Dev nD) : W8 m ρ c (Proc.devRef .tc main_arg6) = W7 m ρ c (Proc.devRef .tc main_arg6) :=
  W8_of_ne m ρ c main_arg6 (by decide)
theorem step_arg6_9 (c : Dev nD) : W9 m ρ c (Proc.devRef .tc main_arg6) = W8 m ρ c (Proc.devRef .tc main_arg6) :=
  W9_of_ne m ρ c main_arg6 (by decide)
theorem step_arg6_10 (c : Dev nD) : W10 m ρ c (Proc.devRef .tc main_arg6) = W9 m ρ c (Proc.devRef .tc main_arg6) :=
  StableHlo.after_of_forall_not_mem (b := Proc.devRef .tc main_arg6) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg6_11 (c : Dev nD) : W11 m ρ c (Proc.devRef .tc main_arg6) = W10 m ρ c (Proc.devRef .tc main_arg6) :=
  W11_of_ne m ρ c main_arg6 (by decide)
theorem step_arg6_12 (c : Dev nD) : W12 m ρ c (Proc.devRef .tc main_arg6) = W11 m ρ c (Proc.devRef .tc main_arg6) :=
  StableHlo.after_of_forall_not_mem (b := Proc.devRef .tc main_arg6) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg6_13 (c : Dev nD) : W13 m ρ c (Proc.devRef .tc main_arg6) = W12 m ρ c (Proc.devRef .tc main_arg6) :=
  W13_of_ne m ρ c main_arg6 (by decide)
theorem step_arg9_1 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg9_2 (c : Dev nD) : W2 m ρ c (Proc.devRef .tc main_arg9) = W1 m ρ c (Proc.devRef .tc main_arg9) :=
  W2_of_ne m ρ c main_arg9 (by decide)
theorem step_arg9_3 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg9_4 (c : Dev nD) : W4 m ρ c (Proc.devRef .tc main_arg9) = W3 m ρ c (Proc.devRef .tc main_arg9) :=
  W4_of_ne m ρ c main_arg9 (by decide)
theorem step_arg9_5 (c : Dev nD) : W5 m ρ c (Proc.devRef .tc main_arg9) = W4 m ρ c (Proc.devRef .tc main_arg9) :=
  StableHlo.after_of_forall_not_mem (b := Proc.devRef .tc main_arg9) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg9_6 (c : Dev nD) : W6 m ρ c (Proc.devRef .tc main_arg9) = W5 m ρ c (Proc.devRef .tc main_arg9) :=
  W6_of_ne m ρ c main_arg9 (by decide)
theorem step_arg9_7 (c : Dev nD) : W7 m ρ c (Proc.devRef .tc main_arg9) = W6 m ρ c (Proc.devRef .tc main_arg9) :=
  StableHlo.after_of_forall_not_mem (b := Proc.devRef .tc main_arg9) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg9_8 (c : Dev nD) : W8 m ρ c (Proc.devRef .tc main_arg9) = W7 m ρ c (Proc.devRef .tc main_arg9) :=
  W8_of_ne m ρ c main_arg9 (by decide)
theorem step_arg9_9 (c : Dev nD) : W9 m ρ c (Proc.devRef .tc main_arg9) = W8 m ρ c (Proc.devRef .tc main_arg9) :=
  W9_of_ne m ρ c main_arg9 (by decide)
theorem step_arg9_10 (c : Dev nD) : W10 m ρ c (Proc.devRef .tc main_arg9) = W9 m ρ c (Proc.devRef .tc main_arg9) :=
  StableHlo.after_of_forall_not_mem (b := Proc.devRef .tc main_arg9) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg9_11 (c : Dev nD) : W11 m ρ c (Proc.devRef .tc main_arg9) = W10 m ρ c (Proc.devRef .tc main_arg9) :=
  W11_of_ne m ρ c main_arg9 (by decide)
theorem step_arg9_12 (c : Dev nD) : W12 m ρ c (Proc.devRef .tc main_arg9) = W11 m ρ c (Proc.devRef .tc main_arg9) :=
  StableHlo.after_of_forall_not_mem (b := Proc.devRef .tc main_arg9) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg12_1 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg12_2 (c : Dev nD) : W2 m ρ c (Proc.devRef .tc main_arg12) = W1 m ρ c (Proc.devRef .tc main_arg12) :=
  W2_of_ne m ρ c main_arg12 (by decide)
theorem step_arg12_3 (c : Dev nD) : W3 m ρ c (Proc.devRef .tc main_arg12) = W2 m ρ c (Proc.devRef .tc main_arg12) :=
  StableHlo.after_of_forall_not_mem (b := Proc.devRef .tc main_arg12) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg12_4 (c : Dev nD) : W4 m ρ c (Proc.devRef .tc main_arg12) = W3 m ρ c (Proc.devRef .tc main_arg12) :=
  W4_of_ne m ρ c main_arg12 (by decide)
theorem step_arg12_5 (c : Dev nD) : W5 m ρ c (Proc.devRef .tc main_arg12) = W4 m ρ c (Proc.devRef .tc main_arg12) :=
  StableHlo.after_of_forall_not_mem (b := Proc.devRef .tc main_arg12) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg12_6 (c : Dev nD) : W6 m ρ c (Proc.devRef .tc main_arg12) = W5 m ρ c (Proc.devRef .tc main_arg12) :=
  W6_of_ne m ρ c main_arg12 (by decide)
theorem step_arg12_7 (c : Dev nD) : W7 m ρ c (Proc.devRef .tc main_arg12) = W6 m ρ c (Proc.devRef .tc main_arg12) :=
  StableHlo.after_of_forall_not_mem (b := Proc.devRef .tc main_arg12) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg12_8 (c : Dev nD) : W8 m ρ c (Proc.devRef .tc main_arg12) = W7 m ρ c (Proc.devRef .tc main_arg12) :=
  W8_of_ne m ρ c main_arg12 (by decide)
theorem step_arg12_9 (c : Dev nD) : W9 m ρ c (Proc.devRef .tc main_arg12) = W8 m ρ c (Proc.devRef .tc main_arg12) :=
  W9_of_ne m ρ c main_arg12 (by decide)
theorem step_arg12_10 (c : Dev nD) : W10 m ρ c (Proc.devRef .tc main_arg12) = W9 m ρ c (Proc.devRef .tc main_arg12) :=
  StableHlo.after_of_forall_not_mem (b := Proc.devRef .tc main_arg12) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg12_11 (c : Dev nD) : W11 m ρ c (Proc.devRef .tc main_arg12) = W10 m ρ c (Proc.devRef .tc main_arg12) :=
  W11_of_ne m ρ c main_arg12 (by decide)
theorem step_arg12_12 (c : Dev nD) : W12 m ρ c (Proc.devRef .tc main_arg12) = W11 m ρ c (Proc.devRef .tc main_arg12) :=
  StableHlo.after_of_forall_not_mem (b := Proc.devRef .tc main_arg12) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg12_13 (c : Dev nD) : W13 m ρ c (Proc.devRef .tc main_arg12) = W12 m ρ c (Proc.devRef .tc main_arg12) :=
  W13_of_ne m ρ c main_arg12 (by decide)
theorem step_arg12_14 (c : Dev nD) : W14 m ρ c (Proc.devRef .tc main_arg12) = W13 m ρ c (Proc.devRef .tc main_arg12) :=
  StableHlo.after_of_forall_not_mem (b := Proc.devRef .tc main_arg12) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg12_15 (c : Dev nD) : W15 m ρ c (Proc.devRef .tc main_arg12) = W14 m ρ c (Proc.devRef .tc main_arg12) :=
  W15_of_ne m ρ c main_arg12 (by decide)
theorem step_arg12_16 (c : Dev nD) : W16 m ρ c (Proc.devRef .tc main_arg12) = W15 m ρ c (Proc.devRef .tc main_arg12) :=
  W16_of_ne m ρ c main_arg12 (by decide)
theorem step_arg12_17 (c : Dev nD) : W17 m ρ c (Proc.devRef .tc main_arg12) = W16 m ρ c (Proc.devRef .tc main_arg12) :=
  StableHlo.after_of_forall_not_mem (b := Proc.devRef .tc main_arg12) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg12_18 (c : Dev nD) : W18 m ρ c (Proc.devRef .tc main_arg12) = W17 m ρ c (Proc.devRef .tc main_arg12) :=
  W18_of_ne m ρ c main_arg12 (by decide)
theorem step_arg12_19 (c : Dev nD) : W19 m ρ c (Proc.devRef .tc main_arg12) = W18 m ρ c (Proc.devRef .tc main_arg12) :=
  StableHlo.after_of_forall_not_mem (b := Proc.devRef .tc main_arg12) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg12_20 (c : Dev nD) : W20 m ρ c (Proc.devRef .tc main_arg12) = W19 m ρ c (Proc.devRef .tc main_arg12) :=
  W20_of_ne m ρ c main_arg12 (by decide)
theorem step_v8_1_3 (c : Dev nD) : W3 m ρ c (Proc.devRef .tc main_v8_1) = W2 m ρ c (Proc.devRef .tc main_v8_1) :=
  StableHlo.after_of_forall_not_mem (b := Proc.devRef .tc main_v8_1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v8_1_4 (c : Dev nD) : W4 m ρ c (Proc.devRef .tc main_v8_1) = W3 m ρ c (Proc.devRef .tc main_v8_1) :=
  W4_of_ne m ρ c main_v8_1 (by decide)
theorem step_v49_12 (c : Dev nD) : W12 m ρ c (Proc.devRef .tc main_v49) = W11 m ρ c (Proc.devRef .tc main_v49) :=
  StableHlo.after_of_forall_not_mem (b := Proc.devRef .tc main_v49) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v49_13 (c : Dev nD) : W13 m ρ c (Proc.devRef .tc main_v49) = W12 m ρ c (Proc.devRef .tc main_v49) :=
  W13_of_ne m ρ c main_v49 (by decide)
theorem step_v38_9 (c : Dev nD) : W9 m ρ c (Proc.devRef .tc main_v38) = W8 m ρ c (Proc.devRef .tc main_v38) :=
  W9_of_ne m ρ c main_v38 (by decide)
theorem step_v38_10 (c : Dev nD) : W10 m ρ c (Proc.devRef .tc main_v38) = W9 m ρ c (Proc.devRef .tc main_v38) :=
  StableHlo.after_of_forall_not_mem (b := Proc.devRef .tc main_v38) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v38_11 (c : Dev nD) : W11 m ρ c (Proc.devRef .tc main_v38) = W10 m ρ c (Proc.devRef .tc main_v38) :=
  W11_of_ne m ρ c main_v38 (by decide)
theorem step_v38_12 (c : Dev nD) : W12 m ρ c (Proc.devRef .tc main_v38) = W11 m ρ c (Proc.devRef .tc main_v38) :=
  StableHlo.after_of_forall_not_mem (b := Proc.devRef .tc main_v38) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v38_13 (c : Dev nD) : W13 m ρ c (Proc.devRef .tc main_v38) = W12 m ρ c (Proc.devRef .tc main_v38) :=
  W13_of_ne m ρ c main_v38 (by decide)
theorem step_v38_14 (c : Dev nD) : W14 m ρ c (Proc.devRef .tc main_v38) = W13 m ρ c (Proc.devRef .tc main_v38) :=
  StableHlo.after_of_forall_not_mem (b := Proc.devRef .tc main_v38) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v38_15 (c : Dev nD) : W15 m ρ c (Proc.devRef .tc main_v38) = W14 m ρ c (Proc.devRef .tc main_v38) :=
  W15_of_ne m ρ c main_v38 (by decide)
theorem step_v38_16 (c : Dev nD) : W16 m ρ c (Proc.devRef .tc main_v38) = W15 m ρ c (Proc.devRef .tc main_v38) :=
  W16_of_ne m ρ c main_v38 (by decide)
theorem step_v38_17 (c : Dev nD) : W17 m ρ c (Proc.devRef .tc main_v38) = W16 m ρ c (Proc.devRef .tc main_v38) :=
  StableHlo.after_of_forall_not_mem (b := Proc.devRef .tc main_v38) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v38_18 (c : Dev nD) : W18 m ρ c (Proc.devRef .tc main_v38) = W17 m ρ c (Proc.devRef .tc main_v38) :=
  W18_of_ne m ρ c main_v38 (by decide)
theorem step_v38_19 (c : Dev nD) : W19 m ρ c (Proc.devRef .tc main_v38) = W18 m ρ c (Proc.devRef .tc main_v38) :=
  StableHlo.after_of_forall_not_mem (b := Proc.devRef .tc main_v38) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v38_20 (c : Dev nD) : W20 m ρ c (Proc.devRef .tc main_v38) = W19 m ρ c (Proc.devRef .tc main_v38) :=
  W20_of_ne m ρ c main_v38 (by decide)
theorem step_v38_21 (c : Dev nD) : W21 m ρ c (Proc.devRef .tc main_v38) = W20 m ρ c (Proc.devRef .tc main_v38) :=
  StableHlo.after_of_forall_not_mem (b := Proc.devRef .tc main_v38) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v38_22 (c : Dev nD) : W22 m ρ c (Proc.devRef .tc main_v38) = W21 m ρ c (Proc.devRef .tc main_v38) :=
  W22_of_ne m ρ c main_v38 (by decide)

end Cert.KernelIdeal.Fold

end
-- ==== Proof.FoldSteps2.lean ====
/-
  Buffers a segment leaves alone.

  The fold through @main's segments changes a buffer only at the host operation that defines it or at the kernel
  launch that has it as an output.  Each lemma here says that one segment leaves one buffer as it found it: a
  stretch of host operations none of which writes the buffer, a launch that does not have the buffer among its
  arrays, or a launch that only reads it through an input window.
-/
import proofs.«121345_j4372276707359_2_alg».proof.Proof.Gen.KernelIdeal.Frame

set_option maxRecDepth 16384

noncomputable section

namespace Cert.KernelIdeal.Fold

open Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem step_v1_2 (c : Dev nD) : W2 m ρ c (Proc.devRef .tc main_v1) = W1 m ρ c (Proc.devRef .tc main_v1) :=
  W2_of_ne m ρ c main_v1 (by decide)
theorem step_v1_3 (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v1_4 (c : Dev nD) : W4 m ρ c (Proc.devRef .tc main_v1) = W3 m ρ c (Proc.devRef .tc main_v1) :=
  (W4_arr m ρ c 2).trans (((dat1 (V3 m ρ) c).arrAt_in 2 rfl _).trans (A_eq1 (V3 m ρ) c 2))
theorem step_v1_5 (c : Dev nD) : W5 m ρ c (Proc.devRef .tc main_v1) = W4 m ρ c (Proc.devRef .tc main_v1) :=
  StableHlo.after_of_forall_not_mem (b := Proc.devRef .tc main_v1) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v1_6 (c : Dev nD) : W6 m ρ c (Proc.devRef .tc main_v1) = W5 m ρ c (Proc.devRef .tc main_v1) :=
  W6_of_ne m ρ c main_v1 (by decide)
theorem step_v1_7 (c : Dev nD) : W7 m ρ c (Proc.devRef .tc main_v1) = W6 m ρ c (Proc.devRef .tc main_v1) :=
  StableHlo.after_of_forall_not_mem (b := Proc.devRef .tc main_v1) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v1_8 (c : Dev nD) : W8 m ρ c (Proc.devRef .tc main_v1) = W7 m ρ c (Proc.devRef .tc main_v1) :=
  W8_of_ne m ρ c main_v1 (by decide)
theorem step_v1_9 (c : Dev nD) : W9 m ρ c (Proc.devRef .tc main_v1) = W8 m ρ c (Proc.devRef .tc main_v1) :=
  W9_of_ne m ρ c main_v1 (by decide)
theorem step_v1_10 (c : Dev nD) : W10 m ρ c (Proc.devRef .tc main_v1) = W9 m ρ c (Proc.devRef .tc main_v1) :=
  StableHlo.after_of_forall_not_mem (b := Proc.devRef .tc main_v1) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v1_11 (c : Dev nD) : W11 m ρ c (Proc.devRef .tc main_v1) = W10 m ρ c (Proc.devRef .tc main_v1) :=
  (W11_arr m ρ c 2).trans (((dat5 (V10 m ρ) c).arrAt_in 2 rfl _).trans (A_eq5 (V10 m ρ) c 2))
theorem step_v1_12 (c : Dev nD) : W12 m ρ c (Proc.devRef .tc main_v1) = W11 m ρ c (Proc.devRef .tc main_v1) :=
  StableHlo.after_of_forall_not_mem (b := Proc.devRef .tc main_v1) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v1_13 (c : Dev nD) : W13 m ρ c (Proc.devRef .tc main_v1) = W12 m ρ c (Proc.devRef .tc main_v1) :=
  W13_of_ne m ρ c main_v1 (by decide)
theorem step_v1_14 (c : Dev nD) : W14 m ρ c (Proc.devRef .tc main_v1) = W13 m ρ c (Proc.devRef .tc main_v1) :=
  StableHlo.after_of_forall_not_mem (b := Proc.devRef .tc main_v1) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v1_15 (c : Dev nD) : W15 m ρ c (Proc.devRef .tc main_v1) = W14 m ρ c (Proc.devRef .tc main_v1) :=
  W15_of_ne m ρ c main_v1 (by decide)
theorem step_v1_16 (c : Dev nD) : W16 m ρ c (Proc.devRef .tc main_v1) = W15 m ρ c (Proc.devRef .tc main_v1) :=
  W16_of_ne m ρ c main_v1 (by decide)
theorem step_v1_17 (c : Dev nD) : W17 m ρ c (Proc.devRef .tc main_v1) = W16 m ρ c (Proc.devRef .tc main_v1) :=
  StableHlo.after_of_forall_not_mem (b := Proc.devRef .tc main_v1) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v5_2 (c : Dev nD) : W2 m ρ c (Proc.devRef .tc main_v5) = W1 m ρ c (Proc.devRef .tc main_v5) :=
  W2_of_ne m ρ c main_v5 (by decide)
theorem step_v5_3 (c : Dev nD) : W3 m ρ c (Proc.devRef .tc main_v5) = W2 m ρ c (Proc.devRef .tc main_v5) :=
  StableHlo.after_of_forall_not_mem (b := Proc.devRef .tc main_v5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v5_4 (c : Dev nD) : W4 m ρ c (Proc.devRef .tc main_v5) = W3 m ρ c (Proc.devRef .tc main_v5) :=
  W4_of_ne m ρ c main_v5 (by decide)
theorem step_v5_5 (c : Dev nD) : W5 m ρ c (Proc.devRef .tc main_v5) = W4 m ρ c (Proc.devRef .tc main_v5) :=
  StableHlo.after_of_forall_not_mem (b := Proc.devRef .tc main_v5) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v5_6 (c : Dev nD) : W6 m ρ c (Proc.devRef .tc main_v5) = W5 m ρ c (Proc.devRef .tc main_v5) :=
  (W6_arr m ρ c 3).trans (((dat2 (V5 m ρ) c).arrAt_in 3 rfl _).trans (A_eq2 (V5 m ρ) c 3))
theorem step_v5_7 (c : Dev nD) : W7 m ρ c (Proc.devRef .tc main_v5) = W6 m ρ c (Proc.devRef .tc main_v5) :=
  StableHlo.after_of_forall_not_mem (b := Proc.devRef .tc main_v5) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v5_8 (c : Dev nD) : W8 m ρ c (Proc.devRef .tc main_v5) = W7 m ρ c (Proc.devRef .tc main_v5) :=
  W8_of_ne m ρ c main_v5 (by decide)
theorem step_v5_9 (c : Dev nD) : W9 m ρ c (Proc.devRef .tc main_v5) = W8 m ρ c (Proc.devRef .tc main_v5) :=
  W9_of_ne m ρ c main_v5 (by decide)
theorem step_v5_10 (c : Dev nD) : W10 m ρ c (Proc.devRef .tc main_v5) = W9 m ρ c (Proc.devRef .tc main_v5) :=
  StableHlo.after_of_forall_not_mem (b := Proc.devRef .tc main_v5) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v5_11 (c : Dev nD) : W11 m ρ c (Proc.devRef .tc main_v5) = W10 m ρ c (Proc.devRef .tc main_v5) :=
  W11_of_ne m ρ c main_v5 (by decide)
theorem step_v5_12 (c : Dev nD) : W12 m ρ c (Proc.devRef .tc main_v5) = W11 m ρ c (Proc.devRef .tc main_v5) :=
  StableHlo.after_of_forall_not_mem (b := Proc.devRef .tc main_v5) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v5_13 (c : Dev nD) : W13 m ρ c (Proc.devRef .tc main_v5) = W12 m ρ c (Proc.devRef .tc main_v5) :=
  (W13_arr m ρ c 3).trans (((dat6 (V12 m ρ) c).arrAt_in 3 rfl _).trans (A_eq6 (V12 m ρ) c 3))
theorem step_v5_14 (c : Dev nD) : W14 m ρ c (Proc.devRef .tc main_v5) = W13 m ρ c (Proc.devRef .tc main_v5) :=
  StableHlo.after_of_forall_not_mem (b := Proc.devRef .tc main_v5) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v5_15 (c : Dev nD) : W15 m ρ c (Proc.devRef .tc main_v5) = W14 m ρ c (Proc.devRef .tc main_v5) :=
  W15_of_ne m ρ c main_v5 (by decide)
theorem step_v5_16 (c : Dev nD) : W16 m ρ c (Proc.devRef .tc main_v5) = W15 m ρ c (Proc.devRef .tc main_v5) :=
  W16_of_ne m ρ c main_v5 (by decide)
theorem step_v5_17 (c : Dev nD) : W17 m ρ c (Proc.devRef .tc main_v5) = W16 m ρ c (Proc.devRef .tc main_v5) :=
  StableHlo.after_of_forall_not_mem (b := Proc.devRef .tc main_v5) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v5_18 (c : Dev nD) : W18 m ρ c (Proc.devRef .tc main_v5) = W17 m ρ c (Proc.devRef .tc main_v5) :=
  W18_of_ne m ρ c main_v5 (by decide)
theorem step_v5_19 (c : Dev nD) : W19 m ρ c (Proc.devRef .tc main_v5) = W18 m ρ c (Proc.devRef .tc main_v5) :=
  StableHlo.after_of_forall_not_mem (b := Proc.devRef .tc main_v5) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg19_1 (c : Dev nD) : W1 m ρ c (Proc.devRef .tc main_arg19) = W0 m ρ c (Proc.devRef .tc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg19_2 (c : Dev nD) : W2 m ρ c (Proc.devRef .tc main_arg19) = W1 m ρ c (Proc.devRef .tc main_arg19) :=
  W2_of_ne m ρ c main_arg19 (by decide)
theorem step_arg19_3 (c : Dev nD) : W3 m ρ c (Proc.devRef .tc main_arg19) = W2 m ρ c (Proc.devRef .tc main_arg19) :=
  StableHlo.after_of_forall_not_mem (b := Proc.devRef .tc main_arg19) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg19_4 (c : Dev nD) : W4 m ρ c (Proc.devRef .tc main_arg19) = W3 m ρ c (Proc.devRef .tc main_arg19) :=
  W4_of_ne m ρ c main_arg19 (by decide)
theorem step_arg19_5 (c : Dev nD) : W5 m ρ c (Proc.devRef .tc main_arg19) = W4 m ρ c (Proc.devRef .tc main_arg19) :=
  StableHlo.after_of_forall_not_mem (b := Proc.devRef .tc main_arg19) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg19_6 (c : Dev nD) : W6 m ρ c (Proc.devRef .tc main_arg19) = W5 m ρ c (Proc.devRef .tc main_arg19) :=
  W6_of_ne m ρ c main_arg19 (by decide)
theorem step_arg19_7 (c : Dev nD) : W7 m ρ c (Proc.devRef .tc main_arg19) = W6 m ρ c (Proc.devRef .tc main_arg19) :=
  StableHlo.after_of_forall_not_mem (b := Proc.devRef .tc main_arg19) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg19_8 (c : Dev nD) : W8 m ρ c (Proc.devRef .tc main_arg19) = W7 m ρ c (Proc.devRef .tc main_arg19) :=
  (W8_arr m ρ c 2).trans (((dat3 (V7 m ρ) c).arrAt_in 2 rfl _).trans (A_eq3 (V7 m ρ) c 2))
theorem step_arg19_9 (c : Dev nD) : W9 m ρ c (Proc.devRef .tc main_arg19) = W8 m ρ c (Proc.devRef .tc main_arg19) :=
  W9_of_ne m ρ c main_arg19 (by decide)
theorem step_arg19_10 (c : Dev nD) : W10 m ρ c (Proc.devRef .tc main_arg19) = W9 m ρ c (Proc.devRef .tc main_arg19) :=
  StableHlo.after_of_forall_not_mem (b := Proc.devRef .tc main_arg19) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg19_11 (c : Dev nD) : W11 m ρ c (Proc.devRef .tc main_arg19) = W10 m ρ c (Proc.devRef .tc main_arg19) :=
  W11_of_ne m ρ c main_arg19 (by decide)
theorem step_arg19_12 (c : Dev nD) : W12 m ρ c (Proc.devRef .tc main_arg19) = W11 m ρ c (Proc.devRef .tc main_arg19) :=
  StableHlo.after_of_forall_not_mem (b := Proc.devRef .tc main_arg19) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg19_13 (c : Dev nD) : W13 m ρ c (Proc.devRef .tc main_arg19) = W12 m ρ c (Proc.devRef .tc main_arg19) :=
  W13_of_ne m ρ c main_arg19 (by decide)
theorem step_arg19_14 (c : Dev nD) : W14 m ρ c (Proc.devRef .tc main_arg19) = W13 m ρ c (Proc.devRef .tc main_arg19) :=
  StableHlo.after_of_forall_not_mem (b := Proc.devRef .tc main_arg19) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg19_15 (c : Dev nD) : W15 m ρ c (Proc.devRef .tc main_arg19) = W14 m ρ c (Proc.devRef .tc main_arg19) :=
  (W15_arr m ρ c 2).trans (((dat7 (V14 m ρ) c).arrAt_in 2 rfl _).trans (A_eq7 (V14 m ρ) c 2))
theorem step_arg19_16 (c : Dev nD) : W16 m ρ c (Proc.devRef .tc main_arg19) = W15 m ρ c (Proc.devRef .tc main_arg19) :=
  W16_of_ne m ρ c main_arg19 (by decide)
theorem step_arg19_17 (c : Dev nD) : W17 m ρ c (Proc.devRef .tc main_arg19) = W16 m ρ c (Proc.devRef .tc main_arg19) :=
  StableHlo.after_of_forall_not_mem (b := Proc.devRef .tc main_arg19) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg19_18 (c : Dev nD) : W18 m ρ c (Proc.devRef .tc main_arg19) = W17 m ρ c (Proc.devRef .tc main_arg19) :=
  W18_of_ne m ρ c main_arg19 (by decide)
theorem step_arg19_19 (c : Dev nD) : W19 m ρ c (Proc.devRef .tc main_arg19) = W18 m ρ c (Proc.devRef .tc main_arg19) :=
  StableHlo.after_of_forall_not_mem (b := Proc.devRef .tc main_arg19) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg19_20 (c : Dev nD) : W20 m ρ c (Proc.devRef .tc main_arg19) = W19 m ρ c (Proc.devRef .tc main_arg19) :=
  W20_of_ne m ρ c main_arg19 (by decide)
theorem step_arg19_21 (c : Dev nD) : W21 m ρ c (Proc.devRef .tc main_arg19) = W20 m ρ c (Proc.devRef .tc main_arg19) :=
  StableHlo.after_of_forall_not_mem (b := Proc.devRef .tc main_arg19) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg1_1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg1_2 (c : Dev nD) : W2 m ρ c (Proc.devRef .tc main_arg1) = W1 m ρ c (Proc.devRef .tc main_arg1) :=
  W2_of_ne m ρ c main_arg1 (by decide)
theorem step_arg1_3 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg1_4 (c : Dev nD) : W4 m ρ c (Proc.devRef .tc main_arg1) = W3 m ρ c (Proc.devRef .tc main_arg1) :=
  W4_of_ne m ρ c main_arg1 (by decide)
theorem step_arg1_5 (c : Dev nD) : W5 m ρ c (Proc.devRef .tc main_arg1) = W4 m ρ c (Proc.devRef .tc main_arg1) :=
  StableHlo.after_of_forall_not_mem (b := Proc.devRef .tc main_arg1) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg1_6 (c : Dev nD) : W6 m ρ c (Proc.devRef .tc main_arg1) = W5 m ρ c (Proc.devRef .tc main_arg1) :=
  W6_of_ne m ρ c main_arg1 (by decide)
theorem step_arg4_1 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg4_2 (c : Dev nD) : W2 m ρ c (Proc.devRef .tc main_arg4) = W1 m ρ c (Proc.devRef .tc main_arg4) :=
  W2_of_ne m ρ c main_arg4 (by decide)
theorem step_arg4_3 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg4_4 (c : Dev nD) : W4 m ρ c (Proc.devRef .tc main_arg4) = W3 m ρ c (Proc.devRef .tc main_arg4) :=
  W4_of_ne m ρ c main_arg4 (by decide)
theorem step_arg4_5 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg7_1 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg7_2 (c : Dev nD) : W2 m ρ c (Proc.devRef .tc main_arg7) = W1 m ρ c (Proc.devRef .tc main_arg7) :=
  W2_of_ne m ρ c main_arg7 (by decide)
theorem step_arg7_3 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg7_4 (c : Dev nD) : W4 m ρ c (Proc.devRef .tc main_arg7) = W3 m ρ c (Proc.devRef .tc main_arg7) :=
  W4_of_ne m ρ c main_arg7 (by decide)
theorem step_arg7_5 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg7_6 (c : Dev nD) : W6 m ρ c (Proc.devRef .tc main_arg7) = W5 m ρ c (Proc.devRef .tc main_arg7) :=
  W6_of_ne m ρ c main_arg7 (by decide)
theorem step_arg7_7 (c : Dev nD) : W7 m ρ c (Proc.devRef .tc main_arg7) = W6 m ρ c (Proc.devRef .tc main_arg7) :=
  StableHlo.after_of_forall_not_mem (b := Proc.devRef .tc main_arg7) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg7_8 (c : Dev nD) : W8 m ρ c (Proc.devRef .tc main_arg7) = W7 m ρ c (Proc.devRef .tc main_arg7) :=
  W8_of_ne m ρ c main_arg7 (by decide)
theorem step_arg7_9 (c : Dev nD) : W9 m ρ c (Proc.devRef .tc main_arg7) = W8 m ρ c (Proc.devRef .tc main_arg7) :=
  W9_of_ne m ρ c main_arg7 (by decide)
theorem step_arg7_10 (c : Dev nD) : W10 m ρ c (Proc.devRef .tc main_arg7) = W9 m ρ c (Proc.devRef .tc main_arg7) :=
  StableHlo.after_of_forall_not_mem (b := Proc.devRef .tc main_arg7) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg7_11 (c : Dev nD) : W11 m ρ c (Proc.devRef .tc main_arg7) = W10 m ρ c (Proc.devRef .tc main_arg7) :=
  W11_of_ne m ρ c main_arg7 (by decide)
theorem step_arg7_12 (c : Dev nD) : W12 m ρ c (Proc.devRef .tc main_arg7) = W11 m ρ c (Proc.devRef .tc main_arg7) :=
  StableHlo.after_of_forall_not_mem (b := Proc.devRef .tc main_arg7) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg7_13 (c : Dev nD) : W13 m ρ c (Proc.devRef .tc main_arg7) = W12 m ρ c (Proc.devRef .tc main_arg7) :=
  W13_of_ne m ρ c main_arg7 (by decide)
theorem step_arg10_1 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg10_2 (c : Dev nD) : W2 m ρ c (Proc.devRef .tc main_arg10) = W1 m ρ c (Proc.devRef .tc main_arg10) :=
  W2_of_ne m ρ c main_arg10 (by decide)
theorem step_arg10_3 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg10_4 (c : Dev nD) : W4 m ρ c (Proc.devRef .tc main_arg10) = W3 m ρ c (Proc.devRef .tc main_arg10) :=
  W4_of_ne m ρ c main_arg10 (by decide)
theorem step_arg10_5 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg10_6 (c : Dev nD) : W6 m ρ c (Proc.devRef .tc main_arg10) = W5 m ρ c (Proc.devRef .tc main_arg10) :=
  W6_of_ne m ρ c main_arg10 (by decide)
theorem step_arg10_7 (c : Dev nD) : W7 m ρ c (Proc.devRef .tc main_arg10) = W6 m ρ c (Proc.devRef .tc main_arg10) :=
  StableHlo.after_of_forall_not_mem (b := Proc.devRef .tc main_arg10) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg10_8 (c : Dev nD) : W8 m ρ c (Proc.devRef .tc main_arg10) = W7 m ρ c (Proc.devRef .tc main_arg10) :=
  W8_of_ne m ρ c main_arg10 (by decide)
theorem step_arg10_9 (c : Dev nD) : W9 m ρ c (Proc.devRef .tc main_arg10) = W8 m ρ c (Proc.devRef .tc main_arg10) :=
  W9_of_ne m ρ c main_arg10 (by decide)
theorem step_arg10_10 (c : Dev nD) : W10 m ρ c (Proc.devRef .tc main_arg10) = W9 m ρ c (Proc.devRef .tc main_arg10) :=
  StableHlo.after_of_forall_not_mem (b := Proc.devRef .tc main_arg10) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg10_11 (c : Dev nD) : W11 m ρ c (Proc.devRef .tc main_arg10) = W10 m ρ c (Proc.devRef .tc main_arg10) :=
  W11_of_ne m ρ c main_arg10 (by decide)
theorem step_arg10_12 (c : Dev nD) : W12 m ρ c (Proc.devRef .tc main_arg10) = W11 m ρ c (Proc.devRef .tc main_arg10) :=
  StableHlo.after_of_forall_not_mem (b := Proc.devRef .tc main_arg10) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg10_13 (c : Dev nD) : W13 m ρ c (Proc.devRef .tc main_arg10) = W12 m ρ c (Proc.devRef .tc main_arg10) :=
  W13_of_ne m ρ c main_arg10 (by decide)
theorem step_arg10_14 (c : Dev nD) : W14 m ρ c (Proc.devRef .tc main_arg10) = W13 m ρ c (Proc.devRef .tc main_arg10) :=
  StableHlo.after_of_forall_not_mem (b := Proc.devRef .tc main_arg10) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg10_15 (c : Dev nD) : W15 m ρ c (Proc.devRef .tc main_arg10) = W14 m ρ c (Proc.devRef .tc main_arg10) :=
  W15_of_ne m ρ c main_arg10 (by decide)
theorem step_arg10_16 (c : Dev nD) : W16 m ρ c (Proc.devRef .tc main_arg10) = W15 m ρ c (Proc.devRef .tc main_arg10) :=
  (W16_arr m ρ c 0).trans (((dat8 (V15 m ρ) c).arrAt_in 0 rfl _).trans (A_eq8 (V15 m ρ) c 0))
theorem step_arg10_17 (c : Dev nD) : W17 m ρ c (Proc.devRef .tc main_arg10) = W16 m ρ c (Proc.devRef .tc main_arg10) :=
  StableHlo.after_of_forall_not_mem (b := Proc.devRef .tc main_arg10) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg10_18 (c : Dev nD) : W18 m ρ c (Proc.devRef .tc main_arg10) = W17 m ρ c (Proc.devRef .tc main_arg10) :=
  W18_of_ne m ρ c main_arg10 (by decide)
theorem step_arg10_19 (c : Dev nD) : W19 m ρ c (Proc.devRef .tc main_arg10) = W18 m ρ c (Proc.devRef .tc main_arg10) :=
  StableHlo.after_of_forall_not_mem (b := Proc.devRef .tc main_arg10) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg10_20 (c : Dev nD) : W20 m ρ c (Proc.devRef .tc main_arg10) = W19 m ρ c (Proc.devRef .tc main_arg10) :=
  W20_of_ne m ρ c main_arg10 (by decide)
theorem step_arg10_21 (c : Dev nD) : W21 m ρ c (Proc.devRef .tc main_arg10) = W20 m ρ c (Proc.devRef .tc main_arg10) :=
  StableHlo.after_of_forall_not_mem (b := Proc.devRef .tc main_arg10) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg13_1 (c : Dev nD) : W1 m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg13_2 (c : Dev nD) : W2 m ρ c (Proc.devRef .tc main_arg13) = W1 m ρ c (Proc.devRef .tc main_arg13) :=
  W2_of_ne m ρ c main_arg13 (by decide)
theorem step_arg13_3 (c : Dev nD) : W3 m ρ c (Proc.devRef .tc main_arg13) = W2 m ρ c (Proc.devRef .tc main_arg13) :=
  StableHlo.after_of_forall_not_mem (b := Proc.devRef .tc main_arg13) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg13_4 (c : Dev nD) : W4 m ρ c (Proc.devRef .tc main_arg13) = W3 m ρ c (Proc.devRef .tc main_arg13) :=
  W4_of_ne m ρ c main_arg13 (by decide)
theorem step_arg13_5 (c : Dev nD) : W5 m ρ c (Proc.devRef .tc main_arg13) = W4 m ρ c (Proc.devRef .tc main_arg13) :=
  StableHlo.after_of_forall_not_mem (b := Proc.devRef .tc main_arg13) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg13_6 (c : Dev nD) : W6 m ρ c (Proc.devRef .tc main_arg13) = W5 m ρ c (Proc.devRef .tc main_arg13) :=
  W6_of_ne m ρ c main_arg13 (by decide)
theorem step_arg13_7 (c : Dev nD) : W7 m ρ c (Proc.devRef .tc main_arg13) = W6 m ρ c (Proc.devRef .tc main_arg13) :=
  StableHlo.after_of_forall_not_mem (b := Proc.devRef .tc main_arg13) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg13_8 (c : Dev nD) : W8 m ρ c (Proc.devRef .tc main_arg13) = W7 m ρ c (Proc.devRef .tc main_arg13) :=
  W8_of_ne m ρ c main_arg13 (by decide)
theorem step_arg13_9 (c : Dev nD) : W9 m ρ c (Proc.devRef .tc main_arg13) = W8 m ρ c (Proc.devRef .tc main_arg13) :=
  W9_of_ne m ρ c main_arg13 (by decide)
theorem step_arg13_10 (c : Dev nD) : W10 m ρ c (Proc.devRef .tc main_arg13) = W9 m ρ c (Proc.devRef .tc main_arg13) :=
  StableHlo.after_of_forall_not_mem (b := Proc.devRef .tc main_arg13) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg13_11 (c : Dev nD) : W11 m ρ c (Proc.devRef .tc main_arg13) = W10 m ρ c (Proc.devRef .tc main_arg13) :=
  W11_of_ne m ρ c main_arg13 (by decide)
theorem step_arg13_12 (c : Dev nD) : W12 m ρ c (Proc.devRef .tc main_arg13) = W11 m ρ c (Proc.devRef .tc main_arg13) :=
  StableHlo.after_of_forall_not_mem (b := Proc.devRef .tc main_arg13) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg13_13 (c : Dev nD) : W13 m ρ c (Proc.devRef .tc main_arg13) = W12 m ρ c (Proc.devRef .tc main_arg13) :=
  W13_of_ne m ρ c main_arg13 (by decide)
theorem step_arg13_14 (c : Dev nD) : W14 m ρ c (Proc.devRef .tc main_arg13) = W13 m ρ c (Proc.devRef .tc main_arg13) :=
  StableHlo.after_of_forall_not_mem (b := Proc.devRef .tc main_arg13) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_arg13_15 (c : Dev nD) : W15 m ρ c (Proc.devRef .tc main_arg13) = W14 m ρ c (Proc.devRef .tc main_arg13) :=
  W15_of_ne m ρ c main_arg13 (by decide)
theorem step_arg13_16 (c : Dev nD) : W16 m ρ c (Proc.devRef .tc main_arg13) = W15 m ρ c (Proc.devRef .tc main_arg13) :=
  W16_of_ne m ρ c main_arg13 (by decide)
theorem step_arg13_17 (c : Dev nD) : W17 m ρ c (Proc.devRef .tc main_arg13) = W16 m ρ c (Proc.devRef .tc main_arg13) :=
  StableHlo.after_of_forall_not_mem (b := Proc.devRef .tc main_arg13) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v18_5 (c : Dev nD) : W5 m ρ c (Proc.devRef .tc main_v18) = W4 m ρ c (Proc.devRef .tc main_v18) :=
  StableHlo.after_of_forall_not_mem (b := Proc.devRef .tc main_v18) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v18_6 (c : Dev nD) : W6 m ρ c (Proc.devRef .tc main_v18) = W5 m ρ c (Proc.devRef .tc main_v18) :=
  W6_of_ne m ρ c main_v18 (by decide)
theorem step_v70_1_17 (c : Dev nD) : W17 m ρ c (Proc.devRef .tc main_v70_1) = W16 m ρ c (Proc.devRef .tc main_v70_1) :=
  StableHlo.after_of_forall_not_mem (b := Proc.devRef .tc main_v70_1) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v70_1_18 (c : Dev nD) : W18 m ρ c (Proc.devRef .tc main_v70_1) = W17 m ρ c (Proc.devRef .tc main_v70_1) :=
  W18_of_ne m ρ c main_v70_1 (by decide)
theorem step_v69_16 (c : Dev nD) : W16 m ρ c (Proc.devRef .tc main_v69) = W15 m ρ c (Proc.devRef .tc main_v69) :=
  W16_of_ne m ρ c main_v69 (by decide)
theorem step_v69_17 (c : Dev nD) : W17 m ρ c (Proc.devRef .tc main_v69) = W16 m ρ c (Proc.devRef .tc main_v69) :=
  StableHlo.after_of_forall_not_mem (b := Proc.devRef .tc main_v69) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v69_18 (c : Dev nD) : W18 m ρ c (Proc.devRef .tc main_v69) = W17 m ρ c (Proc.devRef .tc main_v69) :=
  W18_of_ne m ρ c main_v69 (by decide)
theorem step_v69_19 (c : Dev nD) : W19 m ρ c (Proc.devRef .tc main_v69) = W18 m ρ c (Proc.devRef .tc main_v69) :=
  StableHlo.after_of_forall_not_mem (b := Proc.devRef .tc main_v69) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v69_20 (c : Dev nD) : W20 m ρ c (Proc.devRef .tc main_v69) = W19 m ρ c (Proc.devRef .tc main_v69) :=
  W20_of_ne m ρ c main_v69 (by decide)
theorem step_v69_21 (c : Dev nD) : W21 m ρ c (Proc.devRef .tc main_v69) = W20 m ρ c (Proc.devRef .tc main_v69) :=
  StableHlo.after_of_forall_not_mem (b := Proc.devRef .tc main_v69) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step_v69_22 (c : Dev nD) : W22 m ρ c (Proc.devRef .tc main_v69) = W21 m ρ c (Proc.devRef .tc main_v69) :=
  W22_of_ne m ρ c main_v69 (by decide)

end Cert.KernelIdeal.Fold

end
-- ==== Proof.FoldKeeps.lean ====
/-
  Buffers carried through several segments of @main.

  Composing the one-segment lemmas: what a buffer holds at a later boundary is what it held at an earlier one when
  no segment in between writes it.
-/
import proofs.«121345_j4372276707359_2_alg».proof.Proof.FoldSteps0
import proofs.«121345_j4372276707359_2_alg».proof.Proof.FoldSteps1
import proofs.«121345_j4372276707359_2_alg».proof.Proof.FoldSteps2

set_option maxRecDepth 16384

noncomputable section

namespace Cert.KernelIdeal.Fold

open Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem keep_v0_8_1 (c : Dev nD) : W8 m ρ c (Proc.devRef .tc main_v0) = W1 m ρ c (Proc.devRef .tc main_v0) :=
  (step_v0_8 m ρ c).trans ((step_v0_7 m ρ c).trans ((step_v0_6 m ρ c).trans ((step_v0_5 m ρ c).trans ((step_v0_4 m ρ c).trans ((step_v0_3 m ρ c).trans (step_v0_2 m ρ c))))))
theorem keep_v0_15_1 (c : Dev nD) : W15 m ρ c (Proc.devRef .tc main_v0) = W1 m ρ c (Proc.devRef .tc main_v0) :=
  (step_v0_15 m ρ c).trans ((step_v0_14 m ρ c).trans ((step_v0_13 m ρ c).trans ((step_v0_12 m ρ c).trans ((step_v0_11 m ρ c).trans ((step_v0_10 m ρ c).trans ((step_v0_9 m ρ c).trans ((step_v0_8 m ρ c).trans ((step_v0_7 m ρ c).trans ((step_v0_6 m ρ c).trans ((step_v0_5 m ρ c).trans ((step_v0_4 m ρ c).trans ((step_v0_3 m ρ c).trans (step_v0_2 m ρ c)))))))))))))
theorem keep_v2_8_1 (c : Dev nD) : W8 m ρ c (Proc.devRef .tc main_v2) = W1 m ρ c (Proc.devRef .tc main_v2) :=
  (step_v2_8 m ρ c).trans ((step_v2_7 m ρ c).trans ((step_v2_6 m ρ c).trans ((step_v2_5 m ρ c).trans ((step_v2_4 m ρ c).trans ((step_v2_3 m ρ c).trans (step_v2_2 m ρ c))))))
theorem keep_v2_15_1 (c : Dev nD) : W15 m ρ c (Proc.devRef .tc main_v2) = W1 m ρ c (Proc.devRef .tc main_v2) :=
  (step_v2_15 m ρ c).trans ((step_v2_14 m ρ c).trans ((step_v2_13 m ρ c).trans ((step_v2_12 m ρ c).trans ((step_v2_11 m ρ c).trans ((step_v2_10 m ρ c).trans ((step_v2_9 m ρ c).trans ((step_v2_8 m ρ c).trans ((step_v2_7 m ρ c).trans ((step_v2_6 m ρ c).trans ((step_v2_5 m ρ c).trans ((step_v2_4 m ρ c).trans ((step_v2_3 m ρ c).trans (step_v2_2 m ρ c)))))))))))))
theorem keep_v1_3_1 (c : Dev nD) : W3 m ρ c (Proc.devRef .tc main_v1) = W1 m ρ c (Proc.devRef .tc main_v1) :=
  (step_v1_3 m ρ c).trans (step_v1_2 m ρ c)
theorem keep_v1_10_1 (c : Dev nD) : W10 m ρ c (Proc.devRef .tc main_v1) = W1 m ρ c (Proc.devRef .tc main_v1) :=
  (step_v1_10 m ρ c).trans ((step_v1_9 m ρ c).trans ((step_v1_8 m ρ c).trans ((step_v1_7 m ρ c).trans ((step_v1_6 m ρ c).trans ((step_v1_5 m ρ c).trans ((step_v1_4 m ρ c).trans ((step_v1_3 m ρ c).trans (step_v1_2 m ρ c))))))))
theorem keep_v1_17_1 (c : Dev nD) : W17 m ρ c (Proc.devRef .tc main_v1) = W1 m ρ c (Proc.devRef .tc main_v1) :=
  (step_v1_17 m ρ c).trans ((step_v1_16 m ρ c).trans ((step_v1_15 m ρ c).trans ((step_v1_14 m ρ c).trans ((step_v1_13 m ρ c).trans ((step_v1_12 m ρ c).trans ((step_v1_11 m ρ c).trans ((step_v1_10 m ρ c).trans ((step_v1_9 m ρ c).trans ((step_v1_8 m ρ c).trans ((step_v1_7 m ρ c).trans ((step_v1_6 m ρ c).trans ((step_v1_5 m ρ c).trans ((step_v1_4 m ρ c).trans ((step_v1_3 m ρ c).trans (step_v1_2 m ρ c)))))))))))))))
theorem keep_v4_3_1 (c : Dev nD) : W3 m ρ c (Proc.devRef .tc main_v4) = W1 m ρ c (Proc.devRef .tc main_v4) :=
  (step_v4_3 m ρ c).trans (step_v4_2 m ρ c)
theorem keep_v4_10_1 (c : Dev nD) : W10 m ρ c (Proc.devRef .tc main_v4) = W1 m ρ c (Proc.devRef .tc main_v4) :=
  (step_v4_10 m ρ c).trans ((step_v4_9 m ρ c).trans ((step_v4_8 m ρ c).trans ((step_v4_7 m ρ c).trans ((step_v4_6 m ρ c).trans ((step_v4_5 m ρ c).trans ((step_v4_4 m ρ c).trans ((step_v4_3 m ρ c).trans (step_v4_2 m ρ c))))))))
theorem keep_v4_17_1 (c : Dev nD) : W17 m ρ c (Proc.devRef .tc main_v4) = W1 m ρ c (Proc.devRef .tc main_v4) :=
  (step_v4_17 m ρ c).trans ((step_v4_16 m ρ c).trans ((step_v4_15 m ρ c).trans ((step_v4_14 m ρ c).trans ((step_v4_13 m ρ c).trans ((step_v4_12 m ρ c).trans ((step_v4_11 m ρ c).trans ((step_v4_10 m ρ c).trans ((step_v4_9 m ρ c).trans ((step_v4_8 m ρ c).trans ((step_v4_7 m ρ c).trans ((step_v4_6 m ρ c).trans ((step_v4_5 m ρ c).trans ((step_v4_4 m ρ c).trans ((step_v4_3 m ρ c).trans (step_v4_2 m ρ c)))))))))))))))
theorem keep_v3_5_1 (c : Dev nD) : W5 m ρ c (Proc.devRef .tc main_v3) = W1 m ρ c (Proc.devRef .tc main_v3) :=
  (step_v3_5 m ρ c).trans ((step_v3_4 m ρ c).trans ((step_v3_3 m ρ c).trans (step_v3_2 m ρ c)))
theorem keep_v3_12_1 (c : Dev nD) : W12 m ρ c (Proc.devRef .tc main_v3) = W1 m ρ c (Proc.devRef .tc main_v3) :=
  (step_v3_12 m ρ c).trans ((step_v3_11 m ρ c).trans ((step_v3_10 m ρ c).trans ((step_v3_9 m ρ c).trans ((step_v3_8 m ρ c).trans ((step_v3_7 m ρ c).trans ((step_v3_6 m ρ c).trans ((step_v3_5 m ρ c).trans ((step_v3_4 m ρ c).trans ((step_v3_3 m ρ c).trans (step_v3_2 m ρ c))))))))))
theorem keep_v3_19_1 (c : Dev nD) : W19 m ρ c (Proc.devRef .tc main_v3) = W1 m ρ c (Proc.devRef .tc main_v3) :=
  (step_v3_19 m ρ c).trans ((step_v3_18 m ρ c).trans ((step_v3_17 m ρ c).trans ((step_v3_16 m ρ c).trans ((step_v3_15 m ρ c).trans ((step_v3_14 m ρ c).trans ((step_v3_13 m ρ c).trans ((step_v3_12 m ρ c).trans ((step_v3_11 m ρ c).trans ((step_v3_10 m ρ c).trans ((step_v3_9 m ρ c).trans ((step_v3_8 m ρ c).trans ((step_v3_7 m ρ c).trans ((step_v3_6 m ρ c).trans ((step_v3_5 m ρ c).trans ((step_v3_4 m ρ c).trans ((step_v3_3 m ρ c).trans (step_v3_2 m ρ c)))))))))))))))))
theorem keep_v5_5_1 (c : Dev nD) : W5 m ρ c (Proc.devRef .tc main_v5) = W1 m ρ c (Proc.devRef .tc main_v5) :=
  (step_v5_5 m ρ c).trans ((step_v5_4 m ρ c).trans ((step_v5_3 m ρ c).trans (step_v5_2 m ρ c)))
theorem keep_v5_12_1 (c : Dev nD) : W12 m ρ c (Proc.devRef .tc main_v5) = W1 m ρ c (Proc.devRef .tc main_v5) :=
  (step_v5_12 m ρ c).trans ((step_v5_11 m ρ c).trans ((step_v5_10 m ρ c).trans ((step_v5_9 m ρ c).trans ((step_v5_8 m ρ c).trans ((step_v5_7 m ρ c).trans ((step_v5_6 m ρ c).trans ((step_v5_5 m ρ c).trans ((step_v5_4 m ρ c).trans ((step_v5_3 m ρ c).trans (step_v5_2 m ρ c))))))))))
theorem keep_v5_19_1 (c : Dev nD) : W19 m ρ c (Proc.devRef .tc main_v5) = W1 m ρ c (Proc.devRef .tc main_v5) :=
  (step_v5_19 m ρ c).trans ((step_v5_18 m ρ c).trans ((step_v5_17 m ρ c).trans ((step_v5_16 m ρ c).trans ((step_v5_15 m ρ c).trans ((step_v5_14 m ρ c).trans ((step_v5_13 m ρ c).trans ((step_v5_12 m ρ c).trans ((step_v5_11 m ρ c).trans ((step_v5_10 m ρ c).trans ((step_v5_9 m ρ c).trans ((step_v5_8 m ρ c).trans ((step_v5_7 m ρ c).trans ((step_v5_6 m ρ c).trans ((step_v5_5 m ρ c).trans ((step_v5_4 m ρ c).trans ((step_v5_3 m ρ c).trans (step_v5_2 m ρ c)))))))))))))))))
theorem keep_v6_7_1 (c : Dev nD) : W7 m ρ c (Proc.devRef .tc main_v6) = W1 m ρ c (Proc.devRef .tc main_v6) :=
  (step_v6_7 m ρ c).trans ((step_v6_6 m ρ c).trans ((step_v6_5 m ρ c).trans ((step_v6_4 m ρ c).trans ((step_v6_3 m ρ c).trans (step_v6_2 m ρ c)))))
theorem keep_v6_14_1 (c : Dev nD) : W14 m ρ c (Proc.devRef .tc main_v6) = W1 m ρ c (Proc.devRef .tc main_v6) :=
  (step_v6_14 m ρ c).trans ((step_v6_13 m ρ c).trans ((step_v6_12 m ρ c).trans ((step_v6_11 m ρ c).trans ((step_v6_10 m ρ c).trans ((step_v6_9 m ρ c).trans ((step_v6_8 m ρ c).trans ((step_v6_7 m ρ c).trans ((step_v6_6 m ρ c).trans ((step_v6_5 m ρ c).trans ((step_v6_4 m ρ c).trans ((step_v6_3 m ρ c).trans (step_v6_2 m ρ c))))))))))))
theorem keep_v6_21_1 (c : Dev nD) : W21 m ρ c (Proc.devRef .tc main_v6) = W1 m ρ c (Proc.devRef .tc main_v6) :=
  (step_v6_21 m ρ c).trans ((step_v6_20 m ρ c).trans ((step_v6_19 m ρ c).trans ((step_v6_18 m ρ c).trans ((step_v6_17 m ρ c).trans ((step_v6_16 m ρ c).trans ((step_v6_15 m ρ c).trans ((step_v6_14 m ρ c).trans ((step_v6_13 m ρ c).trans ((step_v6_12 m ρ c).trans ((step_v6_11 m ρ c).trans ((step_v6_10 m ρ c).trans ((step_v6_9 m ρ c).trans ((step_v6_8 m ρ c).trans ((step_v6_7 m ρ c).trans ((step_v6_6 m ρ c).trans ((step_v6_5 m ρ c).trans ((step_v6_4 m ρ c).trans ((step_v6_3 m ρ c).trans (step_v6_2 m ρ c)))))))))))))))))))
theorem keep_v7_7_1 (c : Dev nD) : W7 m ρ c (Proc.devRef .tc main_v7) = W1 m ρ c (Proc.devRef .tc main_v7) :=
  (step_v7_7 m ρ c).trans ((step_v7_6 m ρ c).trans ((step_v7_5 m ρ c).trans ((step_v7_4 m ρ c).trans ((step_v7_3 m ρ c).trans (step_v7_2 m ρ c)))))
theorem keep_v7_14_1 (c : Dev nD) : W14 m ρ c (Proc.devRef .tc main_v7) = W1 m ρ c (Proc.devRef .tc main_v7) :=
  (step_v7_14 m ρ c).trans ((step_v7_13 m ρ c).trans ((step_v7_12 m ρ c).trans ((step_v7_11 m ρ c).trans ((step_v7_10 m ρ c).trans ((step_v7_9 m ρ c).trans ((step_v7_8 m ρ c).trans ((step_v7_7 m ρ c).trans ((step_v7_6 m ρ c).trans ((step_v7_5 m ρ c).trans ((step_v7_4 m ρ c).trans ((step_v7_3 m ρ c).trans (step_v7_2 m ρ c))))))))))))
theorem keep_v7_21_1 (c : Dev nD) : W21 m ρ c (Proc.devRef .tc main_v7) = W1 m ρ c (Proc.devRef .tc main_v7) :=
  (step_v7_21 m ρ c).trans ((step_v7_20 m ρ c).trans ((step_v7_19 m ρ c).trans ((step_v7_18 m ρ c).trans ((step_v7_17 m ρ c).trans ((step_v7_16 m ρ c).trans ((step_v7_15 m ρ c).trans ((step_v7_14 m ρ c).trans ((step_v7_13 m ρ c).trans ((step_v7_12 m ρ c).trans ((step_v7_11 m ρ c).trans ((step_v7_10 m ρ c).trans ((step_v7_9 m ρ c).trans ((step_v7_8 m ρ c).trans ((step_v7_7 m ρ c).trans ((step_v7_6 m ρ c).trans ((step_v7_5 m ρ c).trans ((step_v7_4 m ρ c).trans ((step_v7_3 m ρ c).trans (step_v7_2 m ρ c)))))))))))))))))))
theorem keep_arg19_7_0 (c : Dev nD) : W7 m ρ c (Proc.devRef .tc main_arg19) = W0 m ρ c (Proc.devRef .tc main_arg19) :=
  (step_arg19_7 m ρ c).trans ((step_arg19_6 m ρ c).trans ((step_arg19_5 m ρ c).trans ((step_arg19_4 m ρ c).trans ((step_arg19_3 m ρ c).trans ((step_arg19_2 m ρ c).trans (step_arg19_1 m ρ c))))))
theorem keep_arg19_14_0 (c : Dev nD) : W14 m ρ c (Proc.devRef .tc main_arg19) = W0 m ρ c (Proc.devRef .tc main_arg19) :=
  (step_arg19_14 m ρ c).trans ((step_arg19_13 m ρ c).trans ((step_arg19_12 m ρ c).trans ((step_arg19_11 m ρ c).trans ((step_arg19_10 m ρ c).trans ((step_arg19_9 m ρ c).trans ((step_arg19_8 m ρ c).trans ((step_arg19_7 m ρ c).trans ((step_arg19_6 m ρ c).trans ((step_arg19_5 m ρ c).trans ((step_arg19_4 m ρ c).trans ((step_arg19_3 m ρ c).trans ((step_arg19_2 m ρ c).trans (step_arg19_1 m ρ c)))))))))))))
theorem keep_arg19_21_0 (c : Dev nD) : W21 m ρ c (Proc.devRef .tc main_arg19) = W0 m ρ c (Proc.devRef .tc main_arg19) :=
  (step_arg19_21 m ρ c).trans ((step_arg19_20 m ρ c).trans ((step_arg19_19 m ρ c).trans ((step_arg19_18 m ρ c).trans ((step_arg19_17 m ρ c).trans ((step_arg19_16 m ρ c).trans ((step_arg19_15 m ρ c).trans ((step_arg19_14 m ρ c).trans ((step_arg19_13 m ρ c).trans ((step_arg19_12 m ρ c).trans ((step_arg19_11 m ρ c).trans ((step_arg19_10 m ρ c).trans ((step_arg19_9 m ρ c).trans ((step_arg19_8 m ρ c).trans ((step_arg19_7 m ρ c).trans ((step_arg19_6 m ρ c).trans ((step_arg19_5 m ρ c).trans ((step_arg19_4 m ρ c).trans ((step_arg19_3 m ρ c).trans ((step_arg19_2 m ρ c).trans (step_arg19_1 m ρ c))))))))))))))))))))
theorem keep_arg21_7_0 (c : Dev nD) : W7 m ρ c (Proc.devRef .tc main_arg21) = W0 m ρ c (Proc.devRef .tc main_arg21) :=
  (step_arg21_7 m ρ c).trans ((step_arg21_6 m ρ c).trans ((step_arg21_5 m ρ c).trans ((step_arg21_4 m ρ c).trans ((step_arg21_3 m ρ c).trans ((step_arg21_2 m ρ c).trans (step_arg21_1 m ρ c))))))
theorem keep_arg21_14_0 (c : Dev nD) : W14 m ρ c (Proc.devRef .tc main_arg21) = W0 m ρ c (Proc.devRef .tc main_arg21) :=
  (step_arg21_14 m ρ c).trans ((step_arg21_13 m ρ c).trans ((step_arg21_12 m ρ c).trans ((step_arg21_11 m ρ c).trans ((step_arg21_10 m ρ c).trans ((step_arg21_9 m ρ c).trans ((step_arg21_8 m ρ c).trans ((step_arg21_7 m ρ c).trans ((step_arg21_6 m ρ c).trans ((step_arg21_5 m ρ c).trans ((step_arg21_4 m ρ c).trans ((step_arg21_3 m ρ c).trans ((step_arg21_2 m ρ c).trans (step_arg21_1 m ρ c)))))))))))))
theorem keep_arg21_21_0 (c : Dev nD) : W21 m ρ c (Proc.devRef .tc main_arg21) = W0 m ρ c (Proc.devRef .tc main_arg21) :=
  (step_arg21_21 m ρ c).trans ((step_arg21_20 m ρ c).trans ((step_arg21_19 m ρ c).trans ((step_arg21_18 m ρ c).trans ((step_arg21_17 m ρ c).trans ((step_arg21_16 m ρ c).trans ((step_arg21_15 m ρ c).trans ((step_arg21_14 m ρ c).trans ((step_arg21_13 m ρ c).trans ((step_arg21_12 m ρ c).trans ((step_arg21_11 m ρ c).trans ((step_arg21_10 m ρ c).trans ((step_arg21_9 m ρ c).trans ((step_arg21_8 m ρ c).trans ((step_arg21_7 m ρ c).trans ((step_arg21_6 m ρ c).trans ((step_arg21_5 m ρ c).trans ((step_arg21_4 m ρ c).trans ((step_arg21_3 m ρ c).trans ((step_arg21_2 m ρ c).trans (step_arg21_1 m ρ c))))))))))))))))))))
theorem keep_arg0_1_0 (c : Dev nD) : W1 m ρ c (Proc.devRef .tc main_arg0) = W0 m ρ c (Proc.devRef .tc main_arg0) :=
  step_arg0_1 m ρ c
theorem keep_arg0_7_0 (c : Dev nD) : W7 m ρ c (Proc.devRef .tc main_arg0) = W0 m ρ c (Proc.devRef .tc main_arg0) :=
  (step_arg0_7 m ρ c).trans ((step_arg0_6 m ρ c).trans ((step_arg0_5 m ρ c).trans ((step_arg0_4 m ρ c).trans ((step_arg0_3 m ρ c).trans ((step_arg0_2 m ρ c).trans (step_arg0_1 m ρ c))))))
theorem keep_arg1_2_0 (c : Dev nD) : W2 m ρ c (Proc.devRef .tc main_arg1) = W0 m ρ c (Proc.devRef .tc main_arg1) :=
  (step_arg1_2 m ρ c).trans (step_arg1_1 m ρ c)
theorem keep_arg1_6_0 (c : Dev nD) : W6 m ρ c (Proc.devRef .tc main_arg1) = W0 m ρ c (Proc.devRef .tc main_arg1) :=
  (step_arg1_6 m ρ c).trans ((step_arg1_5 m ρ c).trans ((step_arg1_4 m ρ c).trans ((step_arg1_3 m ρ c).trans ((step_arg1_2 m ρ c).trans (step_arg1_1 m ρ c)))))
theorem keep_arg2_4_0 (c : Dev nD) : W4 m ρ c (Proc.devRef .tc main_arg2) = W0 m ρ c (Proc.devRef .tc main_arg2) :=
  (step_arg2_4 m ρ c).trans ((step_arg2_3 m ρ c).trans ((step_arg2_2 m ρ c).trans (step_arg2_1 m ρ c)))
theorem keep_arg2_6_0 (c : Dev nD) : W6 m ρ c (Proc.devRef .tc main_arg2) = W0 m ρ c (Proc.devRef .tc main_arg2) :=
  (step_arg2_6 m ρ c).trans ((step_arg2_5 m ρ c).trans ((step_arg2_4 m ρ c).trans ((step_arg2_3 m ρ c).trans ((step_arg2_2 m ρ c).trans (step_arg2_1 m ρ c)))))
theorem keep_arg3_3_0 (c : Dev nD) : W3 m ρ c (Proc.devRef .tc main_arg3) = W0 m ρ c (Proc.devRef .tc main_arg3) :=
  (step_arg3_3 m ρ c).trans ((step_arg3_2 m ρ c).trans (step_arg3_1 m ρ c))
theorem keep_arg4_5_0 (c : Dev nD) : W5 m ρ c (Proc.devRef .tc main_arg4) = W0 m ρ c (Proc.devRef .tc main_arg4) :=
  (step_arg4_5 m ρ c).trans ((step_arg4_4 m ρ c).trans ((step_arg4_3 m ρ c).trans ((step_arg4_2 m ρ c).trans (step_arg4_1 m ρ c))))
theorem keep_arg5_8_0 (c : Dev nD) : W8 m ρ c (Proc.devRef .tc main_arg5) = W0 m ρ c (Proc.devRef .tc main_arg5) :=
  (step_arg5_8 m ρ c).trans ((step_arg5_7 m ρ c).trans ((step_arg5_6 m ρ c).trans ((step_arg5_5 m ρ c).trans ((step_arg5_4 m ρ c).trans ((step_arg5_3 m ρ c).trans ((step_arg5_2 m ρ c).trans (step_arg5_1 m ρ c)))))))
theorem keep_arg5_14_0 (c : Dev nD) : W14 m ρ c (Proc.devRef .tc main_arg5) = W0 m ρ c (Proc.devRef .tc main_arg5) :=
  (step_arg5_14 m ρ c).trans ((step_arg5_13 m ρ c).trans ((step_arg5_12 m ρ c).trans ((step_arg5_11 m ρ c).trans ((step_arg5_10 m ρ c).trans ((step_arg5_9 m ρ c).trans ((step_arg5_8 m ρ c).trans ((step_arg5_7 m ρ c).trans ((step_arg5_6 m ρ c).trans ((step_arg5_5 m ρ c).trans ((step_arg5_4 m ρ c).trans ((step_arg5_3 m ρ c).trans ((step_arg5_2 m ρ c).trans (step_arg5_1 m ρ c)))))))))))))
theorem keep_arg6_9_0 (c : Dev nD) : W9 m ρ c (Proc.devRef .tc main_arg6) = W0 m ρ c (Proc.devRef .tc main_arg6) :=
  (step_arg6_9 m ρ c).trans ((step_arg6_8 m ρ c).trans ((step_arg6_7 m ρ c).trans ((step_arg6_6 m ρ c).trans ((step_arg6_5 m ρ c).trans ((step_arg6_4 m ρ c).trans ((step_arg6_3 m ρ c).trans ((step_arg6_2 m ρ c).trans (step_arg6_1 m ρ c))))))))
theorem keep_arg6_13_0 (c : Dev nD) : W13 m ρ c (Proc.devRef .tc main_arg6) = W0 m ρ c (Proc.devRef .tc main_arg6) :=
  (step_arg6_13 m ρ c).trans ((step_arg6_12 m ρ c).trans ((step_arg6_11 m ρ c).trans ((step_arg6_10 m ρ c).trans ((step_arg6_9 m ρ c).trans ((step_arg6_8 m ρ c).trans ((step_arg6_7 m ρ c).trans ((step_arg6_6 m ρ c).trans ((step_arg6_5 m ρ c).trans ((step_arg6_4 m ρ c).trans ((step_arg6_3 m ρ c).trans ((step_arg6_2 m ρ c).trans (step_arg6_1 m ρ c))))))))))))
theorem keep_arg7_11_0 (c : Dev nD) : W11 m ρ c (Proc.devRef .tc main_arg7) = W0 m ρ c (Proc.devRef .tc main_arg7) :=
  (step_arg7_11 m ρ c).trans ((step_arg7_10 m ρ c).trans ((step_arg7_9 m ρ c).trans ((step_arg7_8 m ρ c).trans ((step_arg7_7 m ρ c).trans ((step_arg7_6 m ρ c).trans ((step_arg7_5 m ρ c).trans ((step_arg7_4 m ρ c).trans ((step_arg7_3 m ρ c).trans ((step_arg7_2 m ρ c).trans (step_arg7_1 m ρ c))))))))))
theorem keep_arg7_13_0 (c : Dev nD) : W13 m ρ c (Proc.devRef .tc main_arg7) = W0 m ρ c (Proc.devRef .tc main_arg7) :=
  (step_arg7_13 m ρ c).trans ((step_arg7_12 m ρ c).trans ((step_arg7_11 m ρ c).trans ((step_arg7_10 m ρ c).trans ((step_arg7_9 m ρ c).trans ((step_arg7_8 m ρ c).trans ((step_arg7_7 m ρ c).trans ((step_arg7_6 m ρ c).trans ((step_arg7_5 m ρ c).trans ((step_arg7_4 m ρ c).trans ((step_arg7_3 m ρ c).trans ((step_arg7_2 m ρ c).trans (step_arg7_1 m ρ c))))))))))))
theorem keep_arg8_10_0 (c : Dev nD) : W10 m ρ c (Proc.devRef .tc main_arg8) = W0 m ρ c (Proc.devRef .tc main_arg8) :=
  (step_arg8_10 m ρ c).trans ((step_arg8_9 m ρ c).trans ((step_arg8_8 m ρ c).trans ((step_arg8_7 m ρ c).trans ((step_arg8_6 m ρ c).trans ((step_arg8_5 m ρ c).trans ((step_arg8_4 m ρ c).trans ((step_arg8_3 m ρ c).trans ((step_arg8_2 m ρ c).trans (step_arg8_1 m ρ c)))))))))
theorem keep_arg9_12_0 (c : Dev nD) : W12 m ρ c (Proc.devRef .tc main_arg9) = W0 m ρ c (Proc.devRef .tc main_arg9) :=
  (step_arg9_12 m ρ c).trans ((step_arg9_11 m ρ c).trans ((step_arg9_10 m ρ c).trans ((step_arg9_9 m ρ c).trans ((step_arg9_8 m ρ c).trans ((step_arg9_7 m ρ c).trans ((step_arg9_6 m ρ c).trans ((step_arg9_5 m ρ c).trans ((step_arg9_4 m ρ c).trans ((step_arg9_3 m ρ c).trans ((step_arg9_2 m ρ c).trans (step_arg9_1 m ρ c)))))))))))
theorem keep_arg10_15_0 (c : Dev nD) : W15 m ρ c (Proc.devRef .tc main_arg10) = W0 m ρ c (Proc.devRef .tc main_arg10) :=
  (step_arg10_15 m ρ c).trans ((step_arg10_14 m ρ c).trans ((step_arg10_13 m ρ c).trans ((step_arg10_12 m ρ c).trans ((step_arg10_11 m ρ c).trans ((step_arg10_10 m ρ c).trans ((step_arg10_9 m ρ c).trans ((step_arg10_8 m ρ c).trans ((step_arg10_7 m ρ c).trans ((step_arg10_6 m ρ c).trans ((step_arg10_5 m ρ c).trans ((step_arg10_4 m ρ c).trans ((step_arg10_3 m ρ c).trans ((step_arg10_2 m ρ c).trans (step_arg10_1 m ρ c))))))))))))))
theorem keep_arg10_21_0 (c : Dev nD) : W21 m ρ c (Proc.devRef .tc main_arg10) = W0 m ρ c (Proc.devRef .tc main_arg10) :=
  (step_arg10_21 m ρ c).trans ((step_arg10_20 m ρ c).trans ((step_arg10_19 m ρ c).trans ((step_arg10_18 m ρ c).trans ((step_arg10_17 m ρ c).trans ((step_arg10_16 m ρ c).trans ((step_arg10_15 m ρ c).trans ((step_arg10_14 m ρ c).trans ((step_arg10_13 m ρ c).trans ((step_arg10_12 m ρ c).trans ((step_arg10_11 m ρ c).trans ((step_arg10_10 m ρ c).trans ((step_arg10_9 m ρ c).trans ((step_arg10_8 m ρ c).trans ((step_arg10_7 m ρ c).trans ((step_arg10_6 m ρ c).trans ((step_arg10_5 m ρ c).trans ((step_arg10_4 m ρ c).trans ((step_arg10_3 m ρ c).trans ((step_arg10_2 m ρ c).trans (step_arg10_1 m ρ c))))))))))))))))))))
theorem keep_arg11_16_0 (c : Dev nD) : W16 m ρ c (Proc.devRef .tc main_arg11) = W0 m ρ c (Proc.devRef .tc main_arg11) :=
  (step_arg11_16 m ρ c).trans ((step_arg11_15 m ρ c).trans ((step_arg11_14 m ρ c).trans ((step_arg11_13 m ρ c).trans ((step_arg11_12 m ρ c).trans ((step_arg11_11 m ρ c).trans ((step_arg11_10 m ρ c).trans ((step_arg11_9 m ρ c).trans ((step_arg11_8 m ρ c).trans ((step_arg11_7 m ρ c).trans ((step_arg11_6 m ρ c).trans ((step_arg11_5 m ρ c).trans ((step_arg11_4 m ρ c).trans ((step_arg11_3 m ρ c).trans ((step_arg11_2 m ρ c).trans (step_arg11_1 m ρ c)))))))))))))))
theorem keep_arg11_20_0 (c : Dev nD) : W20 m ρ c (Proc.devRef .tc main_arg11) = W0 m ρ c (Proc.devRef .tc main_arg11) :=
  (step_arg11_20 m ρ c).trans ((step_arg11_19 m ρ c).trans ((step_arg11_18 m ρ c).trans ((step_arg11_17 m ρ c).trans ((step_arg11_16 m ρ c).trans ((step_arg11_15 m ρ c).trans ((step_arg11_14 m ρ c).trans ((step_arg11_13 m ρ c).trans ((step_arg11_12 m ρ c).trans ((step_arg11_11 m ρ c).trans ((step_arg11_10 m ρ c).trans ((step_arg11_9 m ρ c).trans ((step_arg11_8 m ρ c).trans ((step_arg11_7 m ρ c).trans ((step_arg11_6 m ρ c).trans ((step_arg11_5 m ρ c).trans ((step_arg11_4 m ρ c).trans ((step_arg11_3 m ρ c).trans ((step_arg11_2 m ρ c).trans (step_arg11_1 m ρ c)))))))))))))))))))
theorem keep_arg12_18_0 (c : Dev nD) : W18 m ρ c (Proc.devRef .tc main_arg12) = W0 m ρ c (Proc.devRef .tc main_arg12) :=
  (step_arg12_18 m ρ c).trans ((step_arg12_17 m ρ c).trans ((step_arg12_16 m ρ c).trans ((step_arg12_15 m ρ c).trans ((step_arg12_14 m ρ c).trans ((step_arg12_13 m ρ c).trans ((step_arg12_12 m ρ c).trans ((step_arg12_11 m ρ c).trans ((step_arg12_10 m ρ c).trans ((step_arg12_9 m ρ c).trans ((step_arg12_8 m ρ c).trans ((step_arg12_7 m ρ c).trans ((step_arg12_6 m ρ c).trans ((step_arg12_5 m ρ c).trans ((step_arg12_4 m ρ c).trans ((step_arg12_3 m ρ c).trans ((step_arg12_2 m ρ c).trans (step_arg12_1 m ρ c)))))))))))))))))
theorem keep_arg12_20_0 (c : Dev nD) : W20 m ρ c (Proc.devRef .tc main_arg12) = W0 m ρ c (Proc.devRef .tc main_arg12) :=
  (step_arg12_20 m ρ c).trans ((step_arg12_19 m ρ c).trans ((step_arg12_18 m ρ c).trans ((step_arg12_17 m ρ c).trans ((step_arg12_16 m ρ c).trans ((step_arg12_15 m ρ c).trans ((step_arg12_14 m ρ c).trans ((step_arg12_13 m ρ c).trans ((step_arg12_12 m ρ c).trans ((step_arg12_11 m ρ c).trans ((step_arg12_10 m ρ c).trans ((step_arg12_9 m ρ c).trans ((step_arg12_8 m ρ c).trans ((step_arg12_7 m ρ c).trans ((step_arg12_6 m ρ c).trans ((step_arg12_5 m ρ c).trans ((step_arg12_4 m ρ c).trans ((step_arg12_3 m ρ c).trans ((step_arg12_2 m ρ c).trans (step_arg12_1 m ρ c)))))))))))))))))))
theorem keep_arg13_17_0 (c : Dev nD) : W17 m ρ c (Proc.devRef .tc main_arg13) = W0 m ρ c (Proc.devRef .tc main_arg13) :=
  (step_arg13_17 m ρ c).trans ((step_arg13_16 m ρ c).trans ((step_arg13_15 m ρ c).trans ((step_arg13_14 m ρ c).trans ((step_arg13_13 m ρ c).trans ((step_arg13_12 m ρ c).trans ((step_arg13_11 m ρ c).trans ((step_arg13_10 m ρ c).trans ((step_arg13_9 m ρ c).trans ((step_arg13_8 m ρ c).trans ((step_arg13_7 m ρ c).trans ((step_arg13_6 m ρ c).trans ((step_arg13_5 m ρ c).trans ((step_arg13_4 m ρ c).trans ((step_arg13_3 m ρ c).trans ((step_arg13_2 m ρ c).trans (step_arg13_1 m ρ c))))))))))))))))
theorem keep_arg14_19_0 (c : Dev nD) : W19 m ρ c (Proc.devRef .tc main_arg14) = W0 m ρ c (Proc.devRef .tc main_arg14) :=
  (step_arg14_19 m ρ c).trans ((step_arg14_18 m ρ c).trans ((step_arg14_17 m ρ c).trans ((step_arg14_16 m ρ c).trans ((step_arg14_15 m ρ c).trans ((step_arg14_14 m ρ c).trans ((step_arg14_13 m ρ c).trans ((step_arg14_12 m ρ c).trans ((step_arg14_11 m ρ c).trans ((step_arg14_10 m ρ c).trans ((step_arg14_9 m ρ c).trans ((step_arg14_8 m ρ c).trans ((step_arg14_7 m ρ c).trans ((step_arg14_6 m ρ c).trans ((step_arg14_5 m ρ c).trans ((step_arg14_4 m ρ c).trans ((step_arg14_3 m ρ c).trans ((step_arg14_2 m ρ c).trans (step_arg14_1 m ρ c))))))))))))))))))
theorem keep_v8_1_4_2 (c : Dev nD) : W4 m ρ c (Proc.devRef .tc main_v8_1) = W2 m ρ c (Proc.devRef .tc main_v8_1) :=
  (step_v8_1_4 m ρ c).trans (step_v8_1_3 m ρ c)
theorem keep_v18_6_4 (c : Dev nD) : W6 m ρ c (Proc.devRef .tc main_v18) = W4 m ρ c (Proc.devRef .tc main_v18) :=
  (step_v18_6 m ρ c).trans (step_v18_5 m ρ c)
theorem keep_v39_1_11_9 (c : Dev nD) : W11 m ρ c (Proc.devRef .tc main_v39_1) = W9 m ρ c (Proc.devRef .tc main_v39_1) :=
  (step_v39_1_11 m ρ c).trans (step_v39_1_10 m ρ c)
theorem keep_v49_13_11 (c : Dev nD) : W13 m ρ c (Proc.devRef .tc main_v49) = W11 m ρ c (Proc.devRef .tc main_v49) :=
  (step_v49_13 m ρ c).trans (step_v49_12 m ρ c)
theorem keep_v70_1_18_16 (c : Dev nD) : W18 m ρ c (Proc.devRef .tc main_v70_1) = W16 m ρ c (Proc.devRef .tc main_v70_1) :=
  (step_v70_1_18 m ρ c).trans (step_v70_1_17 m ρ c)
theorem keep_v80_20_18 (c : Dev nD) : W20 m ρ c (Proc.devRef .tc main_v80) = W18 m ρ c (Proc.devRef .tc main_v80) :=
  (step_v80_20 m ρ c).trans (step_v80_19 m ρ c)
theorem keep_v38_22_8 (c : Dev nD) : W22 m ρ c (Proc.devRef .tc main_v38) = W8 m ρ c (Proc.devRef .tc main_v38) :=
  (step_v38_22 m ρ c).trans ((step_v38_21 m ρ c).trans ((step_v38_20 m ρ c).trans ((step_v38_19 m ρ c).trans ((step_v38_18 m ρ c).trans ((step_v38_17 m ρ c).trans ((step_v38_16 m ρ c).trans ((step_v38_15 m ρ c).trans ((step_v38_14 m ρ c).trans ((step_v38_13 m ρ c).trans ((step_v38_12 m ρ c).trans ((step_v38_11 m ρ c).trans ((step_v38_10 m ρ c).trans (step_v38_9 m ρ c)))))))))))))
theorem keep_v69_22_15 (c : Dev nD) : W22 m ρ c (Proc.devRef .tc main_v69) = W15 m ρ c (Proc.devRef .tc main_v69) :=
  (step_v69_22 m ρ c).trans ((step_v69_21 m ρ c).trans ((step_v69_20 m ρ c).trans ((step_v69_19 m ρ c).trans ((step_v69_18 m ρ c).trans ((step_v69_17 m ρ c).trans (step_v69_16 m ρ c))))))

end Cert.KernelIdeal.Fold

end
-- ==== Proof.Spec.lean ====
/-
  The functions both programs compute, entry by entry, over the extended reals.

  One level of the network takes node features x (N rows of 64 lanes), for the "up" and the "down" relation a
  column of source rows g and a vector of target ids s (one per edge, E edges), edge attributes (E rows of 64
  lanes), a 128×64 weight W and a bias b per relation, and two 64×64 weights with biases for the update.

    message(e, j) = max( Σ_{c<64} x(row g e, c)·W(c, j) + Σ_{c<64} attr(e, c)·W(64 + c, j) + b(j), 0 )
    out(k, j)     = Σ_{e : s e = k} message_up(e, j) + Σ_{e : s' e = k} message_down(e, j)
    h             = out + 2·x
    result        = max( max(h·W1 + b1, 0)·W2 + b2, 0 )

  `row g e` is the start word of edge e read signed and clamped into [0, N − 1]; an edge whose target word, read
  signed, is no row number contributes nowhere.  The constants 0 and 2 are kept as the f32 words the programs
  carry.  Besides the level, the three array functions a single kernel launch computes from its operands are
  named here: a projection x·w, a message block, and the update.
-/
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals, indexed as the programs index a rank-2 array. -/
abbrev Mat (a b : Nat) := (⟨2, ![a, b]⟩ : Shape).Idx → EReal
/-- A vector of extended reals. -/
abbrev Vc (a : Nat) := (⟨1, ![a]⟩ : Shape).Idx → EReal

/-- The f32 word of 0.0 at the ideal values. -/
abbrev zeroW : EReal := Ideal.ofBits .f32 0x00000000#32
/-- The f32 word of 2.0 at the ideal values. -/
abbrev twoW : EReal := Ideal.ofBits .f32 0x40000000#32

variable {N E : Nat}

/-! ## What one kernel launch computes from its operands -/

/-- Entry (n, j) of the product x·w. -/
def projAt (x : Mat N 64) (w : Mat 64 64) (n : Fin N) (j : Fin 64) : EReal :=
  ∑ c : Fin 64, x (ix2 n c) * w (ix2 c j)

/-- The product x·w. -/
def proj (x : Mat N 64) (w : Mat 64 64) : Mat N 64 := fun i => projAt x w (i 0) (i 1)

/-- Entry (e, j) of a message block: the attribute part attr·w, plus the gathered projection, plus the bias
    row, clamped at zero. -/
def msgKAt (xwg attr : Mat E 64) (w : Mat 64 64) (b : Mat 1 64) (e : Fin E) (j : Fin 64) : EReal :=
  max (((∑ c : Fin 64, attr (ix2 e c) * w (ix2 c j)) + xwg (ix2 e j)) + b (ix2 0 j)) zeroW

/-- A message block as an array. -/
def msgK (xwg attr : Mat E 64) (w : Mat 64 64) (b : Mat 1 64) : Mat E 64 :=
  fun i => msgKAt xwg attr w b (i 0) (i 1)

/-- Entry (n, j) of a dense layer with a bias row, clamped at zero. -/
def denseAt (h : Mat N 64) (w : Mat 64 64) (b : Mat 1 64) (n : Fin N) (j : Fin 64) : EReal :=
  max ((∑ c : Fin 64, h (ix2 n c) * w (ix2 c j)) + b (ix2 0 j)) zeroW

/-- A dense layer as an array. -/
def dense (h : Mat N 64) (w : Mat 64 64) (b : Mat 1 64) : Mat N 64 := fun i => denseAt h w b (i 0) (i 1)

/-- The residual sum a + 2·x. -/
def resid (a x : Mat N 64) : Mat N 64 := fun i => a i + twoW * x i

/-- The update: two dense layers on a + 2·x. -/
def updK (a x : Mat N 64) (w1 : Mat 64 64) (b1 : Mat 1 64) (w2 : Mat 64 64) (b2 : Mat 1 64) : Mat N 64 :=
  dense (dense (resid a x) w1 b1) w2 b2

/-! ## One level, from the arguments -/

/-- The source row of edge e: its start word read signed, clamped into [0, N − 1]. -/
def rowOf (hN : 0 < N) (g : IVec ⟨2, ![E, 1]⟩ 32) (e : Fin E) : Fin N :=
  ⟨min (g (ix2 e 0)).toInt.toNat (N - 1), by omega⟩

/-- Entry (e, j) of a relation's messages. -/
def msgAt (hN : 0 < N) (x : Mat N 64) (g : IVec ⟨2, ![E, 1]⟩ 32) (attr : Mat E 64) (W : Mat (64 + 64) 64) (b : Vc 64)
    (e : Fin E) (j : Fin 64) : EReal :=
  max (((∑ c : Fin 64, x (ix2 (rowOf hN g e) c) * W (ix2 (Fin.castAdd 64 c) j))
      + ∑ c : Fin 64, attr (ix2 e c) * W (ix2 (Fin.natAdd 64 c) j)) + b (ix1 j)) zeroW

/-- A relation's messages as an array. -/
def msg (hN : 0 < N) (x : Mat N 64) (g : IVec ⟨2, ![E, 1]⟩ 32) (attr : Mat E 64) (W : Mat (64 + 64) 64) (b : Vc 64) :
    Mat E 64 := fun i => msgAt hN x g attr W b (i 0) (i 1)

/-- The messages whose target word, read signed, is row k, summed at lane j. -/
def segAt (m : Mat E 64) (s : IVec ⟨1, ![E]⟩ 32) (k : Fin N) (j : Fin 64) : EReal :=
  ∑ e : Fin E, if (s (ix1 e)).toInt = (k.val : Int) then m (ix2 e j) else 0

/-- Both relations' messages summed by target. -/
def agg (mu md : Mat E 64) (su sd : IVec ⟨1, ![E]⟩ 32) : Mat N 64 :=
  fun i => segAt mu su (i 0) (i 1) + segAt md sd (i 0) (i 1)

/-- A bias vector as a one-row matrix. -/
def rowOfVec (b : Vc 64) : Mat 1 64 := fun i => b (ix1 (i 1))

/-- One level of the network as a function of its arguments. -/
def level (hN : 0 < N) (x : Mat N 64) (gu gd : IVec ⟨2, ![E, 1]⟩ 32) (su sd : IVec ⟨1, ![E]⟩ 32) (au ad : Mat E 64)
    (Wu : Mat (64 + 64) 64) (bu : Vc 64) (Wd : Mat (64 + 64) 64) (bd : Vc 64)
    (W1 : Mat 64 64) (b1 : Vc 64) (W2 : Mat 64 64) (b2 : Vc 64) : Mat N 64 :=
  updK (agg (msg hN x gu au Wu bu) (msg hN x gd ad Wd bd) su sd) x W1 (rowOfVec b1) W2 (rowOfVec b2)

end Cert.Spec

end
-- ==== Proof.IdxForms.lean ====
/-
  The index arrays a level builds from a relation's 2×E index pair, and what they hold at an edge.

  Row 1 of the pair holds each edge's source; a negative word has the number of rows added to it (the usual
  reading of a negative position from the end) and the result is laid out as an E×1 column of start indices.
  Row 0 holds each edge's target, taken as it is.  Both programs build these arrays by the same operations, so
  they are named once here, over the shape facts the operations need.
-/
import Idealize.ShloMosaic.PureOps.Ideal.Laws
import Idealize.ShloMosaic.Lib.ValueIdx
import Idealize.ShloMosaic.Lib.Pipeline.Value

noncomputable section

namespace Cert.IdxForms

open Idealize.ShloMosaic Idealize.ShloMosaic.ValueIdx

variable {E : Nat}

/-- Row `r` of the index pair (the slice at offset (r, 0)) as a vector. -/
def pairRow (off : Fin 2 → Nat) (hs : (⟨2, ![2, E]⟩ : Shape).Slices off ⟨2, ![1, E]⟩)
    (hr : (⟨2, ![1, E]⟩ : Shape).ShapeCasts ⟨1, ![E]⟩) (I : IVec ⟨2, ![2, E]⟩ 32) : IVec ⟨1, ![E]⟩ 32 :=
  shapeCast ⟨1, ![E]⟩ (extractStridedSlice ⟨2, ![1, E]⟩ off I hs) hr

/-- A vector of positions with the negative ones moved up by `n`. -/
def wrapNeg (hb : (⟨0, ![]⟩ : Shape).BroadcastsInDim ⟨1, ![E]⟩ (![] : Fin 0 → Fin 1)) (n : BitVec 32)
    (v : IVec ⟨1, ![E]⟩ 32) : IVec ⟨1, ![E]⟩ 32 :=
  select (cmpi .slt v (broadcastInDim ⟨1, ![E]⟩ ![] hb (constantI ⟨0, ![]⟩ 32 0#32)))
    (addi v (broadcastInDim ⟨1, ![E]⟩ ![] hb (constantI ⟨0, ![]⟩ 32 n))) v

/-- A vector laid out as a one-lane column. -/
def asCol (hc : (⟨1, ![E]⟩ : Shape).BroadcastsInDim ⟨2, ![E, 1]⟩ (![0] : Fin 1 → Fin 2))
    (v : IVec ⟨1, ![E]⟩ 32) : IVec ⟨2, ![E, 1]⟩ 32 :=
  broadcastInDim ⟨2, ![E, 1]⟩ ![0] hc v

/-- The column of gather start indices of a relation: row 1 of the pair, negatives wrapped by `n`. -/
def srcCol (hs : (⟨2, ![2, E]⟩ : Shape).Slices ![1, 0] ⟨2, ![1, E]⟩)
    (hr : (⟨2, ![1, E]⟩ : Shape).ShapeCasts ⟨1, ![E]⟩)
    (hb : (⟨0, ![]⟩ : Shape).BroadcastsInDim ⟨1, ![E]⟩ (![] : Fin 0 → Fin 1))
    (hc : (⟨1, ![E]⟩ : Shape).BroadcastsInDim ⟨2, ![E, 1]⟩ (![0] : Fin 1 → Fin 2)) (n : BitVec 32)
    (I : IVec ⟨2, ![2, E]⟩ 32) : IVec ⟨2, ![E, 1]⟩ 32 :=
  asCol hc (wrapNeg hb n (pairRow ![1, 0] hs hr I))

/-- The vector of scatter targets of a relation: row 0 of the pair. -/
def tgtVec (hs : (⟨2, ![2, E]⟩ : Shape).Slices ![0, 0] ⟨2, ![1, E]⟩)
    (hr : (⟨2, ![1, E]⟩ : Shape).ShapeCasts ⟨1, ![E]⟩) (I : IVec ⟨2, ![2, E]⟩ 32) : IVec ⟨1, ![E]⟩ 32 :=
  pairRow ![0, 0] hs hr I

/-- A vector laid out as a one-lane column, read at a row. -/
theorem asCol_apply {n : Nat} (hc : (⟨1, ![n]⟩ : Shape).BroadcastsInDim ⟨2, ![n, 1]⟩ (![0] : Fin 1 → Fin 2))
    (v : IVec ⟨1, ![n]⟩ 32) (e : Fin n) (u : Fin 1) :
    broadcastInDim ⟨2, ![n, 1]⟩ ![0] hc v (ix2 e u) = v (ix1 e) := by
  unfold broadcastInDim
  refine congrArg v (funext fun d => ?_)
  match d with
  | ⟨0, _⟩ =>
    apply Fin.ext
    split
    · rename_i h1
      have h1' : n = 1 := h1
      have := e.isLt
      show 0 = e.val
      omega
    · rfl

end Cert.IdxForms

end
-- ==== Proof.LibScatterIdeal.lean ====
/-
  The host's accumulating scatter, read at the extended reals, is the exact sum: every operand element plus the
  updates that land on it, whatever the shapes and the dimension numbers.
-/
import Idealize.ShloMosaic.PureOps.Contract
import Idealize.ShloMosaic.PureOps.Ideal

noncomputable section

namespace Cert.LibScatter

open Idealize.ShloMosaic

/-- Over the extended reals the accumulating scatter is the operand plus the sum of the updates landing there. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

end Cert.LibScatter

end
-- ==== Proof.LibScatterRows.lean ====
/-
  The landing index of an update for two row-scatter layouts, in closed form, and the accumulating scatter of rows
  re-indexed by the row number.

  * Rows (`resultIdx?_rows`): the operand is `K × C`, the updates are `N × C`, and each update row carries one start
    index. Update `(n, l)` lands at `(k, l')` exactly when the `n`-th start index, read as a signed integer, is `k` and
    `l' = l`: a row keeps its lane, and a start index outside `[0, K)` lands nowhere. Consequently
    (`hostScatterAdd_rows_apply`) the accumulated element `(k, l)` is the operand's element plus the sum, over the rows
    `n` whose start index is `k`, of the update's element `(n, l)`.
  * Row block (`resultIdx?_rowBlock`): an `R × Q` block written into a `P × Q` array at one start row, read off a
    one-element index vector. Update `(r, q)` lands at `(p, q')` exactly when the start row, read signed, plus `r` is
    `p` and `q' = q`.
-/
import Idealize.ShloMosaic.PureOps.ShapeOps
import Idealize.ShloMosaic.PureOps.Dims
import Idealize.ShloMosaic.PureOps.Ideal
import Idealize.ShloMosaic.Lib.ValueIdx

noncomputable section

open scoped BigOperators

namespace Cert.LibScatter

open Idealize.ShloMosaic Idealize.ShloMosaic.ValueIdx

variable {N K C P Q R w : Nat}

section Rows

variable (d : ScatterDims ⟨2, ![K, C]⟩ ⟨2, ![N, 1]⟩ ⟨2, ![N, C]⟩)
    (h1 : d.updateWindowDims = [1]) (h2 : d.insertedWindowDims = [0]) (h3 : d.scatterDimsToOperandDims = [0])
    (h4 : d.indexVectorDim = 1)

include h1 h2 h3 h4 in
/-- The start of update `j` on the row axis is its row's start index, read signed. -/
theorem start_rows0 (j : (⟨2, ![N, C]⟩ : Shape).Idx) (idx : IVec ⟨2, ![N, 1]⟩ w) :
    d.start j idx 0 = (idx (ix2 (j 0) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The lane axis has no start index: its start is zero. -/
theorem start_rows1 (j : (⟨2, ![N, C]⟩ : Shape).Idx) (idx : IVec ⟨2, ![N, 1]⟩ w) : d.start j idx 1 = 0 := by
  obtain ⟨uw, iw, sd, iv, wf⟩ := d
  subst h1 h2 h3 h4
  unfold ScatterDims.start
  rw [dif_neg]
  simp

include h1 h2 h3 h4 in
/-- The row axis is an inserted one: its window coordinate is zero. -/
theorem window_rows0 (j : (⟨2, ![N, C]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- The lane axis is the window axis: the window coordinate is the update's lane. -/
theorem window_rows1 (j : (⟨2, ![N, C]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(n, l)` lands at `(k, l')` exactly when row `n`'s start index, read signed, is `k` and `l' = l`. -/
theorem resultIdx?_rows (j : (⟨2, ![N, C]⟩ : Shape).Idx) (idx : IVec ⟨2, ![N, 1]⟩ w) (i : (⟨2, ![K, C]⟩ : Shape).Idx) :
    d.resultIdx? j idx = some i ↔ (idx (ix2 (j 0) 0)).toInt = ((i 0).val : Int) ∧ (i 1).val = (j 1).val := by
  have hs0 := start_rows0 d h1 h2 h3 h4 j idx
  have hs1 := start_rows1 d h1 h2 h3 h4 j idx
  have hw0 := window_rows0 d h1 h2 h3 h4 j
  have hw1 := window_rows1 d h1 h2 h3 h4 j
  have hi0 : (i 0).val < K := (i 0).isLt
  have hi1 : (i 1).val < C := (i 1).isLt
  have hj1 : (j 1).val < C := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![K, C]⟩ : Shape).size a := by
      intro a
      match a with
      | ⟨0, _⟩ =>
        show 0 ≤ d.start j idx 0 + ↑(d.window j 0) ∧ d.start j idx 0 + ↑(d.window j 0) < ((K : Nat) : Int)
        rw [hs0, hw0, e0]; omega
      | ⟨1, _⟩ =>
        show 0 ≤ d.start j idx 1 + ↑(d.window j 1) ∧ d.start j idx 1 + ↑(d.window j 1) < ((C : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

include h1 h2 h3 h4 in
/-- The accumulated element `(k, l)` is the operand's element plus the sum of the updates' elements `(n, l)` over
    the rows `n` whose start index, read signed, is `k`. -/
theorem hostScatterAdd_rows_apply (x : (⟨2, ![K, C]⟩ : Shape).Idx → EReal) (idx : IVec ⟨2, ![N, 1]⟩ w)
    (upd : (⟨2, ![N, C]⟩ : Shape).Idx → EReal) (k : Fin K) (l : Fin C) :
    Ideal.hostScatterAdd d x idx upd (ix2 k l)
      = x (ix2 k l) + ∑ n : Fin N, if (idx (ix2 n 0)).toInt = (k.val : Int) then upd (ix2 n l) else 0 := by
  unfold Ideal.hostScatterAdd
  congr 1
  rw [Finset.sum_filter, sum_idx2]
  apply Finset.sum_congr rfl
  intro n _
  -- the landing condition of update (n, l') at (k, l): row n's start index is k, and l' = l
  have hcond : ∀ l' : Fin C, (d.resultIdx? (ix2 n l') idx = some (ix2 k l)) ↔
      ((idx (ix2 n 0)).toInt = (k.val : Int) ∧ l = l') := by
    intro l'
    rw [resultIdx?_rows d h1 h2 h3 h4]
    constructor
    · rintro ⟨a, b⟩; exact ⟨a, Fin.ext b⟩
    · rintro ⟨a, b⟩; exact ⟨a, congrArg Fin.val b⟩
  by_cases hA : (idx (ix2 n 0)).toInt = (k.val : Int)
  · rw [if_pos hA, Finset.sum_eq_single l]
    · rw [if_pos ((hcond l).2 ⟨hA, rfl⟩)]
    · intro l' _ hne
      rw [if_neg]
      intro h
      exact hne ((hcond l').1 h).2.symm
    · intro h
      exact absurd (Finset.mem_univ l) h
  · rw [if_neg hA]
    apply Finset.sum_eq_zero
    intro l' _
    rw [if_neg]
    intro h
    exact hA ((hcond l').1 h).1

end Rows

section RowBlock

variable (d : ScatterDims ⟨2, ![P, Q]⟩ ⟨1, ![1]⟩ ⟨2, ![R, Q]⟩)
    (h1 : d.updateWindowDims = [0, 1]) (h2 : d.insertedWindowDims = []) (h3 : d.scatterDimsToOperandDims = [0])
    (h4 : d.indexVectorDim = 0)

include h1 h2 h3 h4 in
/-- The start on the row axis is the one start index, read signed. -/
theorem start_rowBlock0 (j : (⟨2, ![R, Q]⟩ : Shape).Idx) (idx : IVec ⟨1, ![1]⟩ w) :
    d.start j idx 0 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The lane axis has no start index: its start is zero. -/
theorem start_rowBlock1 (j : (⟨2, ![R, Q]⟩ : Shape).Idx) (idx : IVec ⟨1, ![1]⟩ w) : d.start j idx 1 = 0 := by
  obtain ⟨uw, iw, sd, iv, wf⟩ := d
  subst h1 h2 h3 h4
  unfold ScatterDims.start
  rw [dif_neg]
  simp

include h1 h2 h3 h4 in
/-- Both axes are window axes: on the row axis the window coordinate is the update's row. -/
theorem window_rowBlock0 (j : (⟨2, ![R, Q]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- On the lane axis the window coordinate is the update's lane. -/
theorem window_rowBlock1 (j : (⟨2, ![R, Q]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(r, q)` lands at `(p, q')` exactly when the start row, read signed, plus `r` is `p` and `q' = q`. -/
theorem resultIdx?_rowBlock (j : (⟨2, ![R, Q]⟩ : Shape).Idx) (idx : IVec ⟨1, ![1]⟩ w) (i : (⟨2, ![P, Q]⟩ : Shape).Idx) :
    d.resultIdx? j idx = some i ↔ (idx (ix1 0)).toInt + ((j 0).val : Int) = ((i 0).val : Int) ∧ (i 1).val = (j 1).val := by
  have hs0 := start_rowBlock0 d h1 h2 h3 h4 j idx
  have hs1 := start_rowBlock1 d h1 h2 h3 h4 j idx
  have hw0 := window_rowBlock0 d h1 h2 h3 h4 j
  have hw1 := window_rowBlock1 d h1 h2 h3 h4 j
  have hi0 : (i 0).val < P := (i 0).isLt
  have hi1 : (i 1).val < Q := (i 1).isLt
  have hj1 : (j 1).val < Q := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![P, Q]⟩ : Shape).size a := by
      intro a
      match a with
      | ⟨0, _⟩ =>
        show 0 ≤ d.start j idx 0 + ↑(d.window j 0) ∧ d.start j idx 0 + ↑(d.window j 0) < ((P : Nat) : Int)
        rw [hs0, hw0, e0]; omega
      | ⟨1, _⟩ =>
        show 0 ≤ d.start j idx 1 + ↑(d.window j 1) ∧ d.start j idx 1 + ↑(d.window j 1) < ((Q : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

end RowBlock

end Cert.LibScatter
-- ==== Proof.LibConcatRows.lean ====
/-
  Two arrays joined along the leading axis, read at an entry.

  An a×C matrix stacked on a b×C matrix is an (a+b)×C matrix whose row r is row r of the first piece for r < a
  and row r − a of the second otherwise; the same for two vectors joined end to end.  With these, a sum over the
  a + b rows of the joined array is the sum over the first piece's rows plus the sum over the second piece's.
-/
import Idealize.ShloMosaic.PureOps.Ideal.Laws
import Idealize.ShloMosaic.Lib.ValueIdx
import Idealize.ShloMosaic.Lib.Pipeline.Value

noncomputable section

open scoped BigOperators

namespace Cert.ConcatRows

open Idealize.ShloMosaic Idealize.ShloMosaic.ValueIdx

variable {α : Type} {a b C : Nat}

/-- The stacked matrix at a row of the first piece. -/
theorem rows_top (X : (⟨2, ![a, C]⟩ : Shape).Idx → α) (Y : (⟨2, ![b, C]⟩ : Shape).Idx → α)
    (hc : Shape.Concatenates [(⟨2, ![a, C]⟩ : Shape), ⟨2, ![b, C]⟩] ⟨2, ![a + b, C]⟩ (0 : Fin 2)) (r : Fin a) (l : Fin C) :
    concatenate ⟨2, ![a + b, C]⟩ (0 : Fin 2) [⟨⟨2, ![a, C]⟩, X⟩, ⟨⟨2, ![b, C]⟩, Y⟩] hc (ix2 (Fin.castAdd b r) l) = X (ix2 r l) :=
  concatenate_pair_apply_left (0 : Fin 2) X Y hc (ix2 (Fin.castAdd b r) l) rfl (ix2 r l)
    (fun d => match d with | ⟨0, _⟩ => rfl | ⟨1, _⟩ => rfl)

/-- The stacked matrix at a row of the second piece. -/
theorem rows_bottom (X : (⟨2, ![a, C]⟩ : Shape).Idx → α) (Y : (⟨2, ![b, C]⟩ : Shape).Idx → α)
    (hc : Shape.Concatenates [(⟨2, ![a, C]⟩ : Shape), ⟨2, ![b, C]⟩] ⟨2, ![a + b, C]⟩ (0 : Fin 2)) (r : Fin b) (l : Fin C) :
    concatenate ⟨2, ![a + b, C]⟩ (0 : Fin 2) [⟨⟨2, ![a, C]⟩, X⟩, ⟨⟨2, ![b, C]⟩, Y⟩] hc (ix2 (Fin.natAdd a r) l) = Y (ix2 r l) :=
  concatenate_pair_apply_right (0 : Fin 2) X Y hc (ix2 (Fin.natAdd a r) l) rfl rfl (ix2 r l)
    (fun d hd => match d, hd with
      | ⟨0, _⟩, hd => absurd rfl hd
      | ⟨1, _⟩, _ => rfl)
    (by show r.val + a = a + r.val; omega)

/-- Two vectors joined end to end, at a position of the first. -/
theorem vec_top (x : (⟨1, ![a]⟩ : Shape).Idx → α) (y : (⟨1, ![b]⟩ : Shape).Idx → α)
    (hc : Shape.Concatenates [(⟨1, ![a]⟩ : Shape), ⟨1, ![b]⟩] ⟨1, ![a + b]⟩ (0 : Fin 1)) (r : Fin a) :
    concatenate ⟨1, ![a + b]⟩ (0 : Fin 1) [⟨⟨1, ![a]⟩, x⟩, ⟨⟨1, ![b]⟩, y⟩] hc (ix1 (Fin.castAdd b r)) = x (ix1 r) :=
  concatenate_pair_apply_left (0 : Fin 1) x y hc (ix1 (Fin.castAdd b r)) rfl (ix1 r)
    (fun d => match d with | ⟨0, _⟩ => rfl)

/-- Two vectors joined end to end, at a position of the second. -/
theorem vec_bottom (x : (⟨1, ![a]⟩ : Shape).Idx → α) (y : (⟨1, ![b]⟩ : Shape).Idx → α)
    (hc : Shape.Concatenates [(⟨1, ![a]⟩ : Shape), ⟨1, ![b]⟩] ⟨1, ![a + b]⟩ (0 : Fin 1)) (r : Fin b) :
    concatenate ⟨1, ![a + b]⟩ (0 : Fin 1) [⟨⟨1, ![a]⟩, x⟩, ⟨⟨1, ![b]⟩, y⟩] hc (ix1 (Fin.natAdd a r)) = y (ix1 r) :=
  concatenate_pair_apply_right (0 : Fin 1) x y hc (ix1 (Fin.natAdd a r)) rfl rfl (ix1 r)
    (fun d hd => match d, hd with
      | ⟨0, _⟩, hd => absurd rfl hd)
    (by show r.val + a = a + r.val; omega)

end Cert.ConcatRows

end
-- ==== Proof.LibSegSums.lean ====
/-
  One accumulating scatter of two stacked blocks of rows.

  Stack an a×C block of update rows on a b×C block, and join the two blocks' target vectors end to end.  A row
  scatter-add of the stacked rows by the joined targets holds, at (k, l), the operand's entry plus the first
  block's rows aimed at k plus the second block's rows aimed at k: the sum over the a + b stacked rows splits at
  the seam.  The same for a single block whose targets are a vector laid out as a column.  No finiteness is
  used: only that a finite sum over a + b positions is the sum over the first a plus the sum over the last b.
-/
import proofs.«121345_j4372276707359_2_alg».proof.Proof.LibScatterIdeal
import proofs.«121345_j4372276707359_2_alg».proof.Proof.LibScatterRows
import proofs.«121345_j4372276707359_2_alg».proof.Proof.LibConcatRows
import proofs.«121345_j4372276707359_2_alg».proof.Proof.IdxForms

noncomputable section

open scoped BigOperators

namespace Cert.SegSums

open Idealize.ShloMosaic Idealize.ShloMosaic.ValueIdx Cert.LibScatter

variable {a b K C : Nat}

/-- A row scatter-add whose targets are a vector laid out as a column, at (k, l). -/
theorem scatter_col_apply
    (d : ScatterDims ⟨2, ![K, C]⟩ ⟨2, ![a, 1]⟩ ⟨2, ![a, C]⟩)
    (h1 : d.updateWindowDims = [1]) (h2 : d.insertedWindowDims = [0]) (h3 : d.scatterDimsToOperandDims = [0])
    (h4 : d.indexVectorDim = 1)
    (x : (⟨2, ![K, C]⟩ : Shape).Idx → EReal) (s : IVec ⟨1, ![a]⟩ 32)
    (hbc : (⟨1, ![a]⟩ : Shape).BroadcastsInDim ⟨2, ![a, 1]⟩ (![0] : Fin 1 → Fin 2))
    (mu : (⟨2, ![a, C]⟩ : Shape).Idx → EReal) (k : Fin K) (l : Fin C) :
    Host.scatterAdd (F := Ideal) (φ := .f32) d x (broadcastInDim ⟨2, ![a, 1]⟩ ![0] hbc s) mu (ix2 k l)
      = x (ix2 k l) + ∑ e : Fin a, if (s (ix1 e)).toInt = (k.val : Int) then mu (ix2 e l) else 0 := by
  rw [scatterAdd_ideal, hostScatterAdd_rows_apply d h1 h2 h3 h4]
  refine congrArg (x (ix2 k l) + ·) (Finset.sum_congr rfl fun e _ => ?_)
  rw [IdxForms.asCol_apply]

/-- One row scatter-add of two stacked blocks by their joined targets, at (k, l). -/
theorem fused_scatter_apply
    (d : ScatterDims ⟨2, ![K, C]⟩ ⟨2, ![a + b, 1]⟩ ⟨2, ![a + b, C]⟩)
    (h1 : d.updateWindowDims = [1]) (h2 : d.insertedWindowDims = [0]) (h3 : d.scatterDimsToOperandDims = [0])
    (h4 : d.indexVectorDim = 1)
    (x : (⟨2, ![K, C]⟩ : Shape).Idx → EReal)
    (su : IVec ⟨1, ![a]⟩ 32) (sd : IVec ⟨1, ![b]⟩ 32)
    (hcv : Shape.Concatenates [(⟨1, ![a]⟩ : Shape), ⟨1, ![b]⟩] ⟨1, ![a + b]⟩ (0 : Fin 1))
    (hbc : (⟨1, ![a + b]⟩ : Shape).BroadcastsInDim ⟨2, ![a + b, 1]⟩ (![0] : Fin 1 → Fin 2))
    (mu : (⟨2, ![a, C]⟩ : Shape).Idx → EReal) (md : (⟨2, ![b, C]⟩ : Shape).Idx → EReal)
    (hcm : Shape.Concatenates [(⟨2, ![a, C]⟩ : Shape), ⟨2, ![b, C]⟩] ⟨2, ![a + b, C]⟩ (0 : Fin 2))
    (k : Fin K) (l : Fin C) :
    Host.scatterAdd (F := Ideal) (φ := .f32) d x
        (broadcastInDim ⟨2, ![a + b, 1]⟩ ![0] hbc
          (concatenate ⟨1, ![a + b]⟩ (0 : Fin 1) [⟨⟨1, ![a]⟩, su⟩, ⟨⟨1, ![b]⟩, sd⟩] hcv))
        (concatenate ⟨2, ![a + b, C]⟩ (0 : Fin 2) [⟨⟨2, ![a, C]⟩, mu⟩, ⟨⟨2, ![b, C]⟩, md⟩] hcm) (ix2 k l)
      = x (ix2 k l) + ((∑ e : Fin a, if (su (ix1 e)).toInt = (k.val : Int) then mu (ix2 e l) else 0)
          + ∑ e : Fin b, if (sd (ix1 e)).toInt = (k.val : Int) then md (ix2 e l) else 0) := by
  rw [scatterAdd_ideal, hostScatterAdd_rows_apply d h1 h2 h3 h4, Fin.sum_univ_add]
  refine congrArg (x (ix2 k l) + ·) (congrArg₂ (· + ·) (Finset.sum_congr rfl fun e _ => ?_) (Finset.sum_congr rfl fun e _ => ?_))
  · rw [IdxForms.asCol_apply, ConcatRows.vec_top, ConcatRows.rows_top]
  · rw [IdxForms.asCol_apply, ConcatRows.vec_bottom, ConcatRows.rows_bottom]

end Cert.SegSums

end
-- ==== Proof.LibGather.lean ====
/-
  The host's gather of rows, read at one element, for the two layouts an indexed read `x[idx]` along the leading axis
  lowers to when every start index is a one-element index vector (start indices of shape N × 1).

  * Rows (`gather_rows_apply`): the operand is K × C, the result N × C; the row axis is collapsed, the lane axis is the
    one offset axis, and the slice is one whole row. Result element (n, l) is the operand's element (r, l), where r is
    the n-th start index read as a signed integer and clamped into [0, K − 1].
  * Vector (`gather_vec_apply`): the operand is a vector of length K, the result a vector of length N; the one axis is
    collapsed and the slice is one entry. Result entry n is the operand's entry r, with r as above.

  The clamp is StableHLO's: a start index is moved into the range where the slice fits, so a negative word reads row 0
  and a word of K or more reads row K − 1.
-/
import Idealize.ShloMosaic.PureOps.ShapeOps
import Idealize.ShloMosaic.PureOps.Dims
import Idealize.ShloMosaic.Lib.ValueIdx

noncomputable section

namespace Cert.LibGather

open Idealize.ShloMosaic Idealize.ShloMosaic.ValueIdx

variable {N K C w : Nat}

section Rows

variable (d : GatherDims ⟨2, ![K, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])

include h1 h2 h3 h4 h5 h6 h7 in
/-- On the row axis the slice starts at the row's start index, read signed and clamped into [0, K − 1]. -/
theorem start_rows0 (j : (⟨2, ![N, C]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The lane axis is not in the start index map: the slice starts at lane 0. -/
theorem start_rows1 (j : (⟨2, ![N, C]⟩ : Shape).Idx) (idx : IVec ⟨2, ![N, 1]⟩ w) : d.start j idx 1 = 0 := by
  obtain ⟨od, cd, ob, sb, sm, iv, ss, wf⟩ := d
  subst h1 h2 h3 h4 h5 h6 h7
  unfold GatherDims.start
  rw [dif_neg]
  simp

include h1 h2 h3 h4 h5 h6 h7 in
/-- The row axis is collapsed: no offset on it. -/
theorem offCoord_rows0 (j : (⟨2, ![N, C]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- The lane axis is the offset axis: the offset is the result's lane. -/
theorem offCoord_rows1 (j : (⟨2, ![N, C]⟩ : Shape).Idx) : d.offCoord j 1 = (j 1).val := by
  obtain ⟨od, cd, ob, sb, sm, iv, ss, wf⟩ := d
  subst h1 h2 h3 h4 h5 h6 h7
  unfold GatherDims.offCoord
  rw [dif_pos (by simp [GatherDims.sKept, Shape.kept])]
  rfl

include h1 h2 h3 h4 h5 h6 h7 in
/-- THE ROW GATHER READ AT (n, l): the operand at row "start index n, read signed, clamped into [0, K − 1]", lane l. -/
theorem gather_rows_apply (hK : 0 < K) {α : Type} (x : (⟨2, ![K, C]⟩ : Shape).Idx → α) (idx : IVec ⟨2, ![N, 1]⟩ w)
    (n : Fin N) (l : Fin C) :
    Host.gather d x idx (ix2 n l) = x (ix2 ⟨min (idx (ix2 n 0)).toInt.toNat (K - 1), by omega⟩ l) := by
  have hs0 := start_rows0 d h1 h2 h3 h4 h5 h6 h7 (ix2 n l) idx
  have hs1 := start_rows1 d h1 h2 h3 h4 h5 h6 h7 (ix2 n l) idx
  have ho0 := offCoord_rows0 d h1 h2 h3 h4 h5 h6 h7 (ix2 n l)
  have ho1 := offCoord_rows1 d h1 h2 h3 h4 h5 h6 h7 (ix2 n l)
  have hb : ∀ a, d.batchCoord (ix2 n l) a = 0 := fun a =>
    d.batchCoord_eq_zero _ a (by rw [h3]; exact List.not_mem_nil)
  unfold Host.gather
  congr 1
  funext a
  refine Fin.ext ?_
  match a with
  | ⟨0, _⟩ =>
    show d.start (ix2 n l) idx 0 + d.batchCoord (ix2 n l) 0 + d.offCoord (ix2 n l) 0 = _
    rw [hs0, hb, ho0]; rfl
  | ⟨1, _⟩ =>
    show d.start (ix2 n l) idx 1 + d.batchCoord (ix2 n l) 1 + d.offCoord (ix2 n l) 1 = _
    rw [hs1, hb, ho1]; show 0 + 0 + l.val = l.val; omega

end Rows

section Vec

variable (d : GatherDims ⟨1, ![K]⟩ ⟨2, ![N, 1]⟩ ⟨1, ![N]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])

include h1 h2 h3 h4 h5 h6 h7 in
/-- On the vector's one axis the slice starts at the start index, read signed and clamped into [0, K − 1]. -/
theorem start_vec0 (j : (⟨1, ![N]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The one axis is collapsed: no offset on it. -/
theorem offCoord_vec0 (j : (⟨1, ![N]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- THE VECTOR GATHER READ AT n: the operand at entry "start index n, read signed, clamped into [0, K − 1]". -/
theorem gather_vec_apply (hK : 0 < K) {α : Type} (x : (⟨1, ![K]⟩ : Shape).Idx → α) (idx : IVec ⟨2, ![N, 1]⟩ w)
    (n : Fin N) :
    Host.gather d x idx (ix1 n) = x (ix1 ⟨min (idx (ix2 n 0)).toInt.toNat (K - 1), by omega⟩) := by
  have hs0 := start_vec0 d h1 h2 h3 h4 h5 h6 h7 (ix1 n) idx
  have ho0 := offCoord_vec0 d h1 h2 h3 h4 h5 h6 h7 (ix1 n)
  have hb : ∀ a, d.batchCoord (ix1 n) a = 0 := fun a =>
    d.batchCoord_eq_zero _ a (by rw [h3]; exact List.not_mem_nil)
  unfold Host.gather
  congr 1
  funext a
  refine Fin.ext ?_
  match a with
  | ⟨0, _⟩ =>
    show d.start (ix1 n) idx 0 + d.batchCoord (ix1 n) 0 + d.offCoord (ix1 n) 0 = _
    rw [hs0, hb, ho0]; rfl

end Vec

end Cert.LibGather

end
-- ==== Proof.LibConcatLanes.lean ====
/-
  Two row blocks joined along the lanes, and a contraction over the joined lanes split in two.

  For X (R×a) and A (R×b), the concatenation along axis 1 is the R×(a+b) array holding X(r, c) at lane c < a and
  A(r, c − a) at lane c ≥ a. A sum over the joined lanes against the rows of a stacked weight W ((a+b)×h) is therefore
  the sum over X's lanes against W's first a rows plus the sum over A's lanes against W's last b rows:

    Σ_{c < a+b} [X | A](r, c) · W(c, k) = Σ_{c < a} X(r, c) · W(c, k) + Σ_{c < b} A(r, c) · W(a + c, k).

  Only the way the index set Fin (a+b) splits into its first a and last b elements is used, in any additive
  commutative monoid — on the extended reals this asks nothing of the entries. The two row slices of W are read
  at an entry alongside (`slice_top`, `slice_bottom`).
-/
import Idealize.ShloMosaic.PureOps.Ideal.Laws
import Idealize.ShloMosaic.Lib.ValueIdx
import Idealize.ShloMosaic.Lib.Pipeline.Value

noncomputable section

open scoped BigOperators

namespace Cert.ConcatLanes

open Idealize.ShloMosaic Idealize.ShloMosaic.ValueIdx

variable {α : Type} {R a b h : Nat}

/-- The joined array at a lane of the first block. -/
theorem concat_left (X : (⟨2, ![R, a]⟩ : Shape).Idx → α) (A : (⟨2, ![R, b]⟩ : Shape).Idx → α)
    (hc : Shape.Concatenates [(⟨2, ![R, a]⟩ : Shape), ⟨2, ![R, b]⟩] ⟨2, ![R, a + b]⟩ (1 : Fin 2)) (r : Fin R) (c : Fin a) :
    concatenate ⟨2, ![R, a + b]⟩ (1 : Fin 2) [⟨⟨2, ![R, a]⟩, X⟩, ⟨⟨2, ![R, b]⟩, A⟩] hc (ix2 r (Fin.castAdd b c)) = X (ix2 r c) :=
  concatenate_pair_apply_left (1 : Fin 2) X A hc (ix2 r (Fin.castAdd b c)) rfl (ix2 r c)
    (fun d => match d with | ⟨0, _⟩ => rfl | ⟨1, _⟩ => rfl)

/-- The joined array at a lane of the second block. -/
theorem concat_right (X : (⟨2, ![R, a]⟩ : Shape).Idx → α) (A : (⟨2, ![R, b]⟩ : Shape).Idx → α)
    (hc : Shape.Concatenates [(⟨2, ![R, a]⟩ : Shape), ⟨2, ![R, b]⟩] ⟨2, ![R, a + b]⟩ (1 : Fin 2)) (r : Fin R) (c : Fin b) :
    concatenate ⟨2, ![R, a + b]⟩ (1 : Fin 2) [⟨⟨2, ![R, a]⟩, X⟩, ⟨⟨2, ![R, b]⟩, A⟩] hc (ix2 r (Fin.natAdd a c)) = A (ix2 r c) :=
  concatenate_pair_apply_right (1 : Fin 2) X A hc (ix2 r (Fin.natAdd a c)) rfl rfl (ix2 r c)
    (fun d hd => match d, hd with
      | ⟨0, _⟩, _ => rfl
      | ⟨1, _⟩, hd => absurd rfl hd)
    (by show c.val + a = a + c.val; omega)

/-- The contraction over the joined lanes is the sum of the two blocks' contractions. -/
theorem sum_concat (X : (⟨2, ![R, a]⟩ : Shape).Idx → EReal) (A : (⟨2, ![R, b]⟩ : Shape).Idx → EReal)
    (hc : Shape.Concatenates [(⟨2, ![R, a]⟩ : Shape), ⟨2, ![R, b]⟩] ⟨2, ![R, a + b]⟩ (1 : Fin 2))
    (W : (⟨2, ![a + b, h]⟩ : Shape).Idx → EReal) (r : Fin R) (k : Fin h) :
    (∑ c : Fin (a + b), concatenate ⟨2, ![R, a + b]⟩ (1 : Fin 2) [⟨⟨2, ![R, a]⟩, X⟩, ⟨⟨2, ![R, b]⟩, A⟩] hc (ix2 r c) * W (ix2 c k))
      = (∑ c : Fin a, X (ix2 r c) * W (ix2 (Fin.castAdd b c) k)) + ∑ c : Fin b, A (ix2 r c) * W (ix2 (Fin.natAdd a c) k) := by
  rw [Fin.sum_univ_add]
  congr 1
  · exact Finset.sum_congr rfl fun c _ => by rw [concat_left]
  · exact Finset.sum_congr rfl fun c _ => by rw [concat_right]

/-- The first a rows of a stacked weight, cut out as an a×h array, at an entry. -/
theorem slice_top (W : (⟨2, ![a + b, h]⟩ : Shape).Idx → α)
    (hs : (⟨2, ![a + b, h]⟩ : Shape).Slices ![0, 0] ⟨2, ![a, h]⟩) (c : Fin a) (k : Fin h) :
    extractStridedSlice ⟨2, ![a, h]⟩ ![0, 0] W hs (ix2 c k) = W (ix2 (Fin.castAdd b c) k) :=
  extractStridedSlice_apply ![0, 0] W hs (ix2 c k) (ix2 (Fin.castAdd b c) k) (fun d => match d with
    | ⟨0, _⟩ => by show c.val = 0 + c.val; omega
    | ⟨1, _⟩ => by show k.val = 0 + k.val; omega)

/-- The last b rows of a stacked weight, cut out as a b×h array, at an entry. -/
theorem slice_bottom (W : (⟨2, ![a + b, h]⟩ : Shape).Idx → α)
    (hs : (⟨2, ![a + b, h]⟩ : Shape).Slices ![a, 0] ⟨2, ![b, h]⟩) (c : Fin b) (k : Fin h) :
    extractStridedSlice ⟨2, ![b, h]⟩ ![a, 0] W hs (ix2 c k) = W (ix2 (Fin.natAdd a c) k) :=
  extractStridedSlice_apply ![a, 0] W hs (ix2 c k) (ix2 (Fin.natAdd a c) k) (fun d => match d with
    | ⟨0, _⟩ => rfl
    | ⟨1, _⟩ => by show k.val = 0 + k.val; omega)

end Cert.ConcatLanes

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibLits.lean ====
/-
  Four single-precision float literals as the extended reals their bit patterns denote: 0.0, 1.0, 2.0 and -1.0.
  Each pattern is a sign, an exponent and a zero mantissa, so its value is a signed power of two.
-/
import Idealize.ShloMosaic.PureOps.Ideal
import Idealize.ShloMosaic.PureOps.Ideal.Laws

noncomputable section

namespace Cert.Lits

open Idealize.ShloMosaic

/-- The pattern of `1.0` denotes the real one. -/
theorem one : Ideal.ofBits .f32 0x3F800000#32 = ((1 : ℝ) : EReal) := by
  simp [Ideal.ofBits, Ideal.ieee, -EReal.coe_mul]; norm_num

/-- The pattern of `2.0` denotes the real two. -/
theorem two : Ideal.ofBits .f32 0x40000000#32 = ((2 : ℝ) : EReal) := by
  simp [Ideal.ofBits, Ideal.ieee, -EReal.coe_mul]; norm_num

/-- The pattern of `-1.0` denotes the real minus one. -/
theorem negOne : Ideal.ofBits .f32 0xBF800000#32 = ((-1 : ℝ) : EReal) := by
  simp [Ideal.ofBits, Ideal.ieee, -EReal.coe_mul]; norm_num

/-- The zero pattern denotes zero. -/
theorem zero : Ideal.ofBits .f32 0x00000000#32 = ((0 : ℝ) : EReal) := by
  rw [Ideal.ofBits_zero_f32]; rfl

end Cert.Lits

end
-- ==== Proof.KLevel.lean ====
/-
  One level of the idealized kernel as a function of its arguments, and that it is the specification's level.

  The kernel program computes a level in this order: the two 64-row halves of each relation's 128×64 weight and
  the biases as 1×64 rows; the projections x·W_top for both relations; for each relation the projected rows
  gathered by source, and the message block max((attr·W_bottom + gathered) + bias, 0); the two message arrays
  stacked and scattered by the joined targets into zeros; the update.  Entry by entry this is the
  specification's level:

    * a gathered row of x·W_top is Σ_c x(row, c)·W(c, j), the first half of the contraction over 128 lanes, and
      attr·W_bottom is the second half; the kernel adds the halves in the other order (commutativity of +);
    * the scatter of the stacked messages splits at the seam into the two relations' sums, and starts from 0.
-/
import proofs.«121345_j4372276707359_2_alg».proof.Proof.Gen.KernelIdeal
import proofs.«121345_j4372276707359_2_alg».proof.Proof.Spec
import proofs.«121345_j4372276707359_2_alg».proof.Proof.IdxForms
import proofs.«121345_j4372276707359_2_alg».proof.Proof.LibSegSums
import proofs.«121345_j4372276707359_2_alg».proof.Proof.LibGather
import proofs.«121345_j4372276707359_2_alg».proof.Proof.LibConcatLanes
import proofs.«121345_j4372276707359_2_alg».proof.Proof.LibRowOfVector
import proofs.«121345_j4372276707359_2_alg».proof.Proof.LibLits

noncomputable section

open scoped BigOperators

namespace Cert.KernelIdeal.KLevel

open Cert.KernelIdeal Cert.KernelIdeal.Gen Idealize.ShloMosaic Idealize.ShloMosaic.ValueIdx

/-- An array of extended reals of a given shape. -/
abbrev Arr (s : Shape) := s.Idx → EReal

/-- The column of gather starts of a relation, by the program's own operations. -/
def srcK (I : IVec S2x300000 32) : IVec S300000x1 32 :=
  IdxForms.srcCol slices_S2x300000_S1x300000_1_0 shapeCasts_S1x300000_S300000 bcast_S_S300000
    bcast_S300000_S300000x1_0 50000#32 I

/-- The vector of scatter targets of a relation, by the program's own operations. -/
def tgtK (I : IVec S2x300000 32) : IVec S300000 32 :=
  IdxForms.tgtVec slices_S2x300000_S1x300000_0_0 shapeCasts_S1x300000_S300000 I

/-- A relation's message array as the kernel computes it. -/
def msgArr (x : Arr S50000x64) (I : IVec S2x300000 32) (attr : Arr S300000x64) (W : Arr S128x64) (b : Arr S64) :
    Arr S300000x64 :=
  Spec.msgK
    (Host.gather gather_S50000x64_S300000x1_S300000x64_1_0_n_n_0_1_164
      (Spec.proj x (extractStridedSlice S64x64 ![0, 0] W slices_S128x64_S64x64_0_0)) (srcK I))
    attr (extractStridedSlice S64x64 ![64, 0] W slices_S128x64_S64x64_64_0) (shapeCast S1x64 b shapeCasts_S64_S1x64)

/-- The stacked messages scattered by the joined targets into zeros. -/
def outSum (mu md : Arr S300000x64) (Iu Id : IVec S2x300000 32) : Arr S50000x64 :=
  Host.scatterAdd (F := Ideal) (φ := .f32) scatter_S50000x64_S600000x1_S600000x64_1_0_0_1
    (broadcastInDim S50000x64 ![] bcast_S_S50000x64 (constant (F := Ideal) S_ .f32 0x00000000#32))
    (broadcastInDim S600000x1 ![0] bcast_S600000_S600000x1_0
      (concatenate S600000 0 [⟨S300000, tgtK Iu⟩, ⟨S300000, tgtK Id⟩] concatenates_S300000_S300000_S600000_d0))
    (concatenate S600000x64 0 [⟨S300000x64, mu⟩, ⟨S300000x64, md⟩] concatenates_S300000x64_S300000x64_S600000x64_d0)

/-- One level as the kernel program computes it from its arguments. -/
def levelK (x : Arr S50000x64) (Iu Id : IVec S2x300000 32) (au ad : Arr S300000x64)
    (Wu : Arr S128x64) (bu : Arr S64) (Wd : Arr S128x64) (bd : Arr S64)
    (W1 : Arr S64x64) (b1 : Arr S64) (W2 : Arr S64x64) (b2 : Arr S64) : Arr S50000x64 :=
  Spec.updK (outSum (msgArr x Iu au Wu bu) (msgArr x Id ad Wd bd) Iu Id) x
    W1 (shapeCast S1x64 b1 shapeCasts_S64_S1x64) W2 (shapeCast S1x64 b2 shapeCasts_S64_S1x64)

/-- A bias vector reshaped to a row is the specification's row of that vector. -/
theorem row_eq (b : Arr S64) : shapeCast S1x64 b shapeCasts_S64_S1x64 = Spec.rowOfVec b := by
  funext i
  obtain ⟨z, k, rfl⟩ : ∃ (z : Fin 1) (k : Fin 64), i = ix2 z k := ⟨i 0, i 1, eq_ix2 i⟩
  exact RowOfVector.shapeCast_row b shapeCasts_S64_S1x64 z k

/-- The kernel's message array is the specification's: the two halves of the contraction, added in the other
    order. -/
theorem msgArr_eq (x : Arr S50000x64) (I : IVec S2x300000 32) (attr : Arr S300000x64) (W : Arr S128x64) (b : Arr S64) :
    msgArr x I attr W b = Spec.msg (N := 50000) (E := 300000) (by decide) x (srcK I) attr W b := by
  funext i
  obtain ⟨e, j, rfl⟩ : ∃ (e : Fin 300000) (j : Fin 64), i = ix2 e j := ⟨i 0, i 1, eq_ix2 i⟩
  show Spec.msgKAt _ attr _ _ e j = Spec.msgAt (N := 50000) (E := 300000) _ x (srcK I) attr W b e j
  unfold Spec.msgKAt Spec.msgAt
  rw [LibGather.gather_rows_apply gather_S50000x64_S300000x1_S300000x64_1_0_n_n_0_1_164 rfl rfl rfl rfl rfl rfl rfl
      (by decide) _ (srcK I) e j,
    RowOfVector.shapeCast_row b shapeCasts_S64_S1x64 0 j]
  show max (((∑ c : Fin 64, attr (ix2 e c) * extractStridedSlice S64x64 ![64, 0] W slices_S128x64_S64x64_64_0 (ix2 c j))
      + ∑ c : Fin 64, x (ix2 (Spec.rowOf (N := 50000) (by decide) (srcK I) e) c)
          * extractStridedSlice S64x64 ![0, 0] W slices_S128x64_S64x64_0_0 (ix2 c j)) + b (ix1 j)) Spec.zeroW = _
  rw [add_comm (∑ c : Fin 64, attr (ix2 e c) * _)]
  refine congrArg (fun s => max (s + b (ix1 j)) Spec.zeroW) (congrArg₂ (· + ·) ?_ ?_)
  · exact Finset.sum_congr rfl fun c _ =>
      congrArg (x (ix2 _ c) * ·) (ConcatLanes.slice_top (a := 64) (b := 64) (h := 64) W slices_S128x64_S64x64_0_0 c j)
  · exact Finset.sum_congr rfl fun c _ =>
      congrArg (attr (ix2 e c) * ·) (ConcatLanes.slice_bottom (a := 64) (b := 64) (h := 64) W slices_S128x64_S64x64_64_0 c j)

/-- The scatter of the stacked messages is the specification's sum by target of both relations. -/
theorem outSum_eq (mu md : Arr S300000x64) (Iu Id : IVec S2x300000 32) :
    outSum mu md Iu Id = Spec.agg (N := 50000) mu md (tgtK Iu) (tgtK Id) := by
  funext i
  obtain ⟨k, l, rfl⟩ : ∃ (k : Fin 50000) (l : Fin 64), i = ix2 k l := ⟨i 0, i 1, eq_ix2 i⟩
  unfold outSum
  refine (SegSums.fused_scatter_apply (a := 300000) (b := 300000) scatter_S50000x64_S600000x1_S600000x64_1_0_0_1
    rfl rfl rfl rfl _ (tgtK Iu) (tgtK Id) concatenates_S300000_S300000_S600000_d0 bcast_S600000_S600000x1_0 mu md
    concatenates_S300000x64_S300000x64_S600000x64_d0 k l).trans ?_
  show Ideal.ofBits .f32 0x00000000#32 + _ = _
  rw [Lits.zero, EReal.coe_zero, zero_add]
  rfl

/-- The kernel's level is the specification's level. -/
theorem levelK_eq (x : Arr S50000x64) (Iu Id : IVec S2x300000 32) (au ad : Arr S300000x64)
    (Wu : Arr S128x64) (bu : Arr S64) (Wd : Arr S128x64) (bd : Arr S64)
    (W1 : Arr S64x64) (b1 : Arr S64) (W2 : Arr S64x64) (b2 : Arr S64) :
    levelK x Iu Id au ad Wu bu Wd bd W1 b1 W2 b2
      = Spec.level (N := 50000) (E := 300000) (by decide) x (srcK Iu) (srcK Id) (tgtK Iu) (tgtK Id) au ad
          Wu bu Wd bd W1 b1 W2 b2 := by
  unfold levelK Spec.level
  rw [msgArr_eq, msgArr_eq, outSum_eq, row_eq, row_eq]

end Cert.KernelIdeal.KLevel

end
-- ==== Proof.HostK.lean ====
/-
  What the host operations between the kernel launches leave in their buffers, over the extended reals.

  Before the first launch: the two 64-row halves of each relation's stacked weight and the four biases as 1×64 rows.
  Before a relation's message launch: the projected rows x·W_top gathered by the relation's column of source rows.
  Before a level's update launch: the two message arrays stacked, scattered by the joined target vectors into the
  zero array.  Each is the composition of the operations' functions applied to what the buffers held before the
  stretch; nothing is computed.
-/
import proofs.«121345_j4372276707359_2_alg».proof.Proof.Gen.KernelIdeal.Frame
import proofs.«121345_j4372276707359_2_alg».proof.Proof.KLevel

set_option maxRecDepth 16384

noncomputable section

namespace Cert.KernelIdeal.HostK

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

/-! ## Before the first launch: weight halves and bias rows -/

/-- The first 64 rows of the "up" weight. -/
theorem W1_v0 :
    W1 m ρ c (Proc.devRef .tc main_v0) = extractStridedSlice S64x64 ![0, 0] (m ((c : Thread nD τ).loc main_arg15)) slices_S128x64_S64x64_0_0 := by
  show StableHlo.after hostOps0 (W0 m ρ c) (Proc.devRef .tc main_v0) = _
  after_results

/-- The last 64 rows of the "up" weight. -/
theorem W1_v1 :
    W1 m ρ c (Proc.devRef .tc main_v1) = extractStridedSlice S64x64 ![64, 0] (m ((c : Thread nD τ).loc main_arg15)) slices_S128x64_S64x64_64_0 := by
  show StableHlo.after hostOps0 (W0 m ρ c) (Proc.devRef .tc main_v1) = _
  after_results

/-- The first 64 rows of the "down" weight. -/
theorem W1_v2 :
    W1 m ρ c (Proc.devRef .tc main_v2) = extractStridedSlice S64x64 ![0, 0] (m ((c : Thread nD τ).loc main_arg17)) slices_S128x64_S64x64_0_0 := by
  show StableHlo.after hostOps0 (W0 m ρ c) (Proc.devRef .tc main_v2) = _
  after_results

/-- The last 64 rows of the "down" weight. -/
theorem W1_v3 :
    W1 m ρ c (Proc.devRef .tc main_v3) = extractStridedSlice S64x64 ![64, 0] (m ((c : Thread nD τ).loc main_arg17)) slices_S128x64_S64x64_64_0 := by
  show StableHlo.after hostOps0 (W0 m ρ c) (Proc.devRef .tc main_v3) = _
  after_results

/-- The "up" bias as a row. -/
theorem W1_v4 :
    W1 m ρ c (Proc.devRef .tc main_v4) = shapeCast S1x64 (m ((c : Thread nD τ).loc main_arg16)) shapeCasts_S64_S1x64 := by
  show StableHlo.after hostOps0 (W0 m ρ c) (Proc.devRef .tc main_v4) = _
  after_results
  rfl

/-- The "down" bias as a row. -/
theorem W1_v5 :
    W1 m ρ c (Proc.devRef .tc main_v5) = shapeCast S1x64 (m ((c : Thread nD τ).loc main_arg18)) shapeCasts_S64_S1x64 := by
  show StableHlo.after hostOps0 (W0 m ρ c) (Proc.devRef .tc main_v5) = _
  after_results
  rfl

/-- The first dense layer's bias as a row. -/
theorem W1_v6 :
    W1 m ρ c (Proc.devRef .tc main_v6) = shapeCast S1x64 (m ((c : Thread nD τ).loc main_arg20)) shapeCasts_S64_S1x64 := by
  show StableHlo.after hostOps0 (W0 m ρ c) (Proc.devRef .tc main_v6) = _
  after_results
  rfl

/-- The second dense layer's bias as a row. -/
theorem W1_v7 :
    W1 m ρ c (Proc.devRef .tc main_v7) = shapeCast S1x64 (m ((c : Thread nD τ).loc main_arg22)) shapeCasts_S64_S1x64 := by
  show StableHlo.after hostOps0 (W0 m ρ c) (Proc.devRef .tc main_v7) = _
  after_results
  rfl

/-! ## Level 0 -/

/-- The projected rows gathered by the relation's source column. -/
theorem W3_v17 :
    W3 m ρ c (Proc.devRef .tc main_v17)
      = Host.gather gather_S50000x64_S300000x1_S300000x64_1_0_n_n_0_1_164 (W2 m ρ c (Proc.devRef .tc main_v8_0))
          (KLevel.srcK (W2 m ρ c (Proc.devRef .tc main_arg1))) := by
  show StableHlo.after hostOps1 (W2 m ρ c) (Proc.devRef .tc main_v17) = _
  after_results_simp
  rfl

/-- The projected rows gathered by the relation's source column. -/
theorem W5_v27 :
    W5 m ρ c (Proc.devRef .tc main_v27)
      = Host.gather gather_S50000x64_S300000x1_S300000x64_1_0_n_n_0_1_164 (W4 m ρ c (Proc.devRef .tc main_v8_1))
          (KLevel.srcK (W4 m ρ c (Proc.devRef .tc main_arg2))) := by
  show StableHlo.after hostOps2 (W4 m ρ c) (Proc.devRef .tc main_v27) = _
  after_results_simp
  rfl

/-- The two message arrays stacked and scattered by the joined targets into zeros. -/
theorem W7_v37 :
    W7 m ρ c (Proc.devRef .tc main_v37)
      = KLevel.outSum (W6 m ρ c (Proc.devRef .tc main_v18)) (W6 m ρ c (Proc.devRef .tc main_v28)) (W6 m ρ c (Proc.devRef .tc main_arg1)) (W6 m ρ c (Proc.devRef .tc main_arg2)) := by
  show StableHlo.after hostOps3 (W6 m ρ c) (Proc.devRef .tc main_v37) = _
  after_results_simp
  rfl

/-! ## Level 1 -/

/-- The projected rows gathered by the relation's source column. -/
theorem W10_v48 :
    W10 m ρ c (Proc.devRef .tc main_v48)
      = Host.gather gather_S50000x64_S300000x1_S300000x64_1_0_n_n_0_1_164 (W9 m ρ c (Proc.devRef .tc main_v39_0))
          (KLevel.srcK (W9 m ρ c (Proc.devRef .tc main_arg6))) := by
  show StableHlo.after hostOps5 (W9 m ρ c) (Proc.devRef .tc main_v48) = _
  after_results_simp
  rfl

/-- The projected rows gathered by the relation's source column. -/
theorem W12_v58 :
    W12 m ρ c (Proc.devRef .tc main_v58)
      = Host.gather gather_S50000x64_S300000x1_S300000x64_1_0_n_n_0_1_164 (W11 m ρ c (Proc.devRef .tc main_v39_1))
          (KLevel.srcK (W11 m ρ c (Proc.devRef .tc main_arg7))) := by
  show StableHlo.after hostOps6 (W11 m ρ c) (Proc.devRef .tc main_v58) = _
  after_results_simp
  rfl

/-- The two message arrays stacked and scattered by the joined targets into zeros. -/
theorem W14_v68 :
    W14 m ρ c (Proc.devRef .tc main_v68)
      = KLevel.outSum (W13 m ρ c (Proc.devRef .tc main_v49)) (W13 m ρ c (Proc.devRef .tc main_v59)) (W13 m ρ c (Proc.devRef .tc main_arg6)) (W13 m ρ c (Proc.devRef .tc main_arg7)) := by
  show StableHlo.after hostOps7 (W13 m ρ c) (Proc.devRef .tc main_v68) = _
  after_results_simp
  rfl

/-! ## Level 2 -/

/-- The projected rows gathered by the relation's source column. -/
theorem W17_v79 :
    W17 m ρ c (Proc.devRef .tc main_v79)
      = Host.gather gather_S50000x64_S300000x1_S300000x64_1_0_n_n_0_1_164 (W16 m ρ c (Proc.devRef .tc main_v70_0))
          (KLevel.srcK (W16 m ρ c (Proc.devRef .tc main_arg11))) := by
  show StableHlo.after hostOps9 (W16 m ρ c) (Proc.devRef .tc main_v79) = _
  after_results_simp
  rfl

/-- The projected rows gathered by the relation's source column. -/
theorem W19_v89 :
    W19 m ρ c (Proc.devRef .tc main_v89)
      = Host.gather gather_S50000x64_S300000x1_S300000x64_1_0_n_n_0_1_164 (W18 m ρ c (Proc.devRef .tc main_v70_1))
          (KLevel.srcK (W18 m ρ c (Proc.devRef .tc main_arg12))) := by
  show StableHlo.after hostOps10 (W18 m ρ c) (Proc.devRef .tc main_v89) = _
  after_results_simp
  rfl

/-- The two message arrays stacked and scattered by the joined targets into zeros. -/
theorem W21_v99 :
    W21 m ρ c (Proc.devRef .tc main_v99)
      = KLevel.outSum (W20 m ρ c (Proc.devRef .tc main_v80)) (W20 m ρ c (Proc.devRef .tc main_v90)) (W20 m ρ c (Proc.devRef .tc main_arg11)) (W20 m ρ c (Proc.devRef .tc main_arg12)) := by
  show StableHlo.after hostOps11 (W20 m ρ c) (Proc.devRef .tc main_v99) = _
  after_results_simp
  rfl

end Cert.KernelIdeal.HostK

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.RegionsPayload.lean ====
/-
  What each kernel launch stores, read at one entry, over the extended reals.

  The network's three kernels each store one block per grid point: the projection kernel a block of 10000 rows of
  x·w (twice, for two weights), the message kernel a block of 6000 rows of max(attr·w + xw_g + b, 0), the update
  kernel a block of 5000 rows of the two dense layers applied to a + 2·x.  A change of float format is the
  identity on extended reals and a product into the zero accumulator is the plain sum over the contracted lane,
  so at entry (p, q) of the block each store is the specification's entry function of the block's operands.  The
  second half moves from a block's entry to the array's entry.
-/
import proofs.«121345_j4372276707359_2_alg».proof.Proof.Gen.KernelIdeal.Skeleton
import proofs.«121345_j4372276707359_2_alg».proof.Proof.LibPlainDot
import proofs.«121345_j4372276707359_2_alg».proof.Proof.LibRowVector
import proofs.«121345_j4372276707359_2_alg».proof.Proof.Spec
import Idealize.ShloMosaic.Lib.Pipeline.Value
import Idealize.ShloMosaic.Lib.ValueIdx

noncomputable section

open scoped BigOperators

namespace Cert.KernelSide

open Cert.KernelIdeal Cert.KernelIdeal.Gen Idealize.ShloMosaic Idealize.ShloMosaic.ValueIdx

/-- The zero offsets of a whole-block access, however they are spelt. -/
theorem zero_offsets : (![0, 0] : Fin 2 → Nat) = fun _ => 0 :=
  funext fun a => match a with | ⟨0, _⟩ => rfl | ⟨1, _⟩ => rfl

/-! ## The projection kernel's two stores -/

/-- Region 0's first store: the block of rows times the 64×64 weight, at entry (p, q). -/
theorem proj_pay0_2 (x : FVec Ideal S10000x64 .f32) (w : FVec Ideal S64x64 .f32) (p : Fin 10000) (q : Fin 64) :
    k0_pay2 (F := Ideal) x w (ix2 p q) = Spec.projAt x w p q := by
  unfold k0_pay2 k0_pay1
  simp only [shapeCast_self]
  exact Cert.PlainDot.matmul_zero_apply dot_S10000x64_S64x64_S10000x64_1_0_0_1_n_n rfl none _ _ p q

/-- Region 0's second store: the block of rows times the 64×64 weight, at entry (p, q). -/
theorem proj_pay0_3 (x : FVec Ideal S10000x64 .f32) (w : FVec Ideal S64x64 .f32) (p : Fin 10000) (q : Fin 64) :
    k0_pay3 (F := Ideal) x w (ix2 p q) = Spec.projAt x w p q := by
  unfold k0_pay3 k0_pay1
  simp only [shapeCast_self]
  exact Cert.PlainDot.matmul_zero_apply dot_S10000x64_S64x64_S10000x64_1_0_0_1_n_n rfl none _ _ p q

/-- Region 4's first store: the block of rows times the 64×64 weight, at entry (p, q). -/
theorem proj_pay4_2 (x : FVec Ideal S10000x64 .f32) (w : FVec Ideal S64x64 .f32) (p : Fin 10000) (q : Fin 64) :
    k4_pay2 (F := Ideal) x w (ix2 p q) = Spec.projAt x w p q := by
  unfold k4_pay2 k4_pay1
  simp only [shapeCast_self]
  exact Cert.PlainDot.matmul_zero_apply dot_S10000x64_S64x64_S10000x64_1_0_0_1_n_n rfl none _ _ p q

/-- Region 4's second store: the block of rows times the 64×64 weight, at entry (p, q). -/
theorem proj_pay4_3 (x : FVec Ideal S10000x64 .f32) (w : FVec Ideal S64x64 .f32) (p : Fin 10000) (q : Fin 64) :
    k4_pay3 (F := Ideal) x w (ix2 p q) = Spec.projAt x w p q := by
  unfold k4_pay3 k4_pay1
  simp only [shapeCast_self]
  exact Cert.PlainDot.matmul_zero_apply dot_S10000x64_S64x64_S10000x64_1_0_0_1_n_n rfl none _ _ p q

/-- Region 8's first store: the block of rows times the 64×64 weight, at entry (p, q). -/
theorem proj_pay8_2 (x : FVec Ideal S10000x64 .f32) (w : FVec Ideal S64x64 .f32) (p : Fin 10000) (q : Fin 64) :
    k8_pay2 (F := Ideal) x w (ix2 p q) = Spec.projAt x w p q := by
  unfold k8_pay2 k8_pay1
  simp only [shapeCast_self]
  exact Cert.PlainDot.matmul_zero_apply dot_S10000x64_S64x64_S10000x64_1_0_0_1_n_n rfl none _ _ p q

/-- Region 8's second store: the block of rows times the 64×64 weight, at entry (p, q). -/
theorem proj_pay8_3 (x : FVec Ideal S10000x64 .f32) (w : FVec Ideal S64x64 .f32) (p : Fin 10000) (q : Fin 64) :
    k8_pay3 (F := Ideal) x w (ix2 p q) = Spec.projAt x w p q := by
  unfold k8_pay3 k8_pay1
  simp only [shapeCast_self]
  exact Cert.PlainDot.matmul_zero_apply dot_S10000x64_S64x64_S10000x64_1_0_0_1_n_n rfl none _ _ p q

/-! ## The message kernel's store -/

/-- Region 1's store: attr·w plus the gathered projection plus the bias row, clamped at zero, at entry (p, q). -/
theorem msg_pay1 (g : FVec Ideal S6000x64 .bf16) (a : FVec Ideal S6000x64 .f32) (w : FVec Ideal S64x64 .f32)
    (b : FVec Ideal S1x64 .f32) (p : Fin 6000) (q : Fin 64) :
    k1_pay1 (F := Ideal) g a w b (ix2 p q) = Spec.msgKAt g a w b p q := by
  unfold k1_pay1
  simp only [shapeCast_self]
  unfold Spec.msgKAt
  refine congrArg₂ max (congrArg₂ (· + ·) (congrArg₂ (· + ·) ?_ rfl) ?_) rfl
  · exact Cert.PlainDot.matmul_zero_apply dot_S6000x64_S64x64_S6000x64_1_0_0_1_n_n rfl none _ _ p q
  · exact Cert.RowVector.broadcastTo_row (by decide) b _ p q

/-- Region 2's store: attr·w plus the gathered projection plus the bias row, clamped at zero, at entry (p, q). -/
theorem msg_pay2 (g : FVec Ideal S6000x64 .bf16) (a : FVec Ideal S6000x64 .f32) (w : FVec Ideal S64x64 .f32)
    (b : FVec Ideal S1x64 .f32) (p : Fin 6000) (q : Fin 64) :
    k2_pay1 (F := Ideal) g a w b (ix2 p q) = Spec.msgKAt g a w b p q := by
  unfold k2_pay1
  simp only [shapeCast_self]
  unfold Spec.msgKAt
  refine congrArg₂ max (congrArg₂ (· + ·) (congrArg₂ (· + ·) ?_ rfl) ?_) rfl
  · exact Cert.PlainDot.matmul_zero_apply dot_S6000x64_S64x64_S6000x64_1_0_0_1_n_n rfl none _ _ p q
  · exact Cert.RowVector.broadcastTo_row (by decide) b _ p q

/-- Region 5's store: attr·w plus the gathered projection plus the bias row, clamped at zero, at entry (p, q). -/
theorem msg_pay5 (g : FVec Ideal S6000x64 .bf16) (a : FVec Ideal S6000x64 .f32) (w : FVec Ideal S64x64 .f32)
    (b : FVec Ideal S1x64 .f32) (p : Fin 6000) (q : Fin 64) :
    k5_pay1 (F := Ideal) g a w b (ix2 p q) = Spec.msgKAt g a w b p q := by
  unfold k5_pay1
  simp only [shapeCast_self]
  unfold Spec.msgKAt
  refine congrArg₂ max (congrArg₂ (· + ·) (congrArg₂ (· + ·) ?_ rfl) ?_) rfl
  · exact Cert.PlainDot.matmul_zero_apply dot_S6000x64_S64x64_S6000x64_1_0_0_1_n_n rfl none _ _ p q
  · exact Cert.RowVector.broadcastTo_row (by decide) b _ p q

/-- Region 6's store: attr·w plus the gathered projection plus the bias row, clamped at zero, at entry (p, q). -/
theorem msg_pay6 (g : FVec Ideal S6000x64 .bf16) (a : FVec Ideal S6000x64 .f32) (w : FVec Ideal S64x64 .f32)
    (b : FVec Ideal S1x64 .f32) (p : Fin 6000) (q : Fin 64) :
    k6_pay1 (F := Ideal) g a w b (ix2 p q) = Spec.msgKAt g a w b p q := by
  unfold k6_pay1
  simp only [shapeCast_self]
  unfold Spec.msgKAt
  refine congrArg₂ max (congrArg₂ (· + ·) (congrArg₂ (· + ·) ?_ rfl) ?_) rfl
  · exact Cert.PlainDot.matmul_zero_apply dot_S6000x64_S64x64_S6000x64_1_0_0_1_n_n rfl none _ _ p q
  · exact Cert.RowVector.broadcastTo_row (by decide) b _ p q

/-- Region 9's store: attr·w plus the gathered projection plus the bias row, clamped at zero, at entry (p, q). -/
theorem msg_pay9 (g : FVec Ideal S6000x64 .bf16) (a : FVec Ideal S6000x64 .f32) (w : FVec Ideal S64x64 .f32)
    (b : FVec Ideal S1x64 .f32) (p : Fin 6000) (q : Fin 64) :
    k9_pay1 (F := Ideal) g a w b (ix2 p q) = Spec.msgKAt g a w b p q := by
  unfold k9_pay1
  simp only [shapeCast_self]
  unfold Spec.msgKAt
  refine congrArg₂ max (congrArg₂ (· + ·) (congrArg₂ (· + ·) ?_ rfl) ?_) rfl
  · exact Cert.PlainDot.matmul_zero_apply dot_S6000x64_S64x64_S6000x64_1_0_0_1_n_n rfl none _ _ p q
  · exact Cert.RowVector.broadcastTo_row (by decide) b _ p q

/-- Region 10's store: attr·w plus the gathered projection plus the bias row, clamped at zero, at entry (p, q). -/
theorem msg_pay10 (g : FVec Ideal S6000x64 .bf16) (a : FVec Ideal S6000x64 .f32) (w : FVec Ideal S64x64 .f32)
    (b : FVec Ideal S1x64 .f32) (p : Fin 6000) (q : Fin 64) :
    k10_pay1 (F := Ideal) g a w b (ix2 p q) = Spec.msgKAt g a w b p q := by
  unfold k10_pay1
  simp only [shapeCast_self]
  unfold Spec.msgKAt
  refine congrArg₂ max (congrArg₂ (· + ·) (congrArg₂ (· + ·) ?_ rfl) ?_) rfl
  · exact Cert.PlainDot.matmul_zero_apply dot_S6000x64_S64x64_S6000x64_1_0_0_1_n_n rfl none _ _ p q
  · exact Cert.RowVector.broadcastTo_row (by decide) b _ p q

/-! ## The update kernel's store -/

/-- Region 3's store: two dense layers on a + 2·x, at entry (p, q). -/
theorem upd_pay3 (a x : FVec Ideal S5000x64 .f32) (w1 : FVec Ideal S64x64 .f32) (b1 : FVec Ideal S1x64 .f32)
    (w2 : FVec Ideal S64x64 .f32) (b2 : FVec Ideal S1x64 .f32) (p : Fin 5000) (q : Fin 64) :
    k3_pay1 (F := Ideal) a x w1 b1 w2 b2 (ix2 p q) = Spec.updK a x w1 b1 w2 b2 (ix2 p q) := by
  unfold k3_pay1
  simp only [shapeCast_self]
  show _ = Spec.denseAt (Spec.dense (Spec.resid a x) w1 b1) w2 b2 p q
  unfold Spec.denseAt
  refine congrArg₂ max (congrArg₂ (· + ·) ?_ ?_) rfl
  · refine (Cert.PlainDot.matmul_zero_apply dot_S5000x64_S64x64_S5000x64_1_0_0_1_n_n rfl none _ _ p q).trans ?_
    refine Finset.sum_congr rfl fun c _ => congrArg₂ (· * ·) ?_ rfl
    show _ = Spec.denseAt (Spec.resid a x) w1 b1 p c
    unfold Spec.denseAt
    refine congrArg₂ max (congrArg₂ (· + ·) ?_ ?_) rfl
    · exact Cert.PlainDot.matmul_zero_apply dot_S5000x64_S64x64_S5000x64_1_0_0_1_n_n rfl none _ _ p c
    · exact Cert.RowVector.broadcastTo_row (by decide) b1 _ p c
  · exact Cert.RowVector.broadcastTo_row (by decide) b2 _ p q

/-- Region 7's store: two dense layers on a + 2·x, at entry (p, q). -/
theorem upd_pay7 (a x : FVec Ideal S5000x64 .f32) (w1 : FVec Ideal S64x64 .f32) (b1 : FVec Ideal S1x64 .f32)
    (w2 : FVec Ideal S64x64 .f32) (b2 : FVec Ideal S1x64 .f32) (p : Fin 5000) (q : Fin 64) :
    k7_pay1 (F := Ideal) a x w1 b1 w2 b2 (ix2 p q) = Spec.updK a x w1 b1 w2 b2 (ix2 p q) := by
  unfold k7_pay1
  simp only [shapeCast_self]
  show _ = Spec.denseAt (Spec.dense (Spec.resid a x) w1 b1) w2 b2 p q
  unfold Spec.denseAt
  refine congrArg₂ max (congrArg₂ (· + ·) ?_ ?_) rfl
  · refine (Cert.PlainDot.matmul_zero_apply dot_S5000x64_S64x64_S5000x64_1_0_0_1_n_n rfl none _ _ p q).trans ?_
    refine Finset.sum_congr rfl fun c _ => congrArg₂ (· * ·) ?_ rfl
    show _ = Spec.denseAt (Spec.resid a x) w1 b1 p c
    unfold Spec.denseAt
    refine congrArg₂ max (congrArg₂ (· + ·) ?_ ?_) rfl
    · exact Cert.PlainDot.matmul_zero_apply dot_S5000x64_S64x64_S5000x64_1_0_0_1_n_n rfl none _ _ p c
    · exact Cert.RowVector.broadcastTo_row (by decide) b1 _ p c
  · exact Cert.RowVector.broadcastTo_row (by decide) b2 _ p q

/-- Region 11's store: two dense layers on a + 2·x, at entry (p, q). -/
theorem upd_pay11 (a x : FVec Ideal S5000x64 .f32) (w1 : FVec Ideal S64x64 .f32) (b1 : FVec Ideal S1x64 .f32)
    (w2 : FVec Ideal S64x64 .f32) (b2 : FVec Ideal S1x64 .f32) (p : Fin 5000) (q : Fin 64) :
    k11_pay1 (F := Ideal) a x w1 b1 w2 b2 (ix2 p q) = Spec.updK a x w1 b1 w2 b2 (ix2 p q) := by
  unfold k11_pay1
  simp only [shapeCast_self]
  show _ = Spec.denseAt (Spec.dense (Spec.resid a x) w1 b1) w2 b2 p q
  unfold Spec.denseAt
  refine congrArg₂ max (congrArg₂ (· + ·) ?_ ?_) rfl
  · refine (Cert.PlainDot.matmul_zero_apply dot_S5000x64_S64x64_S5000x64_1_0_0_1_n_n rfl none _ _ p q).trans ?_
    refine Finset.sum_congr rfl fun c _ => congrArg₂ (· * ·) ?_ rfl
    show _ = Spec.denseAt (Spec.resid a x) w1 b1 p c
    unfold Spec.denseAt
    refine congrArg₂ max (congrArg₂ (· + ·) ?_ ?_) rfl
    · exact Cert.PlainDot.matmul_zero_apply dot_S5000x64_S64x64_S5000x64_1_0_0_1_n_n rfl none _ _ p c
    · exact Cert.RowVector.broadcastTo_row (by decide) b1 _ p c
  · exact Cert.RowVector.broadcastTo_row (by decide) b2 _ p q

/-! ## From an entry of a block to an entry of the array

  A block of 10000 (6000, 5000) rows is the part of the array that starts at row t·10000 (t·6000, t·5000); the
  weights and bias rows are read whole at every point.  So an entry (p, q) of what a point stores is the array
  function at (t·rows + p, q).  Each lemma takes the block contents as functions with the two facts it needs: a
  row block's entry y is the array's entry k whenever k is y moved down by t·rows, and a whole operand is the
  array itself. -/

/-- The projection: entry j of point t's block is entry i of x·w, i being j moved down by t·10000 rows. -/
theorem proj_point (X : Spec.Mat 50000 64) (Wt : Spec.Mat 64 64) (x : FVec Ideal S10000x64 .f32)
    (w : FVec Ideal S64x64 .f32) (tv : Nat)
    (hx : ∀ (y : S10000x64.Idx) (k : S50000x64.Idx), (k 0).val = tv * 10000 + (y 0).val → (k 1).val = (y 1).val → x y = X k)
    (hw : ∀ y : S64x64.Idx, w y = Wt y)
    (P : S10000x64.Idx → EReal) (hP : ∀ (p : Fin 10000) (q : Fin 64), P (ix2 p q) = Spec.projAt x w p q)
    (j : S10000x64.Idx) (i : S50000x64.Idx) (h0 : (i 0).val = tv * 10000 + (j 0).val) (h1 : (i 1).val = (j 1).val) :
    P j = Spec.proj X Wt i := by
  obtain ⟨p, q, rfl⟩ : ∃ (p : Fin 10000) (q : Fin 64), j = ix2 p q := ⟨j 0, j 1, eq_ix2 j⟩
  obtain ⟨r, s, rfl⟩ : ∃ (r : Fin 50000) (s : Fin 64), i = ix2 r s := ⟨i 0, i 1, eq_ix2 i⟩
  have h0' : r.val = tv * 10000 + p.val := h0
  obtain rfl : s = q := Fin.ext h1
  rw [hP]
  show Spec.projAt x w p s = Spec.projAt X Wt r s
  unfold Spec.projAt
  refine Finset.sum_congr rfl fun c _ => ?_
  rw [hx (ix2 p c) (ix2 r c) h0' rfl, hw]

/-- The messages: entry j of point t's block is entry i of the message array, i being j moved down by t·6000 rows. -/
theorem msg_point (G A : Spec.Mat 300000 64) (Wt : Spec.Mat 64 64) (Bt : Spec.Mat 1 64) (g : FVec Ideal S6000x64 .bf16)
    (a : FVec Ideal S6000x64 .f32) (w : FVec Ideal S64x64 .f32) (b : FVec Ideal S1x64 .f32) (tv : Nat)
    (hg : ∀ (y : S6000x64.Idx) (k : S300000x64.Idx), (k 0).val = tv * 6000 + (y 0).val → (k 1).val = (y 1).val → g y = G k)
    (ha : ∀ (y : S6000x64.Idx) (k : S300000x64.Idx), (k 0).val = tv * 6000 + (y 0).val → (k 1).val = (y 1).val → a y = A k)
    (hw : ∀ y : S64x64.Idx, w y = Wt y) (hb : ∀ y : S1x64.Idx, b y = Bt y)
    (P : S6000x64.Idx → EReal) (hP : ∀ (p : Fin 6000) (q : Fin 64), P (ix2 p q) = Spec.msgKAt g a w b p q)
    (j : S6000x64.Idx) (i : S300000x64.Idx) (h0 : (i 0).val = tv * 6000 + (j 0).val) (h1 : (i 1).val = (j 1).val) :
    P j = Spec.msgK G A Wt Bt i := by
  obtain ⟨p, q, rfl⟩ : ∃ (p : Fin 6000) (q : Fin 64), j = ix2 p q := ⟨j 0, j 1, eq_ix2 j⟩
  obtain ⟨r, s, rfl⟩ : ∃ (r : Fin 300000) (s : Fin 64), i = ix2 r s := ⟨i 0, i 1, eq_ix2 i⟩
  have h0' : r.val = tv * 6000 + p.val := h0
  obtain rfl : s = q := Fin.ext h1
  rw [hP]
  show Spec.msgKAt g a w b p s = Spec.msgKAt G A Wt Bt r s
  unfold Spec.msgKAt
  rw [hg (ix2 p s) (ix2 r s) h0' rfl, hb]
  refine congrArg (fun z => max ((z + G (ix2 r s)) + Bt (ix2 0 s)) Spec.zeroW) ?_
  refine Finset.sum_congr rfl fun c _ => ?_
  rw [ha (ix2 p c) (ix2 r c) h0' rfl, hw]

/-- The update: entry j of point t's block is entry i of the updated array, i being j moved down by t·5000 rows.
    An entry of the update depends on row i of a and of x only. -/
theorem upd_point (A X : Spec.Mat 50000 64) (W1 : Spec.Mat 64 64) (B1 : Spec.Mat 1 64) (W2 : Spec.Mat 64 64)
    (B2 : Spec.Mat 1 64) (a x : FVec Ideal S5000x64 .f32) (w1 : FVec Ideal S64x64 .f32) (b1 : FVec Ideal S1x64 .f32)
    (w2 : FVec Ideal S64x64 .f32) (b2 : FVec Ideal S1x64 .f32) (tv : Nat)
    (ha : ∀ (y : S5000x64.Idx) (k : S50000x64.Idx), (k 0).val = tv * 5000 + (y 0).val → (k 1).val = (y 1).val → a y = A k)
    (hx : ∀ (y : S5000x64.Idx) (k : S50000x64.Idx), (k 0).val = tv * 5000 + (y 0).val → (k 1).val = (y 1).val → x y = X k)
    (hw1 : ∀ y : S64x64.Idx, w1 y = W1 y) (hb1 : ∀ y : S1x64.Idx, b1 y = B1 y)
    (hw2 : ∀ y : S64x64.Idx, w2 y = W2 y) (hb2 : ∀ y : S1x64.Idx, b2 y = B2 y)
    (P : S5000x64.Idx → EReal) (hP : ∀ (p : Fin 5000) (q : Fin 64), P (ix2 p q) = Spec.updK a x w1 b1 w2 b2 (ix2 p q))
    (j : S5000x64.Idx) (i : S50000x64.Idx) (h0 : (i 0).val = tv * 5000 + (j 0).val) (h1 : (i 1).val = (j 1).val) :
    P j = Spec.updK A X W1 B1 W2 B2 i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  have h0' : r.val = tv * 5000 + p.val := h0
  obtain rfl : s = q := Fin.ext h1
  rw [hP]
  have hres : ∀ c : Fin 64, Spec.resid a x (ix2 p c) = Spec.resid A X (ix2 r c) := fun c => by
    unfold Spec.resid
    rw [ha (ix2 p c) (ix2 r c) h0' rfl, hx (ix2 p c) (ix2 r c) h0' rfl]
  have hd1 : ∀ c : Fin 64, Spec.dense (Spec.resid a x) w1 b1 (ix2 p c) = Spec.dense (Spec.resid A X) W1 B1 (ix2 r c) := fun c => by
    show Spec.denseAt (Spec.resid a x) w1 b1 p c = Spec.denseAt (Spec.resid A X) W1 B1 r c
    unfold Spec.denseAt
    rw [hb1]
    refine congrArg (fun z => max (z + B1 (ix2 0 c)) Spec.zeroW) ?_
    refine Finset.sum_congr rfl fun d _ => ?_
    rw [hres d, hw1]
  show Spec.denseAt (Spec.dense (Spec.resid a x) w1 b1) w2 b2 p s = Spec.denseAt (Spec.dense (Spec.resid A X) W1 B1) W2 B2 r s
  unfold Spec.denseAt
  rw [hb2]
  refine congrArg (fun z => max (z + B2 (ix2 0 s)) Spec.zeroW) ?_
  refine Finset.sum_congr rfl fun c _ => ?_
  rw [hd1 c, hw2]

end Cert.KernelSide

end
-- ==== Proof.Regions0.lean ====
/-
  Region 0 (the projection kernel, 5 grid points): both output arrays as whole-array functions of the operands.

  Point t stages rows t·10000 … t·10000 + 9999 of x and the two 64×64 weights whole, and writes back the same
  rows of x·w for each weight.  The five blocks tile the 50000 rows, so each output array ends as x·w.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0 :=
  (by decide +kernel : ∀ t : Fin grid0.N, _)

set_option maxHeartbeats 1000000 in
/-- What point t writes back to the first output is block t of x·w: rows t·10000 … t·10000 + 9999. -/
theorem flushed0_3_eq (c : Dev nD) (t : Fin cfg0.N) :
    (dat0 V c).flushed 3 t = ((cfg0.win 3).blk t).view.read (Elt Ideal)
      (Spec.proj (V c (Pipeline.arrRef spec0 0)) (V c (Pipeline.arrRef spec0 1))) := by
  show (cfg0.win 3).cut (grid0.coords t) ((dat0 V c).after 3 t) = _
  rw [after0_3]
  unfold out0_3
  rw [View.canon_unit_zero zero_offsets]
  simp only [View.ld_unit_zero (S := S10000x64) zero_offsets, View.ld_unit_zero (S := S64x64) zero_offsets]
  obtain ⟨e00, e01, e10, e11, e20, e21, e30, e31, e40, e41⟩ := idx0 t
  funext j
  show k0_pay2 (F := Ideal) (iblk0 V c 0 t) (iblk0 V c 1 t) ((cfg0.win 3).xinj (grid0.coords t) j)
    = Spec.proj (V c (Pipeline.arrRef spec0 0)) (V c (Pipeline.arrRef spec0 1)) (((cfg0.win 3).blk t).view.emb j)
  refine proj_point _ _ (iblk0 V c 0 t) (iblk0 V c 1 t) t.val (fun y k hk0 hk1 => ?_) (fun y => ?_)
    (k0_pay2 (F := Ideal) (iblk0 V c 0 t) (iblk0 V c 1 t)) (proj_pay0_2 _ _) _ _ ?_ ?_
  ·
    show V c (Pipeline.arrRef spec0 0) (((cfg0.win 0).blk t).view.emb y) = V c (Pipeline.arrRef spec0 0) k
    refine congrArg (V c (Pipeline.arrRef spec0 0)) ?_
    funext a; apply Fin.ext
    match a with
    | ⟨0, _⟩ => show win0_0.index t (0 : Fin 2) * 10000 + 1 * (y 0).val = (k 0).val; omega
    | ⟨1, _⟩ => show win0_0.index t (1 : Fin 2) * 64 + 1 * (y 1).val = (k 1).val; omega
  ·
    show V c (Pipeline.arrRef spec0 1) (((cfg0.win 1).blk t).view.emb y) = V c (Pipeline.arrRef spec0 1) y
    refine congrArg (V c (Pipeline.arrRef spec0 1)) ?_
    funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega
  · show win0_3.index t (0 : Fin 2) * 10000 + 1 * (j 0).val = t.val * 10000 + (j 0).val; omega
  · show win0_3.index t (1 : Fin 2) * 64 + 1 * (j 1).val = (j 1).val; omega

/-- An index of the array is in point t's block iff each coordinate is in the block's range on its axis. -/
theorem mem_blk0_3 (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v8_0).slice (win0_3.rect t)).set ↔ _
  rw [View.set_slice_whole, Rect.mem_set_unit]
  exact Iff.rfl

/-- Row r of the array is in the block of point r / 10000: the 5 blocks of 10000 rows tile the 50000 rows. -/
theorem cover0_3_all (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨e00, e01, e10, e11, e20, e21, e30, e31⟩ := idx0 t
  refine ⟨t, flush0_3 t, ?_⟩
  rw [mem_blk0_3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The first output array after the region: the product of the region's first operand with its second. -/
theorem final0_3 (c : Dev nD) : (dat0 V c).arrAt 3 cfg0.N
      = Spec.proj (V c (Pipeline.arrRef spec0 0)) (V c (Pipeline.arrRef spec0 1)) :=
  (dat0 V c).arrAt_eq_of_cover 3 _ (fun t _ => flushed0_3_eq V c t) cover0_3_all

set_option maxHeartbeats 1000000 in
/-- What point t writes back to the second output is block t of x·w: rows t·10000 … t·10000 + 9999. -/
theorem flushed0_4_eq (c : Dev nD) (t : Fin cfg0.N) :
    (dat0 V c).flushed 4 t = ((cfg0.win 4).blk t).view.read (Elt Ideal)
      (Spec.proj (V c (Pipeline.arrRef spec0 0)) (V c (Pipeline.arrRef spec0 2))) := by
  show (cfg0.win 4).cut (grid0.coords t) ((dat0 V c).after 4 t) = _
  rw [after0_4]
  unfold out0_4
  rw [View.canon_unit_zero zero_offsets]
  simp only [View.ld_unit_zero (S := S10000x64) zero_offsets, View.ld_unit_zero (S := S64x64) zero_offsets]
  obtain ⟨e00, e01, e10, e11, e20, e21, e30, e31, e40, e41⟩ := idx0 t
  funext j
  show k0_pay3 (F := Ideal) (iblk0 V c 0 t) (iblk0 V c 2 t) ((cfg0.win 4).xinj (grid0.coords t) j)
    = Spec.proj (V c (Pipeline.arrRef spec0 0)) (V c (Pipeline.arrRef spec0 2)) (((cfg0.win 4).blk t).view.emb j)
  refine proj_point _ _ (iblk0 V c 0 t) (iblk0 V c 2 t) t.val (fun y k hk0 hk1 => ?_) (fun y => ?_)
    (k0_pay3 (F := Ideal) (iblk0 V c 0 t) (iblk0 V c 2 t)) (proj_pay0_3 _ _) _ _ ?_ ?_
  ·
    show V c (Pipeline.arrRef spec0 0) (((cfg0.win 0).blk t).view.emb y) = V c (Pipeline.arrRef spec0 0) k
    refine congrArg (V c (Pipeline.arrRef spec0 0)) ?_
    funext a; apply Fin.ext
    match a with
    | ⟨0, _⟩ => show win0_0.index t (0 : Fin 2) * 10000 + 1 * (y 0).val = (k 0).val; omega
    | ⟨1, _⟩ => show win0_0.index t (1 : Fin 2) * 64 + 1 * (y 1).val = (k 1).val; omega
  ·
    show V c (Pipeline.arrRef spec0 2) (((cfg0.win 2).blk t).view.emb y) = V c (Pipeline.arrRef spec0 2) y
    refine congrArg (V c (Pipeline.arrRef spec0 2)) ?_
    funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  · show win0_4.index t (0 : Fin 2) * 10000 + 1 * (j 0).val = t.val * 10000 + (j 0).val; omega
  · show win0_4.index t (1 : Fin 2) * 64 + 1 * (j 1).val = (j 1).val; omega

/-- An index of the array is in point t's block iff each coordinate is in the block's range on its axis. -/
theorem mem_blk0_4 (t : Fin cfg0.N) (i : S50000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v8_1).slice (win0_4.rect t)).set ↔ _
  rw [View.set_slice_whole, Rect.mem_set_unit]
  exact Iff.rfl

/-- Row r of the array is in the block of point r / 10000: the 5 blocks of 10000 rows tile the 50000 rows. -/
theorem cover0_4_all (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨e00, e01, e10, e11, e20, e21, e30, e31, e40, e41⟩ := idx0 t
  refine ⟨t, flush0_4 t, ?_⟩
  rw [mem_blk0_4]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

/-- The second output array after the region: the product of the region's first operand with its third. -/
theorem final0_4 (c : Dev nD) : (dat0 V c).arrAt 4 cfg0.N
      = Spec.proj (V c (Pipeline.arrRef spec0 0)) (V c (Pipeline.arrRef spec0 2)) :=
  (dat0 V c).arrAt_eq_of_cover 4 _ (fun t _ => flushed0_4_eq V c t) cover0_4_all

end Cert.KernelSide

end
-- ==== Proof.Regions1.lean ====
/-
  Region 1 (the message kernel, 50 grid points): the output array as a whole-array function of the operands.

  Point t stages rows t·6000 … t·6000 + 5999 of the gathered projection and of the edge attributes, the 64×64
  weight and the bias row whole, and writes back the same rows of max(attr·w + xw_g + b, 0).  The fifty blocks
  tile the 300000 rows.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

set_option maxHeartbeats 1000000 in
/-- What point t writes back is block t of the message array. -/
theorem flushed1_4_eq (c : Dev nD) (t : Fin cfg1.N) :
    (dat1 V c).flushed 4 t = ((cfg1.win 4).blk t).view.read (Elt Ideal)
      (Spec.msgK (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S6000x64) zero_offsets, View.ld_unit_zero (S := S64x64) zero_offsets, View.ld_unit_zero (S := S1x64) zero_offsets]
  obtain ⟨e00, e01, e10, e11, e20, e21, e30, e31, e40, e41⟩ := idx1 t
  funext j
  show k1_pay1 (F := Ideal) (iblk1 V c 0 t) (iblk1 V c 1 t) (iblk1 V c 2 t) (iblk1 V c 3 t) ((cfg1.win 4).xinj (grid1.coords t) j)
    = Spec.msgK (V c (Pipeline.arrRef spec1 0)) (V c (Pipeline.arrRef spec1 1)) (V c (Pipeline.arrRef spec1 2)) (V c (Pipeline.arrRef spec1 3)) (((cfg1.win 4).blk t).view.emb j)
  refine msg_point _ _ _ _ (iblk1 V c 0 t) (iblk1 V c 1 t) (iblk1 V c 2 t) (iblk1 V c 3 t) t.val
    (fun y k hk0 hk1 => ?_) (fun y k hk0 hk1 => ?_) (fun y => ?_) (fun y => ?_)
    (k1_pay1 (F := Ideal) (iblk1 V c 0 t) (iblk1 V c 1 t) (iblk1 V c 2 t) (iblk1 V c 3 t)) (msg_pay1 _ _ _ _) _ _ ?_ ?_
  ·
    show V c (Pipeline.arrRef spec1 0) (((cfg1.win 0).blk t).view.emb y) = V c (Pipeline.arrRef spec1 0) k
    refine congrArg (V c (Pipeline.arrRef spec1 0)) ?_
    funext a; apply Fin.ext
    match a with
    | ⟨0, _⟩ => show win1_0.index t (0 : Fin 2) * 6000 + 1 * (y 0).val = (k 0).val; omega
    | ⟨1, _⟩ => show win1_0.index t (1 : Fin 2) * 64 + 1 * (y 1).val = (k 1).val; omega
  ·
    show V c (Pipeline.arrRef spec1 1) (((cfg1.win 1).blk t).view.emb y) = V c (Pipeline.arrRef spec1 1) k
    refine congrArg (V c (Pipeline.arrRef spec1 1)) ?_
    funext a; apply Fin.ext
    match a with
    | ⟨0, _⟩ => show win1_1.index t (0 : Fin 2) * 6000 + 1 * (y 0).val = (k 0).val; omega
    | ⟨1, _⟩ => show win1_1.index t (1 : Fin 2) * 64 + 1 * (y 1).val = (k 1).val; omega
  ·
    show V c (Pipeline.arrRef spec1 2) (((cfg1.win 2).blk t).view.emb y) = V c (Pipeline.arrRef spec1 2) y
    refine congrArg (V c (Pipeline.arrRef spec1 2)) ?_
    funext a; apply Fin.ext
    match a with
    | ⟨0, _⟩ => show win1_2.index t (0 : Fin 2) * 64 + 1 * (y 0).val = (y 0).val; omega
    | ⟨1, _⟩ => show win1_2.index t (1 : Fin 2) * 64 + 1 * (y 1).val = (y 1).val; omega
  ·
    show V c (Pipeline.arrRef spec1 3) (((cfg1.win 3).blk t).view.emb y) = V c (Pipeline.arrRef spec1 3) y
    refine congrArg (V c (Pipeline.arrRef spec1 3)) ?_
    funext a; apply Fin.ext
    match a with
    | ⟨0, _⟩ => show win1_3.index t (0 : Fin 2) * 1 + 1 * (y 0).val = (y 0).val; omega
    | ⟨1, _⟩ => show win1_3.index t (1 : Fin 2) * 64 + 1 * (y 1).val = (y 1).val; omega
  · show win1_4.index t (0 : Fin 2) * 6000 + 1 * (j 0).val = t.val * 6000 + (j 0).val; omega
  · show win1_4.index t (1 : Fin 2) * 64 + 1 * (j 1).val = (j 1).val; omega

/-- An index of the array is in point t's block iff each coordinate is in the block's range on its axis. -/
theorem mem_blk1_4 (t : Fin cfg1.N) (i : S300000x64.Idx) :
    i ∈ ((cfg1.win 4).blk t).view.set ↔ ∀ a : Fin 2, win1_4.index t a * S6000x64.size a ≤ (i a).val ∧ (i a).val < win1_4.index t a * S6000x64.size a + S6000x64.size a := by
  show i ∈ ((View.whole main_v18).slice (win1_4.rect t)).set ↔ _
  rw [View.set_slice_whole, Rect.mem_set_unit]
  exact Iff.rfl

/-- Row r of the array is in the block of point r / 6000: the 50 blocks of 6000 rows tile the 300000 rows. -/
theorem cover1_4_all (i : S300000x64.Idx) :
    ∃ t : Fin cfg1.N, (cfg1.win 4).flush t = true ∧ i ∈ ((cfg1.win 4).blk t).view.set := by
  have hi0 : (i 0).val < 300000 := (i 0).isLt
  have hi1 : (i 1).val < 64 := (i 1).isLt
  have hN : cfg1.N = 50 := N_1
  obtain ⟨t, ht⟩ : ∃ t : Fin cfg1.N, t.val = (i 0).val / 6000 := ⟨⟨(i 0).val / 6000, by rw [hN]; omega⟩, rfl⟩
  obtain ⟨e00, e01, e10, e11, e20, e21, e30, e31, e40, e41⟩ := idx1 t
  refine ⟨t, flush1_4 t, ?_⟩
  rw [mem_blk1_4]
  intro a
  match a with
  | ⟨0, _⟩ => show win1_4.index t (0 : Fin 2) * 6000 ≤ (i 0).val ∧ (i 0).val < win1_4.index t (0 : Fin 2) * 6000 + 6000; omega
  | ⟨1, _⟩ => show win1_4.index t (1 : Fin 2) * 64 ≤ (i 1).val ∧ (i 1).val < win1_4.index t (1 : Fin 2) * 64 + 64; omega

/-- The output array after the region: the message block function of the region's four operands. -/
theorem final1_4 (c : Dev nD) : (dat1 V c).arrAt 4 cfg1.N
      = Spec.msgK (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_4_eq V c t) cover1_4_all

end Cert.KernelSide

end
-- ==== Proof.Regions2.lean ====
/-
  Region 2 (the message kernel, 50 grid points): the output array as a whole-array function of the operands.

  Point t stages rows t·6000 … t·6000 + 5999 of the gathered projection and of the edge attributes, the 64×64
  weight and the bias row whole, and writes back the same rows of max(attr·w + xw_g + b, 0).  The fifty blocks
  tile the 300000 rows.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

set_option maxHeartbeats 1000000 in
/-- What point t writes back is block t of the message array. -/
theorem flushed2_4_eq (c : Dev nD) (t : Fin cfg2.N) :
    (dat2 V c).flushed 4 t = ((cfg2.win 4).blk t).view.read (Elt Ideal)
      (Spec.msgK (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero zero_offsets]
  simp only [View.ld_unit_zero (S := S6000x64) zero_offsets, View.ld_unit_zero (S := S64x64) zero_offsets, View.ld_unit_zero (S := S1x64) zero_offsets]
  obtain ⟨e00, e01, e10, e11, e20, e21, e30, e31, e40, e41⟩ := idx2 t
  funext j
  show k2_pay1 (F := Ideal) (iblk2 V c 0 t) (iblk2 V c 1 t) (iblk2 V c 2 t) (iblk2 V c 3 t) ((cfg2.win 4).xinj (grid2.coords t) j)
    = Spec.msgK (V c (Pipeline.arrRef spec2 0)) (V c (Pipeline.arrRef spec2 1)) (V c (Pipeline.arrRef spec2 2)) (V c (Pipeline.arrRef spec2 3)) (((cfg2.win 4).blk t).view.emb j)
  refine msg_point _ _ _ _ (iblk2 V c 0 t) (iblk2 V c 1 t) (iblk2 V c 2 t) (iblk2 V c 3 t) t.val
    (fun y k hk0 hk1 => ?_) (fun y k hk0 hk1 => ?_) (fun y => ?_) (fun y => ?_)
    (k2_pay1 (F := Ideal) (iblk2 V c 0 t) (iblk2 V c 1 t) (iblk2 V c 2 t) (iblk2 V c 3 t)) (msg_pay2 _ _ _ _) _ _ ?_ ?_
  ·
    show V c (Pipeline.arrRef spec2 0) (((cfg2.win 0).blk t).view.emb y) = V c (Pipeline.arrRef spec2 0) k
    refine congrArg (V c (Pipeline.arrRef spec2 0)) ?_
    funext a; apply Fin.ext
    match a with
    | ⟨0, _⟩ => show win2_0.index t (0 : Fin 2) * 6000 + 1 * (y 0).val = (k 0).val; omega
    | ⟨1, _⟩ => show win2_0.index t (1 : Fin 2) * 64 + 1 * (y 1).val = (k 1).val; omega
  ·
    show V c (Pipeline.arrRef spec2 1) (((cfg2.win 1).blk t).view.emb y) = V c (Pipeline.arrRef spec2 1) k
    refine congrArg (V c (Pipeline.arrRef spec2 1)) ?_
    funext a; apply Fin.ext
    match a with
    | ⟨0, _⟩ => show win2_1.index t (0 : Fin 2) * 6000 + 1 * (y 0).val = (k 0).val; omega
    | ⟨1, _⟩ => show win2_1.index t (1 : Fin 2) * 64 + 1 * (y 1).val = (k 1).val; omega
  ·
    show V c (Pipeline.arrRef spec2 2) (((cfg2.win 2).blk t).view.emb y) = V c (Pipeline.arrRef spec2 2) y
    refine congrArg (V c (Pipeline.arrRef spec2 2)) ?_
    funext a; apply Fin.ext
    match a with
    | ⟨0, _⟩ => show win2_2.index t (0 : Fin 2) * 64 + 1 * (y 0).val = (y 0).val; omega
    | ⟨1, _⟩ => show win2_2.index t (1 : Fin 2) * 64 + 1 * (y 1).val = (y 1).val; omega
  ·
    show V c (Pipeline.arrRef spec2 3) (((cfg2.win 3).blk t).view.emb y) = V c (Pipeline.arrRef spec2 3) y
    refine congrArg (V c (Pipeline.arrRef spec2 3)) ?_
    funext a; apply Fin.ext
    match a with
    | ⟨0, _⟩ => show win2_3.index t (0 : Fin 2) * 1 + 1 * (y 0).val = (y 0).val; omega
    | ⟨1, _⟩ => show win2_3.index t (1 : Fin 2) * 64 + 1 * (y 1).val = (y 1).val; omega
  · show win2_4.index t (0 : Fin 2) * 6000 + 1 * (j 0).val = t.val * 6000 + (j 0).val; omega
  · show win2_4.index t (1 : Fin 2) * 64 + 1 * (j 1).val = (j 1).val; omega

/-- An index of the array is in point t's block iff each coordinate is in the block's range on its axis. -/
theorem mem_blk2_4 (t : Fin cfg2.N) (i : S300000x64.Idx) :
    i ∈ ((cfg2.win 4).blk t).view.set ↔ ∀ a : Fin 2, win2_4.index t a * S6000x64.size a ≤ (i a).val ∧ (i a).val < win2_4.index t a * S6000x64.size a + S6000x64.size a := by
  show i ∈ ((View.whole main_v28).slice (win2_4.rect t)).set ↔ _
  rw [View.set_slice_whole, Rect.mem_set_unit]
  exact Iff.rfl

/-- Row r of the array is in the block of point r / 6000: the 50 blocks of 6000 rows tile the 300000 rows. -/
theorem cover2_4_all (i : S300000x64.Idx) :
    ∃ t : Fin cfg2.N, (cfg2.win 4).flush t = true ∧ i ∈ ((cfg2.win 4).blk t).view.set := by
  have hi0 : (i 0).val < 300000 := (i 0).isLt
  have hi1 : (i 1).val < 64 := (i 1).isLt
  have hN : cfg2.N = 50 := N_2
  obtain ⟨t, ht⟩ : ∃ t : Fin cfg2.N, t.val = (i 0).val / 6000 := ⟨⟨(i 0).val / 6000, by rw [hN]; omega⟩, rfl⟩
  obtain ⟨e00, e01, e10, e11, e20, e21, e30, e31, e40, e41⟩ := idx2 t
  refine ⟨t, flush2_4 t, ?_⟩
  rw [mem_blk2_4]
  intro a
  match a with
  | ⟨0, _⟩ => show win2_4.index t (0 : Fin 2) * 6000 ≤ (i 0).val ∧ (i 0).val < win2_4.index t (0 : Fin 2) * 6000 + 6000; omega
  | ⟨1, _⟩ => show win2_4.index t (1 : Fin 2) * 64 ≤ (i 1).val ∧ (i 1).val < win2_4.index t (1 : Fin 2) * 64 + 64; omega

/-- The output array after the region: the message block function of the region's four operands. -/
theorem final2_4 (c : Dev nD) : (dat2 V c).arrAt 4 cfg2.N
      = Spec.msgK (V c (Pipeline.arrRef spec2 0)) (V c (Pipeline.arrRef spec2 1)) (V c (Pipeline.arrRef spec2 2)) (V c (Pipeline.arrRef spec2 3)) :=
  (dat2 V c).arrAt_eq_of_cover 4 _ (fun t _ => flushed2_4_eq V c t) cover2_4_all

end Cert.KernelSide

end
-- ==== Proof.Regions3.lean ====
/-
  Region 3 (the update kernel, 10 grid points): the output array as a whole-array function of the operands.

  Point t stages rows t·5000 … t·5000 + 4999 of the summed messages a and of x, the two 64×64 weights and the
  two bias rows whole, and writes back the same rows of the two dense layers applied to a + 2·x; a row of the
  result depends on the same row of a and x only.  The ten blocks tile the 50000 rows.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

set_option maxHeartbeats 1000000 in
/-- What point t writes back is block t of the updated array. -/
theorem flushed3_6_eq (c : Dev nD) (t : Fin cfg3.N) :
    (dat3 V c).flushed 6 t = ((cfg3.win 6).blk t).view.read (Elt Ideal)
      (Spec.updK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero zero_offsets]
  simp only [View.ld_unit_zero (S := S5000x64) zero_offsets, View.ld_unit_zero (S := S64x64) zero_offsets, View.ld_unit_zero (S := S1x64) zero_offsets]
  obtain ⟨e00, e01, e10, e11, e20, e21, e30, e31, e40, e41, e50, e51, e60, e61⟩ := idx3 t
  funext j
  show k3_pay1 (F := Ideal) (iblk3 V c 0 t) (iblk3 V c 1 t) (iblk3 V c 2 t) (iblk3 V c 3 t) (iblk3 V c 4 t) (iblk3 V c 5 t) ((cfg3.win 6).xinj (grid3.coords t) j)
    = Spec.updK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 6).blk t).view.emb j)
  refine upd_point _ _ _ _ _ _ (iblk3 V c 0 t) (iblk3 V c 1 t) (iblk3 V c 2 t) (iblk3 V c 3 t) (iblk3 V c 4 t) (iblk3 V c 5 t) t.val
    (fun y k hk0 hk1 => ?_) (fun y k hk0 hk1 => ?_) (fun y => ?_) (fun y => ?_) (fun y => ?_) (fun y => ?_)
    (k3_pay1 (F := Ideal) (iblk3 V c 0 t) (iblk3 V c 1 t) (iblk3 V c 2 t) (iblk3 V c 3 t) (iblk3 V c 4 t) (iblk3 V c 5 t)) (upd_pay3 _ _ _ _ _ _) _ _ ?_ ?_
  ·
    show V c (Pipeline.arrRef spec3 0) (((cfg3.win 0).blk t).view.emb y) = V c (Pipeline.arrRef spec3 0) k
    refine congrArg (V c (Pipeline.arrRef spec3 0)) ?_
    funext a; apply Fin.ext
    match a with
    | ⟨0, _⟩ => show win3_0.index t (0 : Fin 2) * 5000 + 1 * (y 0).val = (k 0).val; omega
    | ⟨1, _⟩ => show win3_0.index t (1 : Fin 2) * 64 + 1 * (y 1).val = (k 1).val; omega
  ·
    show V c (Pipeline.arrRef spec3 1) (((cfg3.win 1).blk t).view.emb y) = V c (Pipeline.arrRef spec3 1) k
    refine congrArg (V c (Pipeline.arrRef spec3 1)) ?_
    funext a; apply Fin.ext
    match a with
    | ⟨0, _⟩ => show win3_1.index t (0 : Fin 2) * 5000 + 1 * (y 0).val = (k 0).val; omega
    | ⟨1, _⟩ => show win3_1.index t (1 : Fin 2) * 64 + 1 * (y 1).val = (k 1).val; omega
  ·
    show V c (Pipeline.arrRef spec3 2) (((cfg3.win 2).blk t).view.emb y) = V c (Pipeline.arrRef spec3 2) y
    refine congrArg (V c (Pipeline.arrRef spec3 2)) ?_
    funext a; apply Fin.ext
    match a with
    | ⟨0, _⟩ => show win3_2.index t (0 : Fin 2) * 64 + 1 * (y 0).val = (y 0).val; omega
    | ⟨1, _⟩ => show win3_2.index t (1 : Fin 2) * 64 + 1 * (y 1).val = (y 1).val; omega
  ·
    show V c (Pipeline.arrRef spec3 3) (((cfg3.win 3).blk t).view.emb y) = V c (Pipeline.arrRef spec3 3) y
    refine congrArg (V c (Pipeline.arrRef spec3 3)) ?_
    funext a; apply Fin.ext
    match a with
    | ⟨0, _⟩ => show win3_3.index t (0 : Fin 2) * 1 + 1 * (y 0).val = (y 0).val; omega
    | ⟨1, _⟩ => show win3_3.index t (1 : Fin 2) * 64 + 1 * (y 1).val = (y 1).val; omega
  ·
    show V c (Pipeline.arrRef spec3 4) (((cfg3.win 4).blk t).view.emb y) = V c (Pipeline.arrRef spec3 4) y
    refine congrArg (V c (Pipeline.arrRef spec3 4)) ?_
    funext a; apply Fin.ext
    match a with
    | ⟨0, _⟩ => show win3_4.index t (0 : Fin 2) * 64 + 1 * (y 0).val = (y 0).val; omega
    | ⟨1, _⟩ => show win3_4.index t (1 : Fin 2) * 64 + 1 * (y 1).val = (y 1).val; omega
  ·
    show V c (Pipeline.arrRef spec3 5) (((cfg3.win 5).blk t).view.emb y) = V c (Pipeline.arrRef spec3 5) y
    refine congrArg (V c (Pipeline.arrRef spec3 5)) ?_
    funext a; apply Fin.ext
    match a with
    | ⟨0, _⟩ => show win3_5.index t (0 : Fin 2) * 1 + 1 * (y 0).val = (y 0).val; omega
    | ⟨1, _⟩ => show win3_5.index t (1 : Fin 2) * 64 + 1 * (y 1).val = (y 1).val; omega
  · show win3_6.index t (0 : Fin 2) * 5000 + 1 * (j 0).val = t.val * 5000 + (j 0).val; omega
  · show win3_6.index t (1 : Fin 2) * 64 + 1 * (j 1).val = (j 1).val; omega

/-- An index of the array is in point t's block iff each coordinate is in the block's range on its axis. -/
theorem mem_blk3_6 (t : Fin cfg3.N) (i : S50000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v38).slice (win3_6.rect t)).set ↔ _
  rw [View.set_slice_whole, Rect.mem_set_unit]
  exact Iff.rfl

/-- Row r of the array is in the block of point r / 5000: the 10 blocks of 5000 rows tile the 50000 rows. -/
theorem cover3_6_all (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e00, e01, e10, e11, e20, e21, e30, e31, e40, e41, e50, e51, e60, e61⟩ := idx3 t
  refine ⟨t, flush3_6 t, ?_⟩
  rw [mem_blk3_6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- The output array after the region: the update function of the region's six operands. -/
theorem final3_6 (c : Dev nD) : (dat3 V c).arrAt 6 cfg3.N
      = Spec.updK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 _ (fun t _ => flushed3_6_eq V c t) cover3_6_all

end Cert.KernelSide

end
-- ==== Proof.Regions4.lean ====
/-
  Region 4 (the projection kernel, 5 grid points): both output arrays as whole-array functions of the operands.

  Point t stages rows t·10000 … t·10000 + 9999 of x and the two 64×64 weights whole, and writes back the same
  rows of x·w for each weight.  The five blocks tile the 50000 rows, so each output array ends as x·w.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx4 : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0
    ∧ win4_4.index t (0 : Fin 2) = t.val
    ∧ win4_4.index t (1 : Fin 2) = 0 :=
  (by decide +kernel : ∀ t : Fin grid4.N, _)

set_option maxHeartbeats 1000000 in
/-- What point t writes back to the first output is block t of x·w: rows t·10000 … t·10000 + 9999. -/
theorem flushed4_3_eq (c : Dev nD) (t : Fin cfg4.N) :
    (dat4 V c).flushed 3 t = ((cfg4.win 3).blk t).view.read (Elt Ideal)
      (Spec.proj (V c (Pipeline.arrRef spec4 0)) (V c (Pipeline.arrRef spec4 1))) := by
  show (cfg4.win 3).cut (grid4.coords t) ((dat4 V c).after 3 t) = _
  rw [after4_3]
  unfold out4_3
  rw [View.canon_unit_zero zero_offsets]
  simp only [View.ld_unit_zero (S := S10000x64) zero_offsets, View.ld_unit_zero (S := S64x64) zero_offsets]
  obtain ⟨e00, e01, e10, e11, e20, e21, e30, e31, e40, e41⟩ := idx4 t
  funext j
  show k4_pay2 (F := Ideal) (iblk4 V c 0 t) (iblk4 V c 1 t) ((cfg4.win 3).xinj (grid4.coords t) j)
    = Spec.proj (V c (Pipeline.arrRef spec4 0)) (V c (Pipeline.arrRef spec4 1)) (((cfg4.win 3).blk t).view.emb j)
  refine proj_point _ _ (iblk4 V c 0 t) (iblk4 V c 1 t) t.val (fun y k hk0 hk1 => ?_) (fun y => ?_)
    (k4_pay2 (F := Ideal) (iblk4 V c 0 t) (iblk4 V c 1 t)) (proj_pay4_2 _ _) _ _ ?_ ?_
  ·
    show V c (Pipeline.arrRef spec4 0) (((cfg4.win 0).blk t).view.emb y) = V c (Pipeline.arrRef spec4 0) k
    refine congrArg (V c (Pipeline.arrRef spec4 0)) ?_
    funext a; apply Fin.ext
    match a with
    | ⟨0, _⟩ => show win4_0.index t (0 : Fin 2) * 10000 + 1 * (y 0).val = (k 0).val; omega
    | ⟨1, _⟩ => show win4_0.index t (1 : Fin 2) * 64 + 1 * (y 1).val = (k 1).val; omega
  ·
    show V c (Pipeline.arrRef spec4 1) (((cfg4.win 1).blk t).view.emb y) = V c (Pipeline.arrRef spec4 1) y
    refine congrArg (V c (Pipeline.arrRef spec4 1)) ?_
    funext a; apply Fin.ext
    match a with
    | ⟨0, _⟩ => show win4_1.index t (0 : Fin 2) * 64 + 1 * (y 0).val = (y 0).val; omega
    | ⟨1, _⟩ => show win4_1.index t (1 : Fin 2) * 64 + 1 * (y 1).val = (y 1).val; omega
  · show win4_3.index t (0 : Fin 2) * 10000 + 1 * (j 0).val = t.val * 10000 + (j 0).val; omega
  · show win4_3.index t (1 : Fin 2) * 64 + 1 * (j 1).val = (j 1).val; omega

/-- An index of the array is in point t's block iff each coordinate is in the block's range on its axis. -/
theorem mem_blk4_3 (t : Fin cfg4.N) (i : S50000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v39_0).slice (win4_3.rect t)).set ↔ _
  rw [View.set_slice_whole, Rect.mem_set_unit]
  exact Iff.rfl

/-- Row r of the array is in the block of point r / 10000: the 5 blocks of 10000 rows tile the 50000 rows. -/
theorem cover4_3_all (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 5 := N_4
  obtain ⟨t, ht⟩ : ∃ t : Fin cfg4.N, t.val = (i 0).val / 10000 := ⟨⟨(i 0).val / 10000, by rw [hN]; omega⟩, rfl⟩
  obtain ⟨e00, e01, e10, e11, e20, e21, e30, e31⟩ := idx4 t
  refine ⟨t, flush4_3 t, ?_⟩
  rw [mem_blk4_3]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- The first output array after the region: the product of the region's first operand with its second. -/
theorem final4_3 (c : Dev nD) : (dat4 V c).arrAt 3 cfg4.N
      = Spec.proj (V c (Pipeline.arrRef spec4 0)) (V c (Pipeline.arrRef spec4 1)) :=
  (dat4 V c).arrAt_eq_of_cover 3 _ (fun t _ => flushed4_3_eq V c t) cover4_3_all

set_option maxHeartbeats 1000000 in
/-- What point t writes back to the second output is block t of x·w: rows t·10000 … t·10000 + 9999. -/
theorem flushed4_4_eq (c : Dev nD) (t : Fin cfg4.N) :
    (dat4 V c).flushed 4 t = ((cfg4.win 4).blk t).view.read (Elt Ideal)
      (Spec.proj (V c (Pipeline.arrRef spec4 0)) (V c (Pipeline.arrRef spec4 2))) := by
  show (cfg4.win 4).cut (grid4.coords t) ((dat4 V c).after 4 t) = _
  rw [after4_4]
  unfold out4_4
  rw [View.canon_unit_zero zero_offsets]
  simp only [View.ld_unit_zero (S := S10000x64) zero_offsets, View.ld_unit_zero (S := S64x64) zero_offsets]
  obtain ⟨e00, e01, e10, e11, e20, e21, e30, e31, e40, e41⟩ := idx4 t
  funext j
  show k4_pay3 (F := Ideal) (iblk4 V c 0 t) (iblk4 V c 2 t) ((cfg4.win 4).xinj (grid4.coords t) j)
    = Spec.proj (V c (Pipeline.arrRef spec4 0)) (V c (Pipeline.arrRef spec4 2)) (((cfg4.win 4).blk t).view.emb j)
  refine proj_point _ _ (iblk4 V c 0 t) (iblk4 V c 2 t) t.val (fun y k hk0 hk1 => ?_) (fun y => ?_)
    (k4_pay3 (F := Ideal) (iblk4 V c 0 t) (iblk4 V c 2 t)) (proj_pay4_3 _ _) _ _ ?_ ?_
  ·
    show V c (Pipeline.arrRef spec4 0) (((cfg4.win 0).blk t).view.emb y) = V c (Pipeline.arrRef spec4 0) k
    refine congrArg (V c (Pipeline.arrRef spec4 0)) ?_
    funext a; apply Fin.ext
    match a with
    | ⟨0, _⟩ => show win4_0.index t (0 : Fin 2) * 10000 + 1 * (y 0).val = (k 0).val; omega
    | ⟨1, _⟩ => show win4_0.index t (1 : Fin 2) * 64 + 1 * (y 1).val = (k 1).val; omega
  ·
    show V c (Pipeline.arrRef spec4 2) (((cfg4.win 2).blk t).view.emb y) = V c (Pipeline.arrRef spec4 2) y
    refine congrArg (V c (Pipeline.arrRef spec4 2)) ?_
    funext a; apply Fin.ext
    match a with
    | ⟨0, _⟩ => show win4_2.index t (0 : Fin 2) * 64 + 1 * (y 0).val = (y 0).val; omega
    | ⟨1, _⟩ => show win4_2.index t (1 : Fin 2) * 64 + 1 * (y 1).val = (y 1).val; omega
  · show win4_4.index t (0 : Fin 2) * 10000 + 1 * (j 0).val = t.val * 10000 + (j 0).val; omega
  · show win4_4.index t (1 : Fin 2) * 64 + 1 * (j 1).val = (j 1).val; omega

/-- An index of the array is in point t's block iff each coordinate is in the block's range on its axis. -/
theorem mem_blk4_4 (t : Fin cfg4.N) (i : S50000x64.Idx) :
    i ∈ ((cfg4.win 4).blk t).view.set ↔ ∀ a : Fin 2, win4_4.index t a * S10000x64.size a ≤ (i a).val ∧ (i a).val < win4_4.index t a * S10000x64.size a + S10000x64.size a := by
  show i ∈ ((View.whole main_v39_1).slice (win4_4.rect t)).set ↔ _
  rw [View.set_slice_whole, Rect.mem_set_unit]
  exact Iff.rfl

/-- Row r of the array is in the block of point r / 10000: the 5 blocks of 10000 rows tile the 50000 rows. -/
theorem cover4_4_all (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  have hN : cfg4.N = 5 := N_4
  obtain ⟨t, ht⟩ : ∃ t : Fin cfg4.N, t.val = (i 0).val / 10000 := ⟨⟨(i 0).val / 10000, by rw [hN]; omega⟩, rfl⟩
  obtain ⟨e00, e01, e10, e11, e20, e21, e30, e31, e40, e41⟩ := idx4 t
  refine ⟨t, flush4_4 t, ?_⟩
  rw [mem_blk4_4]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 64 ≤ (i 1).val ∧ (i 1).val < win4_4.index t (1 : Fin 2) * 64 + 64; omega

/-- The second output array after the region: the product of the region's first operand with its third. -/
theorem final4_4 (c : Dev nD) : (dat4 V c).arrAt 4 cfg4.N
      = Spec.proj (V c (Pipeline.arrRef spec4 0)) (V c (Pipeline.arrRef spec4 2)) :=
  (dat4 V c).arrAt_eq_of_cover 4 _ (fun t _ => flushed4_4_eq V c t) cover4_4_all

end Cert.KernelSide

end
-- ==== Proof.Regions5.lean ====
/-
  Region 5 (the message kernel, 50 grid points): the output array as a whole-array function of the operands.

  Point t stages rows t·6000 … t·6000 + 5999 of the gathered projection and of the edge attributes, the 64×64
  weight and the bias row whole, and writes back the same rows of max(attr·w + xw_g + b, 0).  The fifty blocks
  tile the 300000 rows.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx5 : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

set_option maxHeartbeats 1000000 in
/-- What point t writes back is block t of the message array. -/
theorem flushed5_4_eq (c : Dev nD) (t : Fin cfg5.N) :
    (dat5 V c).flushed 4 t = ((cfg5.win 4).blk t).view.read (Elt Ideal)
      (Spec.msgK (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero zero_offsets]
  simp only [View.ld_unit_zero (S := S6000x64) zero_offsets, View.ld_unit_zero (S := S64x64) zero_offsets, View.ld_unit_zero (S := S1x64) zero_offsets]
  obtain ⟨e00, e01, e10, e11, e20, e21, e30, e31, e40, e41⟩ := idx5 t
  funext j
  show k5_pay1 (F := Ideal) (iblk5 V c 0 t) (iblk5 V c 1 t) (iblk5 V c 2 t) (iblk5 V c 3 t) ((cfg5.win 4).xinj (grid5.coords t) j)
    = Spec.msgK (V c (Pipeline.arrRef spec5 0)) (V c (Pipeline.arrRef spec5 1)) (V c (Pipeline.arrRef spec5 2)) (V c (Pipeline.arrRef spec5 3)) (((cfg5.win 4).blk t).view.emb j)
  refine msg_point _ _ _ _ (iblk5 V c 0 t) (iblk5 V c 1 t) (iblk5 V c 2 t) (iblk5 V c 3 t) t.val
    (fun y k hk0 hk1 => ?_) (fun y k hk0 hk1 => ?_) (fun y => ?_) (fun y => ?_)
    (k5_pay1 (F := Ideal) (iblk5 V c 0 t) (iblk5 V c 1 t) (iblk5 V c 2 t) (iblk5 V c 3 t)) (msg_pay5 _ _ _ _) _ _ ?_ ?_
  ·
    show V c (Pipeline.arrRef spec5 0) (((cfg5.win 0).blk t).view.emb y) = V c (Pipeline.arrRef spec5 0) k
    refine congrArg (V c (Pipeline.arrRef spec5 0)) ?_
    funext a; apply Fin.ext
    match a with
    | ⟨0, _⟩ => show win5_0.index t (0 : Fin 2) * 6000 + 1 * (y 0).val = (k 0).val; omega
    | ⟨1, _⟩ => show win5_0.index t (1 : Fin 2) * 64 + 1 * (y 1).val = (k 1).val; omega
  ·
    show V c (Pipeline.arrRef spec5 1) (((cfg5.win 1).blk t).view.emb y) = V c (Pipeline.arrRef spec5 1) k
    refine congrArg (V c (Pipeline.arrRef spec5 1)) ?_
    funext a; apply Fin.ext
    match a with
    | ⟨0, _⟩ => show win5_1.index t (0 : Fin 2) * 6000 + 1 * (y 0).val = (k 0).val; omega
    | ⟨1, _⟩ => show win5_1.index t (1 : Fin 2) * 64 + 1 * (y 1).val = (k 1).val; omega
  ·
    show V c (Pipeline.arrRef spec5 2) (((cfg5.win 2).blk t).view.emb y) = V c (Pipeline.arrRef spec5 2) y
    refine congrArg (V c (Pipeline.arrRef spec5 2)) ?_
    funext a; apply Fin.ext
    match a with
    | ⟨0, _⟩ => show win5_2.index t (0 : Fin 2) * 64 + 1 * (y 0).val = (y 0).val; omega
    | ⟨1, _⟩ => show win5_2.index t (1 : Fin 2) * 64 + 1 * (y 1).val = (y 1).val; omega
  ·
    show V c (Pipeline.arrRef spec5 3) (((cfg5.win 3).blk t).view.emb y) = V c (Pipeline.arrRef spec5 3) y
    refine congrArg (V c (Pipeline.arrRef spec5 3)) ?_
    funext a; apply Fin.ext
    match a with
    | ⟨0, _⟩ => show win5_3.index t (0 : Fin 2) * 1 + 1 * (y 0).val = (y 0).val; omega
    | ⟨1, _⟩ => show win5_3.index t (1 : Fin 2) * 64 + 1 * (y 1).val = (y 1).val; omega
  · show win5_4.index t (0 : Fin 2) * 6000 + 1 * (j 0).val = t.val * 6000 + (j 0).val; omega
  · show win5_4.index t (1 : Fin 2) * 64 + 1 * (j 1).val = (j 1).val; omega

/-- An index of the array is in point t's block iff each coordinate is in the block's range on its axis. -/
theorem mem_blk5_4 (t : Fin cfg5.N) (i : S300000x64.Idx) :
    i ∈ ((cfg5.win 4).blk t).view.set ↔ ∀ a : Fin 2, win5_4.index t a * S6000x64.size a ≤ (i a).val ∧ (i a).val < win5_4.index t a * S6000x64.size a + S6000x64.size a := by
  show i ∈ ((View.whole main_v49).slice (win5_4.rect t)).set ↔ _
  rw [View.set_slice_whole, Rect.mem_set_unit]
  exact Iff.rfl

/-- Row r of the array is in the block of point r / 6000: the 50 blocks of 6000 rows tile the 300000 rows. -/
theorem cover5_4_all (i : S300000x64.Idx) :
    ∃ t : Fin cfg5.N, (cfg5.win 4).flush t = true ∧ i ∈ ((cfg5.win 4).blk t).view.set := by
  have hi0 : (i 0).val < 300000 := (i 0).isLt
  have hi1 : (i 1).val < 64 := (i 1).isLt
  have hN : cfg5.N = 50 := N_5
  obtain ⟨t, ht⟩ : ∃ t : Fin cfg5.N, t.val = (i 0).val / 6000 := ⟨⟨(i 0).val / 6000, by rw [hN]; omega⟩, rfl⟩
  obtain ⟨e00, e01, e10, e11, e20, e21, e30, e31, e40, e41⟩ := idx5 t
  refine ⟨t, flush5_4 t, ?_⟩
  rw [mem_blk5_4]
  intro a
  match a with
  | ⟨0, _⟩ => show win5_4.index t (0 : Fin 2) * 6000 ≤ (i 0).val ∧ (i 0).val < win5_4.index t (0 : Fin 2) * 6000 + 6000; omega
  | ⟨1, _⟩ => show win5_4.index t (1 : Fin 2) * 64 ≤ (i 1).val ∧ (i 1).val < win5_4.index t (1 : Fin 2) * 64 + 64; omega

/-- The output array after the region: the message block function of the region's four operands. -/
theorem final5_4 (c : Dev nD) : (dat5 V c).arrAt 4 cfg5.N
      = Spec.msgK (V c (Pipeline.arrRef spec5 0)) (V c (Pipeline.arrRef spec5 1)) (V c (Pipeline.arrRef spec5 2)) (V c (Pipeline.arrRef spec5 3)) :=
  (dat5 V c).arrAt_eq_of_cover 4 _ (fun t _ => flushed5_4_eq V c t) cover5_4_all

end Cert.KernelSide

end
-- ==== Proof.Regions6.lean ====
/-
  Region 6 (the message kernel, 50 grid points): the output array as a whole-array function of the operands.

  Point t stages rows t·6000 … t·6000 + 5999 of the gathered projection and of the edge attributes, the 64×64
  weight and the bias row whole, and writes back the same rows of max(attr·w + xw_g + b, 0).  The fifty blocks
  tile the 300000 rows.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx6 : ∀ t : Fin cfg6.N,
    win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = t.val
    ∧ win6_4.index t (1 : Fin 2) = 0 :=
  (by decide +kernel : ∀ t : Fin grid6.N, _)

set_option maxHeartbeats 1000000 in
/-- What point t writes back is block t of the message array. -/
theorem flushed6_4_eq (c : Dev nD) (t : Fin cfg6.N) :
    (dat6 V c).flushed 4 t = ((cfg6.win 4).blk t).view.read (Elt Ideal)
      (Spec.msgK (V c (Pipeline.arrRef spec6 0)) (V c (Pipeline.arrRef spec6 1)) (V c (Pipeline.arrRef spec6 2)) (V c (Pipeline.arrRef spec6 3))) := by
  show (cfg6.win 4).cut (grid6.coords t) ((dat6 V c).after 4 t) = _
  rw [after6_4]
  unfold out6_4
  rw [View.canon_unit_zero zero_offsets]
  simp only [View.ld_unit_zero (S := S6000x64) zero_offsets, View.ld_unit_zero (S := S64x64) zero_offsets, View.ld_unit_zero (S := S1x64) zero_offsets]
  obtain ⟨e00, e01, e10, e11, e20, e21, e30, e31, e40, e41⟩ := idx6 t
  funext j
  show k6_pay1 (F := Ideal) (iblk6 V c 0 t) (iblk6 V c 1 t) (iblk6 V c 2 t) (iblk6 V c 3 t) ((cfg6.win 4).xinj (grid6.coords t) j)
    = Spec.msgK (V c (Pipeline.arrRef spec6 0)) (V c (Pipeline.arrRef spec6 1)) (V c (Pipeline.arrRef spec6 2)) (V c (Pipeline.arrRef spec6 3)) (((cfg6.win 4).blk t).view.emb j)
  refine msg_point _ _ _ _ (iblk6 V c 0 t) (iblk6 V c 1 t) (iblk6 V c 2 t) (iblk6 V c 3 t) t.val
    (fun y k hk0 hk1 => ?_) (fun y k hk0 hk1 => ?_) (fun y => ?_) (fun y => ?_)
    (k6_pay1 (F := Ideal) (iblk6 V c 0 t) (iblk6 V c 1 t) (iblk6 V c 2 t) (iblk6 V c 3 t)) (msg_pay6 _ _ _ _) _ _ ?_ ?_
  ·
    show V c (Pipeline.arrRef spec6 0) (((cfg6.win 0).blk t).view.emb y) = V c (Pipeline.arrRef spec6 0) k
    refine congrArg (V c (Pipeline.arrRef spec6 0)) ?_
    funext a; apply Fin.ext
    match a with
    | ⟨0, _⟩ => show win6_0.index t (0 : Fin 2) * 6000 + 1 * (y 0).val = (k 0).val; omega
    | ⟨1, _⟩ => show win6_0.index t (1 : Fin 2) * 64 + 1 * (y 1).val = (k 1).val; omega
  ·
    show V c (Pipeline.arrRef spec6 1) (((cfg6.win 1).blk t).view.emb y) = V c (Pipeline.arrRef spec6 1) k
    refine congrArg (V c (Pipeline.arrRef spec6 1)) ?_
    funext a; apply Fin.ext
    match a with
    | ⟨0, _⟩ => show win6_1.index t (0 : Fin 2) * 6000 + 1 * (y 0).val = (k 0).val; omega
    | ⟨1, _⟩ => show win6_1.index t (1 : Fin 2) * 64 + 1 * (y 1).val = (k 1).val; omega
  ·
    show V c (Pipeline.arrRef spec6 2) (((cfg6.win 2).blk t).view.emb y) = V c (Pipeline.arrRef spec6 2) y
    refine congrArg (V c (Pipeline.arrRef spec6 2)) ?_
    funext a; apply Fin.ext
    match a with
    | ⟨0, _⟩ => show win6_2.index t (0 : Fin 2) * 64 + 1 * (y 0).val = (y 0).val; omega
    | ⟨1, _⟩ => show win6_2.index t (1 : Fin 2) * 64 + 1 * (y 1).val = (y 1).val; omega
  ·
    show V c (Pipeline.arrRef spec6 3) (((cfg6.win 3).blk t).view.emb y) = V c (Pipeline.arrRef spec6 3) y
    refine congrArg (V c (Pipeline.arrRef spec6 3)) ?_
    funext a; apply Fin.ext
    match a with
    | ⟨0, _⟩ => show win6_3.index t (0 : Fin 2) * 1 + 1 * (y 0).val = (y 0).val; omega
    | ⟨1, _⟩ => show win6_3.index t (1 : Fin 2) * 64 + 1 * (y 1).val = (y 1).val; omega
  · show win6_4.index t (0 : Fin 2) * 6000 + 1 * (j 0).val = t.val * 6000 + (j 0).val; omega
  · show win6_4.index t (1 : Fin 2) * 64 + 1 * (j 1).val = (j 1).val; omega

/-- An index of the array is in point t's block iff each coordinate is in the block's range on its axis. -/
theorem mem_blk6_4 (t : Fin cfg6.N) (i : S300000x64.Idx) :
    i ∈ ((cfg6.win 4).blk t).view.set ↔ ∀ a : Fin 2, win6_4.index t a * S6000x64.size a ≤ (i a).val ∧ (i a).val < win6_4.index t a * S6000x64.size a + S6000x64.size a := by
  show i ∈ ((View.whole main_v59).slice (win6_4.rect t)).set ↔ _
  rw [View.set_slice_whole, Rect.mem_set_unit]
  exact Iff.rfl

/-- Row r of the array is in the block of point r / 6000: the 50 blocks of 6000 rows tile the 300000 rows. -/
theorem cover6_4_all (i : S300000x64.Idx) :
    ∃ t : Fin cfg6.N, (cfg6.win 4).flush t = true ∧ i ∈ ((cfg6.win 4).blk t).view.set := by
  have hi0 : (i 0).val < 300000 := (i 0).isLt
  have hi1 : (i 1).val < 64 := (i 1).isLt
  have hN : cfg6.N = 50 := N_6
  obtain ⟨t, ht⟩ : ∃ t : Fin cfg6.N, t.val = (i 0).val / 6000 := ⟨⟨(i 0).val / 6000, by rw [hN]; omega⟩, rfl⟩
  obtain ⟨e00, e01, e10, e11, e20, e21, e30, e31, e40, e41⟩ := idx6 t
  refine ⟨t, flush6_4 t, ?_⟩
  rw [mem_blk6_4]
  intro a
  match a with
  | ⟨0, _⟩ => show win6_4.index t (0 : Fin 2) * 6000 ≤ (i 0).val ∧ (i 0).val < win6_4.index t (0 : Fin 2) * 6000 + 6000; omega
  | ⟨1, _⟩ => show win6_4.index t (1 : Fin 2) * 64 ≤ (i 1).val ∧ (i 1).val < win6_4.index t (1 : Fin 2) * 64 + 64; omega

/-- The output array after the region: the message block function of the region's four operands. -/
theorem final6_4 (c : Dev nD) : (dat6 V c).arrAt 4 cfg6.N
      = Spec.msgK (V c (Pipeline.arrRef spec6 0)) (V c (Pipeline.arrRef spec6 1)) (V c (Pipeline.arrRef spec6 2)) (V c (Pipeline.arrRef spec6 3)) :=
  (dat6 V c).arrAt_eq_of_cover 4 _ (fun t _ => flushed6_4_eq V c t) cover6_4_all

end Cert.KernelSide

end
-- ==== Proof.Regions7.lean ====
/-
  Region 7 (the update kernel, 10 grid points): the output array as a whole-array function of the operands.

  Point t stages rows t·5000 … t·5000 + 4999 of the summed messages a and of x, the two 64×64 weights and the
  two bias rows whole, and writes back the same rows of the two dense layers applied to a + 2·x; a row of the
  result depends on the same row of a and x only.  The ten blocks tile the 50000 rows.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx7 : ∀ t : Fin cfg7.N,
    win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = t.val
    ∧ win7_6.index t (1 : Fin 2) = 0 :=
  (by decide +kernel : ∀ t : Fin grid7.N, _)

set_option maxHeartbeats 1000000 in
/-- What point t writes back is block t of the updated array. -/
theorem flushed7_6_eq (c : Dev nD) (t : Fin cfg7.N) :
    (dat7 V c).flushed 6 t = ((cfg7.win 6).blk t).view.read (Elt Ideal)
      (Spec.updK (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) := by
  show (cfg7.win 6).cut (grid7.coords t) ((dat7 V c).after 6 t) = _
  rw [after7_6]
  unfold out7_6
  rw [View.canon_unit_zero zero_offsets]
  simp only [View.ld_unit_zero (S := S5000x64) zero_offsets, View.ld_unit_zero (S := S64x64) zero_offsets, View.ld_unit_zero (S := S1x64) zero_offsets]
  obtain ⟨e00, e01, e10, e11, e20, e21, e30, e31, e40, e41, e50, e51, e60, e61⟩ := idx7 t
  funext j
  show k7_pay1 (F := Ideal) (iblk7 V c 0 t) (iblk7 V c 1 t) (iblk7 V c 2 t) (iblk7 V c 3 t) (iblk7 V c 4 t) (iblk7 V c 5 t) ((cfg7.win 6).xinj (grid7.coords t) j)
    = Spec.updK (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (((cfg7.win 6).blk t).view.emb j)
  refine upd_point _ _ _ _ _ _ (iblk7 V c 0 t) (iblk7 V c 1 t) (iblk7 V c 2 t) (iblk7 V c 3 t) (iblk7 V c 4 t) (iblk7 V c 5 t) t.val
    (fun y k hk0 hk1 => ?_) (fun y k hk0 hk1 => ?_) (fun y => ?_) (fun y => ?_) (fun y => ?_) (fun y => ?_)
    (k7_pay1 (F := Ideal) (iblk7 V c 0 t) (iblk7 V c 1 t) (iblk7 V c 2 t) (iblk7 V c 3 t) (iblk7 V c 4 t) (iblk7 V c 5 t)) (upd_pay7 _ _ _ _ _ _) _ _ ?_ ?_
  ·
    show V c (Pipeline.arrRef spec7 0) (((cfg7.win 0).blk t).view.emb y) = V c (Pipeline.arrRef spec7 0) k
    refine congrArg (V c (Pipeline.arrRef spec7 0)) ?_
    funext a; apply Fin.ext
    match a with
    | ⟨0, _⟩ => show win7_0.index t (0 : Fin 2) * 5000 + 1 * (y 0).val = (k 0).val; omega
    | ⟨1, _⟩ => show win7_0.index t (1 : Fin 2) * 64 + 1 * (y 1).val = (k 1).val; omega
  ·
    show V c (Pipeline.arrRef spec7 1) (((cfg7.win 1).blk t).view.emb y) = V c (Pipeline.arrRef spec7 1) k
    refine congrArg (V c (Pipeline.arrRef spec7 1)) ?_
    funext a; apply Fin.ext
    match a with
    | ⟨0, _⟩ => show win7_1.index t (0 : Fin 2) * 5000 + 1 * (y 0).val = (k 0).val; omega
    | ⟨1, _⟩ => show win7_1.index t (1 : Fin 2) * 64 + 1 * (y 1).val = (k 1).val; omega
  ·
    show V c (Pipeline.arrRef spec7 2) (((cfg7.win 2).blk t).view.emb y) = V c (Pipeline.arrRef spec7 2) y
    refine congrArg (V c (Pipeline.arrRef spec7 2)) ?_
    funext a; apply Fin.ext
    match a with
    | ⟨0, _⟩ => show win7_2.index t (0 : Fin 2) * 64 + 1 * (y 0).val = (y 0).val; omega
    | ⟨1, _⟩ => show win7_2.index t (1 : Fin 2) * 64 + 1 * (y 1).val = (y 1).val; omega
  ·
    show V c (Pipeline.arrRef spec7 3) (((cfg7.win 3).blk t).view.emb y) = V c (Pipeline.arrRef spec7 3) y
    refine congrArg (V c (Pipeline.arrRef spec7 3)) ?_
    funext a; apply Fin.ext
    match a with
    | ⟨0, _⟩ => show win7_3.index t (0 : Fin 2) * 1 + 1 * (y 0).val = (y 0).val; omega
    | ⟨1, _⟩ => show win7_3.index t (1 : Fin 2) * 64 + 1 * (y 1).val = (y 1).val; omega
  ·
    show V c (Pipeline.arrRef spec7 4) (((cfg7.win 4).blk t).view.emb y) = V c (Pipeline.arrRef spec7 4) y
    refine congrArg (V c (Pipeline.arrRef spec7 4)) ?_
    funext a; apply Fin.ext
    match a with
    | ⟨0, _⟩ => show win7_4.index t (0 : Fin 2) * 64 + 1 * (y 0).val = (y 0).val; omega
    | ⟨1, _⟩ => show win7_4.index t (1 : Fin 2) * 64 + 1 * (y 1).val = (y 1).val; omega
  ·
    show V c (Pipeline.arrRef spec7 5) (((cfg7.win 5).blk t).view.emb y) = V c (Pipeline.arrRef spec7 5) y
    refine congrArg (V c (Pipeline.arrRef spec7 5)) ?_
    funext a; apply Fin.ext
    match a with
    | ⟨0, _⟩ => show win7_5.index t (0 : Fin 2) * 1 + 1 * (y 0).val = (y 0).val; omega
    | ⟨1, _⟩ => show win7_5.index t (1 : Fin 2) * 64 + 1 * (y 1).val = (y 1).val; omega
  · show win7_6.index t (0 : Fin 2) * 5000 + 1 * (j 0).val = t.val * 5000 + (j 0).val; omega
  · show win7_6.index t (1 : Fin 2) * 64 + 1 * (j 1).val = (j 1).val; omega

/-- An index of the array is in point t's block iff each coordinate is in the block's range on its axis. -/
theorem mem_blk7_6 (t : Fin cfg7.N) (i : S50000x64.Idx) :
    i ∈ ((cfg7.win 6).blk t).view.set ↔ ∀ a : Fin 2, win7_6.index t a * S5000x64.size a ≤ (i a).val ∧ (i a).val < win7_6.index t a * S5000x64.size a + S5000x64.size a := by
  show i ∈ ((View.whole main_v69).slice (win7_6.rect t)).set ↔ _
  rw [View.set_slice_whole, Rect.mem_set_unit]
  exact Iff.rfl

/-- Row r of the array is in the block of point r / 5000: the 10 blocks of 5000 rows tile the 50000 rows. -/
theorem cover7_6_all (i : S50000x64.Idx) :
    ∃ t : Fin cfg7.N, (cfg7.win 6).flush t = true ∧ i ∈ ((cfg7.win 6).blk t).view.set := by
  have hi0 : (i 0).val < 50000 := (i 0).isLt
  have hi1 : (i 1).val < 64 := (i 1).isLt
  have hN : cfg7.N = 10 := N_7
  obtain ⟨t, ht⟩ : ∃ t : Fin cfg7.N, t.val = (i 0).val / 5000 := ⟨⟨(i 0).val / 5000, by rw [hN]; omega⟩, rfl⟩
  obtain ⟨e00, e01, e10, e11, e20, e21, e30, e31, e40, e41, e50, e51, e60, e61⟩ := idx7 t
  refine ⟨t, flush7_6 t, ?_⟩
  rw [mem_blk7_6]
  intro a
  match a with
  | ⟨0, _⟩ => show win7_6.index t (0 : Fin 2) * 5000 ≤ (i 0).val ∧ (i 0).val < win7_6.index t (0 : Fin 2) * 5000 + 5000; omega
  | ⟨1, _⟩ => show win7_6.index t (1 : Fin 2) * 64 ≤ (i 1).val ∧ (i 1).val < win7_6.index t (1 : Fin 2) * 64 + 64; omega

/-- The output array after the region: the update function of the region's six operands. -/
theorem final7_6 (c : Dev nD) : (dat7 V c).arrAt 6 cfg7.N
      = Spec.updK (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) :=
  (dat7 V c).arrAt_eq_of_cover 6 _ (fun t _ => flushed7_6_eq V c t) cover7_6_all

end Cert.KernelSide

end
-- ==== Proof.Regions8.lean ====
/-
  Region 8 (the projection kernel, 5 grid points): both output arrays as whole-array functions of the operands.

  Point t stages rows t·10000 … t·10000 + 9999 of x and the two 64×64 weights whole, and writes back the same
  rows of x·w for each weight.  The five blocks tile the 50000 rows, so each output array ends as x·w.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx8 : ∀ t : Fin cfg8.N,
    win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0
    ∧ win8_4.index t (0 : Fin 2) = t.val
    ∧ win8_4.index t (1 : Fin 2) = 0 :=
  (by decide +kernel : ∀ t : Fin grid8.N, _)

set_option maxHeartbeats 1000000 in
/-- What point t writes back to the first output is block t of x·w: rows t·10000 … t·10000 + 9999. -/
theorem flushed8_3_eq (c : Dev nD) (t : Fin cfg8.N) :
    (dat8 V c).flushed 3 t = ((cfg8.win 3).blk t).view.read (Elt Ideal)
      (Spec.proj (V c (Pipeline.arrRef spec8 0)) (V c (Pipeline.arrRef spec8 1))) := by
  show (cfg8.win 3).cut (grid8.coords t) ((dat8 V c).after 3 t) = _
  rw [after8_3]
  unfold out8_3
  rw [View.canon_unit_zero zero_offsets]
  simp only [View.ld_unit_zero (S := S10000x64) zero_offsets, View.ld_unit_zero (S := S64x64) zero_offsets]
  obtain ⟨e00, e01, e10, e11, e20, e21, e30, e31, e40, e41⟩ := idx8 t
  funext j
  show k8_pay2 (F := Ideal) (iblk8 V c 0 t) (iblk8 V c 1 t) ((cfg8.win 3).xinj (grid8.coords t) j)
    = Spec.proj (V c (Pipeline.arrRef spec8 0)) (V c (Pipeline.arrRef spec8 1)) (((cfg8.win 3).blk t).view.emb j)
  refine proj_point _ _ (iblk8 V c 0 t) (iblk8 V c 1 t) t.val (fun y k hk0 hk1 => ?_) (fun y => ?_)
    (k8_pay2 (F := Ideal) (iblk8 V c 0 t) (iblk8 V c 1 t)) (proj_pay8_2 _ _) _ _ ?_ ?_
  ·
    show V c (Pipeline.arrRef spec8 0) (((cfg8.win 0).blk t).view.emb y) = V c (Pipeline.arrRef spec8 0) k
    refine congrArg (V c (Pipeline.arrRef spec8 0)) ?_
    funext a; apply Fin.ext
    match a with
    | ⟨0, _⟩ => show win8_0.index t (0 : Fin 2) * 10000 + 1 * (y 0).val = (k 0).val; omega
    | ⟨1, _⟩ => show win8_0.index t (1 : Fin 2) * 64 + 1 * (y 1).val = (k 1).val; omega
  ·
    show V c (Pipeline.arrRef spec8 1) (((cfg8.win 1).blk t).view.emb y) = V c (Pipeline.arrRef spec8 1) y
    refine congrArg (V c (Pipeline.arrRef spec8 1)) ?_
    funext a; apply Fin.ext
    match a with
    | ⟨0, _⟩ => show win8_1.index t (0 : Fin 2) * 64 + 1 * (y 0).val = (y 0).val; omega
    | ⟨1, _⟩ => show win8_1.index t (1 : Fin 2) * 64 + 1 * (y 1).val = (y 1).val; omega
  · show win8_3.index t (0 : Fin 2) * 10000 + 1 * (j 0).val = t.val * 10000 + (j 0).val; omega
  · show win8_3.index t (1 : Fin 2) * 64 + 1 * (j 1).val = (j 1).val; omega

/-- An index of the array is in point t's block iff each coordinate is in the block's range on its axis. -/
theorem mem_blk8_3 (t : Fin cfg8.N) (i : S50000x64.Idx) :
    i ∈ ((cfg8.win 3).blk t).view.set ↔ ∀ a : Fin 2, win8_3.index t a * S10000x64.size a ≤ (i a).val ∧ (i a).val < win8_3.index t a * S10000x64.size a + S10000x64.size a := by
  show i ∈ ((View.whole main_v70_0).slice (win8_3.rect t)).set ↔ _
  rw [View.set_slice_whole, Rect.mem_set_unit]
  exact Iff.rfl

/-- Row r of the array is in the block of point r / 10000: the 5 blocks of 10000 rows tile the 50000 rows. -/
theorem cover8_3_all (i : S50000x64.Idx) :
    ∃ t : Fin cfg8.N, (cfg8.win 3).flush t = true ∧ i ∈ ((cfg8.win 3).blk t).view.set := by
  have hi0 : (i 0).val < 50000 := (i 0).isLt
  have hi1 : (i 1).val < 64 := (i 1).isLt
  have hN : cfg8.N = 5 := N_8
  obtain ⟨t, ht⟩ : ∃ t : Fin cfg8.N, t.val = (i 0).val / 10000 := ⟨⟨(i 0).val / 10000, by rw [hN]; omega⟩, rfl⟩
  obtain ⟨e00, e01, e10, e11, e20, e21, e30, e31⟩ := idx8 t
  refine ⟨t, flush8_3 t, ?_⟩
  rw [mem_blk8_3]
  intro a
  match a with
  | ⟨0, _⟩ => show win8_3.index t (0 : Fin 2) * 10000 ≤ (i 0).val ∧ (i 0).val < win8_3.index t (0 : Fin 2) * 10000 + 10000; omega
  | ⟨1, _⟩ => show win8_3.index t (1 : Fin 2) * 64 ≤ (i 1).val ∧ (i 1).val < win8_3.index t (1 : Fin 2) * 64 + 64; omega

/-- The first output array after the region: the product of the region's first operand with its second. -/
theorem final8_3 (c : Dev nD) : (dat8 V c).arrAt 3 cfg8.N
      = Spec.proj (V c (Pipeline.arrRef spec8 0)) (V c (Pipeline.arrRef spec8 1)) :=
  (dat8 V c).arrAt_eq_of_cover 3 _ (fun t _ => flushed8_3_eq V c t) cover8_3_all

set_option maxHeartbeats 1000000 in
/-- What point t writes back to the second output is block t of x·w: rows t·10000 … t·10000 + 9999. -/
theorem flushed8_4_eq (c : Dev nD) (t : Fin cfg8.N) :
    (dat8 V c).flushed 4 t = ((cfg8.win 4).blk t).view.read (Elt Ideal)
      (Spec.proj (V c (Pipeline.arrRef spec8 0)) (V c (Pipeline.arrRef spec8 2))) := by
  show (cfg8.win 4).cut (grid8.coords t) ((dat8 V c).after 4 t) = _
  rw [after8_4]
  unfold out8_4
  rw [View.canon_unit_zero zero_offsets]
  simp only [View.ld_unit_zero (S := S10000x64) zero_offsets, View.ld_unit_zero (S := S64x64) zero_offsets]
  obtain ⟨e00, e01, e10, e11, e20, e21, e30, e31, e40, e41⟩ := idx8 t
  funext j
  show k8_pay3 (F := Ideal) (iblk8 V c 0 t) (iblk8 V c 2 t) ((cfg8.win 4).xinj (grid8.coords t) j)
    = Spec.proj (V c (Pipeline.arrRef spec8 0)) (V c (Pipeline.arrRef spec8 2)) (((cfg8.win 4).blk t).view.emb j)
  refine proj_point _ _ (iblk8 V c 0 t) (iblk8 V c 2 t) t.val (fun y k hk0 hk1 => ?_) (fun y => ?_)
    (k8_pay3 (F := Ideal) (iblk8 V c 0 t) (iblk8 V c 2 t)) (proj_pay8_3 _ _) _ _ ?_ ?_
  ·
    show V c (Pipeline.arrRef spec8 0) (((cfg8.win 0).blk t).view.emb y) = V c (Pipeline.arrRef spec8 0) k
    refine congrArg (V c (Pipeline.arrRef spec8 0)) ?_
    funext a; apply Fin.ext
    match a with
    | ⟨0, _⟩ => show win8_0.index t (0 : Fin 2) * 10000 + 1 * (y 0).val = (k 0).val; omega
    | ⟨1, _⟩ => show win8_0.index t (1 : Fin 2) * 64 + 1 * (y 1).val = (k 1).val; omega
  ·
    show V c (Pipeline.arrRef spec8 2) (((cfg8.win 2).blk t).view.emb y) = V c (Pipeline.arrRef spec8 2) y
    refine congrArg (V c (Pipeline.arrRef spec8 2)) ?_
    funext a; apply Fin.ext
    match a with
    | ⟨0, _⟩ => show win8_2.index t (0 : Fin 2) * 64 + 1 * (y 0).val = (y 0).val; omega
    | ⟨1, _⟩ => show win8_2.index t (1 : Fin 2) * 64 + 1 * (y 1).val = (y 1).val; omega
  · show win8_4.index t (0 : Fin 2) * 10000 + 1 * (j 0).val = t.val * 10000 + (j 0).val; omega
  · show win8_4.index t (1 : Fin 2) * 64 + 1 * (j 1).val = (j 1).val; omega

/-- An index of the array is in point t's block iff each coordinate is in the block's range on its axis. -/
theorem mem_blk8_4 (t : Fin cfg8.N) (i : S50000x64.Idx) :
    i ∈ ((cfg8.win 4).blk t).view.set ↔ ∀ a : Fin 2, win8_4.index t a * S10000x64.size a ≤ (i a).val ∧ (i a).val < win8_4.index t a * S10000x64.size a + S10000x64.size a := by
  show i ∈ ((View.whole main_v70_1).slice (win8_4.rect t)).set ↔ _
  rw [View.set_slice_whole, Rect.mem_set_unit]
  exact Iff.rfl

/-- Row r of the array is in the block of point r / 10000: the 5 blocks of 10000 rows tile the 50000 rows. -/
theorem cover8_4_all (i : S50000x64.Idx) :
    ∃ t : Fin cfg8.N, (cfg8.win 4).flush t = true ∧ i ∈ ((cfg8.win 4).blk t).view.set := by
  have hi0 : (i 0).val < 50000 := (i 0).isLt
  have hi1 : (i 1).val < 64 := (i 1).isLt
  have hN : cfg8.N = 5 := N_8
  obtain ⟨t, ht⟩ : ∃ t : Fin cfg8.N, t.val = (i 0).val / 10000 := ⟨⟨(i 0).val / 10000, by rw [hN]; omega⟩, rfl⟩
  obtain ⟨e00, e01, e10, e11, e20, e21, e30, e31, e40, e41⟩ := idx8 t
  refine ⟨t, flush8_4 t, ?_⟩
  rw [mem_blk8_4]
  intro a
  match a with
  | ⟨0, _⟩ => show win8_4.index t (0 : Fin 2) * 10000 ≤ (i 0).val ∧ (i 0).val < win8_4.index t (0 : Fin 2) * 10000 + 10000; omega
  | ⟨1, _⟩ => show win8_4.index t (1 : Fin 2) * 64 ≤ (i 1).val ∧ (i 1).val < win8_4.index t (1 : Fin 2) * 64 + 64; omega

/-- The second output array after the region: the product of the region's first operand with its third. -/
theorem final8_4 (c : Dev nD) : (dat8 V c).arrAt 4 cfg8.N
      = Spec.proj (V c (Pipeline.arrRef spec8 0)) (V c (Pipeline.arrRef spec8 2)) :=
  (dat8 V c).arrAt_eq_of_cover 4 _ (fun t _ => flushed8_4_eq V c t) cover8_4_all

end Cert.KernelSide

end
-- ==== Proof.Regions9.lean ====
/-
  Region 9 (the message kernel, 50 grid points): the output array as a whole-array function of the operands.

  Point t stages rows t·6000 … t·6000 + 5999 of the gathered projection and of the edge attributes, the 64×64
  weight and the bias row whole, and writes back the same rows of max(attr·w + xw_g + b, 0).  The fifty blocks
  tile the 300000 rows.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx9 : ∀ t : Fin cfg9.N,
    win9_0.index t (0 : Fin 2) = t.val
    ∧ win9_0.index t (1 : Fin 2) = 0
    ∧ win9_1.index t (0 : Fin 2) = t.val
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = t.val
    ∧ win9_4.index t (1 : Fin 2) = 0 :=
  (by decide +kernel : ∀ t : Fin grid9.N, _)

set_option maxHeartbeats 1000000 in
/-- What point t writes back is block t of the message array. -/
theorem flushed9_4_eq (c : Dev nD) (t : Fin cfg9.N) :
    (dat9 V c).flushed 4 t = ((cfg9.win 4).blk t).view.read (Elt Ideal)
      (Spec.msgK (V c (Pipeline.arrRef spec9 0)) (V c (Pipeline.arrRef spec9 1)) (V c (Pipeline.arrRef spec9 2)) (V c (Pipeline.arrRef spec9 3))) := by
  show (cfg9.win 4).cut (grid9.coords t) ((dat9 V c).after 4 t) = _
  rw [after9_4]
  unfold out9_4
  rw [View.canon_unit_zero zero_offsets]
  simp only [View.ld_unit_zero (S := S6000x64) zero_offsets, View.ld_unit_zero (S := S64x64) zero_offsets, View.ld_unit_zero (S := S1x64) zero_offsets]
  obtain ⟨e00, e01, e10, e11, e20, e21, e30, e31, e40, e41⟩ := idx9 t
  funext j
  show k9_pay1 (F := Ideal) (iblk9 V c 0 t) (iblk9 V c 1 t) (iblk9 V c 2 t) (iblk9 V c 3 t) ((cfg9.win 4).xinj (grid9.coords t) j)
    = Spec.msgK (V c (Pipeline.arrRef spec9 0)) (V c (Pipeline.arrRef spec9 1)) (V c (Pipeline.arrRef spec9 2)) (V c (Pipeline.arrRef spec9 3)) (((cfg9.win 4).blk t).view.emb j)
  refine msg_point _ _ _ _ (iblk9 V c 0 t) (iblk9 V c 1 t) (iblk9 V c 2 t) (iblk9 V c 3 t) t.val
    (fun y k hk0 hk1 => ?_) (fun y k hk0 hk1 => ?_) (fun y => ?_) (fun y => ?_)
    (k9_pay1 (F := Ideal) (iblk9 V c 0 t) (iblk9 V c 1 t) (iblk9 V c 2 t) (iblk9 V c 3 t)) (msg_pay9 _ _ _ _) _ _ ?_ ?_
  ·
    show V c (Pipeline.arrRef spec9 0) (((cfg9.win 0).blk t).view.emb y) = V c (Pipeline.arrRef spec9 0) k
    refine congrArg (V c (Pipeline.arrRef spec9 0)) ?_
    funext a; apply Fin.ext
    match a with
    | ⟨0, _⟩ => show win9_0.index t (0 : Fin 2) * 6000 + 1 * (y 0).val = (k 0).val; omega
    | ⟨1, _⟩ => show win9_0.index t (1 : Fin 2) * 64 + 1 * (y 1).val = (k 1).val; omega
  ·
    show V c (Pipeline.arrRef spec9 1) (((cfg9.win 1).blk t).view.emb y) = V c (Pipeline.arrRef spec9 1) k
    refine congrArg (V c (Pipeline.arrRef spec9 1)) ?_
    funext a; apply Fin.ext
    match a with
    | ⟨0, _⟩ => show win9_1.index t (0 : Fin 2) * 6000 + 1 * (y 0).val = (k 0).val; omega
    | ⟨1, _⟩ => show win9_1.index t (1 : Fin 2) * 64 + 1 * (y 1).val = (k 1).val; omega
  ·
    show V c (Pipeline.arrRef spec9 2) (((cfg9.win 2).blk t).view.emb y) = V c (Pipeline.arrRef spec9 2) y
    refine congrArg (V c (Pipeline.arrRef spec9 2)) ?_
    funext a; apply Fin.ext
    match a with
    | ⟨0, _⟩ => show win9_2.index t (0 : Fin 2) * 64 + 1 * (y 0).val = (y 0).val; omega
    | ⟨1, _⟩ => show win9_2.index t (1 : Fin 2) * 64 + 1 * (y 1).val = (y 1).val; omega
  ·
    show V c (Pipeline.arrRef spec9 3) (((cfg9.win 3).blk t).view.emb y) = V c (Pipeline.arrRef spec9 3) y
    refine congrArg (V c (Pipeline.arrRef spec9 3)) ?_
    funext a; apply Fin.ext
    match a with
    | ⟨0, _⟩ => show win9_3.index t (0 : Fin 2) * 1 + 1 * (y 0).val = (y 0).val; omega
    | ⟨1, _⟩ => show win9_3.index t (1 : Fin 2) * 64 + 1 * (y 1).val = (y 1).val; omega
  · show win9_4.index t (0 : Fin 2) * 6000 + 1 * (j 0).val = t.val * 6000 + (j 0).val; omega
  · show win9_4.index t (1 : Fin 2) * 64 + 1 * (j 1).val = (j 1).val; omega

/-- An index of the array is in point t's block iff each coordinate is in the block's range on its axis. -/
theorem mem_blk9_4 (t : Fin cfg9.N) (i : S300000x64.Idx) :
    i ∈ ((cfg9.win 4).blk t).view.set ↔ ∀ a : Fin 2, win9_4.index t a * S6000x64.size a ≤ (i a).val ∧ (i a).val < win9_4.index t a * S6000x64.size a + S6000x64.size a := by
  show i ∈ ((View.whole main_v80).slice (win9_4.rect t)).set ↔ _
  rw [View.set_slice_whole, Rect.mem_set_unit]
  exact Iff.rfl

/-- Row r of the array is in the block of point r / 6000: the 50 blocks of 6000 rows tile the 300000 rows. -/
theorem cover9_4_all (i : S300000x64.Idx) :
    ∃ t : Fin cfg9.N, (cfg9.win 4).flush t = true ∧ i ∈ ((cfg9.win 4).blk t).view.set := by
  have hi0 : (i 0).val < 300000 := (i 0).isLt
  have hi1 : (i 1).val < 64 := (i 1).isLt
  have hN : cfg9.N = 50 := N_9
  obtain ⟨t, ht⟩ : ∃ t : Fin cfg9.N, t.val = (i 0).val / 6000 := ⟨⟨(i 0).val / 6000, by rw [hN]; omega⟩, rfl⟩
  obtain ⟨e00, e01, e10, e11, e20, e21, e30, e31, e40, e41⟩ := idx9 t
  refine ⟨t, flush9_4 t, ?_⟩
  rw [mem_blk9_4]
  intro a
  match a with
  | ⟨0, _⟩ => show win9_4.index t (0 : Fin 2) * 6000 ≤ (i 0).val ∧ (i 0).val < win9_4.index t (0 : Fin 2) * 6000 + 6000; omega
  | ⟨1, _⟩ => show win9_4.index t (1 : Fin 2) * 64 ≤ (i 1).val ∧ (i 1).val < win9_4.index t (1 : Fin 2) * 64 + 64; omega

/-- The output array after the region: the message block function of the region's four operands. -/
theorem final9_4 (c : Dev nD) : (dat9 V c).arrAt 4 cfg9.N
      = Spec.msgK (V c (Pipeline.arrRef spec9 0)) (V c (Pipeline.arrRef spec9 1)) (V c (Pipeline.arrRef spec9 2)) (V c (Pipeline.arrRef spec9 3)) :=
  (dat9 V c).arrAt_eq_of_cover 4 _ (fun t _ => flushed9_4_eq V c t) cover9_4_all

end Cert.KernelSide

end
-- ==== Proof.Regions10.lean ====
/-
  Region 10 (the message kernel, 50 grid points): the output array as a whole-array function of the operands.

  Point t stages rows t·6000 … t·6000 + 5999 of the gathered projection and of the edge attributes, the 64×64
  weight and the bias row whole, and writes back the same rows of max(attr·w + xw_g + b, 0).  The fifty blocks
  tile the 300000 rows.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx10 : ∀ t : Fin cfg10.N,
    win10_0.index t (0 : Fin 2) = t.val
    ∧ win10_0.index t (1 : Fin 2) = 0
    ∧ win10_1.index t (0 : Fin 2) = t.val
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = t.val
    ∧ win10_4.index t (1 : Fin 2) = 0 :=
  (by decide +kernel : ∀ t : Fin grid10.N, _)

set_option maxHeartbeats 1000000 in
/-- What point t writes back is block t of the message array. -/
theorem flushed10_4_eq (c : Dev nD) (t : Fin cfg10.N) :
    (dat10 V c).flushed 4 t = ((cfg10.win 4).blk t).view.read (Elt Ideal)
      (Spec.msgK (V c (Pipeline.arrRef spec10 0)) (V c (Pipeline.arrRef spec10 1)) (V c (Pipeline.arrRef spec10 2)) (V c (Pipeline.arrRef spec10 3))) := by
  show (cfg10.win 4).cut (grid10.coords t) ((dat10 V c).after 4 t) = _
  rw [after10_4]
  unfold out10_4
  rw [View.canon_unit_zero zero_offsets]
  simp only [View.ld_unit_zero (S := S6000x64) zero_offsets, View.ld_unit_zero (S := S64x64) zero_offsets, View.ld_unit_zero (S := S1x64) zero_offsets]
  obtain ⟨e00, e01, e10, e11, e20, e21, e30, e31, e40, e41⟩ := idx10 t
  funext j
  show k10_pay1 (F := Ideal) (iblk10 V c 0 t) (iblk10 V c 1 t) (iblk10 V c 2 t) (iblk10 V c 3 t) ((cfg10.win 4).xinj (grid10.coords t) j)
    = Spec.msgK (V c (Pipeline.arrRef spec10 0)) (V c (Pipeline.arrRef spec10 1)) (V c (Pipeline.arrRef spec10 2)) (V c (Pipeline.arrRef spec10 3)) (((cfg10.win 4).blk t).view.emb j)
  refine msg_point _ _ _ _ (iblk10 V c 0 t) (iblk10 V c 1 t) (iblk10 V c 2 t) (iblk10 V c 3 t) t.val
    (fun y k hk0 hk1 => ?_) (fun y k hk0 hk1 => ?_) (fun y => ?_) (fun y => ?_)
    (k10_pay1 (F := Ideal) (iblk10 V c 0 t) (iblk10 V c 1 t) (iblk10 V c 2 t) (iblk10 V c 3 t)) (msg_pay10 _ _ _ _) _ _ ?_ ?_
  ·
    show V c (Pipeline.arrRef spec10 0) (((cfg10.win 0).blk t).view.emb y) = V c (Pipeline.arrRef spec10 0) k
    refine congrArg (V c (Pipeline.arrRef spec10 0)) ?_
    funext a; apply Fin.ext
    match a with
    | ⟨0, _⟩ => show win10_0.index t (0 : Fin 2) * 6000 + 1 * (y 0).val = (k 0).val; omega
    | ⟨1, _⟩ => show win10_0.index t (1 : Fin 2) * 64 + 1 * (y 1).val = (k 1).val; omega
  ·
    show V c (Pipeline.arrRef spec10 1) (((cfg10.win 1).blk t).view.emb y) = V c (Pipeline.arrRef spec10 1) k
    refine congrArg (V c (Pipeline.arrRef spec10 1)) ?_
    funext a; apply Fin.ext
    match a with
    | ⟨0, _⟩ => show win10_1.index t (0 : Fin 2) * 6000 + 1 * (y 0).val = (k 0).val; omega
    | ⟨1, _⟩ => show win10_1.index t (1 : Fin 2) * 64 + 1 * (y 1).val = (k 1).val; omega
  ·
    show V c (Pipeline.arrRef spec10 2) (((cfg10.win 2).blk t).view.emb y) = V c (Pipeline.arrRef spec10 2) y
    refine congrArg (V c (Pipeline.arrRef spec10 2)) ?_
    funext a; apply Fin.ext
    match a with
    | ⟨0, _⟩ => show win10_2.index t (0 : Fin 2) * 64 + 1 * (y 0).val = (y 0).val; omega
    | ⟨1, _⟩ => show win10_2.index t (1 : Fin 2) * 64 + 1 * (y 1).val = (y 1).val; omega
  ·
    show V c (Pipeline.arrRef spec10 3) (((cfg10.win 3).blk t).view.emb y) = V c (Pipeline.arrRef spec10 3) y
    refine congrArg (V c (Pipeline.arrRef spec10 3)) ?_
    funext a; apply Fin.ext
    match a with
    | ⟨0, _⟩ => show win10_3.index t (0 : Fin 2) * 1 + 1 * (y 0).val = (y 0).val; omega
    | ⟨1, _⟩ => show win10_3.index t (1 : Fin 2) * 64 + 1 * (y 1).val = (y 1).val; omega
  · show win10_4.index t (0 : Fin 2) * 6000 + 1 * (j 0).val = t.val * 6000 + (j 0).val; omega
  · show win10_4.index t (1 : Fin 2) * 64 + 1 * (j 1).val = (j 1).val; omega

/-- An index of the array is in point t's block iff each coordinate is in the block's range on its axis. -/
theorem mem_blk10_4 (t : Fin cfg10.N) (i : S300000x64.Idx) :
    i ∈ ((cfg10.win 4).blk t).view.set ↔ ∀ a : Fin 2, win10_4.index t a * S6000x64.size a ≤ (i a).val ∧ (i a).val < win10_4.index t a * S6000x64.size a + S6000x64.size a := by
  show i ∈ ((View.whole main_v90).slice (win10_4.rect t)).set ↔ _
  rw [View.set_slice_whole, Rect.mem_set_unit]
  exact Iff.rfl

/-- Row r of the array is in the block of point r / 6000: the 50 blocks of 6000 rows tile the 300000 rows. -/
theorem cover10_4_all (i : S300000x64.Idx) :
    ∃ t : Fin cfg10.N, (cfg10.win 4).flush t = true ∧ i ∈ ((cfg10.win 4).blk t).view.set := by
  have hi0 : (i 0).val < 300000 := (i 0).isLt
  have hi1 : (i 1).val < 64 := (i 1).isLt
  have hN : cfg10.N = 50 := N_10
  obtain ⟨t, ht⟩ : ∃ t : Fin cfg10.N, t.val = (i 0).val / 6000 := ⟨⟨(i 0).val / 6000, by rw [hN]; omega⟩, rfl⟩
  obtain ⟨e00, e01, e10, e11, e20, e21, e30, e31, e40, e41⟩ := idx10 t
  refine ⟨t, flush10_4 t, ?_⟩
  rw [mem_blk10_4]
  intro a
  match a with
  | ⟨0, _⟩ => show win10_4.index t (0 : Fin 2) * 6000 ≤ (i 0).val ∧ (i 0).val < win10_4.index t (0 : Fin 2) * 6000 + 6000; omega
  | ⟨1, _⟩ => show win10_4.index t (1 : Fin 2) * 64 ≤ (i 1).val ∧ (i 1).val < win10_4.index t (1 : Fin 2) * 64 + 64; omega

/-- The output array after the region: the message block function of the region's four operands. -/
theorem final10_4 (c : Dev nD) : (dat10 V c).arrAt 4 cfg10.N
      = Spec.msgK (V c (Pipeline.arrRef spec10 0)) (V c (Pipeline.arrRef spec10 1)) (V c (Pipeline.arrRef spec10 2)) (V c (Pipeline.arrRef spec10 3)) :=
  (dat10 V c).arrAt_eq_of_cover 4 _ (fun t _ => flushed10_4_eq V c t) cover10_4_all

end Cert.KernelSide

end
-- ==== Proof.Regions11.lean ====
/-
  Region 11 (the update kernel, 10 grid points): the output array as a whole-array function of the operands.

  Point t stages rows t·5000 … t·5000 + 4999 of the summed messages a and of x, the two 64×64 weights and the
  two bias rows whole, and writes back the same rows of the two dense layers applied to a + 2·x; a row of the
  result depends on the same row of a and x only.  The ten blocks tile the 50000 rows.
-/
import proofs.«121345_j4372276707359_2_alg».proof.Proof.Gen.KernelIdeal.Frame
import proofs.«121345_j4372276707359_2_alg».proof.Proof.RegionsPayload
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: a row-block window is at block row t, every other window at
    block (0, 0). -/
theorem idx11 : ∀ t : Fin cfg11.N,
    win11_0.index t (0 : Fin 2) = t.val
    ∧ win11_0.index t (1 : Fin 2) = 0
    ∧ win11_1.index t (0 : Fin 2) = t.val
    ∧ win11_1.index t (1 : Fin 2) = 0
    ∧ win11_2.index t (0 : Fin 2) = 0
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0
    ∧ win11_5.index t (0 : Fin 2) = 0
    ∧ win11_5.index t (1 : Fin 2) = 0
    ∧ win11_6.index t (0 : Fin 2) = t.val
    ∧ win11_6.index t (1 : Fin 2) = 0 :=
  (by decide +kernel : ∀ t : Fin grid11.N, _)

set_option maxHeartbeats 1000000 in
/-- What point t writes back is block t of the updated array. -/
theorem flushed11_6_eq (c : Dev nD) (t : Fin cfg11.N) :
    (dat11 V c).flushed 6 t = ((cfg11.win 6).blk t).view.read (Elt Ideal)
      (Spec.updK (V c (Pipeline.arrRef spec11 0)) (V c (Pipeline.arrRef spec11 1)) (V c (Pipeline.arrRef spec11 2)) (V c (Pipeline.arrRef spec11 3)) (V c (Pipeline.arrRef spec11 4)) (V c (Pipeline.arrRef spec11 5))) := by
  show (cfg11.win 6).cut (grid11.coords t) ((dat11 V c).after 6 t) = _
  rw [after11_6]
  unfold out11_6
  rw [View.canon_unit_zero zero_offsets]
  simp only [View.ld_unit_zero (S := S5000x64) zero_offsets, View.ld_unit_zero (S := S64x64) zero_offsets, View.ld_unit_zero (S := S1x64) zero_offsets]
  obtain ⟨e00, e01, e10, e11, e20, e21, e30, e31, e40, e41, e50, e51, e60, e61⟩ := idx11 t
  funext j
  show k11_pay1 (F := Ideal) (iblk11 V c 0 t) (iblk11 V c 1 t) (iblk11 V c 2 t) (iblk11 V c 3 t) (iblk11 V c 4 t) (iblk11 V c 5 t) ((cfg11.win 6).xinj (grid11.coords t) j)
    = Spec.updK (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (((cfg11.win 6).blk t).view.emb j)
  refine upd_point _ _ _ _ _ _ (iblk11 V c 0 t) (iblk11 V c 1 t) (iblk11 V c 2 t) (iblk11 V c 3 t) (iblk11 V c 4 t) (iblk11 V c 5 t) t.val
    (fun y k hk0 hk1 => ?_) (fun y k hk0 hk1 => ?_) (fun y => ?_) (fun y => ?_) (fun y => ?_) (fun y => ?_)
    (k11_pay1 (F := Ideal) (iblk11 V c 0 t) (iblk11 V c 1 t) (iblk11 V c 2 t) (iblk11 V c 3 t) (iblk11 V c 4 t) (iblk11 V c 5 t)) (upd_pay11 _ _ _ _ _ _) _ _ ?_ ?_
  ·
    show V c (Pipeline.arrRef spec11 0) (((cfg11.win 0).blk t).view.emb y) = V c (Pipeline.arrRef spec11 0) k
    refine congrArg (V c (Pipeline.arrRef spec11 0)) ?_
    funext a; apply Fin.ext
    match a with
    | ⟨0, _⟩ => show win11_0.index t (0 : Fin 2) * 5000 + 1 * (y 0).val = (k 0).val; omega
    | ⟨1, _⟩ => show win11_0.index t (1 : Fin 2) * 64 + 1 * (y 1).val = (k 1).val; omega
  ·
    show V c (Pipeline.arrRef spec11 1) (((cfg11.win 1).blk t).view.emb y) = V c (Pipeline.arrRef spec11 1) k
    refine congrArg (V c (Pipeline.arrRef spec11 1)) ?_
    funext a; apply Fin.ext
    match a with
    | ⟨0, _⟩ => show win11_1.index t (0 : Fin 2) * 5000 + 1 * (y 0).val = (k 0).val; omega
    | ⟨1, _⟩ => show win11_1.index t (1 : Fin 2) * 64 + 1 * (y 1).val = (k 1).val; omega
  ·
    show V c (Pipeline.arrRef spec11 2) (((cfg11.win 2).blk t).view.emb y) = V c (Pipeline.arrRef spec11 2) y
    refine congrArg (V c (Pipeline.arrRef spec11 2)) ?_
    funext a; apply Fin.ext
    match a with
    | ⟨0, _⟩ => show win11_2.index t (0 : Fin 2) * 64 + 1 * (y 0).val = (y 0).val; omega
    | ⟨1, _⟩ => show win11_2.index t (1 : Fin 2) * 64 + 1 * (y 1).val = (y 1).val; omega
  ·
    show V c (Pipeline.arrRef spec11 3) (((cfg11.win 3).blk t).view.emb y) = V c (Pipeline.arrRef spec11 3) y
    refine congrArg (V c (Pipeline.arrRef spec11 3)) ?_
    funext a; apply Fin.ext
    match a with
    | ⟨0, _⟩ => show win11_3.index t (0 : Fin 2) * 1 + 1 * (y 0).val = (y 0).val; omega
    | ⟨1, _⟩ => show win11_3.index t (1 : Fin 2) * 64 + 1 * (y 1).val = (y 1).val; omega
  ·
    show V c (Pipeline.arrRef spec11 4) (((cfg11.win 4).blk t).view.emb y) = V c (Pipeline.arrRef spec11 4) y
    refine congrArg (V c (Pipeline.arrRef spec11 4)) ?_
    funext a; apply Fin.ext
    match a with
    | ⟨0, _⟩ => show win11_4.index t (0 : Fin 2) * 64 + 1 * (y 0).val = (y 0).val; omega
    | ⟨1, _⟩ => show win11_4.index t (1 : Fin 2) * 64 + 1 * (y 1).val = (y 1).val; omega
  ·
    show V c (Pipeline.arrRef spec11 5) (((cfg11.win 5).blk t).view.emb y) = V c (Pipeline.arrRef spec11 5) y
    refine congrArg (V c (Pipeline.arrRef spec11 5)) ?_
    funext a; apply Fin.ext
    match a with
    | ⟨0, _⟩ => show win11_5.index t (0 : Fin 2) * 1 + 1 * (y 0).val = (y 0).val; omega
    | ⟨1, _⟩ => show win11_5.index t (1 : Fin 2) * 64 + 1 * (y 1).val = (y 1).val; omega
  · show win11_6.index t (0 : Fin 2) * 5000 + 1 * (j 0).val = t.val * 5000 + (j 0).val; omega
  · show win11_6.index t (1 : Fin 2) * 64 + 1 * (j 1).val = (j 1).val; omega

/-- An index of the array is in point t's block iff each coordinate is in the block's range on its axis. -/
theorem mem_blk11_6 (t : Fin cfg11.N) (i : S50000x64.Idx) :
    i ∈ ((cfg11.win 6).blk t).view.set ↔ ∀ a : Fin 2, win11_6.index t a * S5000x64.size a ≤ (i a).val ∧ (i a).val < win11_6.index t a * S5000x64.size a + S5000x64.size a := by
  show i ∈ ((View.whole main_v100).slice (win11_6.rect t)).set ↔ _
  rw [View.set_slice_whole, Rect.mem_set_unit]
  exact Iff.rfl

/-- Row r of the array is in the block of point r / 5000: the 10 blocks of 5000 rows tile the 50000 rows. -/
theorem cover11_6_all (i : S50000x64.Idx) :
    ∃ t : Fin cfg11.N, (cfg11.win 6).flush t = true ∧ i ∈ ((cfg11.win 6).blk t).view.set := by
  have hi0 : (i 0).val < 50000 := (i 0).isLt
  have hi1 : (i 1).val < 64 := (i 1).isLt
  have hN : cfg11.N = 10 := N_11
  obtain ⟨t, ht⟩ : ∃ t : Fin cfg11.N, t.val = (i 0).val / 5000 := ⟨⟨(i 0).val / 5000, by rw [hN]; omega⟩, rfl⟩
  obtain ⟨e00, e01, e10, e11, e20, e21, e30, e31, e40, e41, e50, e51, e60, e61⟩ := idx11 t
  refine ⟨t, flush11_6 t, ?_⟩
  rw [mem_blk11_6]
  intro a
  match a with
  | ⟨0, _⟩ => show win11_6.index t (0 : Fin 2) * 5000 ≤ (i 0).val ∧ (i 0).val < win11_6.index t (0 : Fin 2) * 5000 + 5000; omega
  | ⟨1, _⟩ => show win11_6.index t (1 : Fin 2) * 64 ≤ (i 1).val ∧ (i 1).val < win11_6.index t (1 : Fin 2) * 64 + 64; omega

/-- The output array after the region: the update function of the region's six operands. -/
theorem final11_6 (c : Dev nD) : (dat11 V c).arrAt 6 cfg11.N
      = Spec.updK (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) :=
  (dat11 V c).arrAt_eq_of_cover 6 _ (fun t _ => flushed11_6_eq V c t) cover11_6_all

end Cert.KernelSide

end
-- ==== Proof.KLevelRun.lean ====
/-
  Each result of the idealized kernel's run is the kernel's level function of that level's arguments.

  A result buffer is written once, by its level's update launch, and nothing later touches it.  The update
  launch's output is the update function of its operands; those are the scattered message sum (a stretch of host
  operations over the two message launches' outputs), the level's features, and the update weights and bias rows;
  each message launch's output is the message function of the gathered projection (host operations over a
  projection launch's output), the edge attributes, a half of the relation's weight and its bias row; and the
  projection launches' outputs are products of the features with the other halves.  Walking every operand back
  to the launch memory, through the segments that leave it alone, gives the level function of the arguments.
-/
import proofs.«121345_j4372276707359_2_alg».proof.Proof.Gen.KernelIdeal.Frame
import proofs.«121345_j4372276707359_2_alg».proof.Proof.FoldKeeps
import proofs.«121345_j4372276707359_2_alg».proof.Proof.KLevel
import proofs.«121345_j4372276707359_2_alg».proof.Proof.HostK
import proofs.«121345_j4372276707359_2_alg».proof.Proof.Regions0
import proofs.«121345_j4372276707359_2_alg».proof.Proof.Regions1
import proofs.«121345_j4372276707359_2_alg».proof.Proof.Regions2
import proofs.«121345_j4372276707359_2_alg».proof.Proof.Regions3
import proofs.«121345_j4372276707359_2_alg».proof.Proof.Regions4
import proofs.«121345_j4372276707359_2_alg».proof.Proof.Regions5
import proofs.«121345_j4372276707359_2_alg».proof.Proof.Regions6
import proofs.«121345_j4372276707359_2_alg».proof.Proof.Regions7
import proofs.«121345_j4372276707359_2_alg».proof.Proof.Regions8
import proofs.«121345_j4372276707359_2_alg».proof.Proof.Regions9
import proofs.«121345_j4372276707359_2_alg».proof.Proof.Regions10
import proofs.«121345_j4372276707359_2_alg».proof.Proof.Regions11

set_option maxRecDepth 16384

noncomputable section

namespace Cert.KernelIdeal.KLevelRun

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-! ## Level 0 -/

/-- The up projection of level 0 after its launch. -/
theorem W2_v8_0 (c : Dev nD) : W2 m ρ c (Proc.devRef .tc main_v8_0) = Spec.proj (W1 m ρ c (Proc.devRef .tc main_arg0)) (W1 m ρ c (Proc.devRef .tc main_v0)) :=
  (W2_arr m ρ c 3).trans (KernelSide.final0_3 (V1 m ρ) c)
/-- The down projection of level 0 after its launch. -/
theorem W2_v8_1 (c : Dev nD) : W2 m ρ c (Proc.devRef .tc main_v8_1) = Spec.proj (W1 m ρ c (Proc.devRef .tc main_arg0)) (W1 m ρ c (Proc.devRef .tc main_v2)) :=
  (W2_arr m ρ c 4).trans (KernelSide.final0_4 (V1 m ρ) c)
/-- The up messages of level 0 after their launch. -/
theorem W4_v18 (c : Dev nD) : W4 m ρ c (Proc.devRef .tc main_v18)
    = Spec.msgK (W3 m ρ c (Proc.devRef .tc main_v17)) (W3 m ρ c (Proc.devRef .tc main_arg3)) (W3 m ρ c (Proc.devRef .tc main_v1)) (W3 m ρ c (Proc.devRef .tc main_v4)) :=
  (W4_arr m ρ c 4).trans (KernelSide.final1_4 (V3 m ρ) c)
/-- The down messages of level 0 after their launch. -/
theorem W6_v28 (c : Dev nD) : W6 m ρ c (Proc.devRef .tc main_v28)
    = Spec.msgK (W5 m ρ c (Proc.devRef .tc main_v27)) (W5 m ρ c (Proc.devRef .tc main_arg4)) (W5 m ρ c (Proc.devRef .tc main_v3)) (W5 m ρ c (Proc.devRef .tc main_v5)) :=
  (W6_arr m ρ c 4).trans (KernelSide.final2_4 (V5 m ρ) c)
/-- The result of level 0 after the update launch. -/
theorem W8_v38 (c : Dev nD) : W8 m ρ c (Proc.devRef .tc main_v38)
    = Spec.updK (W7 m ρ c (Proc.devRef .tc main_v37)) (W7 m ρ c (Proc.devRef .tc main_arg0)) (W7 m ρ c (Proc.devRef .tc main_arg19)) (W7 m ρ c (Proc.devRef .tc main_v6))
        (W7 m ρ c (Proc.devRef .tc main_arg21)) (W7 m ρ c (Proc.devRef .tc main_v7)) :=
  (W8_arr m ρ c 6).trans (KernelSide.final3_6 (V7 m ρ) c)

/-- Level 0's result at the end of the run is the kernel's level function of the arguments. -/
theorem result0 (c : Dev nD) : W22 m ρ c (Proc.devRef .tc main_v38)
    = KLevel.levelK (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg15)) (m ((c : Thread nD τ).loc main_arg16))
        (m ((c : Thread nD τ).loc main_arg17)) (m ((c : Thread nD τ).loc main_arg18))
        (m ((c : Thread nD τ).loc main_arg19)) (m ((c : Thread nD τ).loc main_arg20))
        (m ((c : Thread nD τ).loc main_arg21)) (m ((c : Thread nD τ).loc main_arg22)) := by
  rw [Fold.keep_v38_22_8 m ρ c, W8_v38, HostK.W7_v37, W6_v28, Fold.keep_v18_6_4 m ρ c, W4_v18,
    HostK.W5_v27, Fold.keep_v8_1_4_2 m ρ c, W2_v8_1, HostK.W3_v17, W2_v8_0,
    Fold.keep_arg0_7_0 m ρ c, Fold.keep_arg19_7_0 m ρ c, Fold.keep_v6_7_1 m ρ c, Fold.keep_arg21_7_0 m ρ c, Fold.keep_v7_7_1 m ρ c,
    Fold.keep_arg1_6_0 m ρ c, Fold.keep_arg2_6_0 m ρ c, Fold.keep_arg4_5_0 m ρ c, Fold.keep_v3_5_1 m ρ c, Fold.keep_v5_5_1 m ρ c,
    Fold.keep_arg2_4_0 m ρ c, Fold.keep_arg3_3_0 m ρ c, Fold.keep_v1_3_1 m ρ c, Fold.keep_v4_3_1 m ρ c, Fold.keep_arg1_2_0 m ρ c,
    Fold.keep_arg0_1_0 m ρ c,
    HostK.W1_v0, HostK.W1_v1, HostK.W1_v2, HostK.W1_v3, HostK.W1_v4, HostK.W1_v5, HostK.W1_v6, HostK.W1_v7]
  rfl

/-! ## Level 1 -/

/-- The up projection of level 1 after its launch. -/
theorem W9_v39_0 (c : Dev nD) : W9 m ρ c (Proc.devRef .tc main_v39_0) = Spec.proj (W8 m ρ c (Proc.devRef .tc main_arg5)) (W8 m ρ c (Proc.devRef .tc main_v0)) :=
  (W9_arr m ρ c 3).trans (KernelSide.final4_3 (V8 m ρ) c)
/-- The down projection of level 1 after its launch. -/
theorem W9_v39_1 (c : Dev nD) : W9 m ρ c (Proc.devRef .tc main_v39_1) = Spec.proj (W8 m ρ c (Proc.devRef .tc main_arg5)) (W8 m ρ c (Proc.devRef .tc main_v2)) :=
  (W9_arr m ρ c 4).trans (KernelSide.final4_4 (V8 m ρ) c)
/-- The up messages of level 1 after their launch. -/
theorem W11_v49 (c : Dev nD) : W11 m ρ c (Proc.devRef .tc main_v49)
    = Spec.msgK (W10 m ρ c (Proc.devRef .tc main_v48)) (W10 m ρ c (Proc.devRef .tc main_arg8)) (W10 m ρ c (Proc.devRef .tc main_v1)) (W10 m ρ c (Proc.devRef .tc main_v4)) :=
  (W11_arr m ρ c 4).trans (KernelSide.final5_4 (V10 m ρ) c)
/-- The down messages of level 1 after their launch. -/
theorem W13_v59 (c : Dev nD) : W13 m ρ c (Proc.devRef .tc main_v59)
    = Spec.msgK (W12 m ρ c (Proc.devRef .tc main_v58)) (W12 m ρ c (Proc.devRef .tc main_arg9)) (W12 m ρ c (Proc.devRef .tc main_v3)) (W12 m ρ c (Proc.devRef .tc main_v5)) :=
  (W13_arr m ρ c 4).trans (KernelSide.final6_4 (V12 m ρ) c)
/-- The result of level 1 after the update launch. -/
theorem W15_v69 (c : Dev nD) : W15 m ρ c (Proc.devRef .tc main_v69)
    = Spec.updK (W14 m ρ c (Proc.devRef .tc main_v68)) (W14 m ρ c (Proc.devRef .tc main_arg5)) (W14 m ρ c (Proc.devRef .tc main_arg19)) (W14 m ρ c (Proc.devRef .tc main_v6))
        (W14 m ρ c (Proc.devRef .tc main_arg21)) (W14 m ρ c (Proc.devRef .tc main_v7)) :=
  (W15_arr m ρ c 6).trans (KernelSide.final7_6 (V14 m ρ) c)

/-- Level 1's result at the end of the run is the kernel's level function of the arguments. -/
theorem result1 (c : Dev nD) : W22 m ρ c (Proc.devRef .tc main_v69)
    = KLevel.levelK (m ((c : Thread nD τ).loc main_arg5)) (m ((c : Thread nD τ).loc main_arg6)) (m ((c : Thread nD τ).loc main_arg7))
        (m ((c : Thread nD τ).loc main_arg8)) (m ((c : Thread nD τ).loc main_arg9))
        (m ((c : Thread nD τ).loc main_arg15)) (m ((c : Thread nD τ).loc main_arg16))
        (m ((c : Thread nD τ).loc main_arg17)) (m ((c : Thread nD τ).loc main_arg18))
        (m ((c : Thread nD τ).loc main_arg19)) (m ((c : Thread nD τ).loc main_arg20))
        (m ((c : Thread nD τ).loc main_arg21)) (m ((c : Thread nD τ).loc main_arg22)) := by
  rw [Fold.keep_v69_22_15 m ρ c, W15_v69, HostK.W14_v68, W13_v59, Fold.keep_v49_13_11 m ρ c, W11_v49,
    HostK.W12_v58, Fold.keep_v39_1_11_9 m ρ c, W9_v39_1, HostK.W10_v48, W9_v39_0,
    Fold.keep_arg5_14_0 m ρ c, Fold.keep_arg19_14_0 m ρ c, Fold.keep_v6_14_1 m ρ c, Fold.keep_arg21_14_0 m ρ c, Fold.keep_v7_14_1 m ρ c,
    Fold.keep_arg6_13_0 m ρ c, Fold.keep_arg7_13_0 m ρ c, Fold.keep_arg9_12_0 m ρ c, Fold.keep_v3_12_1 m ρ c, Fold.keep_v5_12_1 m ρ c,
    Fold.keep_arg7_11_0 m ρ c, Fold.keep_arg8_10_0 m ρ c, Fold.keep_v1_10_1 m ρ c, Fold.keep_v4_10_1 m ρ c, Fold.keep_arg6_9_0 m ρ c,
    Fold.keep_arg5_8_0 m ρ c, Fold.keep_v0_8_1 m ρ c, Fold.keep_v2_8_1 m ρ c,
    HostK.W1_v0, HostK.W1_v1, HostK.W1_v2, HostK.W1_v3, HostK.W1_v4, HostK.W1_v5, HostK.W1_v6, HostK.W1_v7]
  rfl

/-! ## Level 2 -/

/-- The up projection of level 2 after its launch. -/
theorem W16_v70_0 (c : Dev nD) : W16 m ρ c (Proc.devRef .tc main_v70_0) = Spec.proj (W15 m ρ c (Proc.devRef .tc main_arg10)) (W15 m ρ c (Proc.devRef .tc main_v0)) :=
  (W16_arr m ρ c 3).trans (KernelSide.final8_3 (V15 m ρ) c)
/-- The down projection of level 2 after its launch. -/
theorem W16_v70_1 (c : Dev nD) : W16 m ρ c (Proc.devRef .tc main_v70_1) = Spec.proj (W15 m ρ c (Proc.devRef .tc main_arg10)) (W15 m ρ c (Proc.devRef .tc main_v2)) :=
  (W16_arr m ρ c 4).trans (KernelSide.final8_4 (V15 m ρ) c)
/-- The up messages of level 2 after their launch. -/
theorem W18_v80 (c : Dev nD) : W18 m ρ c (Proc.devRef .tc main_v80)
    = Spec.msgK (W17 m ρ c (Proc.devRef .tc main_v79)) (W17 m ρ c (Proc.devRef .tc main_arg13)) (W17 m ρ c (Proc.devRef .tc main_v1)) (W17 m ρ c (Proc.devRef .tc main_v4)) :=
  (W18_arr m ρ c 4).trans (KernelSide.final9_4 (V17 m ρ) c)
/-- The down messages of level 2 after their launch. -/
theorem W20_v90 (c : Dev nD) : W20 m ρ c (Proc.devRef .tc main_v90)
    = Spec.msgK (W19 m ρ c (Proc.devRef .tc main_v89)) (W19 m ρ c (Proc.devRef .tc main_arg14)) (W19 m ρ c (Proc.devRef .tc main_v3)) (W19 m ρ c (Proc.devRef .tc main_v5)) :=
  (W20_arr m ρ c 4).trans (KernelSide.final10_4 (V19 m ρ) c)
/-- The result of level 2 after the update launch. -/
theorem W22_v100 (c : Dev nD) : W22 m ρ c (Proc.devRef .tc main_v100)
    = Spec.updK (W21 m ρ c (Proc.devRef .tc main_v99)) (W21 m ρ c (Proc.devRef .tc main_arg10)) (W21 m ρ c (Proc.devRef .tc main_arg19)) (W21 m ρ c (Proc.devRef .tc main_v6))
        (W21 m ρ c (Proc.devRef .tc main_arg21)) (W21 m ρ c (Proc.devRef .tc main_v7)) :=
  (W22_arr m ρ c 6).trans (KernelSide.final11_6 (V21 m ρ) c)

/-- Level 2's result at the end of the run is the kernel's level function of the arguments. -/
theorem result2 (c : Dev nD) : W22 m ρ c (Proc.devRef .tc main_v100)
    = KLevel.levelK (m ((c : Thread nD τ).loc main_arg10)) (m ((c : Thread nD τ).loc main_arg11)) (m ((c : Thread nD τ).loc main_arg12))
        (m ((c : Thread nD τ).loc main_arg13)) (m ((c : Thread nD τ).loc main_arg14))
        (m ((c : Thread nD τ).loc main_arg15)) (m ((c : Thread nD τ).loc main_arg16))
        (m ((c : Thread nD τ).loc main_arg17)) (m ((c : Thread nD τ).loc main_arg18))
        (m ((c : Thread nD τ).loc main_arg19)) (m ((c : Thread nD τ).loc main_arg20))
        (m ((c : Thread nD τ).loc main_arg21)) (m ((c : Thread nD τ).loc main_arg22)) := by
  rw [W22_v100, HostK.W21_v99, W20_v90, Fold.keep_v80_20_18 m ρ c, W18_v80,
    HostK.W19_v89, Fold.keep_v70_1_18_16 m ρ c, W16_v70_1, HostK.W17_v79, W16_v70_0,
    Fold.keep_arg10_21_0 m ρ c, Fold.keep_arg19_21_0 m ρ c, Fold.keep_v6_21_1 m ρ c, Fold.keep_arg21_21_0 m ρ c, Fold.keep_v7_21_1 m ρ c,
    Fold.keep_arg11_20_0 m ρ c, Fold.keep_arg12_20_0 m ρ c, Fold.keep_arg14_19_0 m ρ c, Fold.keep_v3_19_1 m ρ c, Fold.keep_v5_19_1 m ρ c,
    Fold.keep_arg12_18_0 m ρ c, Fold.keep_arg13_17_0 m ρ c, Fold.keep_v1_17_1 m ρ c, Fold.keep_v4_17_1 m ρ c, Fold.keep_arg11_16_0 m ρ c,
    Fold.keep_arg10_15_0 m ρ c, Fold.keep_v0_15_1 m ρ c, Fold.keep_v2_15_1 m ρ c,
    HostK.W1_v0, HostK.W1_v1, HostK.W1_v2, HostK.W1_v3, HostK.W1_v4, HostK.W1_v5, HostK.W1_v6, HostK.W1_v7]
  rfl

end Cert.KernelIdeal.KLevelRun

end
-- ==== Proof.RefLevel.lean ====
/-
  The reference program's three results, entry by entry, as the level function of the specification.

  One level of the reference is 54 host operations.  Read at an entry they are: the start-index column of a
  relation (the second row of its 2×E index array, a negative word moved up by 50000), a gather of whole rows
  of x at those starts, the gathered rows joined lane-wise with the edge attributes and contracted over the 128
  joined lanes with the stacked weight (the contraction splits into the gathered part against the weight's first
  64 rows plus the attribute part against its last 64 rows), the bias added, the maximum with the zero word,
  an accumulating scatter of the message rows into the zero array by the first row of the index array (entry
  (k, j) is zero plus the sum of the messages (e, j) over the edges e whose target word is k), the two
  relations' sums added to 2·x, and two dense layers.  The three levels are the same operations over different
  arguments, so levels 1 and 2 are level 0's statement at other arrays.
-/
import proofs.«121345_j4372276707359_2_alg».proof.Proof.Gen.ReferenceIdeal.Read
import proofs.«121345_j4372276707359_2_alg».proof.Proof.Spec
import proofs.«121345_j4372276707359_2_alg».proof.Proof.IdxForms
import proofs.«121345_j4372276707359_2_alg».proof.Proof.LibGather
import proofs.«121345_j4372276707359_2_alg».proof.Proof.LibScatterIdeal
import proofs.«121345_j4372276707359_2_alg».proof.Proof.LibScatterRows
import proofs.«121345_j4372276707359_2_alg».proof.Proof.LibConcatLanes

noncomputable section

open scoped BigOperators

namespace Cert.RefSide

open Cert.ReferenceIdeal Cert.ReferenceIdeal.Gen Cert.ReferenceIdeal.Read Idealize.ShloMosaic Idealize.ShloMosaic.ValueIdx

/-- Node features. -/
abbrev XT := (⟨S50000x64, .f32⟩ : BufTy).Contents (Elt Ideal)
/-- A relation's 2×E index array: row 0 the targets, row 1 the sources. -/
abbrev IT := (⟨S2x300000, .i32⟩ : BufTy).Contents (Elt Ideal)
/-- Edge attributes. -/
abbrev AT := (⟨S300000x64, .f32⟩ : BufTy).Contents (Elt Ideal)
/-- A stacked 128×64 weight. -/
abbrev WT := (⟨S128x64, .f32⟩ : BufTy).Contents (Elt Ideal)
/-- A bias vector. -/
abbrev BT := (⟨S64, .f32⟩ : BufTy).Contents (Elt Ideal)
/-- A 64×64 weight. -/
abbrev DT := (⟨S64x64, .f32⟩ : BufTy).Contents (Elt Ideal)

/-! ## The two index columns of a relation -/

/-- The start-index column of a relation, built from the index array by the programs' own operations: row 1 as a
    vector, a negative word moved up by 50000, laid out as a one-lane column. -/
abbrev srcCol (ix : IT) : IVec ⟨2, ![300000, 1]⟩ 32 :=
  IdxForms.srcCol slices_S2x300000_S1x300000_1_0 shapeCasts_S1x300000_S300000 bcast_S_S300000 bcast_S300000_S300000x1_0
    50000#32 ix

/-- The target vector of a relation: row 0 of the index array as a vector. -/
abbrev tgtVec (ix : IT) : IVec ⟨1, ![300000]⟩ 32 :=
  IdxForms.tgtVec slices_S2x300000_S1x300000_0_0 shapeCasts_S1x300000_S300000 ix

/-- The reference's start-index column is that array. -/
theorem srcCol_eq (x1 : IT) : val_main_v7 (F := Ideal) x1 = srcCol x1 := rfl

/-- The reference's target vector is that array. -/
theorem tgtVec_eq (x1 : IT) : val_main_v16 (F := Ideal) x1 = tgtVec x1 := rfl

/-- The scatter's index column at edge e is the target vector at e. -/
theorem tgtCol_apply (x1 : IT) (e : Fin 300000) (z : Fin 1) :
    val_main_v18 (F := Ideal) x1 (ix2 e z) = val_main_v16 (F := Ideal) x1 (ix1 e) := by
  rw [val_main_v18_apply]
  exact congrArg _ (funext fun a => by match a with | ⟨0, _⟩ => rfl)

/-! ## A relation's messages -/

/-- The gathered rows at (e, c): x at the source row of edge e. -/
theorem gather_apply (x0 : XT) (x1 : IT) (e : Fin 300000) (c : Fin 64) :
    val_main_v8 (F := Ideal) x0 x1 (ix2 e c)
      = x0 (ix2 (Spec.rowOf (N := 50000) (E := 300000) (by decide) (val_main_v7 (F := Ideal) x1) e) c) := by
  unfold val_main_v8
  exact LibGather.gather_rows_apply (N := 300000) (K := 50000) (C := 64) (w := 32)
    gather_S50000x64_S300000x1_S300000x64_1_0_n_n_0_1_164 rfl rfl rfl rfl rfl rfl rfl (by decide) x0
    (val_main_v7 (F := Ideal) x1) e c

/-- The contraction over the 128 joined lanes, split into the gathered and the attribute part. -/
theorem dotMsg_apply (x0 : XT) (x1 : IT) (x3 : AT) (x15 : WT) (e : Fin 300000) (j : Fin 64) :
    val_main_v10 (F := Ideal) x0 x1 x3 x15 (ix2 e j)
      = (∑ c : Fin 64, x0 (ix2 (Spec.rowOf (N := 50000) (E := 300000) (by decide) (val_main_v7 (F := Ideal) x1) e) c)
            * x15 (ix2 (Fin.castAdd 64 c) j))
        + ∑ c : Fin 64, x3 (ix2 e c) * x15 (ix2 (Fin.natAdd 64 c) j) := by
  rw [val_main_v10_apply]
  have el : ∀ k : Fin 128, lidx_main_v10 (ix2 e j) k = ix2 e k := fun k => funext fun a => by
    match a with
    | ⟨0, _⟩ => rfl
    | ⟨1, _⟩ => rfl
  have er : ∀ k : Fin 128, ridx_main_v10 (ix2 e j) k = ix2 k j := fun k => funext fun a => by
    match a with
    | ⟨0, _⟩ => rfl
    | ⟨1, _⟩ => rfl
  simp only [el, er]
  unfold val_main_v9
  refine (ConcatLanes.sum_concat (R := 300000) (a := 64) (b := 64) (h := 64) (val_main_v8 (F := Ideal) x0 x1) x3
    concatenates_S300000x64_S300000x64_S300000x128_d1 x15 e j).trans ?_
  congr 1
  exact Finset.sum_congr rfl fun c _ => by rw [gather_apply]

/-- A message at (e, j). -/
theorem msg_apply (x0 : XT) (x1 : IT) (x3 : AT) (x15 : WT) (x16 : BT) (e : Fin 300000) (j : Fin 64) :
    val_main_v14 (F := Ideal) x0 x1 x3 x15 x16 (ix2 e j)
      = Spec.msgAt (N := 50000) (E := 300000) (by decide) x0 (val_main_v7 (F := Ideal) x1) x3 x15 x16 e j := by
  rw [val_main_v14_apply, val_main_v13_apply, dotMsg_apply, val_main_v12_apply, val_main_v11_apply,
    val_main_call0_v0_apply, val_main_call0_cst_apply]
  have eb : idx_main_v11 (idx_main_v12 (ix2 e j)) = ix1 j := funext fun a => by
    match a with
    | ⟨0, _⟩ => rfl
  rw [eb]
  rfl

/-! ## The messages summed by target -/

/-- The accumulating scatter into the zero array at (k, j): the sum of the messages of the edges whose target is k. -/
theorem seg_apply (x0 : XT) (x1 : IT) (x3 : AT) (x15 : WT) (x16 : BT) (k : Fin 50000) (j : Fin 64) :
    val_main_v19 (F := Ideal) x0 x1 x3 x15 x16 (ix2 k j)
      = Spec.segAt (N := 50000) (E := 300000)
          (Spec.msg (N := 50000) (E := 300000) (by decide) x0 (val_main_v7 (F := Ideal) x1) x3 x15 x16)
          (val_main_v16 (F := Ideal) x1) k j := by
  unfold val_main_v19
  rw [LibScatter.scatterAdd_ideal]
  rw [LibScatter.hostScatterAdd_rows_apply (N := 300000) (K := 50000) (C := 64) (w := 32)
    scatter_S50000x64_S300000x1_S300000x64_1_0_0_1 rfl rfl rfl rfl]
  rw [val_main_v17_apply, val_main_cst_apply, Ideal.ofBits_def, Ideal.ofBits_zero_f32, zero_add]
  unfold Spec.segAt
  refine Finset.sum_congr rfl fun n _ => ?_
  rw [tgtCol_apply, msg_apply]
  rfl

/-! ## The update -/

/-- The two relations' sums plus twice the features, as an array.  The "down" relation's operations are the "up"
    relation's at the other index array, attributes, weight and bias. -/
theorem resid_eq (x0 : XT) (x1 x2 : IT) (x3 x4 : AT) (x15 : WT) (x16 : BT) (x17 : WT) (x18 : BT) :
    val_main_v43 (F := Ideal) x0 x1 x2 x3 x4 x15 x16 x17 x18
      = Spec.resid (N := 50000)
          (Spec.agg (N := 50000) (E := 300000)
            (Spec.msg (N := 50000) (E := 300000) (by decide) x0 (val_main_v7 (F := Ideal) x1) x3 x15 x16)
            (Spec.msg (N := 50000) (E := 300000) (by decide) x0 (val_main_v7 (F := Ideal) x2) x4 x17 x18)
            (val_main_v16 (F := Ideal) x1) (val_main_v16 (F := Ideal) x2)) x0 := by
  funext i
  obtain ⟨k, j, rfl⟩ : ∃ (k : Fin 50000) (j : Fin 64), i = ix2 k j := ⟨i 0, i 1, eq_ix2 i⟩
  rw [val_main_v43_apply, val_main_v40_apply, val_main_v42_apply, val_main_v41_apply, val_main_cst_4_apply, seg_apply,
    show val_main_v39 (F := Ideal) x0 x2 x4 x17 x18 = val_main_v19 (F := Ideal) x0 x2 x4 x17 x18 from rfl, seg_apply]
  rfl

/-- The first dense layer, as an array. -/
theorem dense1_eq (x0 : XT) (x1 x2 : IT) (x3 x4 : AT) (x15 : WT) (x16 : BT) (x17 : WT) (x18 : BT) (x19 : DT) (x20 : BT) :
    val_main_v48 (F := Ideal) x0 x1 x2 x3 x4 x15 x16 x17 x18 x19 x20
      = Spec.dense (N := 50000) (val_main_v43 (F := Ideal) x0 x1 x2 x3 x4 x15 x16 x17 x18) x19 (Spec.rowOfVec x20) := by
  funext i
  obtain ⟨k, j, rfl⟩ : ∃ (k : Fin 50000) (j : Fin 64), i = ix2 k j := ⟨i 0, i 1, eq_ix2 i⟩
  rw [val_main_v48_apply, val_main_v47_apply, val_main_v44_apply, val_main_v46_apply, val_main_v45_apply,
    val_main_call2_v0_apply, val_main_call2_cst_apply]
  have el : ∀ c : Fin 64, lidx_main_v44 (ix2 k j) c = ix2 k c := fun c => funext fun a => by
    match a with
    | ⟨0, _⟩ => rfl
    | ⟨1, _⟩ => rfl
  have er : ∀ c : Fin 64, ridx_main_v44 (ix2 k j) c = ix2 c j := fun c => funext fun a => by
    match a with
    | ⟨0, _⟩ => rfl
    | ⟨1, _⟩ => rfl
  have eb : idx_main_v45 (idx_main_v46 (ix2 k j)) = ix1 j := funext fun a => by
    match a with
    | ⟨0, _⟩ => rfl
  simp only [el, er, eb]
  generalize val_main_v43 (F := Ideal) x0 x1 x2 x3 x4 x15 x16 x17 x18 = h
  rfl

/-- The second dense layer, as an array. -/
theorem dense2_eq (x0 : XT) (x1 x2 : IT) (x3 x4 : AT) (x15 : WT) (x16 : BT) (x17 : WT) (x18 : BT) (x19 : DT) (x20 : BT)
    (x21 : DT) (x22 : BT) :
    val_main_v53 (F := Ideal) x0 x1 x2 x3 x4 x15 x16 x17 x18 x19 x20 x21 x22
      = Spec.dense (N := 50000) (val_main_v48 (F := Ideal) x0 x1 x2 x3 x4 x15 x16 x17 x18 x19 x20) x21 (Spec.rowOfVec x22) := by
  funext i
  obtain ⟨k, j, rfl⟩ : ∃ (k : Fin 50000) (j : Fin 64), i = ix2 k j := ⟨i 0, i 1, eq_ix2 i⟩
  rw [val_main_v53_apply, val_main_v52_apply, val_main_v49_apply, val_main_v51_apply, val_main_v50_apply,
    val_main_call3_v0_apply, val_main_call3_cst_apply]
  have el : ∀ c : Fin 64, lidx_main_v49 (ix2 k j) c = ix2 k c := fun c => funext fun a => by
    match a with
    | ⟨0, _⟩ => rfl
    | ⟨1, _⟩ => rfl
  have er : ∀ c : Fin 64, ridx_main_v49 (ix2 k j) c = ix2 c j := fun c => funext fun a => by
    match a with
    | ⟨0, _⟩ => rfl
    | ⟨1, _⟩ => rfl
  have eb : idx_main_v50 (idx_main_v51 (ix2 k j)) = ix1 j := funext fun a => by
    match a with
    | ⟨0, _⟩ => rfl
  simp only [el, er, eb]
  generalize val_main_v48 (F := Ideal) x0 x1 x2 x3 x4 x15 x16 x17 x18 x19 x20 = h
  rfl

/-! ## One level, and the three results -/

/-- The level function at a level's arguments: the start-index columns and target vectors are those of the two
    index arrays. -/
abbrev levelOf (x : XT) (iu id : IT) (au ad : AT) (Wu : WT) (bu : BT) (Wd : WT) (bd : BT) (W1 : DT) (b1 : BT) (W2 : DT)
    (b2 : BT) : Spec.Mat 50000 64 :=
  Spec.level (N := 50000) (E := 300000) (by decide) x (srcCol iu) (srcCol id) (tgtVec iu) (tgtVec id) au ad Wu bu Wd bd
    W1 b1 W2 b2

/-- Level 0's 54 operations compute the level function of their arguments. -/
theorem level0 (x0 : XT) (x1 x2 : IT) (x3 x4 : AT) (x15 : WT) (x16 : BT) (x17 : WT) (x18 : BT) (x19 : DT) (x20 : BT)
    (x21 : DT) (x22 : BT) :
    val_main_v53 (F := Ideal) x0 x1 x2 x3 x4 x15 x16 x17 x18 x19 x20 x21 x22
      = levelOf x0 x1 x2 x3 x4 x15 x16 x17 x18 x19 x20 x21 x22 := by
  rw [dense2_eq, dense1_eq, resid_eq, srcCol_eq, srcCol_eq, tgtVec_eq, tgtVec_eq]
  rfl

/-- Level 1 is level 0's operations at the second group of arguments. -/
theorem level1 (x5 : XT) (x6 x7 : IT) (x8 x9 : AT) (x15 : WT) (x16 : BT) (x17 : WT) (x18 : BT) (x19 : DT) (x20 : BT)
    (x21 : DT) (x22 : BT) :
    val_main_v107 (F := Ideal) x5 x6 x7 x8 x9 x15 x16 x17 x18 x19 x20 x21 x22
      = levelOf x5 x6 x7 x8 x9 x15 x16 x17 x18 x19 x20 x21 x22 :=
  (show val_main_v107 (F := Ideal) x5 x6 x7 x8 x9 x15 x16 x17 x18 x19 x20 x21 x22
      = val_main_v53 (F := Ideal) x5 x6 x7 x8 x9 x15 x16 x17 x18 x19 x20 x21 x22 from rfl).trans
    (level0 x5 x6 x7 x8 x9 x15 x16 x17 x18 x19 x20 x21 x22)

/-- Level 2 is level 0's operations at the third group of arguments. -/
theorem level2 (x10 : XT) (x11 x12 : IT) (x13 x14 : AT) (x15 : WT) (x16 : BT) (x17 : WT) (x18 : BT) (x19 : DT) (x20 : BT)
    (x21 : DT) (x22 : BT) :
    val_main_v161 (F := Ideal) x10 x11 x12 x13 x14 x15 x16 x17 x18 x19 x20 x21 x22
      = levelOf x10 x11 x12 x13 x14 x15 x16 x17 x18 x19 x20 x21 x22 :=
  (show val_main_v161 (F := Ideal) x10 x11 x12 x13 x14 x15 x16 x17 x18 x19 x20 x21 x22
      = val_main_v53 (F := Ideal) x10 x11 x12 x13 x14 x15 x16 x17 x18 x19 x20 x21 x22 from rfl).trans
    (level0 x10 x11 x12 x13 x14 x15 x16 x17 x18 x19 x20 x21 x22)

/-! ## The run's three results -/

section Results

open Idealize.ShloMosaic.TcCoe Idealize.SL.Sem Idealize.ShloMosaic.StableHlo

variable (m : (ℓ : Loc nD τ sig) → Buf (Elt Ideal) ℓ) (c : Dev nD)

/-- The first result of the run is the level function of the first group of arguments. -/
theorem res0 :
    Cert.ReferenceIdeal.Value.res_main_v53 (F := Ideal) m c
      = levelOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (val_main_v53_eq (F := Ideal) m c).trans (level0 _ _ _ _ _ _ _ _ _ _ _ _ _)

/-- The second result of the run is the level function of the second group of arguments. -/
theorem res1 :
    Cert.ReferenceIdeal.Value.res_main_v107 (F := Ideal) m c
      = levelOf (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (val_main_v107_eq (F := Ideal) m c).trans (level1 _ _ _ _ _ _ _ _ _ _ _ _ _)

/-- The third result of the run is the level function of the third group of arguments. -/
theorem res2 :
    Cert.ReferenceIdeal.Value.res_main_v161 (F := Ideal) m c
      = levelOf (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (val_main_v161_eq (F := Ideal) m c).trans (level2 _ _ _ _ _ _ _ _ _ _ _ _ _)

end Results

end Cert.RefSide

end
-- ==== Proof.lean ====
/-
  The certificate of the simplicial message-passing kernel against its reference, three levels.

  Per level and relation the kernel projects the node features through the first 64 rows of the relation's
  128×64 weight once per node, gathers the projected rows by source, and adds to them the edge attributes times
  the last 64 rows and the bias before clamping at zero; the reference gathers the features, joins them with the
  attributes along the lanes and multiplies by the whole weight.  Over the extended reals the contraction over
  the 128 joined lanes is the sum of its two halves, and a gathered row of a product is the product of the
  gathered row, so the messages agree entry by entry (the two halves are added in the other order).  The kernel
  sums the stacked messages of both relations by target in one pass, the reference sums each relation and adds:
  a finite sum over the stacked rows splits at the seam.  The update (two dense layers on the sum plus twice the
  features) is the same function on both sides.  No finiteness of the inputs is used.

  The three frames: the two kernel programs' are the generated frame certificates; the reference's is its
  generated run with the results dropped.  The idealization's ledger is empty.  The values: the kernel's results
  are read off the run of its segments (KRun, KLevelRun over the regions' closed forms and the host stretches),
  the reference's off its generated run (RefLevel), and both are the specification's level of the arguments.
-/
import proofs.«121345_j4372276707359_2_alg».proof.Defs
import proofs.«121345_j4372276707359_2_alg».proof.Proof.Gen.Kernel
import proofs.«121345_j4372276707359_2_alg».proof.Proof.Gen.Kernel.Skeleton
import proofs.«121345_j4372276707359_2_alg».proof.Proof.Gen.Kernel.Launch
import proofs.«121345_j4372276707359_2_alg».proof.Proof.Gen.Kernel.Points
import proofs.«121345_j4372276707359_2_alg».proof.Proof.Gen.Kernel.Frame
import proofs.«121345_j4372276707359_2_alg».proof.Proof.Gen.KernelIdeal
import proofs.«121345_j4372276707359_2_alg».proof.Proof.Gen.KernelIdeal.Skeleton
import proofs.«121345_j4372276707359_2_alg».proof.Proof.Gen.KernelIdeal.Launch
import proofs.«121345_j4372276707359_2_alg».proof.Proof.Gen.KernelIdeal.Points
import proofs.«121345_j4372276707359_2_alg».proof.Proof.Gen.KernelIdeal.Frame
import proofs.«121345_j4372276707359_2_alg».proof.Proof.Gen.ReferenceIdeal
import proofs.«121345_j4372276707359_2_alg».proof.Proof.Gen.ReferenceIdeal.Run
import proofs.«121345_j4372276707359_2_alg».proof.Proof.Gen.ReferenceIdeal.Read
import proofs.«121345_j4372276707359_2_alg».proof.Proof.Gen.Pre_finite_inputs
import proofs.«121345_j4372276707359_2_alg».proof.Proof.KRun
import proofs.«121345_j4372276707359_2_alg».proof.Proof.KLevelRun
import proofs.«121345_j4372276707359_2_alg».proof.Proof.RefLevel
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the arguments both idealized programs end with each level's result at the
    specification's level of that level's arguments. -/
theorem algebraic : Cert.algebraic_KernelIdeal_ReferenceIdeal := by
  intro m ρ m' ρ' _ hagree
  refine ⟨_, _, _, Cert.KernelIdeal.Results.run_results (F := Ideal) m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  all_goals obtain ⟨h0, h1, h2, h3, h4, h5, h6, h7, h8, h9, h10, h11, h12, h13, h14, h15, h16, h17, h18, h19, h20, h21, h22⟩ := hagree c
  · rw [Cert.RefSide.res0 m' c, Cert.KernelIdeal.KLevelRun.result0 m ρ c, Cert.KernelIdeal.KLevel.levelK_eq,
      h0, h1, h2, h3, h4, h15, h16, h17, h18, h19, h20, h21, h22]
    rfl
  · rw [Cert.RefSide.res1 m' c, Cert.KernelIdeal.KLevelRun.result1 m ρ c, Cert.KernelIdeal.KLevel.levelK_eq,
      h5, h6, h7, h8, h9, h15, h16, h17, h18, h19, h20, h21, h22]
    rfl
  · rw [Cert.RefSide.res2 m' c, Cert.KernelIdeal.KLevelRun.result2 m ρ c, Cert.KernelIdeal.KLevel.levelK_eq,
      h10, h11, h12, h13, h14, h15, h16, h17, h18, h19, h20, h21, h22]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
